-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v240)) (v1 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_v245) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x11 : Shape := ⟨2, ![50000, 11]⟩
abbrev S4x11x64 : Shape := ⟨3, ![4, 11, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S50000x11 : S_.BroadcastsInDim S50000x11 (![] : Fin 0 → Fin S50000x11.rank)
  reducesTo_S50000x11_S_d0_1 : S50000x11.ReducesTo [0, 1] S_
  h_S_ : 0 < S_.numel
  bcast_S_S4x11x64 : S_.BroadcastsInDim S4x11x64 (![] : Fin 0 → Fin S4x11x64.rank)
  reducesTo_S4x11x64_S_d0_1_2 : S4x11x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S4x64x64 .f32) (main_arg8 : FVec F S64x1 .f32) (main_arg9 : FVec F S1 .f32) (main_arg10 : FVec F S64x1 .f32) (main_arg11 : FVec F S1 .f32) (main_v33 : IVec S_ 1) : IVec S_ 1 :=
  let main_v34 : FVec F S4x64x64 .f32 := Host.absf main_arg7
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S4x11x64 .f32) (main_arg5 : FVec F S4x64x64 .f32) (main_arg6 : FVec F S4x64 .f32) (main_arg7 : FVec F S4x64x64 .f32) (main_arg8 : FVec F S64x1 .f32) (main_arg9 : FVec F S1 .f32) (main_arg10 : FVec F S64x1 .f32) (main_arg11 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x11x64 .f32 := Host.absf main_arg4
  let main_cst_6 : FVec F S_ .f32 := constant S_ .f32 0x7F800000#32
  let main_v20 : FVec F S4x11x64 .f32 := broadcastInDim S4x11x64 ![] bcast_S_S4x11x64 main_cst_6
  let main_v21 : IVec S4x11x64 1 := cmpf .olt main_v19 main_v20
  let main_c_7 : IVec S_ 1 := constantI S_ 1 1#1
  let main_v22 : IVec S_ 1 := (fun x v => Host.reduce IntOp.andi x v reducesTo_S4x11x64_S_d0_1_2 h_S_) main_v21 main_c_7
  let main_v23 : IVec S_ 1 := andi main_v18 main_v22
  let main_v24 : FVec F S4x64x64 .f32 := Host.absf main_arg5
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x11 .f32) (main_arg1 : FVec F S50000x11 .f32) (main_arg2 : FVec F S4x11x64 .f32) (main_arg3 : FVec F S4x64 .f32) (main_arg4 : FVec F S4x11x64 .f32) (main_arg5 : FVec F S4x64x64 .f32) (main_arg6 : FVec F S4x64 .f32) (main_arg7 : FVec F S4x64x64 .f32) (main_arg8 : FVec F S64x1 .f32) (main_arg9 : FVec F S1 .f32) (main_arg10 : FVec F S64x1 .f32) (main_arg11 : FVec F S1 .f32) (main_arg12 : IVec S2x1600000 32) (main_arg13 : IVec S2x1600000 32) (main_arg14 : IVec S2x1600000 32) (main_arg15 : IVec S2x1600000 32) : IVec S_ 1 :=
  let main_v0 : FVec F S50000x11 .f32 := Host.absf main_arg0
  let main_cst : FVec F S_ .f32 := constant S_ .f32 0x7F800000#32
  let main_v1 : FVec F S50000x11 .f32 := broadcastInDim S50000x11 ![] bcast_S_S50000x11 main_cst
  let main_v2 : IVec S50000x11 1 := cmpf .olt main_v0 main_v1
  let main_c : IVec S_ 1 := constantI S_ 1 1#1
  let main_v3 : IVec S_ 1 := (fun x v => Host.reduce IntOp.andi x v reducesTo_S50000x11_S_d0_1 h_S_) main_v2 main_c
  let main_v4 : FVec F S50000x11 .f32 := Host.absf main_arg1
  let main_cst_0 : FVec F S_ .f32 := constant S_ .f32 0x7F800000#32
  let main_v5 : FVec F S50000x11 .f32 := broadcastInDim S50000x11 ![] bcast_S_S50000x11 main_cst_0
  let main_v6 : IVec S50000x11 1 := cmpf .olt main_v4 main_v5
  let main_c_1 : IVec S_ 1 := constantI S_ 1 1#1
  let main_v7 : IVec S_ 1 := (fun x v => Host.reduce IntOp.andi x v reducesTo_S50000x11_S_d0_1 h_S_) main_v6 main_c_1
  let main_v8 : IVec S_ 1 := andi main_v3 main_v7
  let main_v9 : FVec F S4x11x64 .f32 := Host.absf main_arg2
  let main_cst_2 : FVec F S_ .f32 := constant S_ .f32 0x7F800000#32
  let main_v10 : FVec F S4x11x64 .f32 := broadcastInDim S4x11x64 ![] bcast_S_S4x11x64 main_cst_2
  let main_v11 : IVec S4x11x64 1 := cmpf .olt main_v9 main_v10
  let main_c_3 : IVec S_ 1 := constantI S_ 1 1#1
  let main_v12 : IVec S_ 1 := (fun x v => Host.reduce IntOp.andi x v reducesTo_S4x11x64_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_arg7 main_arg8 main_arg9 main_arg10 main_arg11 main_v13 main_v16
-- ==== Kernel.lean ====
abbrev S50000x11 : Shape := ⟨2, ![50000, 11]⟩
abbrev S4x11x64 : Shape := ⟨3, ![4, 11, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x11 : Shape := ⟨2, ![1600000, 11]⟩
abbrev S50000x1 : Shape := ⟨2, ![50000, 1]⟩
abbrev S1x11x64 : Shape := ⟨3, ![1, 11, 64]⟩
abbrev S11x64 : Shape := ⟨2, ![11, 64]⟩
abbrev S1x64 : Shape := ⟨2, ![1, 64]⟩
abbrev S64 : Shape := ⟨1, ![64]⟩
abbrev S50000x64 : Shape := ⟨2, ![50000, 64]⟩
abbrev S5000x11 : Shape := ⟨2, ![5000, 11]⟩
abbrev S5000x64 : Shape := ⟨2, ![5000, 64]⟩
abbrev S1600000x64 : Shape := ⟨2, ![1600000, 64]⟩
abbrev S1x64x64 : Shape := ⟨3, ![1, 64, 64]⟩
abbrev S64x64 : Shape := ⟨2, ![64, 64]⟩
abbrev S1x1 : Shape := ⟨2, ![1, 1]⟩
abbrev S5000x1 : Shape := ⟨2, ![5000, 1]⟩

abbrev nBuf : Space → Nat
  | .hbm => 302
  | .vmem => 52
  | .smem => 0
  | _ => 0

abbrev hbmTy0_0 (i : Nat) : BufTy := match i % 128 with
  | 0 => ⟨S50000x11, .f32⟩
  | 1 => ⟨S50000x11, .f32⟩
  | 2 => ⟨S4x11x64, .f32⟩
  | 3 => ⟨S4x64, .f32⟩
  | 4 => ⟨S4x11x64, .f32⟩
  | 5 => ⟨S4x64x64, .f32⟩
  | 6 => ⟨S4x64, .f32⟩
  | 7 => ⟨S4x64x64, .f32⟩
  | 8 => ⟨S64x1, .f32⟩
  | 9 => ⟨S1, .f32⟩
  | 10 => ⟨S64x1, .f32⟩
  | 11 => ⟨S1, .f32⟩
  | 12 => ⟨S2x1600000, .i32⟩
  | 13 => ⟨S2x1600000, .i32⟩
  | 14 => ⟨S2x1600000, .i32⟩
  | 15 => ⟨S2x1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S50000, .f32⟩
  | 22 => ⟨S1600000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S1x1600000, .i32⟩
  | 31 => ⟨S1600000, .i32⟩
  | 32 => ⟨S_, .f32⟩
  | 33 => ⟨S1600000, .f32⟩
  | 34 => ⟨S_, .f32⟩
  | 35 => ⟨S50000, .f32⟩
  | 36 => ⟨S1600000x1, .i32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S1x1600000, .i32⟩
  | 45 => ⟨S1600000, .i32⟩
  | 46 => ⟨S_, .f32⟩
  | 47 => ⟨S1600000, .f32⟩
  | 48 => ⟨S_, .f32⟩
  | 49 => ⟨S50000, .f32⟩
  | 50 => ⟨S1600000x1, .i32⟩
  | 51 => ⟨S50000, .f32⟩
  | 52 => ⟨S_, .f32⟩
  | 53 => ⟨S50000, .f32⟩
  | 54 => ⟨S50000, .f32⟩
  | 55 => ⟨S_, .f32⟩
  | 56 => ⟨S50000, .f32⟩
  | 57 => ⟨S50000, .f32⟩
  | 58 => ⟨S1x1600000, .i32⟩
  | 59 => ⟨S1600000, .i32⟩
  | 60 => ⟨S_, .f32⟩
  | 61 => ⟨S1600000, .f32⟩
  | 62 => ⟨S_, .f32⟩
  | 63 => ⟨S50000, .f32⟩
  | 64 => ⟨S1600000x1, .i32⟩
  | 65 => ⟨S50000, .f32⟩
  | 66 => ⟨S_, .f32⟩
  | 67 => ⟨S50000, .f32⟩
  | 68 => ⟨S50000, .f32⟩
  | 69 => ⟨S_, .f32⟩
  | 70 => ⟨S50000, .f32⟩
  | 71 => ⟨S50000, .f32⟩
  | 72 => ⟨S1x1600000, .i32⟩
  | 73 => ⟨S1600000, .i32⟩
  | 74 => ⟨S1x1600000, .i32⟩
  | 75 => ⟨S1600000, .i32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x11, .f32⟩
  | 85 => ⟨S_, .f32⟩
  | 86 => ⟨S50000x11, .f32⟩
  | 87 => ⟨S1600000x1, .i32⟩
  | 88 => ⟨S50000x11, .f32⟩
  | 89 => ⟨S50000x1, .f32⟩
  | 90 => ⟨S50000x11, .f32⟩
  | 91 => ⟨S50000x11, .f32⟩
  | 92 => ⟨S1x1600000, .i32⟩
  | 93 => ⟨S1600000, .i32⟩
  | 94 => ⟨S1x1600000, .i32⟩
  | 95 => ⟨S1600000, .i32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x11, .f32⟩
  | 105 => ⟨S_, .f32⟩
  | 106 => ⟨S50000x11, .f32⟩
  | 107 => ⟨S1600000x1, .i32⟩
  | 108 => ⟨S50000x11, .f32⟩
  | 109 => ⟨S50000x1, .f32⟩
  | 110 => ⟨S50000x11, .f32⟩
  | 111 => ⟨S50000x11, .f32⟩
  | 112 => ⟨S1x1600000, .i32⟩
  | 113 => ⟨S1600000, .i32⟩
  | 114 => ⟨S1x1600000, .i32⟩
  | 115 => ⟨S1600000, .i32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x11, .f32⟩
  | 125 => ⟨S_, .f32⟩
  | 126 => ⟨S50000x11, .f32⟩
  | 127 => ⟨S1600000x1, .i32⟩
  | _ => ⟨S50000x11, .f32⟩

abbrev hbmTy0_1 (i : Nat) : BufTy := match i % 128 with
  | 0 => ⟨S50000x11, .f32⟩
  | 1 => ⟨S50000x1, .f32⟩
  | 2 => ⟨S50000x11, .f32⟩
  | 3 => ⟨S50000x11, .f32⟩
  | 4 => ⟨S1x1600000, .i32⟩
  | 5 => ⟨S1600000, .i32⟩
  | 6 => ⟨S1x1600000, .i32⟩
  | 7 => ⟨S1600000, .i32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x11, .f32⟩
  | 17 => ⟨S_, .f32⟩
  | 18 => ⟨S50000x11, .f32⟩
  | 19 => ⟨S1600000x1, .i32⟩
  | 20 => ⟨S50000x11, .f32⟩
  | 21 => ⟨S50000x1, .f32⟩
  | 22 => ⟨S50000x11, .f32⟩
  | 23 => ⟨S50000x11, .f32⟩
  | 24 => ⟨S1x11x64, .f32⟩
  | 25 => ⟨S11x64, .f32⟩
  | 26 => ⟨S1x11x64, .f32⟩
  | 27 => ⟨S11x64, .f32⟩
  | 28 => ⟨S11x64, .f32⟩
  | 29 => ⟨S1x11x64, .f32⟩
  | 30 => ⟨S11x64, .f32⟩
  | 31 => ⟨S1x11x64, .f32⟩
  | 32 => ⟨S11x64, .f32⟩
  | 33 => ⟨S11x64, .f32⟩
  | 34 => ⟨S1x64, .f32⟩
  | 35 => ⟨S64, .f32⟩
  | 36 => ⟨S1x64, .f32⟩
  | 37 => ⟨S64, .f32⟩
  | 38 => ⟨S64, .f32⟩
  | 39 => ⟨S1x64, .f32⟩
  | 40 => ⟨S1x64, .f32⟩
  | 41 => ⟨S64, .f32⟩
  | 42 => ⟨S1x64, .f32⟩
  | 43 => ⟨S64, .f32⟩
  | 44 => ⟨S64, .f32⟩
  | 45 => ⟨S1x64, .f32⟩
  | 46 => ⟨S1x11x64, .f32⟩
  | 47 => ⟨S11x64, .f32⟩
  | 48 => ⟨S1x11x64, .f32⟩
  | 49 => ⟨S11x64, .f32⟩
  | 50 => ⟨S50000x64, .bf16⟩
  | 51 => ⟨S1x11x64, .f32⟩
  | 52 => ⟨S11x64, .f32⟩
  | 53 => ⟨S1x11x64, .f32⟩
  | 54 => ⟨S11x64, .f32⟩
  | 55 => ⟨S50000x64, .bf16⟩
  | 56 => ⟨S1x1600000, .i32⟩
  | 57 => ⟨S1600000, .i32⟩
  | 58 => ⟨S1x1600000, .i32⟩
  | 59 => ⟨S1600000, .i32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .bf16⟩
  | 69 => ⟨S1600000x64, .f32⟩
  | 70 => ⟨S_, .f32⟩
  | 71 => ⟨S50000x64, .f32⟩
  | 72 => ⟨S1600000x1, .i32⟩
  | 73 => ⟨S50000x64, .f32⟩
  | 74 => ⟨S50000x1, .f32⟩
  | 75 => ⟨S50000x64, .f32⟩
  | 76 => ⟨S50000x64, .f32⟩
  | 77 => ⟨S1x1600000, .i32⟩
  | 78 => ⟨S1600000, .i32⟩
  | 79 => ⟨S1x1600000, .i32⟩
  | 80 => ⟨S1600000, .i32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .bf16⟩
  | 90 => ⟨S1600000x64, .f32⟩
  | 91 => ⟨S_, .f32⟩
  | 92 => ⟨S50000x64, .f32⟩
  | 93 => ⟨S1600000x1, .i32⟩
  | 94 => ⟨S50000x64, .f32⟩
  | 95 => ⟨S50000x1, .f32⟩
  | 96 => ⟨S50000x64, .f32⟩
  | 97 => ⟨S50000x64, .f32⟩
  | 98 => ⟨S1x1600000, .i32⟩
  | 99 => ⟨S1600000, .i32⟩
  | 100 => ⟨S1x1600000, .i32⟩
  | 101 => ⟨S1600000, .i32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .bf16⟩
  | 111 => ⟨S1600000x64, .f32⟩
  | 112 => ⟨S_, .f32⟩
  | 113 => ⟨S50000x64, .f32⟩
  | 114 => ⟨S1600000x1, .i32⟩
  | 115 => ⟨S50000x64, .f32⟩
  | 116 => ⟨S50000x1, .f32⟩
  | 117 => ⟨S50000x64, .f32⟩
  | 118 => ⟨S50000x64, .f32⟩
  | 119 => ⟨S1x1600000, .i32⟩
  | 120 => ⟨S1600000, .i32⟩
  | 121 => ⟨S1x1600000, .i32⟩
  | 122 => ⟨S1600000, .i32⟩
  | 123 => ⟨S_, .i32⟩
  | 124 => ⟨S1600000, .i32⟩
  | 125 => ⟨S1600000, .i1⟩
  | 126 => ⟨S_, .i32⟩
  | 127 => ⟨S1600000, .i32⟩
  | _ => ⟨S50000x11, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x64, .bf16⟩
  | 4 => ⟨S1600000x64, .f32⟩
  | 5 => ⟨S_, .f32⟩
  | 6 => ⟨S50000x64, .f32⟩
  | 7 => ⟨S1600000x1, .i32⟩
  | 8 => ⟨S50000x64, .f32⟩
  | 9 => ⟨S50000x1, .f32⟩
  | 10 => ⟨S50000x64, .f32⟩
  | 11 => ⟨S50000x64, .f32⟩
  | 12 => ⟨S1x64x64, .f32⟩
  | 13 => ⟨S64x64, .f32⟩
  | 14 => ⟨S1x64x64, .f32⟩
  | 15 => ⟨S64x64, .f32⟩
  | 16 => ⟨S64x64, .f32⟩
  | 17 => ⟨S1x64x64, .f32⟩
  | 18 => ⟨S64x64, .f32⟩
  | 19 => ⟨S1x64x64, .f32⟩
  | 20 => ⟨S64x64, .f32⟩
  | 21 => ⟨S64x64, .f32⟩
  | 22 => ⟨S1x64, .f32⟩
  | 23 => ⟨S64, .f32⟩
  | 24 => ⟨S1x64, .f32⟩
  | 25 => ⟨S64, .f32⟩
  | 26 => ⟨S64, .f32⟩
  | 27 => ⟨S1x64, .f32⟩
  | 28 => ⟨S1x64, .f32⟩
  | 29 => ⟨S64, .f32⟩
  | 30 => ⟨S1x64, .f32⟩
  | 31 => ⟨S64, .f32⟩
  | 32 => ⟨S64, .f32⟩
  | 33 => ⟨S1x64, .f32⟩
  | 34 => ⟨S1x1, .f32⟩
  | 35 => ⟨S1x1, .f32⟩
  | 36 => ⟨S1x64x64, .f32⟩
  | 37 => ⟨S64x64, .f32⟩
  | 38 => ⟨S1x64x64, .f32⟩
  | 39 => ⟨S64x64, .f32⟩
  | 40 => ⟨S50000x1, .f32⟩
  | 41 => ⟨S1x64x64, .f32⟩
  | 42 => ⟨S64x64, .f32⟩
  | 43 => ⟨S1x64x64, .f32⟩
  | 44 => ⟨S64x64, .f32⟩
  | 45 => ⟨S50000x1, .f32⟩
  | _ => ⟨S50000x11, .f32⟩

abbrev hbmTy (i : Nat) : BufTy := match i / 128 with
  | 0 => hbmTy0_0 i
  | 1 => hbmTy0_1 i
  | 2 => hbmTy0_2 i
  | _ => ⟨S50000x11, .f32⟩

abbrev bufTy : (tb : Table) → Fin (tcTables nBuf tb) → BufTy
  | .hbm, ⟨i, _⟩ => hbmTy i
  | .local _ .vmem, ⟨0, _⟩ => ⟨S5000x11, .f32⟩
  | .local _ .vmem, ⟨1, _⟩ => ⟨S5000x11, .f32⟩
  | .local _ .vmem, ⟨2, _⟩ => ⟨S5000x11, .f32⟩
  | .local _ .vmem, ⟨3, _⟩ => ⟨S5000x11, .f32⟩
  | .local _ .vmem, ⟨4, _⟩ => ⟨S5000x11, .f32⟩
  | .local _ .vmem, ⟨5, _⟩ => ⟨S5000x11, .f32⟩
  | .local _ .vmem, ⟨6, _⟩ => ⟨S11x64, .f32⟩
  | .local _ .vmem, ⟨7, _⟩ => ⟨S11x64, .f32⟩
  | .local _ .vmem, ⟨8, _⟩ => ⟨S11x64, .f32⟩
  | .local _ .vmem, ⟨9, _⟩ => ⟨S1x64, .f32⟩
  | .local _ .vmem, ⟨10, _⟩ => ⟨S5000x64, .bf16⟩
  | .local _ .vmem, ⟨11, _⟩ => ⟨S5000x64, .bf16⟩
  | .local _ .vmem, ⟨12, _⟩ => ⟨S5000x11, .f32⟩
  | .local _ .vmem, ⟨13, _⟩ => ⟨S5000x11, .f32⟩
  | .local _ .vmem, ⟨14, _⟩ => ⟨S5000x11, .f32⟩
  | .local _ .vmem, ⟨15, _⟩ => ⟨S5000x11, .f32⟩
  | .local _ .vmem, ⟨16, _⟩ => ⟨S5000x11, .f32⟩
  | .local _ .vmem, ⟨17, _⟩ => ⟨S5000x11, .f32⟩
  | .local _ .vmem, ⟨18, _⟩ => ⟨S11x64, .f32⟩
  | .local _ .vmem, ⟨19, _⟩ => ⟨S11x64, .f32⟩
  | .local _ .vmem, ⟨20, _⟩ => ⟨S11x64, .f32⟩
  | .local _ .vmem, ⟨21, _⟩ => ⟨S1x64, .f32⟩
  | .local _ .vmem, ⟨22, _⟩ => ⟨S5000x64, .bf16⟩
  | .local _ .vmem, ⟨23, _⟩ => ⟨S5000x64, .bf16⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .bf16⟩
  | .local _ .vmem, ⟨29, _⟩ => ⟨S5000x64, .bf16⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x1, .f32⟩
  | .local _ .vmem, ⟨35, _⟩ => ⟨S1x1, .f32⟩
  | .local _ .vmem, ⟨36, _⟩ => ⟨S5000x1, .f32⟩
  | .local _ .vmem, ⟨37, _⟩ => ⟨S5000x1, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .bf16⟩
  | .local _ .vmem, ⟨43, _⟩ => ⟨S5000x64, .bf16⟩
  | .local _ .vmem, ⟨44, _⟩ => ⟨S64x64, .f32⟩
  | .local _ .vmem, ⟨45, _⟩ => ⟨S64x64, .f32⟩
  | .local _ .vmem, ⟨46, _⟩ => ⟨S64x64, .f32⟩
  | .local _ .vmem, ⟨47, _⟩ => ⟨S1x64, .f32⟩
  | .local _ .vmem, ⟨48, _⟩ => ⟨S64x1, .f32⟩
  | .local _ .vmem, ⟨49, _⟩ => ⟨S1x1, .f32⟩
  | .local _ .vmem, ⟨50, _⟩ => ⟨S5000x1, .f32⟩
  | .local _ .vmem, ⟨51, _⟩ => ⟨S5000x1, .f32⟩
  | _, _ => ⟨S50000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_cst_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_cst_14 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c : Ref sig .tc := ⟨.hbm, 76, rfl⟩
abbrev main_v44 : Ref sig .tc := ⟨.hbm, 77, rfl⟩
abbrev main_v45 : Ref sig .tc := ⟨.hbm, 78, rfl⟩
abbrev main_c_15 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_17 : Ref sig .tc := ⟨.hbm, 96, rfl⟩
abbrev main_v61 : Ref sig .tc := ⟨.hbm, 97, rfl⟩
abbrev main_v62 : Ref sig .tc := ⟨.hbm, 98, rfl⟩
abbrev main_c_18 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_20 : Ref sig .tc := ⟨.hbm, 116, rfl⟩
abbrev main_v78 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_22 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_23 : Ref sig .tc := ⟨.hbm, 136, rfl⟩
abbrev main_v95 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_26 : Ref sig .tc := ⟨.hbm, 188, rfl⟩
abbrev main_v144 : Ref sig .tc := ⟨.hbm, 189, rfl⟩
abbrev main_v145 : Ref sig .tc := ⟨.hbm, 190, rfl⟩
abbrev main_c_27 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_28 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_c_29 : Ref sig .tc := ⟨.hbm, 209, rfl⟩
abbrev main_v162 : Ref sig .tc := ⟨.hbm, 210, rfl⟩
abbrev main_v163 : Ref sig .tc := ⟨.hbm, 211, rfl⟩
abbrev main_c_30 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_31 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_32 : Ref sig .tc := ⟨.hbm, 230, rfl⟩
abbrev main_v180 : Ref sig .tc := ⟨.hbm, 231, rfl⟩
abbrev main_v181 : Ref sig .tc := ⟨.hbm, 232, rfl⟩
abbrev main_c_33 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_34 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_c_35 : Ref sig .tc := ⟨.hbm, 251, rfl⟩
abbrev main_v198 : Ref sig .tc := ⟨.hbm, 252, rfl⟩
abbrev main_v199 : Ref sig .tc := ⟨.hbm, 253, rfl⟩
abbrev main_c_36 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_37 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S11x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x11 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x11 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S11x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S11x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S11x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  slices_S2x1600000_S1x1600000_0_0 : S2x1600000.Slices ![0, 0] S1x1600000
  bcast_S_S50000x11 : S_.BroadcastsInDim S50000x11 (![] : Fin 0 → Fin S50000x11.rank)
  bcast_S50000_S50000x1_0 : S50000.BroadcastsInDim S50000x1 (![0] : Fin 1 → Fin S50000x1.rank)
  bcast_S50000x1_S50000x11_0_1 : S50000x1.BroadcastsInDim S50000x11 (![0, 1] : Fin 2 → Fin S50000x11.rank)
  slices_S4x11x64_S1x11x64_0_0_0 : S4x11x64.Slices ![0, 0, 0] S1x11x64
  shapeCasts_S1x11x64_S11x64 : S1x11x64.ShapeCasts S11x64
  slices_S4x11x64_S1x11x64_2_0_0 : S4x11x64.Slices ![2, 0, 0] S1x11x64
  slices_S4x11x64_S1x11x64_1_0_0 : S4x11x64.Slices ![1, 0, 0] S1x11x64
  slices_S4x11x64_S1x11x64_3_0_0 : S4x11x64.Slices ![3, 0, 0] S1x11x64
  slices_S4x64_S1x64_0_0 : S4x64.Slices ![0, 0] S1x64
  shapeCasts_S1x64_S64 : S1x64.ShapeCasts S64
  slices_S4x64_S1x64_2_0 : S4x64.Slices ![2, 0] S1x64
  shapeCasts_S64_S1x64 : S64.ShapeCasts S1x64
  slices_S4x64_S1x64_1_0 : S4x64.Slices ![1, 0] S1x64
  slices_S4x64_S1x64_3_0 : S4x64.Slices ![3, 0] S1x64
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  shapeCasts_S11x64_S11x64 : S11x64.ShapeCasts S11x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S4x64x64_S1x64x64_0_0_0 : S4x64x64.Slices ![0, 0, 0] S1x64x64
  shapeCasts_S1x64x64_S64x64 : S1x64x64.ShapeCasts S64x64
  slices_S4x64x64_S1x64x64_2_0_0 : S4x64x64.Slices ![2, 0, 0] S1x64x64
  slices_S4x64x64_S1x64x64_1_0_0 : S4x64x64.Slices ![1, 0, 0] S1x64x64
  slices_S4x64x64_S1x64x64_3_0_0 : S4x64x64.Slices ![3, 0, 0] S1x64x64
  shapeCasts_S1_S1x1 : S1.ShapeCasts S1x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S1600000x1_S1600000_n_0_0_1_wf : ScatterDims.WF S50000 S1600000x1 S1600000 [] [0] [0] 1
  gather_S50000x11_S1600000x1_S1600000x11_1_0_n_n_0_1_111_wf : GatherDims.WF S50000x11 S1600000x1 S1600000x11 [1] [0] [] [0] [] 1 ![1, 11]
  scatter_S50000x11_S1600000x1_S1600000x11_1_0_0_1_wf : ScatterDims.WF S50000x11 S1600000x1 S1600000x11 [1] [0] [0] 1
  dot_S5000x11_S11x64_S5000x64_1_0_0_1_n_n_wf : DotDims.WF S5000x11 S11x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S50000x11.size a
  hwx0_0 : ∀ i : grid0.Coords, EltTy.bits .f32 = 32 ∨ (Rect.block (s := S50000x11) S5000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x11.size a ≤ S50000x11.size a
  hwx0_1 : ∀ i : grid0.Coords, EltTy.bits .f32 = 32 ∨ (Rect.block (s := S50000x11) S5000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x11.size a ≤ S50000x11.size a
  hwx0_2 : ∀ i : grid0.Coords, EltTy.bits .f32 = 32 ∨ (Rect.block (s := S50000x11) S5000x11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x64.size a ≤ S11x64.size a
  hwx0_3 : ∀ i : grid0.Coords, EltTy.bits .f32 = 32 ∨ (Rect.block (s := S11x64) S11x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x64.size a ≤ S11x64.size a
  hwx0_4 : ∀ i : grid0.Coords, EltTy.bits .f32 = 32 ∨ (Rect.block (s := S11x64) S11x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x64.size a ≤ S11x64.size a
  hwx0_5 : ∀ i : grid0.Coords, EltTy.bits .f32 = 32 ∨ (Rect.block (s := S11x64) S11x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .bf16 = 32 ∨ (Rect.block (s := S50000x64) S5000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x11.size a ≤ S50000x11.size a
  hwx1_0 : ∀ i : grid1.Coords, EltTy.bits .f32 = 32 ∨ (Rect.block (s := S50000x11) S5000x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x11.size a ≤ S50000x11.size a
  hwx1_1 : ∀ i : grid1.Coords, EltTy.bits .f32 = 32 ∨ (Rect.block (s := S50000x11) S5000x11.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x11.size a ≤ S50000x11.size a
  hwx1_2 : ∀ i : grid1.Coords, EltTy.bits .f32 = 32 ∨ (Rect.block (s := S50000x11) S5000x11.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S11x64.size a ≤ S11x64.size a
  hwx1_3 : ∀ i : grid1.Coords, EltTy.bits .f32 = 32 ∨ (Rect.block (s := S11x64) S11x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S11x64.size a ≤ S11x64.size a
  hwx1_4 : ∀ i : grid1.Coords, EltTy.bits .f32 = 32 ∨ (Rect.block (s := S11x64) S11x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S11x64.size a ≤ S11x64.size a
  hwx1_5 : ∀ i : grid1.Coords, EltTy.bits .f32 = 32 ∨ (Rect.block (s := S11x64) S11x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .bf16 = 32 ∨ (Rect.block (s := S50000x64) S5000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .bf16 = 32 ∨ (Rect.block (s := S50000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S50000x1.size a
  hwx2_9 : ∀ i : grid2.Coords, EltTy.bits .f32 = 32 ∨ (Rect.block (s := S50000x1) S5000x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .bf16 = 32 ∨ (Rect.block (s := S50000x64) S5000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S50000x1.size a
  hwx3_9 : ∀ i : grid3.Coords, EltTy.bits .f32 = 32 ∨ (Rect.block (s := S50000x1) S5000x1.size (cc3_transform_9 i) (hinb3_9 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x11_S1600000x1_S1600000x11_1_0_n_n_0_1_111 : GatherDims S50000x11 S1600000x1 S1600000x11 where
  offsetDims := [1]
  collapsedSliceDims := [0]
  operandBatchingDims := []
  startIndicesBatchingDims := []
  startIndexMap := [0]
  indexVectorDim := 1
  sliceSizes := ![1, 11]
  wf := gather_S50000x11_S1600000x1_S1600000x11_1_0_n_n_0_1_111_wf
def scatter_S50000x11_S1600000x1_S1600000x11_1_0_0_1 : ScatterDims S50000x11 S1600000x1 S1600000x11 where
  updateWindowDims := [1]
  insertedWindowDims := [0]
  scatterDimsToOperandDims := [0]
  indexVectorDim := 1
  wf := scatter_S50000x11_S1600000x1_S1600000x11_1_0_0_1_wf
def dot_S5000x11_S11x64_S5000x64_1_0_0_1_n_n : DotDims S5000x11 S11x64 S5000x64 where
  lhsContracting := [1]
  rhsContracting := [0]
  lhsNonContracting := [0]
  rhsNonContracting := [1]
  lhsBatch := []
  rhsBatch := []
  wf := dot_S5000x11_S11x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v56) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S5000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v131) S11x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v133) S11x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v112) S11x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v123) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v134) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v90) S5000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v107) S5000x11.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x11.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v136) S11x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v138) S11x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v117) S11x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v129) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v139) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v157) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v175) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v134) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v237) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v239) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v216) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v227) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v234) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v240) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v193) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v211) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v139) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v242) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v244) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v221) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v233) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v235) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v245) S5000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x11 : Shape := ⟨2, ![50000, 11]⟩
abbrev S4x11x64 : Shape := ⟨3, ![4, 11, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S2x1600000 : Shape := ⟨2, ![2, 1600000]⟩
abbrev S1x11x64 : Shape := ⟨3, ![1, 11, 64]⟩
abbrev S11x64 : Shape := ⟨2, ![11, 64]⟩
abbrev S1x64 : Shape := ⟨2, ![1, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x11 : Shape := ⟨2, ![1600000, 11]⟩
abbrev S50000 : Shape := ⟨1, ![50000]⟩
abbrev S50000x1 : Shape := ⟨2, ![50000, 1]⟩
abbrev S50000x64 : Shape := ⟨2, ![50000, 64]⟩
abbrev S1x64x64 : Shape := ⟨3, ![1, 64, 64]⟩
abbrev S64x64 : Shape := ⟨2, ![64, 64]⟩
abbrev S1600000x64 : Shape := ⟨2, ![1600000, 64]⟩
abbrev S1x1 : Shape := ⟨2, ![1, 1]⟩

abbrev nBuf : Space → Nat
  | .hbm => 368
  | .vmem => 0
  | .smem => 0
  | _ => 0

abbrev hbmTy0_0 (i : Nat) : BufTy := match i % 128 with
  | 0 => ⟨S50000x11, .f32⟩
  | 1 => ⟨S50000x11, .f32⟩
  | 2 => ⟨S4x11x64, .f32⟩
  | 3 => ⟨S4x64, .f32⟩
  | 4 => ⟨S4x11x64, .f32⟩
  | 5 => ⟨S4x64x64, .f32⟩
  | 6 => ⟨S4x64, .f32⟩
  | 7 => ⟨S4x64x64, .f32⟩
  | 8 => ⟨S64x1, .f32⟩
  | 9 => ⟨S1, .f32⟩
  | 10 => ⟨S64x1, .f32⟩
  | 11 => ⟨S1, .f32⟩
  | 12 => ⟨S2x1600000, .i32⟩
  | 13 => ⟨S2x1600000, .i32⟩
  | 14 => ⟨S2x1600000, .i32⟩
  | 15 => ⟨S2x1600000, .i32⟩
  | 16 => ⟨S1x11x64, .f32⟩
  | 17 => ⟨S11x64, .f32⟩
  | 18 => ⟨S1x64, .f32⟩
  | 19 => ⟨S64, .f32⟩
  | 20 => ⟨S1x11x64, .f32⟩
  | 21 => ⟨S11x64, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x11, .f32⟩
  | 35 => ⟨S_, .f32⟩
  | 36 => ⟨S50000x11, .f32⟩
  | 37 => ⟨S1600000x1, .i32⟩
  | 38 => ⟨S50000x11, .f32⟩
  | 39 => ⟨S_, .f32⟩
  | 40 => ⟨S1600000, .f32⟩
  | 41 => ⟨S_, .f32⟩
  | 42 => ⟨S50000, .f32⟩
  | 43 => ⟨S1600000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x11, .f32⟩
  | 50 => ⟨S50000x11, .f32⟩
  | 51 => ⟨S50000x64, .f32⟩
  | 52 => ⟨S1x64, .f32⟩
  | 53 => ⟨S50000x64, .f32⟩
  | 54 => ⟨S50000x64, .f32⟩
  | 55 => ⟨S50000x64, .f32⟩
  | 56 => ⟨S50000x64, .f32⟩
  | 57 => ⟨S1x11x64, .f32⟩
  | 58 => ⟨S11x64, .f32⟩
  | 59 => ⟨S1x64, .f32⟩
  | 60 => ⟨S64, .f32⟩
  | 61 => ⟨S1x11x64, .f32⟩
  | 62 => ⟨S11x64, .f32⟩
  | 63 => ⟨S1x1600000, .i32⟩
  | 64 => ⟨S1600000, .i32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x11, .f32⟩
  | 76 => ⟨S_, .f32⟩
  | 77 => ⟨S50000x11, .f32⟩
  | 78 => ⟨S1600000x1, .i32⟩
  | 79 => ⟨S50000x11, .f32⟩
  | 80 => ⟨S_, .f32⟩
  | 81 => ⟨S1600000, .f32⟩
  | 82 => ⟨S_, .f32⟩
  | 83 => ⟨S50000, .f32⟩
  | 84 => ⟨S1600000x1, .i32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x11, .f32⟩
  | 91 => ⟨S50000x11, .f32⟩
  | 92 => ⟨S50000x64, .f32⟩
  | 93 => ⟨S1x64, .f32⟩
  | 94 => ⟨S50000x64, .f32⟩
  | 95 => ⟨S50000x64, .f32⟩
  | 96 => ⟨S50000x64, .f32⟩
  | 97 => ⟨S50000x64, .f32⟩
  | 98 => ⟨S50000x64, .f32⟩
  | 99 => ⟨S1x11x64, .f32⟩
  | 100 => ⟨S11x64, .f32⟩
  | 101 => ⟨S1x64, .f32⟩
  | 102 => ⟨S64, .f32⟩
  | 103 => ⟨S1x11x64, .f32⟩
  | 104 => ⟨S11x64, .f32⟩
  | 105 => ⟨S1x1600000, .i32⟩
  | 106 => ⟨S1600000, .i32⟩
  | 107 => ⟨S1x1600000, .i32⟩
  | 108 => ⟨S1600000, .i32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x11, .f32⟩
  | 118 => ⟨S_, .f32⟩
  | 119 => ⟨S50000x11, .f32⟩
  | 120 => ⟨S1600000x1, .i32⟩
  | 121 => ⟨S50000x11, .f32⟩
  | 122 => ⟨S_, .f32⟩
  | 123 => ⟨S1600000, .f32⟩
  | 124 => ⟨S_, .f32⟩
  | 125 => ⟨S50000, .f32⟩
  | 126 => ⟨S1600000x1, .i32⟩
  | 127 => ⟨S50000, .f32⟩
  | _ => ⟨S50000x11, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x11, .f32⟩
  | 5 => ⟨S50000x11, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S50000x64, .f32⟩
  | 12 => ⟨S1x11x64, .f32⟩
  | 13 => ⟨S11x64, .f32⟩
  | 14 => ⟨S1x64, .f32⟩
  | 15 => ⟨S64, .f32⟩
  | 16 => ⟨S1x11x64, .f32⟩
  | 17 => ⟨S11x64, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x11, .f32⟩
  | 31 => ⟨S_, .f32⟩
  | 32 => ⟨S50000x11, .f32⟩
  | 33 => ⟨S1600000x1, .i32⟩
  | 34 => ⟨S50000x11, .f32⟩
  | 35 => ⟨S_, .f32⟩
  | 36 => ⟨S1600000, .f32⟩
  | 37 => ⟨S_, .f32⟩
  | 38 => ⟨S50000, .f32⟩
  | 39 => ⟨S1600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x11, .f32⟩
  | 46 => ⟨S50000x11, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S1x64x64, .f32⟩
  | 61 => ⟨S64x64, .f32⟩
  | 62 => ⟨S1x64, .f32⟩
  | 63 => ⟨S64, .f32⟩
  | 64 => ⟨S1x64x64, .f32⟩
  | 65 => ⟨S64x64, .f32⟩
  | 66 => ⟨S1x1600000, .i32⟩
  | 67 => ⟨S1600000, .i32⟩
  | 68 => ⟨S1x1600000, .i32⟩
  | 69 => ⟨S1600000, .i32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S50000x64, .f32⟩
  | 81 => ⟨S1600000x1, .i32⟩
  | 82 => ⟨S50000x64, .f32⟩
  | 83 => ⟨S_, .f32⟩
  | 84 => ⟨S1600000, .f32⟩
  | 85 => ⟨S_, .f32⟩
  | 86 => ⟨S50000, .f32⟩
  | 87 => ⟨S1600000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x1600000, .i32⟩
  | 108 => ⟨S1600000, .i32⟩
  | 109 => ⟨S1x1600000, .i32⟩
  | 110 => ⟨S1600000, .i32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S_, .f32⟩
  | 121 => ⟨S50000x64, .f32⟩
  | 122 => ⟨S1600000x1, .i32⟩
  | 123 => ⟨S50000x64, .f32⟩
  | 124 => ⟨S_, .f32⟩
  | 125 => ⟨S1600000, .f32⟩
  | 126 => ⟨S_, .f32⟩
  | 127 => ⟨S50000, .f32⟩
  | _ => ⟨S50000x11, .f32⟩

abbrev hbmTy0_2 (i : Nat) : BufTy := match i % 128 with
  | 0 => ⟨S1600000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S50000x64, .f32⟩
  | 13 => ⟨S50000x64, .f32⟩
  | 14 => ⟨S50000x64, .f32⟩
  | 15 => ⟨S1x64x64, .f32⟩
  | 16 => ⟨S64x64, .f32⟩
  | 17 => ⟨S1x64, .f32⟩
  | 18 => ⟨S64, .f32⟩
  | 19 => ⟨S1x64x64, .f32⟩
  | 20 => ⟨S64x64, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S50000x64, .f32⟩
  | 36 => ⟨S1600000x1, .i32⟩
  | 37 => ⟨S50000x64, .f32⟩
  | 38 => ⟨S_, .f32⟩
  | 39 => ⟨S1600000, .f32⟩
  | 40 => ⟨S_, .f32⟩
  | 41 => ⟨S50000, .f32⟩
  | 42 => ⟨S1600000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S50000x64, .f32⟩
  | 56 => ⟨S1x64x64, .f32⟩
  | 57 => ⟨S64x64, .f32⟩
  | 58 => ⟨S1x64, .f32⟩
  | 59 => ⟨S64, .f32⟩
  | 60 => ⟨S1x64x64, .f32⟩
  | 61 => ⟨S64x64, .f32⟩
  | 62 => ⟨S1x1600000, .i32⟩
  | 63 => ⟨S1600000, .i32⟩
  | 64 => ⟨S1x1600000, .i32⟩
  | 65 => ⟨S1600000, .i32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S50000x64, .f32⟩
  | 77 => ⟨S1600000x1, .i32⟩
  | 78 => ⟨S50000x64, .f32⟩
  | 79 => ⟨S_, .f32⟩
  | 80 => ⟨S1600000, .f32⟩
  | 81 => ⟨S_, .f32⟩
  | 82 => ⟨S50000, .f32⟩
  | 83 => ⟨S1600000x1, .i32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S50000x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x1, .f32⟩
  | 105 => ⟨S1x1, .f32⟩
  | 106 => ⟨S50000x1, .f32⟩
  | 107 => ⟨S50000x1, .f32⟩
  | 108 => ⟨S50000x1, .f32⟩
  | 109 => ⟨S1x1, .f32⟩
  | 110 => ⟨S50000x1, .f32⟩
  | 111 => ⟨S50000x1, .f32⟩
  | _ => ⟨S50000x11, .f32⟩

abbrev hbmTy (i : Nat) : BufTy := match i / 128 with
  | 0 => hbmTy0_0 i
  | 1 => hbmTy0_1 i
  | 2 => hbmTy0_2 i
  | _ => ⟨S50000x11, .f32⟩

abbrev bufTy : (tb : Table) → Fin (tcTables nBuf tb) → BufTy
  | .hbm, ⟨i, _⟩ => hbmTy i
  | _, _ => ⟨S50000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_4 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_10 : Ref sig .tc := ⟨.hbm, 109, rfl⟩
abbrev main_v81 : Ref sig .tc := ⟨.hbm, 110, rfl⟩
abbrev main_v82 : Ref sig .tc := ⟨.hbm, 111, rfl⟩
abbrev main_c_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_15 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_16 : Ref sig .tc := ⟨.hbm, 150, rfl⟩
abbrev main_v116 : Ref sig .tc := ⟨.hbm, 151, rfl⟩
abbrev main_v117 : Ref sig .tc := ⟨.hbm, 152, rfl⟩
abbrev main_c_17 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_18 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_19 : Ref sig .tc := ⟨.hbm, 163, rfl⟩
abbrev main_v126 : Ref sig .tc := ⟨.hbm, 164, rfl⟩
abbrev main_cst_20 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_21 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_call0_cst : Ref sig .tc := ⟨.hbm, 182, rfl⟩
abbrev main_call0_v0 : Ref sig .tc := ⟨.hbm, 183, rfl⟩
abbrev main_v142 : Ref sig .tc := ⟨.hbm, 184, rfl⟩
abbrev main_call1_cst : Ref sig .tc := ⟨.hbm, 185, rfl⟩
abbrev main_call1_v0 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_22 : Ref sig .tc := ⟨.hbm, 198, rfl⟩
abbrev main_v154 : Ref sig .tc := ⟨.hbm, 199, rfl⟩
abbrev main_v155 : Ref sig .tc := ⟨.hbm, 200, rfl⟩
abbrev main_c_23 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_24 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_25 : Ref sig .tc := ⟨.hbm, 211, rfl⟩
abbrev main_v164 : Ref sig .tc := ⟨.hbm, 212, rfl⟩
abbrev main_cst_26 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_27 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_c_28 : Ref sig .tc := ⟨.hbm, 239, rfl⟩
abbrev main_v189 : Ref sig .tc := ⟨.hbm, 240, rfl⟩
abbrev main_v190 : Ref sig .tc := ⟨.hbm, 241, rfl⟩
abbrev main_c_29 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_30 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_31 : Ref sig .tc := ⟨.hbm, 252, rfl⟩
abbrev main_v199 : Ref sig .tc := ⟨.hbm, 253, rfl⟩
abbrev main_cst_32 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_33 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_c_34 : Ref sig .tc := ⟨.hbm, 281, rfl⟩
abbrev main_v225 : Ref sig .tc := ⟨.hbm, 282, rfl⟩
abbrev main_v226 : Ref sig .tc := ⟨.hbm, 283, rfl⟩
abbrev main_c_35 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_cst_36 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_37 : Ref sig .tc := ⟨.hbm, 294, rfl⟩
abbrev main_v235 : Ref sig .tc := ⟨.hbm, 295, rfl⟩
abbrev main_cst_38 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_39 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_c_40 : Ref sig .tc := ⟨.hbm, 322, rfl⟩
abbrev main_v260 : Ref sig .tc := ⟨.hbm, 323, rfl⟩
abbrev main_v261 : Ref sig .tc := ⟨.hbm, 324, rfl⟩
abbrev main_c_41 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_cst_42 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_cst_43 : Ref sig .tc := ⟨.hbm, 335, rfl⟩
abbrev main_v270 : Ref sig .tc := ⟨.hbm, 336, rfl⟩
abbrev main_cst_44 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_cst_45 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_call2_cst : Ref sig .tc := ⟨.hbm, 354, rfl⟩
abbrev main_call2_v0 : Ref sig .tc := ⟨.hbm, 355, rfl⟩
abbrev main_v286 : Ref sig .tc := ⟨.hbm, 356, rfl⟩
abbrev main_call3_cst : Ref sig .tc := ⟨.hbm, 357, rfl⟩
abbrev main_call3_v0 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩

abbrev nD : Nat := 1
abbrev τ : Topo := Topo.v7x

variable {F : FTy → Type} [FloatOps F]

class Facts₀ : Prop where
  slices_S4x11x64_S1x11x64_0_0_0 : S4x11x64.Slices ![0, 0, 0] S1x11x64
  shapeCasts_S1x11x64_S11x64 : S1x11x64.ShapeCasts S11x64
  slices_S4x64_S1x64_0_0 : S4x64.Slices ![0, 0] S1x64
  shapeCasts_S1x64_S64 : S1x64.ShapeCasts S64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x11 : S_.BroadcastsInDim S50000x11 (![] : Fin 0 → Fin S50000x11.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x11_0_1 : S50000x1.BroadcastsInDim S50000x11 (![0, 1] : Fin 2 → Fin S50000x11.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S4x11x64_S1x11x64_2_0_0 : S4x11x64.Slices ![2, 0, 0] S1x11x64
  slices_S4x64_S1x64_2_0 : S4x64.Slices ![2, 0] S1x64
  slices_S4x11x64_S1x11x64_1_0_0 : S4x11x64.Slices ![1, 0, 0] S1x11x64
  slices_S4x64_S1x64_1_0 : S4x64.Slices ![1, 0] S1x64
  slices_S4x11x64_S1x11x64_3_0_0 : S4x11x64.Slices ![3, 0, 0] S1x11x64
  slices_S4x64_S1x64_3_0 : S4x64.Slices ![3, 0] S1x64
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  bcast_S50000x1_S50000x64_0_1 : S50000x1.BroadcastsInDim S50000x64 (![0, 1] : Fin 2 → Fin S50000x64.rank)
  slices_S4x64x64_S1x64x64_2_0_0 : S4x64x64.Slices ![2, 0, 0] S1x64x64
  slices_S4x64x64_S1x64x64_1_0_0 : S4x64x64.Slices ![1, 0, 0] S1x64x64
  slices_S4x64x64_S1x64x64_3_0_0 : S4x64x64.Slices ![3, 0, 0] S1x64x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x11_S1600000x1_S1600000x11_1_0_n_n_0_1_111_wf : GatherDims.WF S50000x11 S1600000x1 S1600000x11 [1] [0] [] [0] [] 1 ![1, 11]
  scatter_S50000x11_S1600000x1_S1600000x11_1_0_0_1_wf : ScatterDims.WF S50000x11 S1600000x1 S1600000x11 [1] [0] [0] 1
  scatter_S50000_S1600000x1_S1600000_n_0_0_1_wf : ScatterDims.WF S50000 S1600000x1 S1600000 [] [0] [0] 1
  dot_S50000x11_S11x64_S50000x64_1_0_0_1_n_n_wf : DotDims.WF S50000x11 S11x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x11_S1600000x1_S1600000x11_1_0_n_n_0_1_111 : GatherDims S50000x11 S1600000x1 S1600000x11 where
  offsetDims := [1]
  collapsedSliceDims := [0]
  operandBatchingDims := []
  startIndicesBatchingDims := []
  startIndexMap := [0]
  indexVectorDim := 1
  sliceSizes := ![1, 11]
  wf := gather_S50000x11_S1600000x1_S1600000x11_1_0_n_n_0_1_111_wf
def scatter_S50000x11_S1600000x1_S1600000x11_1_0_0_1 : ScatterDims S50000x11 S1600000x1 S1600000x11 where
  updateWindowDims := [1]
  insertedWindowDims := [0]
  scatterDimsToOperandDims := [0]
  indexVectorDim := 1
  wf := scatter_S50000x11_S1600000x1_S1600000x11_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x11_S11x64_S50000x64_1_0_0_1_n_n : DotDims S50000x11 S11x64 S50000x64 where
  lhsContracting := [1]
  rhsContracting := [0]
  lhsNonContracting := [0]
  rhsNonContracting := [1]
  lhsBatch := []
  rhsBatch := []
  wf := dot_S50000x11_S11x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The idealized kernel program's run with its two results named.

  Every weakly fair execution of @main terminates, nothing faulting, and in the final state each of the two result
  buffers holds what the last segment boundary's contents say it holds, while the sixteen argument arrays are as
  launched. The final thread state holds every unscoped buffer at the last boundary's contents, so a result buffer is
  read there exactly as an argument buffer is.
-/
import proofs.«122893_j59708635349187_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eight segments, read at the two result buffers and at the arguments. -/
theorem run_named : θ_run defs (onTc (τ := τ) (main (F := F))) ⟨m, fun _ => 0, ρ⟩ (fun r => ∀ c : Dev nD,
      r.2.mem ((c.tc : Thread nD τ).loc main_v240) = W8 m ρ c (Proc.devRef .tc main_v240)
      ∧ r.2.mem ((c.tc : Thread nD τ).loc main_v245) = W8 m ρ c (Proc.devRef .tc main_v245)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v240 (by decide)),
       h c _ (mem_uc main_v245 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.KRun

end
-- ==== Proof.Spec.lean ====
/-
  The layer functions of the two-layer heterogeneous SAGE network, entry by entry, over the extended reals.

  For one destination node type a layer takes two aggregated means `m1`, `m2` (one per edge type arriving at that
  node type), the destination's own features `x`, one left weight per mean, ONE right weight and ONE bias row, and
  returns, at row `p` and column `q`,
      max ( Σ_c m1[p,c]·wl1[c,q] + Σ_c m2[p,c]·wl2[c,q] + Σ_c x[p,c]·wr[c,q] + b[0,q] , 0 ),
  the sums grouped from the left in this order. The last layer is followed by a linear read-out,
      Σ_c hid[p,c]·wlin[c,q] + blin[0,q].
  Everything is stated over arbitrary extents `n` (rows), `k` (input width), `h` (hidden width), `o` (output width).
-/
import Idealize.ShloMosaic.PureOps.Ideal
import Idealize.ShloMosaic.Lib.ValueIdx

noncomputable section

open scoped BigOperators

namespace Cert.Sage

open Idealize.ShloMosaic Idealize.ShloMosaic.ValueIdx

variable {n k h o : Nat}

/-- The fused layer at row `p`, column `q`. -/
def fusedAt (m1 m2 x : (⟨2, ![n, k]⟩ : Shape).Idx → EReal) (wl1 wl2 wr : (⟨2, ![k, h]⟩ : Shape).Idx → EReal)
    (b : (⟨2, ![1, h]⟩ : Shape).Idx → EReal) (p : Fin n) (q : Fin h) : EReal :=
  max ((((∑ c : Fin k, m1 (ix2 p c) * wl1 (ix2 c q)) + ∑ c : Fin k, m2 (ix2 p c) * wl2 (ix2 c q))
        + ∑ c : Fin k, x (ix2 p c) * wr (ix2 c q)) + b (ix2 0 q)) 0

/-- The fused layer as a whole array. -/
def fused (m1 m2 x : (⟨2, ![n, k]⟩ : Shape).Idx → EReal) (wl1 wl2 wr : (⟨2, ![k, h]⟩ : Shape).Idx → EReal)
    (b : (⟨2, ![1, h]⟩ : Shape).Idx → EReal) : (⟨2, ![n, h]⟩ : Shape).Idx → EReal :=
  fun i => fusedAt m1 m2 x wl1 wl2 wr b (i 0) (i 1)

theorem fused_apply (m1 m2 x : (⟨2, ![n, k]⟩ : Shape).Idx → EReal) (wl1 wl2 wr : (⟨2, ![k, h]⟩ : Shape).Idx → EReal)
    (b : (⟨2, ![1, h]⟩ : Shape).Idx → EReal) (p : Fin n) (q : Fin h) :
    fused m1 m2 x wl1 wl2 wr b (ix2 p q) = fusedAt m1 m2 x wl1 wl2 wr b p q := rfl

/-- The linear read-out at row `p`, column `q`. -/
def projAt (hid : (⟨2, ![n, h]⟩ : Shape).Idx → EReal) (wlin : (⟨2, ![h, o]⟩ : Shape).Idx → EReal)
    (blin : (⟨2, ![1, o]⟩ : Shape).Idx → EReal) (p : Fin n) (q : Fin o) : EReal :=
  (∑ c : Fin h, hid (ix2 p c) * wlin (ix2 c q)) + blin (ix2 0 q)

/-- The linear read-out as a whole array. -/
def proj (hid : (⟨2, ![n, h]⟩ : Shape).Idx → EReal) (wlin : (⟨2, ![h, o]⟩ : Shape).Idx → EReal)
    (blin : (⟨2, ![1, o]⟩ : Shape).Idx → EReal) : (⟨2, ![n, o]⟩ : Shape).Idx → EReal :=
  fun i => projAt hid wlin blin (i 0) (i 1)

theorem proj_apply (hid : (⟨2, ![n, h]⟩ : Shape).Idx → EReal) (wlin : (⟨2, ![h, o]⟩ : Shape).Idx → EReal)
    (blin : (⟨2, ![1, o]⟩ : Shape).Idx → EReal) (p : Fin n) (q : Fin o) :
    proj hid wlin blin (ix2 p q) = projAt hid wlin blin p q := rfl

/-- The last layer followed by its read-out. -/
def fusedProj (m1 m2 x : (⟨2, ![n, k]⟩ : Shape).Idx → EReal) (wl1 wl2 wr : (⟨2, ![k, h]⟩ : Shape).Idx → EReal)
    (b : (⟨2, ![1, h]⟩ : Shape).Idx → EReal) (wlin : (⟨2, ![h, o]⟩ : Shape).Idx → EReal)
    (blin : (⟨2, ![1, o]⟩ : Shape).Idx → EReal) : (⟨2, ![n, o]⟩ : Shape).Idx → EReal :=
  proj (fused m1 m2 x wl1 wl2 wr b) wlin blin

end Cert.Sage

end
-- ==== Proof.FusedRows.lean ====
/-
  The fused layer of a ROW TILE. A tile holds some rows of each of the three row arrays; the layer's entry (p, q) on
  the tiles only reads row p of each tile, so when row p of every tile is row r of its array the tile's entry (p, q) is
  the arrays' entry (r, q): the three sums have the same terms. The weights and the bias row are shared.
-/
import proofs.«122893_j59708635349187_2_alg».proof.Proof.Spec

noncomputable section

open scoped BigOperators

namespace Cert.Sage

open Idealize.ShloMosaic Idealize.ShloMosaic.ValueIdx

variable {n n' k h : Nat}

/-- Entry (p, q) of the fused layer on tiles whose row p is row r of the arrays is the arrays' entry (r, q). -/
theorem fusedAt_of_rows (m1 m2 x : (⟨2, ![n, k]⟩ : Shape).Idx → EReal) (t1 t2 tx : (⟨2, ![n', k]⟩ : Shape).Idx → EReal)
    (wl1 wl2 wr : (⟨2, ![k, h]⟩ : Shape).Idx → EReal) (b : (⟨2, ![1, h]⟩ : Shape).Idx → EReal)
    (p : Fin n') (r : Fin n) (q : Fin h)
    (h1 : ∀ c : Fin k, t1 (ix2 p c) = m1 (ix2 r c)) (h2 : ∀ c : Fin k, t2 (ix2 p c) = m2 (ix2 r c))
    (h3 : ∀ c : Fin k, tx (ix2 p c) = x (ix2 r c)) :
    fusedAt t1 t2 tx wl1 wl2 wr b p q = fusedAt m1 m2 x wl1 wl2 wr b r q := by
  unfold fusedAt
  simp only [h1, h2, h3]

end Cert.Sage

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Region0Payload.lean ====
/-
  The body of region 0 at one entry. The body rounds its three row tiles and three weights to bf16 (the identity on
  the extended reals), multiplies each tile by its weight into a zero accumulator, adds the three products from the
  left, adds the bias row broadcast over the rows, takes the maximum with zero and rounds to bf16. Read at row p and
  column q of the tile this is the fused layer of Spec.lean on the tile's extents:
      max ( Σ_c x0[p,c]·w0[c,q] + Σ_c x1[p,c]·w1[c,q] + Σ_c x2[p,c]·w2[c,q] + b[0,q] , 0 ).
-/
import proofs.«122893_j59708635349187_2_alg».proof.Proof.Gen.KernelIdeal.Skeleton
import proofs.«122893_j59708635349187_2_alg».proof.Proof.Spec
import proofs.«122893_j59708635349187_2_alg».proof.Proof.LibTileMatmul
import Idealize.ShloMosaic.Lib.Pipeline.Value

noncomputable section

open scoped BigOperators

namespace Cert.KernelIdeal.Region0

open Cert.KernelIdeal Cert.KernelIdeal.Gen Idealize.ShloMosaic Idealize.ShloMosaic.ValueIdx Idealize.ShloMosaic.TileMatmul

/-- One of the body's three products, a [5000, 11] tile against an [11, 64] weight into the zero accumulator, at
    (p, q): the sum over the contracted coordinate of the products of the entries. -/
theorem matmul_tile (A : FVec Ideal S5000x11 .bf16) (B : FVec Ideal S11x64 .bf16) (p : Fin 5000) (q : Fin 64) :
    matmul (F := Ideal) dot_S5000x11_S11x64_S5000x64_1_0_0_1_n_n none A B (constant (F := Ideal) S5000x64 .f32 0x00000000#32) (ix2 p q)
      = ∑ c : Fin 11, A (ix2 p c) * B (ix2 c q) :=
  matmul_zero_apply Facts₀.dot_S5000x11_S11x64_S5000x64_1_0_0_1_n_n_wf none A B p q

/-- THE BODY AT AN ENTRY: what the body stores, at row p and column q of the tile, is the fused layer of the loaded
    tiles, weights and bias row there. -/
theorem payload_apply (x0 x1 x2 : Vec Ideal S5000x11 .f32) (w0 w1 w2 : Vec Ideal S11x64 .f32) (b : Vec Ideal S1x64 .f32)
    (p : Fin 5000) (q : Fin 64) :
    k0_pay1 (F := Ideal) x0 x1 x2 w0 w1 w2 b (ix2 p q) = Cert.Sage.fusedAt x0 x1 x2 w0 w1 w2 b p q := by
  unfold k0_pay1 Cert.Sage.fusedAt
  simp only [shapeCast_self]
  -- the bias row [1, 64] broadcast over the 5000 rows reads its column q
  have hb : broadcastTo S5000x64 b broadcasts_S1x64_S5000x64 (ix2 p q) = b (ix2 0 q) :=
    broadcastTo_apply b broadcasts_S1x64_S5000x64 (ix2 p q) (ix2 0 q) fun a => by
      match a with
      | ⟨0, _⟩ => rfl
      | ⟨1, _⟩ => rfl
  -- the zero word is the extended real zero
  have hzero : (FloatOps.ofBits (F := Ideal) FTy.f32 0#32 : EReal) = 0 := Ideal.ofBits_zero_f32
  simp only [truncf_apply, maximumf_apply, addf_apply, broadcast_apply, matmul_tile, hb, hzero]

end Cert.KernelIdeal.Region0

end
-- ==== Proof.Region0Blocks.lean ====
/-
  Region 0's windows, block by block. The grid has ten points; at point t every row window (the two aggregated
  means, the destination's features, the output) holds rows 5000·t … 5000·t + 4999 of its array, all columns, and
  every weight window and the bias window holds its whole array. So a row window's block read off an array A is, at
  (p, c), A at (5000·t + p, c); a weight's or the bias's block read off its array is the array; and element (p, q) of
  the output's block sits in the output array at (5000·t + p, q).
-/
import proofs.«122893_j59708635349187_2_alg».proof.Proof.Gen.KernelIdeal.Frame
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx Idealize.SL.Sem

/-- The zero offsets of a whole-buffer access, however spelt. -/
theorem hz : (![0, 0] : Fin 2 → Nat) = fun _ => 0 := funext fun a => by fin_cases a <;> rfl

/-- The printed index maps over the grid's ten points, decided: a row window's block index at point t is (t, 0), a
    weight's or the bias's is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the tile at point t is a row of the array: ten tiles of 5000 rows. -/
theorem row_lt (t : Fin cfg0.N) (p : Fin 5000) : t.val * 5000 + p.val < 50000 := by
  have h : t.val < 10 := t.isLt
  have := p.isLt; omega

/-- The first aggregated mean's block at point t, read off an array A: rows 5000·t … of A. -/
theorem rows_read0 (A : S50000x11.Idx → EReal) (t : Fin cfg0.N) (p : Fin 5000) (c : Fin 11) :
    ((cfg0.win 0).blk t).view.read (Elt Ideal) A (ix2 p c) = A (ix2 ⟨t.val * 5000 + p.val, row_lt t p⟩ c) := by
  obtain ⟨e0, e1, -⟩ := idx_facts t
  show A (((cfg0.win 0).blk t).view.emb (ix2 p c)) = _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 11 + 1 * c.val = c.val; rw [e1]; omega

/-- The second aggregated mean's block at point t, read off an array A: rows 5000·t … of A. -/
theorem rows_read1 (A : S50000x11.Idx → EReal) (t : Fin cfg0.N) (p : Fin 5000) (c : Fin 11) :
    ((cfg0.win 1).blk t).view.read (Elt Ideal) A (ix2 p c) = A (ix2 ⟨t.val * 5000 + p.val, row_lt t p⟩ c) := by
  obtain ⟨-, -, e0, e1, -⟩ := idx_facts t
  show A (((cfg0.win 1).blk t).view.emb (ix2 p c)) = _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 11 + 1 * c.val = c.val; rw [e1]; omega

/-- The destination features' block at point t, read off an array A: rows 5000·t … of A. -/
theorem rows_read2 (A : S50000x11.Idx → EReal) (t : Fin cfg0.N) (p : Fin 5000) (c : Fin 11) :
    ((cfg0.win 2).blk t).view.read (Elt Ideal) A (ix2 p c) = A (ix2 ⟨t.val * 5000 + p.val, row_lt t p⟩ c) := by
  obtain ⟨-, -, -, -, e0, e1, -⟩ := idx_facts t
  show A (((cfg0.win 2).blk t).view.emb (ix2 p c)) = _
  refine congrArg A (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 11 + 1 * c.val = c.val; rw [e1]; omega

/-- The first left weight's block at any point, read off an array W, is W. -/
theorem whole_read3 (W : S11x64.Idx → EReal) (t : Fin cfg0.N) :
    ((cfg0.win 3).blk t).view.read (Elt Ideal) W = W := by
  obtain ⟨-, -, -, -, -, -, e0, e1, -⟩ := idx_facts t
  funext j
  show W (((cfg0.win 3).blk t).view.emb j) = W j
  refine congrArg W (funext fun a => Fin.ext ?_)
  match a with
  | ⟨0, _⟩ => show win0_3.index t (0 : Fin 2) * 11 + 1 * (j 0).val = (j 0).val; rw [e0]; omega
  | ⟨1, _⟩ => show win0_3.index t (1 : Fin 2) * 64 + 1 * (j 1).val = (j 1).val; rw [e1]; omega

/-- The second left weight's block at any point, read off an array W, is W. -/
theorem whole_read4 (W : S11x64.Idx → EReal) (t : Fin cfg0.N) :
    ((cfg0.win 4).blk t).view.read (Elt Ideal) W = W := by
  obtain ⟨-, -, -, -, -, -, -, -, e0, e1, -⟩ := idx_facts t
  funext j
  show W (((cfg0.win 4).blk t).view.emb j) = W j
  refine congrArg W (funext fun a => Fin.ext ?_)
  match a with
  | ⟨0, _⟩ => show win0_4.index t (0 : Fin 2) * 11 + 1 * (j 0).val = (j 0).val; rw [e0]; omega
  | ⟨1, _⟩ => show win0_4.index t (1 : Fin 2) * 64 + 1 * (j 1).val = (j 1).val; rw [e1]; omega

/-- The right weight's block at any point, read off an array W, is W. -/
theorem whole_read5 (W : S11x64.Idx → EReal) (t : Fin cfg0.N) :
    ((cfg0.win 5).blk t).view.read (Elt Ideal) W = W := by
  obtain ⟨-, -, -, -, -, -, -, -, -, -, e0, e1, -⟩ := idx_facts t
  funext j
  show W (((cfg0.win 5).blk t).view.emb j) = W j
  refine congrArg W (funext fun a => Fin.ext ?_)
  match a with
  | ⟨0, _⟩ => show win0_5.index t (0 : Fin 2) * 11 + 1 * (j 0).val = (j 0).val; rw [e0]; omega
  | ⟨1, _⟩ => show win0_5.index t (1 : Fin 2) * 64 + 1 * (j 1).val = (j 1).val; rw [e1]; omega

/-- The bias row's block at any point, read off an array B, is B. -/
theorem whole_read6 (B : S1x64.Idx → EReal) (t : Fin cfg0.N) :
    ((cfg0.win 6).blk t).view.read (Elt Ideal) B = B := by
  obtain ⟨-, -, -, -, -, -, -, -, -, -, -, -, e0, e1, -⟩ := idx_facts t
  funext j
  show B (((cfg0.win 6).blk t).view.emb j) = B j
  refine congrArg B (funext fun a => Fin.ext ?_)
  match a with
  | ⟨0, _⟩ => show win0_6.index t (0 : Fin 2) * 1 + 1 * (j 0).val = (j 0).val; rw [e0]; omega
  | ⟨1, _⟩ => show win0_6.index t (1 : Fin 2) * 64 + 1 * (j 1).val = (j 1).val; rw [e1]; omega

/-- Element (p, q) of the output's block at point t sits in the output array at row 5000·t + p, column q. -/
theorem out_emb (t : Fin cfg0.N) (p : Fin 5000) (q : Fin 64) :
    ((cfg0.win 7).blk t).view.emb (ix2 p q) = (ix2 ⟨t.val * 5000 + p.val, row_lt t p⟩ q : S50000x64.Idx) := by
  obtain ⟨-, -, -, -, -, -, -, -, -, -, -, -, -, -, e0, e1⟩ := idx_facts t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 64 + 1 * q.val = q.val; rw [e1]; omega

/-- So the output's block at point t, read off an array G, is at (p, q) the array at (5000·t + p, q). -/
theorem out_read (G : S50000x64.Idx → EReal) (t : Fin cfg0.N) (p : Fin 5000) (q : Fin 64) :
    ((cfg0.win 7).blk t).view.read (Elt Ideal) G (ix2 p q) = G (ix2 ⟨t.val * 5000 + p.val, row_lt t p⟩ q) := by
  show G (((cfg0.win 7).blk t).view.emb (ix2 p q)) = _
  rw [out_emb]

/-- What a write-back of the output's staging buffer moves is the whole buffer: the window is never cut at the array's
    end. -/
theorem out_cut (X : S5000x64.Idx → EReal) (t : Fin cfg0.N) (p : Fin 5000) (q : Fin 64) :
    (cfg0.win 7).cut (grid0.coords t) X (ix2 p q) = X (ix2 p q) := by
  show X ((cfg0.win 7).xinj (grid0.coords t) (ix2 p q)) = _
  refine congrArg X (funext fun a => Fin.ext ?_)
  match a with
  | ⟨0, _⟩ => rfl
  | ⟨1, _⟩ => rfl

/-- An index of the output array is in point t's block iff each coordinate is in the block's range on its axis. -/
theorem mem_blk (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v134).slice (win0_7.rect t)).set ↔ _
  rw [View.set_slice_whole, Rect.mem_set_unit]
  exact Iff.rfl

/-- THE COVER: every row r of the output array is in the block of point r / 5000. -/
theorem cover (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : (i 0).val / 5000 < cfg0.N := by show (i 0).val / 5000 < 10; omega
  refine ⟨⟨(i 0).val / 5000, hN⟩, flush0_7 _, ?_⟩
  obtain ⟨-, -, -, -, -, -, -, -, -, -, -, -, -, -, e0, e1⟩ := idx_facts ⟨(i 0).val / 5000, hN⟩
  rw [mem_blk]
  intro a
  match a with
  | ⟨0, _⟩ =>
    show win0_7.index ⟨(i 0).val / 5000, hN⟩ (0 : Fin 2) * 5000 ≤ (i 0).val ∧ (i 0).val < win0_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hN⟩ (1 : Fin 2) * 64 ≤ (i 1).val ∧ (i 1).val < win0_7.index ⟨(i 0).val / 5000, hN⟩ (1 : Fin 2) * 64 + 64
    rw [e1]; omega

end Cert.KernelIdeal.Region0

end
-- ==== Proof.Region0.lean ====
/-
  Region 0 of the kernel program: the first layer's fused map for one destination node type. After the whole grid of
  ten row tiles the region's output array is the layer function of Spec.lean applied to the region's seven input arrays
  as the region finds them: entry (r, q) is
      max ( Σ_c m1[r,c]·wl1[c,q] + Σ_c m2[r,c]·wl2[c,q] + Σ_c x[r,c]·wr[c,q] + b[0,q] , 0 ).
  At grid point t the body stores the fused layer of the tiles it loaded; the three row tiles are rows
  5000·t … 5000·t + 4999 of their arrays and the weights and bias are whole, so what point t writes back is rows
  5000·t … of the fused layer of the arrays; the ten blocks cover the output's 50000 rows.
-/
import proofs.«122893_j59708635349187_2_alg».proof.Proof.Gen.KernelIdeal.Frame
import proofs.«122893_j59708635349187_2_alg».proof.Proof.Spec
import proofs.«122893_j59708635349187_2_alg».proof.Proof.FusedRows
import proofs.«122893_j59708635349187_2_alg».proof.Proof.Region0Payload
import proofs.«122893_j59708635349187_2_alg».proof.Proof.Region0Blocks
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-- ONE GRID POINT, over any tiles and arrays. If the three row tiles are rows 5000·t … of three arrays and the weight
    and bias tiles are their arrays, the part of the body's result that point t writes back is the output's block at t
    read off the fused layer of the arrays. -/
theorem point_eq (t : Fin cfg0.N) (A0 A1 A2 : S50000x11.Idx → EReal) (W0 W1 W2 : S11x64.Idx → EReal) (B : S1x64.Idx → EReal)
    (T0 T1 T2 : Vec Ideal S5000x11 .f32) (U0 U1 U2 : Vec Ideal S11x64 .f32) (Bt : Vec Ideal S1x64 .f32)
    (h0 : ∀ (p : Fin 5000) (k : Fin 11), T0 (ix2 p k) = A0 (ix2 ⟨t.val * 5000 + p.val, row_lt t p⟩ k))
    (h1 : ∀ (p : Fin 5000) (k : Fin 11), T1 (ix2 p k) = A1 (ix2 ⟨t.val * 5000 + p.val, row_lt t p⟩ k))
    (h2 : ∀ (p : Fin 5000) (k : Fin 11), T2 (ix2 p k) = A2 (ix2 ⟨t.val * 5000 + p.val, row_lt t p⟩ k))
    (hU0 : U0 = W0) (hU1 : U1 = W1) (hU2 : U2 = W2) (hB : Bt = B) :
    (cfg0.win 7).cut (grid0.coords t) (k0_pay1 (F := Ideal) T0 T1 T2 U0 U1 U2 Bt)
      = ((cfg0.win 7).blk t).view.read (Elt Ideal) (Cert.Sage.fused A0 A1 A2 W0 W1 W2 B) := by
  subst hU0 hU1 hU2 hB
  funext j
  obtain ⟨p, q, rfl⟩ : ∃ (p : Fin 5000) (q : Fin 64), j = ix2 p q := ⟨j 0, j 1, eq_ix2 j⟩
  refine (out_cut (k0_pay1 (F := Ideal) T0 T1 T2 U0 U1 U2 Bt) t p q).trans ?_
  refine Eq.trans ?_ (out_read (Cert.Sage.fused A0 A1 A2 U0 U1 U2 Bt) t p q).symm
  rw [payload_apply, Cert.Sage.fused_apply]
  exact Cert.Sage.fusedAt_of_rows A0 A1 A2 T0 T1 T2 U0 U1 U2 Bt p ⟨t.val * 5000 + p.val, row_lt t p⟩ q (h0 p) (h1 p) (h2 p)

/-- WHAT POINT t WRITES BACK is the output's block at t of the fused layer of the input arrays at region entry. -/
theorem flushed_eq (V : (c : Dev nD) → (b : Ref sig .tc) → Buf (Elt Ideal) ((c : Thread nD τ).loc b)) (c : Dev nD) (t : Fin cfg0.N) :
    (Gen.dat0 (F := Ideal) V c).flushed 7 t
      = ((cfg0.win 7).blk t).view.read (Elt Ideal)
          (Cert.Sage.fused (V c main_v56) (V c main_v73) (V c main_arg0) (V c main_v131) (V c main_v133) (V c main_v112) (V c main_v123)) := by
  show (cfg0.win 7).cut (grid0.coords t) ((Gen.dat0 V c).after 7 t) = _
  rw [Gen.after0_7]
  unfold Gen.out0_7
  rw [View.canon_unit_zero hz]
  simp only [View.ld_unit_zero (S := S5000x11) hz, View.ld_unit_zero (S := S11x64) hz, View.ld_unit_zero (S := S1x64) hz]
  exact point_eq t (V c main_v56) (V c main_v73) (V c main_arg0) (V c main_v131) (V c main_v133) (V c main_v112) (V c main_v123)
    (Gen.iblk0 V c 0 t) (Gen.iblk0 V c 1 t) (Gen.iblk0 V c 2 t) (Gen.iblk0 V c 3 t) (Gen.iblk0 V c 4 t) (Gen.iblk0 V c 5 t) (Gen.iblk0 V c 6 t)
    (fun p k => rows_read0 (V c main_v56) t p k) (fun p k => rows_read1 (V c main_v73) t p k) (fun p k => rows_read2 (V c main_arg0) t p k)
    (whole_read3 (V c main_v131) t) (whole_read4 (V c main_v133) t) (whole_read5 (V c main_v112) t) (whole_read6 (V c main_v123) t)

/-- THE REGION'S VALUE: after the grid, the output array is the fused layer of the input arrays at region entry. -/
theorem value (V : (c : Dev nD) → (b : Ref sig .tc) → Buf (Elt Ideal) ((c : Thread nD τ).loc b)) (c : Dev nD) :
    (Gen.dat0 (F := Ideal) V c).arrAt 7 cfg0.N
      = Cert.Sage.fused (V c main_v56) (V c main_v73) (V c main_arg0) (V c main_v131) (V c main_v133) (V c main_v112) (V c main_v123) :=
  (Gen.dat0 (F := Ideal) V c).arrAt_eq_of_cover 7
    (Cert.Sage.fused (V c main_v56) (V c main_v73) (V c main_arg0) (V c main_v131) (V c main_v133) (V c main_v112) (V c main_v123))
    (fun t _ => flushed_eq V c t) cover

end Cert.KernelIdeal.Region0

end
-- ==== Proof.Region1Payload.lean ====
/-
  The body of region 1 at one entry. The body rounds its three row tiles and three weights to bf16 (the identity on
  the extended reals), multiplies each tile by its weight into a zero accumulator, adds the three products from the
  left, adds the bias row broadcast over the rows, takes the maximum with zero and rounds to bf16. Read at row p and
  column q of the tile this is the fused layer of Spec.lean on the tile's extents:
      max ( Σ_c x0[p,c]·w0[c,q] + Σ_c x1[p,c]·w1[c,q] + Σ_c x2[p,c]·w2[c,q] + b[0,q] , 0 ).
-/
import proofs.«122893_j59708635349187_2_alg».proof.Proof.Gen.KernelIdeal.Skeleton
import proofs.«122893_j59708635349187_2_alg».proof.Proof.Spec
import proofs.«122893_j59708635349187_2_alg».proof.Proof.LibTileMatmul
import Idealize.ShloMosaic.Lib.Pipeline.Value

noncomputable section

open scoped BigOperators

namespace Cert.KernelIdeal.Region1

open Cert.KernelIdeal Cert.KernelIdeal.Gen Idealize.ShloMosaic Idealize.ShloMosaic.ValueIdx Idealize.ShloMosaic.TileMatmul

/-- One of the body's three products, a [5000, 11] tile against an [11, 64] weight into the zero accumulator, at
    (p, q): the sum over the contracted coordinate of the products of the entries. -/
theorem matmul_tile (A : FVec Ideal S5000x11 .bf16) (B : FVec Ideal S11x64 .bf16) (p : Fin 5000) (q : Fin 64) :
    matmul (F := Ideal) dot_S5000x11_S11x64_S5000x64_1_0_0_1_n_n none A B (constant (F := Ideal) S5000x64 .f32 0x00000000#32) (ix2 p q)
      = ∑ c : Fin 11, A (ix2 p c) * B (ix2 c q) :=
  matmul_zero_apply Facts₀.dot_S5000x11_S11x64_S5000x64_1_0_0_1_n_n_wf none A B p q

/-- THE BODY AT AN ENTRY: what the body stores, at row p and column q of the tile, is the fused layer of the loaded
    tiles, weights and bias row there. -/
theorem payload_apply (x0 x1 x2 : Vec Ideal S5000x11 .f32) (w0 w1 w2 : Vec Ideal S11x64 .f32) (b : Vec Ideal S1x64 .f32)
    (p : Fin 5000) (q : Fin 64) :
    k1_pay1 (F := Ideal) x0 x1 x2 w0 w1 w2 b (ix2 p q) = Cert.Sage.fusedAt x0 x1 x2 w0 w1 w2 b p q := by
  unfold k1_pay1 Cert.Sage.fusedAt
  simp only [shapeCast_self]
  -- the bias row [1, 64] broadcast over the 5000 rows reads its column q
  have hb : broadcastTo S5000x64 b broadcasts_S1x64_S5000x64 (ix2 p q) = b (ix2 0 q) :=
    broadcastTo_apply b broadcasts_S1x64_S5000x64 (ix2 p q) (ix2 0 q) fun a => by
      match a with
      | ⟨0, _⟩ => rfl
      | ⟨1, _⟩ => rfl
  -- the zero word is the extended real zero
  have hzero : (FloatOps.ofBits (F := Ideal) FTy.f32 0#32 : EReal) = 0 := Ideal.ofBits_zero_f32
  simp only [truncf_apply, maximumf_apply, addf_apply, broadcast_apply, matmul_tile, hb, hzero]

end Cert.KernelIdeal.Region1

end
-- ==== Proof.Region1Blocks.lean ====
/-
  Region 1's windows, block by block. The grid has ten points; at point t every row window (the two aggregated
  means, the destination's features, the output) holds rows 5000·t … 5000·t + 4999 of its array, all columns, and
  every weight window and the bias window holds its whole array. So a row window's block read off an array A is, at
  (p, c), A at (5000·t + p, c); a weight's or the bias's block read off its array is the array; and element (p, q) of
  the output's block sits in the output array at (5000·t + p, q).
-/
import proofs.«122893_j59708635349187_2_alg».proof.Proof.Gen.KernelIdeal.Frame
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx Idealize.SL.Sem

/-- The zero offsets of a whole-buffer access, however spelt. -/
theorem hz : (![0, 0] : Fin 2 → Nat) = fun _ => 0 := funext fun a => by fin_cases a <;> rfl

/-- The printed index maps over the grid's ten points, decided: a row window's block index at point t is (t, 0), a
    weight's or the bias's is (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the tile at point t is a row of the array: ten tiles of 5000 rows. -/
theorem row_lt (t : Fin cfg1.N) (p : Fin 5000) : t.val * 5000 + p.val < 50000 := by
  have h : t.val < 10 := t.isLt
  have := p.isLt; omega

/-- The first aggregated mean's block at point t, read off an array A: rows 5000·t … of A. -/
theorem rows_read0 (A : S50000x11.Idx → EReal) (t : Fin cfg1.N) (p : Fin 5000) (c : Fin 11) :
    ((cfg1.win 0).blk t).view.read (Elt Ideal) A (ix2 p c) = A (ix2 ⟨t.val * 5000 + p.val, row_lt t p⟩ c) := by
  obtain ⟨e0, e1, -⟩ := idx_facts t
  show A (((cfg1.win 0).blk t).view.emb (ix2 p c)) = _
  refine congrArg A (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 11 + 1 * c.val = c.val; rw [e1]; omega

/-- The second aggregated mean's block at point t, read off an array A: rows 5000·t … of A. -/
theorem rows_read1 (A : S50000x11.Idx → EReal) (t : Fin cfg1.N) (p : Fin 5000) (c : Fin 11) :
    ((cfg1.win 1).blk t).view.read (Elt Ideal) A (ix2 p c) = A (ix2 ⟨t.val * 5000 + p.val, row_lt t p⟩ c) := by
  obtain ⟨-, -, e0, e1, -⟩ := idx_facts t
  show A (((cfg1.win 1).blk t).view.emb (ix2 p c)) = _
  refine congrArg A (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 11 + 1 * c.val = c.val; rw [e1]; omega

/-- The destination features' block at point t, read off an array A: rows 5000·t … of A. -/
theorem rows_read2 (A : S50000x11.Idx → EReal) (t : Fin cfg1.N) (p : Fin 5000) (c : Fin 11) :
    ((cfg1.win 2).blk t).view.read (Elt Ideal) A (ix2 p c) = A (ix2 ⟨t.val * 5000 + p.val, row_lt t p⟩ c) := by
  obtain ⟨-, -, -, -, e0, e1, -⟩ := idx_facts t
  show A (((cfg1.win 2).blk t).view.emb (ix2 p c)) = _
  refine congrArg A (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 11 + 1 * c.val = c.val; rw [e1]; omega

/-- The first left weight's block at any point, read off an array W, is W. -/
theorem whole_read3 (W : S11x64.Idx → EReal) (t : Fin cfg1.N) :
    ((cfg1.win 3).blk t).view.read (Elt Ideal) W = W := by
  obtain ⟨-, -, -, -, -, -, e0, e1, -⟩ := idx_facts t
  funext j
  show W (((cfg1.win 3).blk t).view.emb j) = W j
  refine congrArg W (funext fun a => Fin.ext ?_)
  match a with
  | ⟨0, _⟩ => show win1_3.index t (0 : Fin 2) * 11 + 1 * (j 0).val = (j 0).val; rw [e0]; omega
  | ⟨1, _⟩ => show win1_3.index t (1 : Fin 2) * 64 + 1 * (j 1).val = (j 1).val; rw [e1]; omega

/-- The second left weight's block at any point, read off an array W, is W. -/
theorem whole_read4 (W : S11x64.Idx → EReal) (t : Fin cfg1.N) :
    ((cfg1.win 4).blk t).view.read (Elt Ideal) W = W := by
  obtain ⟨-, -, -, -, -, -, -, -, e0, e1, -⟩ := idx_facts t
  funext j
  show W (((cfg1.win 4).blk t).view.emb j) = W j
  refine congrArg W (funext fun a => Fin.ext ?_)
  match a with
  | ⟨0, _⟩ => show win1_4.index t (0 : Fin 2) * 11 + 1 * (j 0).val = (j 0).val; rw [e0]; omega
  | ⟨1, _⟩ => show win1_4.index t (1 : Fin 2) * 64 + 1 * (j 1).val = (j 1).val; rw [e1]; omega

/-- The right weight's block at any point, read off an array W, is W. -/
theorem whole_read5 (W : S11x64.Idx → EReal) (t : Fin cfg1.N) :
    ((cfg1.win 5).blk t).view.read (Elt Ideal) W = W := by
  obtain ⟨-, -, -, -, -, -, -, -, -, -, e0, e1, -⟩ := idx_facts t
  funext j
  show W (((cfg1.win 5).blk t).view.emb j) = W j
  refine congrArg W (funext fun a => Fin.ext ?_)
  match a with
  | ⟨0, _⟩ => show win1_5.index t (0 : Fin 2) * 11 + 1 * (j 0).val = (j 0).val; rw [e0]; omega
  | ⟨1, _⟩ => show win1_5.index t (1 : Fin 2) * 64 + 1 * (j 1).val = (j 1).val; rw [e1]; omega

/-- The bias row's block at any point, read off an array B, is B. -/
theorem whole_read6 (B : S1x64.Idx → EReal) (t : Fin cfg1.N) :
    ((cfg1.win 6).blk t).view.read (Elt Ideal) B = B := by
  obtain ⟨-, -, -, -, -, -, -, -, -, -, -, -, e0, e1, -⟩ := idx_facts t
  funext j
  show B (((cfg1.win 6).blk t).view.emb j) = B j
  refine congrArg B (funext fun a => Fin.ext ?_)
  match a with
  | ⟨0, _⟩ => show win1_6.index t (0 : Fin 2) * 1 + 1 * (j 0).val = (j 0).val; rw [e0]; omega
  | ⟨1, _⟩ => show win1_6.index t (1 : Fin 2) * 64 + 1 * (j 1).val = (j 1).val; rw [e1]; omega

/-- Element (p, q) of the output's block at point t sits in the output array at row 5000·t + p, column q. -/
theorem out_emb (t : Fin cfg1.N) (p : Fin 5000) (q : Fin 64) :
    ((cfg1.win 7).blk t).view.emb (ix2 p q) = (ix2 ⟨t.val * 5000 + p.val, row_lt t p⟩ q : S50000x64.Idx) := by
  obtain ⟨-, -, -, -, -, -, -, -, -, -, -, -, -, -, e0, e1⟩ := idx_facts t
  refine funext fun a => Fin.ext ?_
  match a with
  | ⟨0, _⟩ => show win1_7.index t (0 : Fin 2) * 5000 + 1 * p.val = t.val * 5000 + p.val; rw [e0]; omega
  | ⟨1, _⟩ => show win1_7.index t (1 : Fin 2) * 64 + 1 * q.val = q.val; rw [e1]; omega

/-- So the output's block at point t, read off an array G, is at (p, q) the array at (5000·t + p, q). -/
theorem out_read (G : S50000x64.Idx → EReal) (t : Fin cfg1.N) (p : Fin 5000) (q : Fin 64) :
    ((cfg1.win 7).blk t).view.read (Elt Ideal) G (ix2 p q) = G (ix2 ⟨t.val * 5000 + p.val, row_lt t p⟩ q) := by
  show G (((cfg1.win 7).blk t).view.emb (ix2 p q)) = _
  rw [out_emb]

/-- What a write-back of the output's staging buffer moves is the whole buffer: the window is never cut at the array's
    end. -/
theorem out_cut (X : S5000x64.Idx → EReal) (t : Fin cfg1.N) (p : Fin 5000) (q : Fin 64) :
    (cfg1.win 7).cut (grid1.coords t) X (ix2 p q) = X (ix2 p q) := by
  show X ((cfg1.win 7).xinj (grid1.coords t) (ix2 p q)) = _
  refine congrArg X (funext fun a => Fin.ext ?_)
  match a with
  | ⟨0, _⟩ => rfl
  | ⟨1, _⟩ => rfl

/-- An index of the output array is in point t's block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v139).slice (win1_7.rect t)).set ↔ _
  rw [View.set_slice_whole, Rect.mem_set_unit]
  exact Iff.rfl

/-- THE COVER: every row r of the output array is in the block of point r / 5000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : (i 0).val / 5000 < cfg1.N := by show (i 0).val / 5000 < 10; omega
  refine ⟨⟨(i 0).val / 5000, hN⟩, flush1_7 _, ?_⟩
  obtain ⟨-, -, -, -, -, -, -, -, -, -, -, -, -, -, e0, e1⟩ := idx_facts ⟨(i 0).val / 5000, hN⟩
  rw [mem_blk]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hN⟩ (1 : Fin 2) * 64 ≤ (i 1).val ∧ (i 1).val < win1_7.index ⟨(i 0).val / 5000, hN⟩ (1 : Fin 2) * 64 + 64
    rw [e1]; omega

end Cert.KernelIdeal.Region1

end
-- ==== Proof.Region1.lean ====
/-
  Region 1 of the kernel program: the first layer's fused map for one destination node type. After the whole grid of
  ten row tiles the region's output array is the layer function of Spec.lean applied to the region's seven input arrays
  as the region finds them: entry (r, q) is
      max ( Σ_c m1[r,c]·wl1[c,q] + Σ_c m2[r,c]·wl2[c,q] + Σ_c x[r,c]·wr[c,q] + b[0,q] , 0 ).
  At grid point t the body stores the fused layer of the tiles it loaded; the three row tiles are rows
  5000·t … 5000·t + 4999 of their arrays and the weights and bias are whole, so what point t writes back is rows
  5000·t … of the fused layer of the arrays; the ten blocks cover the output's 50000 rows.
-/
import proofs.«122893_j59708635349187_2_alg».proof.Proof.Gen.KernelIdeal.Frame
import proofs.«122893_j59708635349187_2_alg».proof.Proof.Spec
import proofs.«122893_j59708635349187_2_alg».proof.Proof.FusedRows
import proofs.«122893_j59708635349187_2_alg».proof.Proof.Region1Payload
import proofs.«122893_j59708635349187_2_alg».proof.Proof.Region1Blocks
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-- ONE GRID POINT, over any tiles and arrays. If the three row tiles are rows 5000·t … of three arrays and the weight
    and bias tiles are their arrays, the part of the body's result that point t writes back is the output's block at t
    read off the fused layer of the arrays. -/
theorem point_eq (t : Fin cfg1.N) (A0 A1 A2 : S50000x11.Idx → EReal) (W0 W1 W2 : S11x64.Idx → EReal) (B : S1x64.Idx → EReal)
    (T0 T1 T2 : Vec Ideal S5000x11 .f32) (U0 U1 U2 : Vec Ideal S11x64 .f32) (Bt : Vec Ideal S1x64 .f32)
    (h0 : ∀ (p : Fin 5000) (k : Fin 11), T0 (ix2 p k) = A0 (ix2 ⟨t.val * 5000 + p.val, row_lt t p⟩ k))
    (h1 : ∀ (p : Fin 5000) (k : Fin 11), T1 (ix2 p k) = A1 (ix2 ⟨t.val * 5000 + p.val, row_lt t p⟩ k))
    (h2 : ∀ (p : Fin 5000) (k : Fin 11), T2 (ix2 p k) = A2 (ix2 ⟨t.val * 5000 + p.val, row_lt t p⟩ k))
    (hU0 : U0 = W0) (hU1 : U1 = W1) (hU2 : U2 = W2) (hB : Bt = B) :
    (cfg1.win 7).cut (grid1.coords t) (k1_pay1 (F := Ideal) T0 T1 T2 U0 U1 U2 Bt)
      = ((cfg1.win 7).blk t).view.read (Elt Ideal) (Cert.Sage.fused A0 A1 A2 W0 W1 W2 B) := by
  subst hU0 hU1 hU2 hB
  funext j
  obtain ⟨p, q, rfl⟩ : ∃ (p : Fin 5000) (q : Fin 64), j = ix2 p q := ⟨j 0, j 1, eq_ix2 j⟩
  refine (out_cut (k1_pay1 (F := Ideal) T0 T1 T2 U0 U1 U2 Bt) t p q).trans ?_
  refine Eq.trans ?_ (out_read (Cert.Sage.fused A0 A1 A2 U0 U1 U2 Bt) t p q).symm
  rw [payload_apply, Cert.Sage.fused_apply]
  exact Cert.Sage.fusedAt_of_rows A0 A1 A2 T0 T1 T2 U0 U1 U2 Bt p ⟨t.val * 5000 + p.val, row_lt t p⟩ q (h0 p) (h1 p) (h2 p)

/-- WHAT POINT t WRITES BACK is the output's block at t of the fused layer of the input arrays at region entry. -/
theorem flushed_eq (V : (c : Dev nD) → (b : Ref sig .tc) → Buf (Elt Ideal) ((c : Thread nD τ).loc b)) (c : Dev nD) (t : Fin cfg1.N) :
    (Gen.dat1 (F := Ideal) V c).flushed 7 t
      = ((cfg1.win 7).blk t).view.read (Elt Ideal)
          (Cert.Sage.fused (V c main_v90) (V c main_v107) (V c main_arg1) (V c main_v136) (V c main_v138) (V c main_v117) (V c main_v129)) := by
  show (cfg1.win 7).cut (grid1.coords t) ((Gen.dat1 V c).after 7 t) = _
  rw [Gen.after1_7]
  unfold Gen.out1_7
  rw [View.canon_unit_zero hz]
  simp only [View.ld_unit_zero (S := S5000x11) hz, View.ld_unit_zero (S := S11x64) hz, View.ld_unit_zero (S := S1x64) hz]
  exact point_eq t (V c main_v90) (V c main_v107) (V c main_arg1) (V c main_v136) (V c main_v138) (V c main_v117) (V c main_v129)
    (Gen.iblk1 V c 0 t) (Gen.iblk1 V c 1 t) (Gen.iblk1 V c 2 t) (Gen.iblk1 V c 3 t) (Gen.iblk1 V c 4 t) (Gen.iblk1 V c 5 t) (Gen.iblk1 V c 6 t)
    (fun p k => rows_read0 (V c main_v90) t p k) (fun p k => rows_read1 (V c main_v107) t p k) (fun p k => rows_read2 (V c main_arg1) t p k)
    (whole_read3 (V c main_v136) t) (whole_read4 (V c main_v138) t) (whole_read5 (V c main_v117) t) (whole_read6 (V c main_v129) t)

/-- THE REGION'S VALUE: after the grid, the output array is the fused layer of the input arrays at region entry. -/
theorem value (V : (c : Dev nD) → (b : Ref sig .tc) → Buf (Elt Ideal) ((c : Thread nD τ).loc b)) (c : Dev nD) :
    (Gen.dat1 (F := Ideal) V c).arrAt 7 cfg1.N
      = Cert.Sage.fused (V c main_v90) (V c main_v107) (V c main_arg1) (V c main_v136) (V c main_v138) (V c main_v117) (V c main_v129) :=
  (Gen.dat1 (F := Ideal) V c).arrAt_eq_of_cover 7
    (Cert.Sage.fused (V c main_v90) (V c main_v107) (V c main_arg1) (V c main_v136) (V c main_v138) (V c main_v117) (V c main_v129))
    (fun t _ => flushed_eq V c t) cover

end Cert.KernelIdeal.Region1

end
-- ==== Proof.KWalkA0.lean ====
import proofs.«122893_j59708635349187_2_alg».proof.Proof.Gen.KernelIdeal.Frame

set_option maxRecDepth 16384

noncomputable section

namespace Cert.KernelIdeal.KWalk

open Idealize.ShloMosaic Idealize.ShloMosaic.TcCoe Idealize.ShloMosaic.Tactic
open Idealize.SL Idealize.SL.Sem
open Cert.KernelIdeal.Gen

/-! # The first host stretch of the idealized kernel, cut into consecutive pieces

The 162 host operations before the first pallas region compute, from the argument arrays: the reciprocal
in-degrees of the four edge lists (four pieces of 14 operations), the four neighbour means (four pieces of 20),
and the summed or sliced weight and bias blocks (three pieces). Each piece is read on its own, over an arbitrary
valuation; a reference a piece does not write keeps its contents through it. -/

variable {F : FTy → Type} [FloatOps F]

/-- Operations 0–13 of the first host stretch. -/
def pA1 : List (HloOp τ sig (Elt F)) :=
  [ StableHlo.unary main_arg12 main_v0 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v0 main_v1 rfl shapeCasts_S1x1600000_S1600000,
    StableHlo.nullary main_cst (constant S_ .f32 0x3F800000#32),
    StableHlo.unary main_cst main_v2 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v3 (broadcastInDim S50000 ![] bcast_S_S50000 : (⟨S_, .f32⟩ : BufTy).Contents (Elt F) → (⟨S50000, .f32⟩ : BufTy).Contents (Elt F)),
    StableHlo.unary main_v1 main_v4 (broadcastInDim S1600000x1 ![0] bcast_S1600000_S1600000x1_0 : (⟨S1600000, .i32⟩ : BufTy).Contents (Elt F) → (⟨S1600000x1, .i32⟩ : BufTy).Contents (Elt F)),
    StableHlo.ternary main_v3 main_v4 main_v2 main_v5 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_1 (constant S_ .f32 0x3F800000#32),
    StableHlo.unary main_cst_1 main_v6 (broadcastInDim S50000 ![] bcast_S_S50000 : (⟨S_, .f32⟩ : BufTy).Contents (Elt F) → (⟨S50000, .f32⟩ : BufTy).Contents (Elt F)),
    StableHlo.binary main_v5 main_v6 main_v7 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v8 (broadcastInDim S50000 ![] bcast_S_S50000 : (⟨S_, .f32⟩ : BufTy).Contents (Elt F) → (⟨S50000, .f32⟩ : BufTy).Contents (Elt F)),
    StableHlo.binary main_v8 main_v7 main_v9 (Host.divf : (⟨S50000, .f32⟩ : BufTy).Contents (Elt F) → (⟨S50000, .f32⟩ : BufTy).Contents (Elt F) → (⟨S50000, .f32⟩ : BufTy).Contents (Elt F)) ]
/-- The references they write. -/
def wA1 : List (Ref sig .tc) := [main_v0, main_v1, main_cst, main_v2, main_cst_0, main_v3, main_v4, main_v5, main_cst_1, main_v6, main_v7, main_cst_2, main_v8, main_v9]
theorem pA1_writes : (pA1 (F := F)).Forall fun op => op.writes ⊆ (wA1.map (Proc.devRef (τ := τ) .tc)).toFinset := by
  simp only [pA1, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pA1_thru (V : Valuation τ sig (Elt F)) {r : Ref sig .tc} (hr : r ∉ wA1) :
    StableHlo.after pA1 V (no_index (Proc.devRef .tc r)) = V (Proc.devRef .tc r) :=
  StableHlo.after_of_writes_sub pA1 V pA1_writes hr

/-- Operations 14–27 of the first host stretch. -/
def pA2 : List (HloOp τ sig (Elt F)) :=
  [ StableHlo.unary main_arg13 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000,
    StableHlo.nullary main_cst_3 (constant S_ .f32 0x3F800000#32),
    StableHlo.unary main_cst_3 main_v12 (broadcastInDim S1600000 ![] bcast_S_S1600000 : (⟨S_, .f32⟩ : BufTy).Contents (Elt F) → (⟨S1600000, .f32⟩ : BufTy).Contents (Elt F)),
    StableHlo.nullary main_cst_4 (constant S_ .f32 0x00000000#32),
    StableHlo.unary main_cst_4 main_v13 (broadcastInDim S50000 ![] bcast_S_S50000 : (⟨S_, .f32⟩ : BufTy).Contents (Elt F) → (⟨S50000, .f32⟩ : BufTy).Contents (Elt F)),
    StableHlo.unary main_v11 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_5 (constant S_ .f32 0x3F800000#32),
    StableHlo.unary main_cst_5 main_v16 (broadcastInDim S50000 ![] bcast_S_S50000 : (⟨S_, .f32⟩ : BufTy).Contents (Elt F) → (⟨S50000, .f32⟩ : BufTy).Contents (Elt F)),
    StableHlo.binary main_v15 main_v16 main_v17 (maximumf : (⟨S50000, .f32⟩ : BufTy).Contents (Elt F) → (⟨S50000, .f32⟩ : BufTy).Contents (Elt F) → (⟨S50000, .f32⟩ : BufTy).Contents (Elt F)),
    StableHlo.nullary main_cst_6 (constant S_ .f32 0x3F800000#32),
    StableHlo.unary main_cst_6 main_v18 (broadcastInDim S50000 ![] bcast_S_S50000 : (⟨S_, .f32⟩ : BufTy).Contents (Elt F) → (⟨S50000, .f32⟩ : BufTy).Contents (Elt F)),
    StableHlo.binary main_v18 main_v17 main_v19 (Host.divf : (⟨S50000, .f32⟩ : BufTy).Contents (Elt F) → (⟨S50000, .f32⟩ : BufTy).Contents (Elt F) → (⟨S50000, .f32⟩ : BufTy).Contents (Elt F)) ]
/-- The references they write. -/
def wA2 : List (Ref sig .tc) := [main_v10, main_v11, main_cst_3, main_v12, main_cst_4, main_v13, main_v14, main_v15, main_cst_5, main_v16, main_v17, main_cst_6, main_v18, main_v19]
theorem pA2_writes : (pA2 (F := F)).Forall fun op => op.writes ⊆ (wA2.map (Proc.devRef (τ := τ) .tc)).toFinset := by
  simp only [pA2, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pA2_thru (V : Valuation τ sig (Elt F)) {r : Ref sig .tc} (hr : r ∉ wA2) :
    StableHlo.after pA2 V (no_index (Proc.devRef .tc r)) = V (Proc.devRef .tc r) :=
  StableHlo.after_of_writes_sub pA2 V pA2_writes hr

/-- Operations 28–41 of the first host stretch. -/
def pA3 : List (HloOp τ sig (Elt F)) :=
  [ StableHlo.unary main_arg14 main_v20 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v20 main_v21 rfl shapeCasts_S1x1600000_S1600000,
    StableHlo.nullary main_cst_7 (constant S_ .f32 0x3F800000#32),
    StableHlo.unary main_cst_7 main_v22 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v23 (broadcastInDim S50000 ![] bcast_S_S50000 : (⟨S_, .f32⟩ : BufTy).Contents (Elt F) → (⟨S50000, .f32⟩ : BufTy).Contents (Elt F)),
    StableHlo.unary main_v21 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_9 (constant S_ .f32 0x3F800000#32),
    StableHlo.unary main_cst_9 main_v26 (broadcastInDim S50000 ![] bcast_S_S50000 : (⟨S_, .f32⟩ : BufTy).Contents (Elt F) → (⟨S50000, .f32⟩ : BufTy).Contents (Elt F)),
    StableHlo.binary main_v25 main_v26 main_v27 (maximumf : (⟨S50000, .f32⟩ : BufTy).Contents (Elt F) → (⟨S50000, .f32⟩ : BufTy).Contents (Elt F) → (⟨S50000, .f32⟩ : BufTy).Contents (Elt F)),
    StableHlo.nullary main_cst_10 (constant S_ .f32 0x3F800000#32),
    StableHlo.unary main_cst_10 main_v28 (broadcastInDim S50000 ![] bcast_S_S50000 : (⟨S_, .f32⟩ : BufTy).Contents (Elt F) → (⟨S50000, .f32⟩ : BufTy).Contents (Elt F)),
    StableHlo.binary main_v28 main_v27 main_v29 (Host.divf : (⟨S50000, .f32⟩ : BufTy).Contents (Elt F) → (⟨S50000, .f32⟩ : BufTy).Contents (Elt F) → (⟨S50000, .f32⟩ : BufTy).Contents (Elt F)) ]
/-- The references they write. -/
def wA3 : List (Ref sig .tc) := [main_v20, main_v21, main_cst_7, main_v22, main_cst_8, main_v23, main_v24, main_v25, main_cst_9, main_v26, main_v27, main_cst_10, main_v28, main_v29]
theorem pA3_writes : (pA3 (F := F)).Forall fun op => op.writes ⊆ (wA3.map (Proc.devRef (τ := τ) .tc)).toFinset := by
  simp only [pA3, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pA3_thru (V : Valuation τ sig (Elt F)) {r : Ref sig .tc} (hr : r ∉ wA3) :
    StableHlo.after pA3 V (no_index (Proc.devRef .tc r)) = V (Proc.devRef .tc r) :=
  StableHlo.after_of_writes_sub pA3 V pA3_writes hr

/-- Operations 42–55 of the first host stretch. -/
def pA4 : List (HloOp τ sig (Elt F)) :=
  [ StableHlo.unary main_arg15 main_v30 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v30 main_v31 rfl shapeCasts_S1x1600000_S1600000,
    StableHlo.nullary main_cst_11 (constant S_ .f32 0x3F800000#32),
    StableHlo.unary main_cst_11 main_v32 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v33 (broadcastInDim S50000 ![] bcast_S_S50000 : (⟨S_, .f32⟩ : BufTy).Contents (Elt F) → (⟨S50000, .f32⟩ : BufTy).Contents (Elt F)),
    StableHlo.unary main_v31 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_13 (constant S_ .f32 0x3F800000#32),
    StableHlo.unary main_cst_13 main_v36 (broadcastInDim S50000 ![] bcast_S_S50000 : (⟨S_, .f32⟩ : BufTy).Contents (Elt F) → (⟨S50000, .f32⟩ : BufTy).Contents (Elt F)),
    StableHlo.binary main_v35 main_v36 main_v37 (maximumf : (⟨S50000, .f32⟩ : BufTy).Contents (Elt F) → (⟨S50000, .f32⟩ : BufTy).Contents (Elt F) → (⟨S50000, .f32⟩ : BufTy).Contents (Elt F)),
    StableHlo.nullary main_cst_14 (constant S_ .f32 0x3F800000#32),
    StableHlo.unary main_cst_14 main_v38 (broadcastInDim S50000 ![] bcast_S_S50000 : (⟨S_, .f32⟩ : BufTy).Contents (Elt F) → (⟨S50000, .f32⟩ : BufTy).Contents (Elt F)),
    StableHlo.binary main_v38 main_v37 main_v39 (Host.divf : (⟨S50000, .f32⟩ : BufTy).Contents (Elt F) → (⟨S50000, .f32⟩ : BufTy).Contents (Elt F) → (⟨S50000, .f32⟩ : BufTy).Contents (Elt F)) ]
/-- The references they write. -/
def wA4 : List (Ref sig .tc) := [main_v30, main_v31, main_cst_11, main_v32, main_cst_12, main_v33, main_v34, main_v35, main_cst_13, main_v36, main_v37, main_cst_14, main_v38, main_v39]
theorem pA4_writes : (pA4 (F := F)).Forall fun op => op.writes ⊆ (wA4.map (Proc.devRef (τ := τ) .tc)).toFinset := by
  simp only [pA4, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pA4_thru (V : Valuation τ sig (Elt F)) {r : Ref sig .tc} (hr : r ∉ wA4) :
    StableHlo.after pA4 V (no_index (Proc.devRef .tc r)) = V (Proc.devRef .tc r) :=
  StableHlo.after_of_writes_sub pA4 V pA4_writes hr

/-- Operations 56–75 of the first host stretch. -/
def pB1 : List (HloOp τ sig (Elt F)) :=
  [ StableHlo.unary main_arg12 main_v40 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v40 main_v41 rfl shapeCasts_S1x1600000_S1600000,
    StableHlo.unary main_arg12 main_v42 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v42 main_v43 rfl shapeCasts_S1x1600000_S1600000,
    StableHlo.nullary main_c (constantI S_ 32 0#32),
    StableHlo.unary main_c main_v44 (broadcastInDim S1600000 ![] bcast_S_S1600000 : (⟨S_, .i32⟩ : BufTy).Contents (Elt F) → (⟨S1600000, .i32⟩ : BufTy).Contents (Elt F)),
    StableHlo.binary main_v41 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v46 (broadcastInDim S1600000 ![] bcast_S_S1600000 : (⟨S_, .i32⟩ : BufTy).Contents (Elt F) → (⟨S1600000, .i32⟩ : BufTy).Contents (Elt F)),
    StableHlo.binary main_v41 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v41 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_arg0 main_v49 main_v50 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    StableHlo.nullary main_cst_16 (constant S_ .f32 0x00000000#32),
    StableHlo.unary main_cst_16 main_v51 (broadcastInDim S50000x11 ![] bcast_S_S50000x11 : (⟨S_, .f32⟩ : BufTy).Contents (Elt F) → (⟨S50000x11, .f32⟩ : BufTy).Contents (Elt F)),
    StableHlo.unary main_v43 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    StableHlo.unary main_v9 main_v54 (broadcastInDim S50000x1 ![0] bcast_S50000_S50000x1_0 : (⟨S50000, .f32⟩ : BufTy).Contents (Elt F) → (⟨S50000x1, .f32⟩ : BufTy).Contents (Elt F)),
    StableHlo.unary main_v54 main_v55 (broadcastInDim S50000x11 ![0, 1] bcast_S50000x1_S50000x11_0_1 : (⟨S50000x1, .f32⟩ : BufTy).Contents (Elt F) → (⟨S50000x11, .f32⟩ : BufTy).Contents (Elt F)),
    StableHlo.binary main_v53 main_v55 main_v56 (mulf : (⟨S50000x11, .f32⟩ : BufTy).Contents (Elt F) → (⟨S50000x11, .f32⟩ : BufTy).Contents (Elt F) → (⟨S50000x11, .f32⟩ : BufTy).Contents (Elt F)) ]
/-- The references they write. -/
def wB1 : List (Ref sig .tc) := [main_v40, main_v41, main_v42, main_v43, main_c, main_v44, main_v45, main_c_15, main_v46, main_v47, main_v48, main_v49, main_v50, main_cst_16, main_v51, main_v52, main_v53, main_v54, main_v55, main_v56]
theorem pB1_writes : (pB1 (F := F)).Forall fun op => op.writes ⊆ (wB1.map (Proc.devRef (τ := τ) .tc)).toFinset := by
  simp only [pB1, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pB1_thru (V : Valuation τ sig (Elt F)) {r : Ref sig .tc} (hr : r ∉ wB1) :
    StableHlo.after pB1 V (no_index (Proc.devRef .tc r)) = V (Proc.devRef .tc r) :=
  StableHlo.after_of_writes_sub pB1 V pB1_writes hr

/-- Operations 76–95 of the first host stretch. -/
def pB2 : List (HloOp τ sig (Elt F)) :=
  [ StableHlo.unary main_arg14 main_v57 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v57 main_v58 rfl shapeCasts_S1x1600000_S1600000,
    StableHlo.unary main_arg14 main_v59 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v59 main_v60 rfl shapeCasts_S1x1600000_S1600000,
    StableHlo.nullary main_c_17 (constantI S_ 32 0#32),
    StableHlo.unary main_c_17 main_v61 (broadcastInDim S1600000 ![] bcast_S_S1600000 : (⟨S_, .i32⟩ : BufTy).Contents (Elt F) → (⟨S1600000, .i32⟩ : BufTy).Contents (Elt F)),
    StableHlo.binary main_v58 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 50000#32),
    StableHlo.unary main_c_18 main_v63 (broadcastInDim S1600000 ![] bcast_S_S1600000 : (⟨S_, .i32⟩ : BufTy).Contents (Elt F) → (⟨S1600000, .i32⟩ : BufTy).Contents (Elt F)),
    StableHlo.binary main_v58 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v58 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_arg1 main_v66 main_v67 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    StableHlo.nullary main_cst_19 (constant S_ .f32 0x00000000#32),
    StableHlo.unary main_cst_19 main_v68 (broadcastInDim S50000x11 ![] bcast_S_S50000x11 : (⟨S_, .f32⟩ : BufTy).Contents (Elt F) → (⟨S50000x11, .f32⟩ : BufTy).Contents (Elt F)),
    StableHlo.unary main_v60 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    StableHlo.unary main_v29 main_v71 (broadcastInDim S50000x1 ![0] bcast_S50000_S50000x1_0 : (⟨S50000, .f32⟩ : BufTy).Contents (Elt F) → (⟨S50000x1, .f32⟩ : BufTy).Contents (Elt F)),
    StableHlo.unary main_v71 main_v72 (broadcastInDim S50000x11 ![0, 1] bcast_S50000x1_S50000x11_0_1 : (⟨S50000x1, .f32⟩ : BufTy).Contents (Elt F) → (⟨S50000x11, .f32⟩ : BufTy).Contents (Elt F)),
    StableHlo.binary main_v70 main_v72 main_v73 (mulf : (⟨S50000x11, .f32⟩ : BufTy).Contents (Elt F) → (⟨S50000x11, .f32⟩ : BufTy).Contents (Elt F) → (⟨S50000x11, .f32⟩ : BufTy).Contents (Elt F)) ]
/-- The references they write. -/
def wB2 : List (Ref sig .tc) := [main_v57, main_v58, main_v59, main_v60, main_c_17, main_v61, main_v62, main_c_18, main_v63, main_v64, main_v65, main_v66, main_v67, main_cst_19, main_v68, main_v69, main_v70, main_v71, main_v72, main_v73]
theorem pB2_writes : (pB2 (F := F)).Forall fun op => op.writes ⊆ (wB2.map (Proc.devRef (τ := τ) .tc)).toFinset := by
  simp only [pB2, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pB2_thru (V : Valuation τ sig (Elt F)) {r : Ref sig .tc} (hr : r ∉ wB2) :
    StableHlo.after pB2 V (no_index (Proc.devRef .tc r)) = V (Proc.devRef .tc r) :=
  StableHlo.after_of_writes_sub pB2 V pB2_writes hr

/-- Operations 96–115 of the first host stretch. -/
def pB3 : List (HloOp τ sig (Elt F)) :=
  [ StableHlo.unary main_arg13 main_v74 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v74 main_v75 rfl shapeCasts_S1x1600000_S1600000,
    StableHlo.unary main_arg13 main_v76 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v76 main_v77 rfl shapeCasts_S1x1600000_S1600000,
    StableHlo.nullary main_c_20 (constantI S_ 32 0#32),
    StableHlo.unary main_c_20 main_v78 (broadcastInDim S1600000 ![] bcast_S_S1600000 : (⟨S_, .i32⟩ : BufTy).Contents (Elt F) → (⟨S1600000, .i32⟩ : BufTy).Contents (Elt F)),
    StableHlo.binary main_v75 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 50000#32),
    StableHlo.unary main_c_21 main_v80 (broadcastInDim S1600000 ![] bcast_S_S1600000 : (⟨S_, .i32⟩ : BufTy).Contents (Elt F) → (⟨S1600000, .i32⟩ : BufTy).Contents (Elt F)),
    StableHlo.binary main_v75 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_v75 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_arg0 main_v83 main_v84 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    StableHlo.nullary main_cst_22 (constant S_ .f32 0x00000000#32),
    StableHlo.unary main_cst_22 main_v85 (broadcastInDim S50000x11 ![] bcast_S_S50000x11 : (⟨S_, .f32⟩ : BufTy).Contents (Elt F) → (⟨S50000x11, .f32⟩ : BufTy).Contents (Elt F)),
    StableHlo.unary main_v77 main_v86 (broadcastInDim S1600000x1 ![0] bcast_S1600000_S1600000x1_0 : (⟨S1600000, .i32⟩ : BufTy).Contents (Elt F) → (⟨S1600000x1, .i32⟩ : BufTy).Contents (Elt F)),
    StableHlo.ternary main_v85 main_v86 main_v84 main_v87 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    StableHlo.unary main_v19 main_v88 (broadcastInDim S50000x1 ![0] bcast_S50000_S50000x1_0 : (⟨S50000, .f32⟩ : BufTy).Contents (Elt F) → (⟨S50000x1, .f32⟩ : BufTy).Contents (Elt F)),
    StableHlo.unary main_v88 main_v89 (broadcastInDim S50000x11 ![0, 1] bcast_S50000x1_S50000x11_0_1 : (⟨S50000x1, .f32⟩ : BufTy).Contents (Elt F) → (⟨S50000x11, .f32⟩ : BufTy).Contents (Elt F)),
    StableHlo.binary main_v87 main_v89 main_v90 (mulf : (⟨S50000x11, .f32⟩ : BufTy).Contents (Elt F) → (⟨S50000x11, .f32⟩ : BufTy).Contents (Elt F) → (⟨S50000x11, .f32⟩ : BufTy).Contents (Elt F)) ]
/-- The references they write. -/
def wB3 : List (Ref sig .tc) := [main_v74, main_v75, main_v76, main_v77, main_c_20, main_v78, main_v79, main_c_21, main_v80, main_v81, main_v82, main_v83, main_v84, main_cst_22, main_v85, main_v86, main_v87, main_v88, main_v89, main_v90]
theorem pB3_writes : (pB3 (F := F)).Forall fun op => op.writes ⊆ (wB3.map (Proc.devRef (τ := τ) .tc)).toFinset := by
  simp only [pB3, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pB3_thru (V : Valuation τ sig (Elt F)) {r : Ref sig .tc} (hr : r ∉ wB3) :
    StableHlo.after pB3 V (no_index (Proc.devRef .tc r)) = V (Proc.devRef .tc r) :=
  StableHlo.after_of_writes_sub pB3 V pB3_writes hr

/-- Operations 116–135 of the first host stretch. -/
def pB4 : List (HloOp τ sig (Elt F)) :=
  [ StableHlo.unary main_arg15 main_v91 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v91 main_v92 rfl shapeCasts_S1x1600000_S1600000,
    StableHlo.unary main_arg15 main_v93 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v93 main_v94 rfl shapeCasts_S1x1600000_S1600000,
    StableHlo.nullary main_c_23 (constantI S_ 32 0#32),
    StableHlo.unary main_c_23 main_v95 (broadcastInDim S1600000 ![] bcast_S_S1600000 : (⟨S_, .i32⟩ : BufTy).Contents (Elt F) → (⟨S1600000, .i32⟩ : BufTy).Contents (Elt F)),
    StableHlo.binary main_v92 main_v95 main_v96 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 50000#32),
    StableHlo.unary main_c_24 main_v97 (broadcastInDim S1600000 ![] bcast_S_S1600000 : (⟨S_, .i32⟩ : BufTy).Contents (Elt F) → (⟨S1600000, .i32⟩ : BufTy).Contents (Elt F)),
    StableHlo.binary main_v92 main_v97 main_v98 (addi : (⟨S1600000, .i32⟩ : BufTy).Contents (Elt F) → (⟨S1600000, .i32⟩ : BufTy).Contents (Elt F) → (⟨S1600000, .i32⟩ : BufTy).Contents (Elt F)),
    StableHlo.ternary main_v96 main_v98 main_v92 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v99 main_v100 (broadcastInDim S1600000x1 ![0] bcast_S1600000_S1600000x1_0 : (⟨S1600000, .i32⟩ : BufTy).Contents (Elt F) → (⟨S1600000x1, .i32⟩ : BufTy).Contents (Elt F)),
    StableHlo.binary main_arg1 main_v100 main_v101 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    StableHlo.nullary main_cst_25 (constant S_ .f32 0x00000000#32),
    StableHlo.unary main_cst_25 main_v102 (broadcastInDim S50000x11 ![] bcast_S_S50000x11 : (⟨S_, .f32⟩ : BufTy).Contents (Elt F) → (⟨S50000x11, .f32⟩ : BufTy).Contents (Elt F)),
    StableHlo.unary main_v94 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    StableHlo.unary main_v39 main_v105 (broadcastInDim S50000x1 ![0] bcast_S50000_S50000x1_0 : (⟨S50000, .f32⟩ : BufTy).Contents (Elt F) → (⟨S50000x1, .f32⟩ : BufTy).Contents (Elt F)),
    StableHlo.unary main_v105 main_v106 (broadcastInDim S50000x11 ![0, 1] bcast_S50000x1_S50000x11_0_1 : (⟨S50000x1, .f32⟩ : BufTy).Contents (Elt F) → (⟨S50000x11, .f32⟩ : BufTy).Contents (Elt F)),
    StableHlo.binary main_v104 main_v106 main_v107 (mulf : (⟨S50000x11, .f32⟩ : BufTy).Contents (Elt F) → (⟨S50000x11, .f32⟩ : BufTy).Contents (Elt F) → (⟨S50000x11, .f32⟩ : BufTy).Contents (Elt F)) ]
/-- The references they write. -/
def wB4 : List (Ref sig .tc) := [main_v91, main_v92, main_v93, main_v94, main_c_23, main_v95, main_v96, main_c_24, main_v97, main_v98, main_v99, main_v100, main_v101, main_cst_25, main_v102, main_v103, main_v104, main_v105, main_v106, main_v107]
theorem pB4_writes : (pB4 (F := F)).Forall fun op => op.writes ⊆ (wB4.map (Proc.devRef (τ := τ) .tc)).toFinset := by
  simp only [pB4, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pB4_thru (V : Valuation τ sig (Elt F)) {r : Ref sig .tc} (hr : r ∉ wB4) :
    StableHlo.after pB4 V (no_index (Proc.devRef .tc r)) = V (Proc.devRef .tc r) :=
  StableHlo.after_of_writes_sub pB4 V pB4_writes hr

/-- Operations 136–145 of the first host stretch. -/
def pC1 : List (HloOp τ sig (Elt F)) :=
  [ StableHlo.unary main_arg4 main_v108 ((extractStridedSlice S1x11x64 ![0, 0, 0] · slices_S4x11x64_S1x11x64_0_0_0) : (⟨S4x11x64, .f32⟩ : BufTy).Contents (Elt F) → (⟨S1x11x64, .f32⟩ : BufTy).Contents (Elt F)),
    StableHlo.reshape main_v108 main_v109 rfl shapeCasts_S1x11x64_S11x64,
    StableHlo.unary main_arg4 main_v110 ((extractStridedSlice S1x11x64 ![2, 0, 0] · slices_S4x11x64_S1x11x64_2_0_0) : (⟨S4x11x64, .f32⟩ : BufTy).Contents (Elt F) → (⟨S1x11x64, .f32⟩ : BufTy).Contents (Elt F)),
    StableHlo.reshape main_v110 main_v111 rfl shapeCasts_S1x11x64_S11x64,
    StableHlo.binary main_v109 main_v111 main_v112 (addf : (⟨S11x64, .f32⟩ : BufTy).Contents (Elt F) → (⟨S11x64, .f32⟩ : BufTy).Contents (Elt F) → (⟨S11x64, .f32⟩ : BufTy).Contents (Elt F)),
    StableHlo.unary main_arg4 main_v113 ((extractStridedSlice S1x11x64 ![1, 0, 0] · slices_S4x11x64_S1x11x64_1_0_0) : (⟨S4x11x64, .f32⟩ : BufTy).Contents (Elt F) → (⟨S1x11x64, .f32⟩ : BufTy).Contents (Elt F)),
    StableHlo.reshape main_v113 main_v114 rfl shapeCasts_S1x11x64_S11x64,
    StableHlo.unary main_arg4 main_v115 ((extractStridedSlice S1x11x64 ![3, 0, 0] · slices_S4x11x64_S1x11x64_3_0_0) : (⟨S4x11x64, .f32⟩ : BufTy).Contents (Elt F) → (⟨S1x11x64, .f32⟩ : BufTy).Contents (Elt F)),
    StableHlo.reshape main_v115 main_v116 rfl shapeCasts_S1x11x64_S11x64,
    StableHlo.binary main_v114 main_v116 main_v117 (addf : (⟨S11x64, .f32⟩ : BufTy).Contents (Elt F) → (⟨S11x64, .f32⟩ : BufTy).Contents (Elt F) → (⟨S11x64, .f32⟩ : BufTy).Contents (Elt F)) ]
/-- The references they write. -/
def wC1 : List (Ref sig .tc) := [main_v108, main_v109, main_v110, main_v111, main_v112, main_v113, main_v114, main_v115, main_v116, main_v117]
theorem pC1_writes : (pC1 (F := F)).Forall fun op => op.writes ⊆ (wC1.map (Proc.devRef (τ := τ) .tc)).toFinset := by
  simp only [pC1, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pC1_thru (V : Valuation τ sig (Elt F)) {r : Ref sig .tc} (hr : r ∉ wC1) :
    StableHlo.after pC1 V (no_index (Proc.devRef .tc r)) = V (Proc.devRef .tc r) :=
  StableHlo.after_of_writes_sub pC1 V pC1_writes hr

/-- Operations 146–157 of the first host stretch. -/
def pC2 : List (HloOp τ sig (Elt F)) :=
  [ StableHlo.unary main_arg3 main_v118 ((extractStridedSlice S1x64 ![0, 0] · slices_S4x64_S1x64_0_0) : (⟨S4x64, .f32⟩ : BufTy).Contents (Elt F) → (⟨S1x64, .f32⟩ : BufTy).Contents (Elt F)),
    StableHlo.reshape main_v118 main_v119 rfl shapeCasts_S1x64_S64,
    StableHlo.unary main_arg3 main_v120 ((extractStridedSlice S1x64 ![2, 0] · slices_S4x64_S1x64_2_0) : (⟨S4x64, .f32⟩ : BufTy).Contents (Elt F) → (⟨S1x64, .f32⟩ : BufTy).Contents (Elt F)),
    StableHlo.reshape main_v120 main_v121 rfl shapeCasts_S1x64_S64,
    StableHlo.binary main_v119 main_v121 main_v122 (addf : (⟨S64, .f32⟩ : BufTy).Contents (Elt F) → (⟨S64, .f32⟩ : BufTy).Contents (Elt F) → (⟨S64, .f32⟩ : BufTy).Contents (Elt F)),
    StableHlo.reshape main_v122 main_v123 rfl shapeCasts_S64_S1x64,
    StableHlo.unary main_arg3 main_v124 ((extractStridedSlice S1x64 ![1, 0] · slices_S4x64_S1x64_1_0) : (⟨S4x64, .f32⟩ : BufTy).Contents (Elt F) → (⟨S1x64, .f32⟩ : BufTy).Contents (Elt F)),
    StableHlo.reshape main_v124 main_v125 rfl shapeCasts_S1x64_S64,
    StableHlo.unary main_arg3 main_v126 ((extractStridedSlice S1x64 ![3, 0] · slices_S4x64_S1x64_3_0) : (⟨S4x64, .f32⟩ : BufTy).Contents (Elt F) → (⟨S1x64, .f32⟩ : BufTy).Contents (Elt F)),
    StableHlo.reshape main_v126 main_v127 rfl shapeCasts_S1x64_S64,
    StableHlo.binary main_v125 main_v127 main_v128 (addf : (⟨S64, .f32⟩ : BufTy).Contents (Elt F) → (⟨S64, .f32⟩ : BufTy).Contents (Elt F) → (⟨S64, .f32⟩ : BufTy).Contents (Elt F)),
    StableHlo.reshape main_v128 main_v129 rfl shapeCasts_S64_S1x64 ]
/-- The references they write. -/
def wC2 : List (Ref sig .tc) := [main_v118, main_v119, main_v120, main_v121, main_v122, main_v123, main_v124, main_v125, main_v126, main_v127, main_v128, main_v129]
theorem pC2_writes : (pC2 (F := F)).Forall fun op => op.writes ⊆ (wC2.map (Proc.devRef (τ := τ) .tc)).toFinset := by
  simp only [pC2, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pC2_thru (V : Valuation τ sig (Elt F)) {r : Ref sig .tc} (hr : r ∉ wC2) :
    StableHlo.after pC2 V (no_index (Proc.devRef .tc r)) = V (Proc.devRef .tc r) :=
  StableHlo.after_of_writes_sub pC2 V pC2_writes hr

/-- Operations 158–161 of the first host stretch. -/
def pC3 : List (HloOp τ sig (Elt F)) :=
  [ StableHlo.unary main_arg2 main_v130 ((extractStridedSlice S1x11x64 ![0, 0, 0] · slices_S4x11x64_S1x11x64_0_0_0) : (⟨S4x11x64, .f32⟩ : BufTy).Contents (Elt F) → (⟨S1x11x64, .f32⟩ : BufTy).Contents (Elt F)),
    StableHlo.reshape main_v130 main_v131 rfl shapeCasts_S1x11x64_S11x64,
    StableHlo.unary main_arg2 main_v132 ((extractStridedSlice S1x11x64 ![2, 0, 0] · slices_S4x11x64_S1x11x64_2_0_0) : (⟨S4x11x64, .f32⟩ : BufTy).Contents (Elt F) → (⟨S1x11x64, .f32⟩ : BufTy).Contents (Elt F)),
    StableHlo.reshape main_v132 main_v133 rfl shapeCasts_S1x11x64_S11x64 ]
/-- The references they write. -/
def wC3 : List (Ref sig .tc) := [main_v130, main_v131, main_v132, main_v133]
theorem pC3_writes : (pC3 (F := F)).Forall fun op => op.writes ⊆ (wC3.map (Proc.devRef (τ := τ) .tc)).toFinset := by
  simp only [pC3, List.Forall, StableHlo.nullary_writes, StableHlo.unary_writes, StableHlo.binary_writes, StableHlo.ternary_writes, StableHlo.reshape_writes, Finset.singleton_subset_iff, List.mem_toFinset]
  repeat' apply And.intro
  all_goals (apply List.mem_map_of_mem; decide)
/-- A reference the piece does not write keeps its contents. -/
theorem pC3_thru (V : Valuation τ sig (Elt F)) {r : Ref sig .tc} (hr : r ∉ wC3) :
    StableHlo.after pC3 V (no_index (Proc.devRef .tc r)) = V (Proc.devRef .tc r) :=
  StableHlo.after_of_writes_sub pC3 V pC3_writes hr

/-- The first host stretch is the pieces in a row. -/
theorem hostOps0_split : (hostOps0 : List (HloOp τ sig (Elt F))) = pA1 ++ (pA2 ++ (pA3 ++ (pA4 ++ (pB1 ++ (pB2 ++ (pB3 ++ (pB4 ++ (pC1 ++ (pC2 ++ (pC3)))))))))) := rfl

/-- So its fold is the pieces' folds, one after the other. -/
theorem after_hostOps0 (W : Valuation τ sig (Elt F)) :
    StableHlo.after hostOps0 W = StableHlo.after pC3 (StableHlo.after pC2 (StableHlo.after pC1 (StableHlo.after pB4 (StableHlo.after pB3 (StableHlo.after pB2 (StableHlo.after pB1 (StableHlo.after pA4 (StableHlo.after pA3 (StableHlo.after pA2 (StableHlo.after pA1 (W))))))))))) := by
  rw [hostOps0_split]; simp only [StableHlo.after_append]

end Cert.KernelIdeal.KWalk
-- ==== Proof.KWalkADefs.lean ====
import proofs.«122893_j59708635349187_2_alg».proof.Proof.Gen.KernelIdeal
import Idealize.ShloMosaic.PureOps.Ideal

noncomputable section

namespace Cert.KernelIdeal.KWalk

open Idealize.ShloMosaic
open Cert.KernelIdeal.Gen

/-! # The two host-side terms the first two regions read, at the ideal instance

Both are the compositions of host operations the program's first stretch spells, over variables. -/

/-- The reciprocal in-degree of every node: one over the larger of one and the number of edges whose
    destination (row 1 of the edge list) is the node. -/
def invCnt (e : (⟨S2x1600000, .i32⟩ : BufTy).Contents (Elt Ideal)) : (⟨S50000, .f32⟩ : BufTy).Contents (Elt Ideal) :=
  Host.divf (F := Ideal) (broadcastInDim S50000 ![] bcast_S_S50000 (constant (F := Ideal) S_ .f32 0x3F800000#32))
    (maximumf (F := Ideal)
      (Host.scatterAdd (F := Ideal) scatter_S50000_S1600000x1_S1600000_n_0_0_1
        (broadcastInDim S50000 ![] bcast_S_S50000 (constant (F := Ideal) S_ .f32 0x00000000#32))
        (broadcastInDim S1600000x1 ![0] bcast_S1600000_S1600000x1_0 (shapeCast S1600000 (extractStridedSlice S1x1600000 ![1, 0] e slices_S2x1600000_S1x1600000_1_0) shapeCasts_S1x1600000_S1600000))
        (broadcastInDim S1600000 ![] bcast_S_S1600000 (constant (F := Ideal) S_ .f32 0x3F800000#32)))
      (broadcastInDim S50000 ![] bcast_S_S50000 (constant (F := Ideal) S_ .f32 0x3F800000#32)))

/-- The mean over a node's incoming edges of the source nodes' feature rows: the rows of `x` gathered at the
    sources (row 0 of the edge list, a negative index wrapped once), added up at the destinations (row 1),
    and scaled by the reciprocal in-degree. -/
def mean11 (x : (⟨S50000x11, .f32⟩ : BufTy).Contents (Elt Ideal)) (e : (⟨S2x1600000, .i32⟩ : BufTy).Contents (Elt Ideal)) : (⟨S50000x11, .f32⟩ : BufTy).Contents (Elt Ideal) :=
  mulf (F := Ideal)
    (Host.scatterAdd (F := Ideal) scatter_S50000x11_S1600000x1_S1600000x11_1_0_0_1
      (broadcastInDim S50000x11 ![] bcast_S_S50000x11 (constant (F := Ideal) S_ .f32 0x00000000#32))
      (broadcastInDim S1600000x1 ![0] bcast_S1600000_S1600000x1_0 (shapeCast S1600000 (extractStridedSlice S1x1600000 ![1, 0] e slices_S2x1600000_S1x1600000_1_0) shapeCasts_S1x1600000_S1600000))
      (Host.gather gather_S50000x11_S1600000x1_S1600000x11_1_0_n_n_0_1_111 x
        (broadcastInDim S1600000x1 ![0] bcast_S1600000_S1600000x1_0
          (select
            (cmpi .slt (shapeCast S1600000 (extractStridedSlice S1x1600000 ![0, 0] e slices_S2x1600000_S1x1600000_0_0) shapeCasts_S1x1600000_S1600000) (broadcastInDim S1600000 ![] bcast_S_S1600000 (constantI S_ 32 0#32)))
            (addi (shapeCast S1600000 (extractStridedSlice S1x1600000 ![0, 0] e slices_S2x1600000_S1x1600000_0_0) shapeCasts_S1x1600000_S1600000) (broadcastInDim S1600000 ![] bcast_S_S1600000 (constantI S_ 32 50000#32)))
            (shapeCast S1600000 (extractStridedSlice S1x1600000 ![0, 0] e slices_S2x1600000_S1x1600000_0_0) shapeCasts_S1x1600000_S1600000)))))
    (broadcastInDim S50000x11 ![0, 1] bcast_S50000x1_S50000x11_0_1 (broadcastInDim S50000x1 ![0] bcast_S50000_S50000x1_0 (invCnt e)))

end Cert.KernelIdeal.KWalk
-- ==== Proof.KWalkA1.lean ====
import proofs.«122893_j59708635349187_2_alg».proof.Proof.KWalkA0
import proofs.«122893_j59708635349187_2_alg».proof.Proof.KWalkADefs
import Idealize.ShloMosaic.PureOps.Ideal

set_option maxRecDepth 16384

noncomputable section

namespace Cert.KernelIdeal.KWalk

open Idealize.ShloMosaic Idealize.ShloMosaic.TcCoe Idealize.ShloMosaic.Tactic
open Idealize.SL Idealize.SL.Sem
open Cert.KernelIdeal.Gen

/-! # The four reciprocal in-degrees: what the first four pieces leave -/

theorem pA1_v9 (W : Valuation τ sig (Elt Ideal)) :
    StableHlo.after pA1 W (Proc.devRef .tc main_v9) = invCnt (W (Proc.devRef .tc main_arg12)) := by
  simp only [pA1]
  after_results_simp
  rfl

theorem pA2_v19 (W : Valuation τ sig (Elt Ideal)) :
    StableHlo.after pA2 W (Proc.devRef .tc main_v19) = invCnt (W (Proc.devRef .tc main_arg13)) := by
  simp only [pA2]
  after_results_simp
  rfl

theorem pA3_v29 (W : Valuation τ sig (Elt Ideal)) :
    StableHlo.after pA3 W (Proc.devRef .tc main_v29) = invCnt (W (Proc.devRef .tc main_arg14)) := by
  simp only [pA3]
  after_results_simp
  rfl

theorem pA4_v39 (W : Valuation τ sig (Elt Ideal)) :
    StableHlo.after pA4 W (Proc.devRef .tc main_v39) = invCnt (W (Proc.devRef .tc main_arg15)) := by
  simp only [pA4]
  after_results_simp
  rfl

/-- The four pieces in a row. -/
abbrev afterA (W : Valuation τ sig (Elt Ideal)) : Valuation τ sig (Elt Ideal) := StableHlo.after pA4 (StableHlo.after pA3 (StableHlo.after pA2 (StableHlo.after pA1 W)))

theorem afterA_thru (W : Valuation τ sig (Elt Ideal)) {r : Ref sig .tc} (h1 : r ∉ wA1) (h2 : r ∉ wA2) (h3 : r ∉ wA3) (h4 : r ∉ wA4) :
    afterA W (Proc.devRef .tc r) = W (Proc.devRef .tc r) :=
  (pA4_thru _ h4).trans ((pA3_thru _ h3).trans ((pA2_thru _ h2).trans (pA1_thru _ h1)))

theorem afterA_v9 (W : Valuation τ sig (Elt Ideal)) : afterA W (Proc.devRef .tc main_v9) = invCnt (W (Proc.devRef .tc main_arg12)) :=
  (pA4_thru _ (by decide)).trans ((pA3_thru _ (by decide)).trans ((pA2_thru _ (by decide)).trans (pA1_v9 W)))
theorem afterA_v19 (W : Valuation τ sig (Elt Ideal)) : afterA W (Proc.devRef .tc main_v19) = invCnt (W (Proc.devRef .tc main_arg13)) :=
  (pA4_thru _ (by decide)).trans ((pA3_thru _ (by decide)).trans ((pA2_v19 _).trans (congrArg invCnt (pA1_thru _ (by decide)))))
theorem afterA_v29 (W : Valuation τ sig (Elt Ideal)) : afterA W (Proc.devRef .tc main_v29) = invCnt (W (Proc.devRef .tc main_arg14)) :=
  (pA4_thru _ (by decide)).trans ((pA3_v29 _).trans (congrArg invCnt ((pA2_thru _ (by decide)).trans (pA1_thru _ (by decide)))))
theorem afterA_v39 (W : Valuation τ sig (Elt Ideal)) : afterA W (Proc.devRef .tc main_v39) = invCnt (W (Proc.devRef .tc main_arg15)) :=
  (pA4_v39 _).trans (congrArg invCnt ((pA3_thru _ (by decide)).trans ((pA2_thru _ (by decide)).trans (pA1_thru _ (by decide)))))

end Cert.KernelIdeal.KWalk
-- ==== Proof.KWalkA2.lean ====
import proofs.«122893_j59708635349187_2_alg».proof.Proof.KWalkA0
import proofs.«122893_j59708635349187_2_alg».proof.Proof.KWalkADefs
import Idealize.ShloMosaic.PureOps.Ideal

set_option maxRecDepth 16384

noncomputable section

namespace Cert.KernelIdeal.KWalk

open Idealize.ShloMosaic Idealize.ShloMosaic.TcCoe Idealize.ShloMosaic.Tactic
open Idealize.SL Idealize.SL.Sem
open Cert.KernelIdeal.Gen

/-! # The four neighbour means: what the middle four pieces leave -/

/-- The neighbour mean with the row scale left as a variable. -/
def meanWith (x : (⟨S50000x11, .f32⟩ : BufTy).Contents (Elt Ideal)) (e : (⟨S2x1600000, .i32⟩ : BufTy).Contents (Elt Ideal)) (d : (⟨S50000, .f32⟩ : BufTy).Contents (Elt Ideal)) : (⟨S50000x11, .f32⟩ : BufTy).Contents (Elt Ideal) :=
  mulf (F := Ideal)
    (Host.scatterAdd (F := Ideal) scatter_S50000x11_S1600000x1_S1600000x11_1_0_0_1
      (broadcastInDim S50000x11 ![] bcast_S_S50000x11 (constant (F := Ideal) S_ .f32 0x00000000#32))
      (broadcastInDim S1600000x1 ![0] bcast_S1600000_S1600000x1_0 (shapeCast S1600000 (extractStridedSlice S1x1600000 ![1, 0] e slices_S2x1600000_S1x1600000_1_0) shapeCasts_S1x1600000_S1600000))
      (Host.gather gather_S50000x11_S1600000x1_S1600000x11_1_0_n_n_0_1_111 x
        (broadcastInDim S1600000x1 ![0] bcast_S1600000_S1600000x1_0
          (select
            (cmpi .slt (shapeCast S1600000 (extractStridedSlice S1x1600000 ![0, 0] e slices_S2x1600000_S1x1600000_0_0) shapeCasts_S1x1600000_S1600000) (broadcastInDim S1600000 ![] bcast_S_S1600000 (constantI S_ 32 0#32)))
            (addi (shapeCast S1600000 (extractStridedSlice S1x1600000 ![0, 0] e slices_S2x1600000_S1x1600000_0_0) shapeCasts_S1x1600000_S1600000) (broadcastInDim S1600000 ![] bcast_S_S1600000 (constantI S_ 32 50000#32)))
            (shapeCast S1600000 (extractStridedSlice S1x1600000 ![0, 0] e slices_S2x1600000_S1x1600000_0_0) shapeCasts_S1x1600000_S1600000)))))
    (broadcastInDim S50000x11 ![0, 1] bcast_S50000x1_S50000x11_0_1 (broadcastInDim S50000x1 ![0] bcast_S50000_S50000x1_0 d))

theorem meanWith_invCnt (x : (⟨S50000x11, .f32⟩ : BufTy).Contents (Elt Ideal)) (e : (⟨S2x1600000, .i32⟩ : BufTy).Contents (Elt Ideal)) : meanWith x e (invCnt e) = mean11 x e := rfl

theorem pB1_v56 (W : Valuation τ sig (Elt Ideal)) :
    StableHlo.after pB1 W (Proc.devRef .tc main_v56) = meanWith (W (Proc.devRef .tc main_arg0)) (W (Proc.devRef .tc main_arg12)) (W (Proc.devRef .tc main_v9)) := by
  simp only [pB1]
  after_results_simp
  rfl

theorem pB2_v73 (W : Valuation τ sig (Elt Ideal)) :
    StableHlo.after pB2 W (Proc.devRef .tc main_v73) = meanWith (W (Proc.devRef .tc main_arg1)) (W (Proc.devRef .tc main_arg14)) (W (Proc.devRef .tc main_v29)) := by
  simp only [pB2]
  after_results_simp
  rfl

theorem pB3_v90 (W : Valuation τ sig (Elt Ideal)) :
    StableHlo.after pB3 W (Proc.devRef .tc main_v90) = meanWith (W (Proc.devRef .tc main_arg0)) (W (Proc.devRef .tc main_arg13)) (W (Proc.devRef .tc main_v19)) := by
  simp only [pB3]
  after_results_simp
  rfl

theorem pB4_v107 (W : Valuation τ sig (Elt Ideal)) :
    StableHlo.after pB4 W (Proc.devRef .tc main_v107) = meanWith (W (Proc.devRef .tc main_arg1)) (W (Proc.devRef .tc main_arg15)) (W (Proc.devRef .tc main_v39)) := by
  simp only [pB4]
  after_results_simp
  rfl

/-- The four pieces in a row. -/
abbrev afterB (V : Valuation τ sig (Elt Ideal)) : Valuation τ sig (Elt Ideal) := StableHlo.after pB4 (StableHlo.after pB3 (StableHlo.after pB2 (StableHlo.after pB1 V)))

theorem afterB_thru (V : Valuation τ sig (Elt Ideal)) {r : Ref sig .tc} (h1 : r ∉ wB1) (h2 : r ∉ wB2) (h3 : r ∉ wB3) (h4 : r ∉ wB4) :
    afterB V (Proc.devRef .tc r) = V (Proc.devRef .tc r) :=
  (pB4_thru _ h4).trans ((pB3_thru _ h3).trans ((pB2_thru _ h2).trans (pB1_thru _ h1)))

theorem afterB_v56 (V : Valuation τ sig (Elt Ideal)) : afterB V (Proc.devRef .tc main_v56) = meanWith (V (Proc.devRef .tc main_arg0)) (V (Proc.devRef .tc main_arg12)) (V (Proc.devRef .tc main_v9)) :=
  (pB4_thru _ (by decide)).trans ((pB3_thru _ (by decide)).trans ((pB2_thru _ (by decide)).trans (pB1_v56 V)))
theorem afterB_v73 (V : Valuation τ sig (Elt Ideal)) : afterB V (Proc.devRef .tc main_v73) = meanWith (V (Proc.devRef .tc main_arg1)) (V (Proc.devRef .tc main_arg14)) (V (Proc.devRef .tc main_v29)) := by
  refine (pB4_thru _ (by decide)).trans ((pB3_thru _ (by decide)).trans ((pB2_v73 _).trans ?_))
  rw [pB1_thru (r := main_arg1) _ (by decide), pB1_thru (r := main_arg14) _ (by decide), pB1_thru (r := main_v29) _ (by decide)]
theorem afterB_v90 (V : Valuation τ sig (Elt Ideal)) : afterB V (Proc.devRef .tc main_v90) = meanWith (V (Proc.devRef .tc main_arg0)) (V (Proc.devRef .tc main_arg13)) (V (Proc.devRef .tc main_v19)) := by
  refine (pB4_thru _ (by decide)).trans ((pB3_v90 _).trans ?_)
  rw [pB2_thru (r := main_arg0) _ (by decide), pB2_thru (r := main_arg13) _ (by decide), pB2_thru (r := main_v19) _ (by decide),
    pB1_thru (r := main_arg0) _ (by decide), pB1_thru (r := main_arg13) _ (by decide), pB1_thru (r := main_v19) _ (by decide)]
theorem afterB_v107 (V : Valuation τ sig (Elt Ideal)) : afterB V (Proc.devRef .tc main_v107) = meanWith (V (Proc.devRef .tc main_arg1)) (V (Proc.devRef .tc main_arg15)) (V (Proc.devRef .tc main_v39)) := by
  refine (pB4_v107 _).trans ?_
  rw [pB3_thru (r := main_arg1) _ (by decide), pB3_thru (r := main_arg15) _ (by decide), pB3_thru (r := main_v39) _ (by decide),
    pB2_thru (r := main_arg1) _ (by decide), pB2_thru (r := main_arg15) _ (by decide), pB2_thru (r := main_v39) _ (by decide),
    pB1_thru (r := main_arg1) _ (by decide), pB1_thru (r := main_arg15) _ (by decide), pB1_thru (r := main_v39) _ (by decide)]

end Cert.KernelIdeal.KWalk
-- ==== Proof.KWalkA3.lean ====
import proofs.«122893_j59708635349187_2_alg».proof.Proof.KWalkA0
import Idealize.ShloMosaic.PureOps.Ideal

set_option maxRecDepth 16384

noncomputable section

namespace Cert.KernelIdeal.KWalk

open Idealize.ShloMosaic Idealize.ShloMosaic.TcCoe Idealize.ShloMosaic.Tactic
open Idealize.SL Idealize.SL.Sem
open Cert.KernelIdeal.Gen

/-! # The weight and bias blocks: what the last three pieces leave, and the second host stretch -/

theorem pC1_v112 (W : Valuation τ sig (Elt Ideal)) :
    StableHlo.after pC1 W (Proc.devRef .tc main_v112) = addf (F := Ideal) (φ := .f32) (shapeCast S11x64 (extractStridedSlice S1x11x64 ![0, 0, 0] (W (Proc.devRef .tc main_arg4)) slices_S4x11x64_S1x11x64_0_0_0) shapeCasts_S1x11x64_S11x64) (shapeCast S11x64 (extractStridedSlice S1x11x64 ![2, 0, 0] (W (Proc.devRef .tc main_arg4)) slices_S4x11x64_S1x11x64_2_0_0) shapeCasts_S1x11x64_S11x64) := by
  simp only [pC1]
  after_results_simp
  rfl

theorem pC1_v117 (W : Valuation τ sig (Elt Ideal)) :
    StableHlo.after pC1 W (Proc.devRef .tc main_v117) = addf (F := Ideal) (φ := .f32) (shapeCast S11x64 (extractStridedSlice S1x11x64 ![1, 0, 0] (W (Proc.devRef .tc main_arg4)) slices_S4x11x64_S1x11x64_1_0_0) shapeCasts_S1x11x64_S11x64) (shapeCast S11x64 (extractStridedSlice S1x11x64 ![3, 0, 0] (W (Proc.devRef .tc main_arg4)) slices_S4x11x64_S1x11x64_3_0_0) shapeCasts_S1x11x64_S11x64) := by
  simp only [pC1]
  after_results_simp
  rfl

theorem pC2_v123 (W : Valuation τ sig (Elt Ideal)) :
    StableHlo.after pC2 W (Proc.devRef .tc main_v123) = shapeCast S1x64 (addf (F := Ideal) (φ := .f32) (shapeCast S64 (extractStridedSlice S1x64 ![0, 0] (W (Proc.devRef .tc main_arg3)) slices_S4x64_S1x64_0_0) shapeCasts_S1x64_S64) (shapeCast S64 (extractStridedSlice S1x64 ![2, 0] (W (Proc.devRef .tc main_arg3)) slices_S4x64_S1x64_2_0) shapeCasts_S1x64_S64)) shapeCasts_S64_S1x64 := by
  simp only [pC2]
  after_results_simp
  rfl

theorem pC2_v129 (W : Valuation τ sig (Elt Ideal)) :
    StableHlo.after pC2 W (Proc.devRef .tc main_v129) = shapeCast S1x64 (addf (F := Ideal) (φ := .f32) (shapeCast S64 (extractStridedSlice S1x64 ![1, 0] (W (Proc.devRef .tc main_arg3)) slices_S4x64_S1x64_1_0) shapeCasts_S1x64_S64) (shapeCast S64 (extractStridedSlice S1x64 ![3, 0] (W (Proc.devRef .tc main_arg3)) slices_S4x64_S1x64_3_0) shapeCasts_S1x64_S64)) shapeCasts_S64_S1x64 := by
  simp only [pC2]
  after_results_simp
  rfl

theorem pC3_v131 (W : Valuation τ sig (Elt Ideal)) :
    StableHlo.after pC3 W (Proc.devRef .tc main_v131) = (shapeCast S11x64 (extractStridedSlice S1x11x64 ![0, 0, 0] (W (Proc.devRef .tc main_arg2)) slices_S4x11x64_S1x11x64_0_0_0) shapeCasts_S1x11x64_S11x64) := by
  simp only [pC3]
  after_results_simp
  rfl

theorem pC3_v133 (W : Valuation τ sig (Elt Ideal)) :
    StableHlo.after pC3 W (Proc.devRef .tc main_v133) = (shapeCast S11x64 (extractStridedSlice S1x11x64 ![2, 0, 0] (W (Proc.devRef .tc main_arg2)) slices_S4x11x64_S1x11x64_2_0_0) shapeCasts_S1x11x64_S11x64) := by
  simp only [pC3]
  after_results_simp
  rfl

/-- The three pieces in a row. -/
abbrev afterC (V : Valuation τ sig (Elt Ideal)) : Valuation τ sig (Elt Ideal) := StableHlo.after pC3 (StableHlo.after pC2 (StableHlo.after pC1 V))

theorem afterC_thru (V : Valuation τ sig (Elt Ideal)) {r : Ref sig .tc} (h1 : r ∉ wC1) (h2 : r ∉ wC2) (h3 : r ∉ wC3) :
    afterC V (Proc.devRef .tc r) = V (Proc.devRef .tc r) :=
  (pC3_thru _ h3).trans ((pC2_thru _ h2).trans (pC1_thru _ h1))

theorem afterC_v112 (V : Valuation τ sig (Elt Ideal)) : afterC V (Proc.devRef .tc main_v112) = addf (F := Ideal) (φ := .f32) (shapeCast S11x64 (extractStridedSlice S1x11x64 ![0, 0, 0] (V (Proc.devRef .tc main_arg4)) slices_S4x11x64_S1x11x64_0_0_0) shapeCasts_S1x11x64_S11x64) (shapeCast S11x64 (extractStridedSlice S1x11x64 ![2, 0, 0] (V (Proc.devRef .tc main_arg4)) slices_S4x11x64_S1x11x64_2_0_0) shapeCasts_S1x11x64_S11x64) :=
  (pC3_thru _ (by decide)).trans ((pC2_thru _ (by decide)).trans (pC1_v112 V))
theorem afterC_v117 (V : Valuation τ sig (Elt Ideal)) : afterC V (Proc.devRef .tc main_v117) = addf (F := Ideal) (φ := .f32) (shapeCast S11x64 (extractStridedSlice S1x11x64 ![1, 0, 0] (V (Proc.devRef .tc main_arg4)) slices_S4x11x64_S1x11x64_1_0_0) shapeCasts_S1x11x64_S11x64) (shapeCast S11x64 (extractStridedSlice S1x11x64 ![3, 0, 0] (V (Proc.devRef .tc main_arg4)) slices_S4x11x64_S1x11x64_3_0_0) shapeCasts_S1x11x64_S11x64) :=
  (pC3_thru _ (by decide)).trans ((pC2_thru _ (by decide)).trans (pC1_v117 V))
theorem afterC_v123 (V : Valuation τ sig (Elt Ideal)) : afterC V (Proc.devRef .tc main_v123) = shapeCast S1x64 (addf (F := Ideal) (φ := .f32) (shapeCast S64 (extractStridedSlice S1x64 ![0, 0] (V (Proc.devRef .tc main_arg3)) slices_S4x64_S1x64_0_0) shapeCasts_S1x64_S64) (shapeCast S64 (extractStridedSlice S1x64 ![2, 0] (V (Proc.devRef .tc main_arg3)) slices_S4x64_S1x64_2_0) shapeCasts_S1x64_S64)) shapeCasts_S64_S1x64 := by
  refine (pC3_thru _ (by decide)).trans ((pC2_v123 _).trans ?_)
  rw [pC1_thru (r := main_arg3) _ (by decide)]
theorem afterC_v129 (V : Valuation τ sig (Elt Ideal)) : afterC V (Proc.devRef .tc main_v129) = shapeCast S1x64 (addf (F := Ideal) (φ := .f32) (shapeCast S64 (extractStridedSlice S1x64 ![1, 0] (V (Proc.devRef .tc main_arg3)) slices_S4x64_S1x64_1_0) shapeCasts_S1x64_S64) (shapeCast S64 (extractStridedSlice S1x64 ![3, 0] (V (Proc.devRef .tc main_arg3)) slices_S4x64_S1x64_3_0) shapeCasts_S1x64_S64)) shapeCasts_S64_S1x64 := by
  refine (pC3_thru _ (by decide)).trans ((pC2_v129 _).trans ?_)
  rw [pC1_thru (r := main_arg3) _ (by decide)]
theorem afterC_v131 (V : Valuation τ sig (Elt Ideal)) : afterC V (Proc.devRef .tc main_v131) = (shapeCast S11x64 (extractStridedSlice S1x11x64 ![0, 0, 0] (V (Proc.devRef .tc main_arg2)) slices_S4x11x64_S1x11x64_0_0_0) shapeCasts_S1x11x64_S11x64) := by
  refine (pC3_v131 _).trans ?_
  rw [pC2_thru (r := main_arg2) _ (by decide), pC1_thru (r := main_arg2) _ (by decide)]
theorem afterC_v133 (V : Valuation τ sig (Elt Ideal)) : afterC V (Proc.devRef .tc main_v133) = (shapeCast S11x64 (extractStridedSlice S1x11x64 ![2, 0, 0] (V (Proc.devRef .tc main_arg2)) slices_S4x11x64_S1x11x64_2_0_0) shapeCasts_S1x11x64_S11x64) := by
  refine (pC3_v133 _).trans ?_
  rw [pC2_thru (r := main_arg2) _ (by decide), pC1_thru (r := main_arg2) _ (by decide)]

/-! ## The second host stretch: the two remaining slices of the first layer's weights -/

/-- The references the second host stretch writes. -/
def wH1 : List (Ref sig .tc) := [main_v135, main_v136, main_v137, main_v138]
theorem hostOps1_writes : (hostOps1 : List (HloOp τ sig (Elt Ideal))).Forall fun op => op.writes ⊆ (wH1.map (Proc.devRef (τ := τ) .tc)).toFinset := by
  simp only [hostOps1, List.Forall, StableHlo.unary_writes, StableHlo.reshape_writes, Finset.singleton_subset_iff, List.mem_toFinset]
  repeat' apply And.intro
  all_goals (apply List.mem_map_of_mem; decide)
theorem hostOps1_thru (V : Valuation τ sig (Elt Ideal)) {r : Ref sig .tc} (hr : r ∉ wH1) :
    StableHlo.after hostOps1 V (no_index (Proc.devRef .tc r)) = V (Proc.devRef .tc r) :=
  StableHlo.after_of_writes_sub hostOps1 V hostOps1_writes hr
theorem hostOps1_v136 (W : Valuation τ sig (Elt Ideal)) :
    StableHlo.after hostOps1 W (Proc.devRef .tc main_v136) = (shapeCast S11x64 (extractStridedSlice S1x11x64 ![1, 0, 0] (W (Proc.devRef .tc main_arg2)) slices_S4x11x64_S1x11x64_1_0_0) shapeCasts_S1x11x64_S11x64) := by
  simp only [hostOps1]
  after_results_simp
  rfl
theorem hostOps1_v138 (W : Valuation τ sig (Elt Ideal)) :
    StableHlo.after hostOps1 W (Proc.devRef .tc main_v138) = (shapeCast S11x64 (extractStridedSlice S1x11x64 ![3, 0, 0] (W (Proc.devRef .tc main_arg2)) slices_S4x11x64_S1x11x64_3_0_0) shapeCasts_S1x11x64_S11x64) := by
  simp only [hostOps1]
  after_results_simp
  rfl

end Cert.KernelIdeal.KWalk
-- ==== Proof.KWalkA.lean ====
import proofs.«122893_j59708635349187_2_alg».proof.Proof.KWalkA1
import proofs.«122893_j59708635349187_2_alg».proof.Proof.KWalkA2
import proofs.«122893_j59708635349187_2_alg».proof.Proof.KWalkA3
import Idealize.ShloMosaic.PureOps.Ideal

set_option maxRecDepth 16384

noncomputable section

namespace Cert.KernelIdeal.KWalk

open Idealize.ShloMosaic Idealize.ShloMosaic.TcCoe Idealize.ShloMosaic.Tactic
open Idealize.SL Idealize.SL.Sem
open Cert.KernelIdeal.Gen

/-! # The buffers the first two pallas regions read, as terms of the argument arrays

The first host stretch is the three groups of pieces in a row; a buffer is read in the group that writes it and
kept by the groups after it, and the groups before it keep the argument arrays. The second host stretch writes
only the two remaining weight slices, and the first region only its own output. -/

theorem after_hostOps0_groups (W : Valuation τ sig (Elt Ideal)) : StableHlo.after hostOps0 W = afterC (afterB (afterA W)) := after_hostOps0 W

/-! ## The first host stretch over an arbitrary valuation -/

theorem h0_arg0 (W : Valuation τ sig (Elt Ideal)) : StableHlo.after hostOps0 W (Proc.devRef .tc main_arg0) = (W (Proc.devRef .tc main_arg0)) :=
  (congrFun (after_hostOps0_groups W) _).trans ((afterC_thru _ (by decide) (by decide) (by decide)).trans ((afterB_thru _ (by decide) (by decide) (by decide) (by decide)).trans (afterA_thru _ (by decide) (by decide) (by decide) (by decide))))
theorem h0_arg1 (W : Valuation τ sig (Elt Ideal)) : StableHlo.after hostOps0 W (Proc.devRef .tc main_arg1) = (W (Proc.devRef .tc main_arg1)) :=
  (congrFun (after_hostOps0_groups W) _).trans ((afterC_thru _ (by decide) (by decide) (by decide)).trans ((afterB_thru _ (by decide) (by decide) (by decide) (by decide)).trans (afterA_thru _ (by decide) (by decide) (by decide) (by decide))))
theorem h0_arg2 (W : Valuation τ sig (Elt Ideal)) : StableHlo.after hostOps0 W (Proc.devRef .tc main_arg2) = (W (Proc.devRef .tc main_arg2)) :=
  (congrFun (after_hostOps0_groups W) _).trans ((afterC_thru _ (by decide) (by decide) (by decide)).trans ((afterB_thru _ (by decide) (by decide) (by decide) (by decide)).trans (afterA_thru _ (by decide) (by decide) (by decide) (by decide))))
theorem h0_v9 (W : Valuation τ sig (Elt Ideal)) : StableHlo.after hostOps0 W (Proc.devRef .tc main_v9) = invCnt (W (Proc.devRef .tc main_arg12)) :=
  (congrFun (after_hostOps0_groups W) _).trans ((afterC_thru _ (by decide) (by decide) (by decide)).trans ((afterB_thru _ (by decide) (by decide) (by decide) (by decide)).trans (afterA_v9 W)))
theorem h0_v19 (W : Valuation τ sig (Elt Ideal)) : StableHlo.after hostOps0 W (Proc.devRef .tc main_v19) = invCnt (W (Proc.devRef .tc main_arg13)) :=
  (congrFun (after_hostOps0_groups W) _).trans ((afterC_thru _ (by decide) (by decide) (by decide)).trans ((afterB_thru _ (by decide) (by decide) (by decide) (by decide)).trans (afterA_v19 W)))
theorem h0_v29 (W : Valuation τ sig (Elt Ideal)) : StableHlo.after hostOps0 W (Proc.devRef .tc main_v29) = invCnt (W (Proc.devRef .tc main_arg14)) :=
  (congrFun (after_hostOps0_groups W) _).trans ((afterC_thru _ (by decide) (by decide) (by decide)).trans ((afterB_thru _ (by decide) (by decide) (by decide) (by decide)).trans (afterA_v29 W)))
theorem h0_v39 (W : Valuation τ sig (Elt Ideal)) : StableHlo.after hostOps0 W (Proc.devRef .tc main_v39) = invCnt (W (Proc.devRef .tc main_arg15)) :=
  (congrFun (after_hostOps0_groups W) _).trans ((afterC_thru _ (by decide) (by decide) (by decide)).trans ((afterB_thru _ (by decide) (by decide) (by decide) (by decide)).trans (afterA_v39 W)))
theorem h0_v56 (W : Valuation τ sig (Elt Ideal)) : StableHlo.after hostOps0 W (Proc.devRef .tc main_v56) = mean11 (W (Proc.devRef .tc main_arg0)) (W (Proc.devRef .tc main_arg12)) := by
  refine (congrFun (after_hostOps0_groups W) _).trans ((afterC_thru _ (by decide) (by decide) (by decide)).trans ((afterB_v56 _).trans ?_))
  rw [afterA_thru (r := main_arg0) W (by decide) (by decide) (by decide) (by decide), afterA_thru (r := main_arg12) W (by decide) (by decide) (by decide) (by decide), afterA_v9 W]
  exact meanWith_invCnt _ _
theorem h0_v73 (W : Valuation τ sig (Elt Ideal)) : StableHlo.after hostOps0 W (Proc.devRef .tc main_v73) = mean11 (W (Proc.devRef .tc main_arg1)) (W (Proc.devRef .tc main_arg14)) := by
  refine (congrFun (after_hostOps0_groups W) _).trans ((afterC_thru _ (by decide) (by decide) (by decide)).trans ((afterB_v73 _).trans ?_))
  rw [afterA_thru (r := main_arg1) W (by decide) (by decide) (by decide) (by decide), afterA_thru (r := main_arg14) W (by decide) (by decide) (by decide) (by decide), afterA_v29 W]
  exact meanWith_invCnt _ _
theorem h0_v90 (W : Valuation τ sig (Elt Ideal)) : StableHlo.after hostOps0 W (Proc.devRef .tc main_v90) = mean11 (W (Proc.devRef .tc main_arg0)) (W (Proc.devRef .tc main_arg13)) := by
  refine (congrFun (after_hostOps0_groups W) _).trans ((afterC_thru _ (by decide) (by decide) (by decide)).trans ((afterB_v90 _).trans ?_))
  rw [afterA_thru (r := main_arg0) W (by decide) (by decide) (by decide) (by decide), afterA_thru (r := main_arg13) W (by decide) (by decide) (by decide) (by decide), afterA_v19 W]
  exact meanWith_invCnt _ _
theorem h0_v107 (W : Valuation τ sig (Elt Ideal)) : StableHlo.after hostOps0 W (Proc.devRef .tc main_v107) = mean11 (W (Proc.devRef .tc main_arg1)) (W (Proc.devRef .tc main_arg15)) := by
  refine (congrFun (after_hostOps0_groups W) _).trans ((afterC_thru _ (by decide) (by decide) (by decide)).trans ((afterB_v107 _).trans ?_))
  rw [afterA_thru (r := main_arg1) W (by decide) (by decide) (by decide) (by decide), afterA_thru (r := main_arg15) W (by decide) (by decide) (by decide) (by decide), afterA_v39 W]
  exact meanWith_invCnt _ _
theorem h0_v112 (W : Valuation τ sig (Elt Ideal)) : StableHlo.after hostOps0 W (Proc.devRef .tc main_v112) = addf (F := Ideal) (φ := .f32) (shapeCast S11x64 (extractStridedSlice S1x11x64 ![0, 0, 0] (W (Proc.devRef .tc main_arg4)) slices_S4x11x64_S1x11x64_0_0_0) shapeCasts_S1x11x64_S11x64) (shapeCast S11x64 (extractStridedSlice S1x11x64 ![2, 0, 0] (W (Proc.devRef .tc main_arg4)) slices_S4x11x64_S1x11x64_2_0_0) shapeCasts_S1x11x64_S11x64) := by
  refine (congrFun (after_hostOps0_groups W) _).trans ((afterC_v112 _).trans ?_)
  rw [afterB_thru (r := main_arg4) _ (by decide) (by decide) (by decide) (by decide), afterA_thru (r := main_arg4) W (by decide) (by decide) (by decide) (by decide)]
theorem h0_v117 (W : Valuation τ sig (Elt Ideal)) : StableHlo.after hostOps0 W (Proc.devRef .tc main_v117) = addf (F := Ideal) (φ := .f32) (shapeCast S11x64 (extractStridedSlice S1x11x64 ![1, 0, 0] (W (Proc.devRef .tc main_arg4)) slices_S4x11x64_S1x11x64_1_0_0) shapeCasts_S1x11x64_S11x64) (shapeCast S11x64 (extractStridedSlice S1x11x64 ![3, 0, 0] (W (Proc.devRef .tc main_arg4)) slices_S4x11x64_S1x11x64_3_0_0) shapeCasts_S1x11x64_S11x64) := by
  refine (congrFun (after_hostOps0_groups W) _).trans ((afterC_v117 _).trans ?_)
  rw [afterB_thru (r := main_arg4) _ (by decide) (by decide) (by decide) (by decide), afterA_thru (r := main_arg4) W (by decide) (by decide) (by decide) (by decide)]
theorem h0_v123 (W : Valuation τ sig (Elt Ideal)) : StableHlo.after hostOps0 W (Proc.devRef .tc main_v123) = shapeCast S1x64 (addf (F := Ideal) (φ := .f32) (shapeCast S64 (extractStridedSlice S1x64 ![0, 0] (W (Proc.devRef .tc main_arg3)) slices_S4x64_S1x64_0_0) shapeCasts_S1x64_S64) (shapeCast S64 (extractStridedSlice S1x64 ![2, 0] (W (Proc.devRef .tc main_arg3)) slices_S4x64_S1x64_2_0) shapeCasts_S1x64_S64)) shapeCasts_S64_S1x64 := by
  refine (congrFun (after_hostOps0_groups W) _).trans ((afterC_v123 _).trans ?_)
  rw [afterB_thru (r := main_arg3) _ (by decide) (by decide) (by decide) (by decide), afterA_thru (r := main_arg3) W (by decide) (by decide) (by decide) (by decide)]
theorem h0_v129 (W : Valuation τ sig (Elt Ideal)) : StableHlo.after hostOps0 W (Proc.devRef .tc main_v129) = shapeCast S1x64 (addf (F := Ideal) (φ := .f32) (shapeCast S64 (extractStridedSlice S1x64 ![1, 0] (W (Proc.devRef .tc main_arg3)) slices_S4x64_S1x64_1_0) shapeCasts_S1x64_S64) (shapeCast S64 (extractStridedSlice S1x64 ![3, 0] (W (Proc.devRef .tc main_arg3)) slices_S4x64_S1x64_3_0) shapeCasts_S1x64_S64)) shapeCasts_S64_S1x64 := by
  refine (congrFun (after_hostOps0_groups W) _).trans ((afterC_v129 _).trans ?_)
  rw [afterB_thru (r := main_arg3) _ (by decide) (by decide) (by decide) (by decide), afterA_thru (r := main_arg3) W (by decide) (by decide) (by decide) (by decide)]
theorem h0_v131 (W : Valuation τ sig (Elt Ideal)) : StableHlo.after hostOps0 W (Proc.devRef .tc main_v131) = (shapeCast S11x64 (extractStridedSlice S1x11x64 ![0, 0, 0] (W (Proc.devRef .tc main_arg2)) slices_S4x11x64_S1x11x64_0_0_0) shapeCasts_S1x11x64_S11x64) := by
  refine (congrFun (after_hostOps0_groups W) _).trans ((afterC_v131 _).trans ?_)
  rw [afterB_thru (r := main_arg2) _ (by decide) (by decide) (by decide) (by decide), afterA_thru (r := main_arg2) W (by decide) (by decide) (by decide) (by decide)]
theorem h0_v133 (W : Valuation τ sig (Elt Ideal)) : StableHlo.after hostOps0 W (Proc.devRef .tc main_v133) = (shapeCast S11x64 (extractStridedSlice S1x11x64 ![2, 0, 0] (W (Proc.devRef .tc main_arg2)) slices_S4x11x64_S1x11x64_2_0_0) shapeCasts_S1x11x64_S11x64) := by
  refine (congrFun (after_hostOps0_groups W) _).trans ((afterC_v133 _).trans ?_)
  rw [afterB_thru (r := main_arg2) _ (by decide) (by decide) (by decide) (by decide), afterA_thru (r := main_arg2) W (by decide) (by decide) (by decide) (by decide)]

/-! ## At the launch contents: the first region's entry, and the second's -/

variable (m : (ℓ : Loc nD τ sig) → Buf (Elt Ideal) ℓ) (ρ : Dev nD → PrngReg)

/-- The first layer's weights at the first region's entry are the argument's. -/
theorem W1_arg2 (c : Dev nD) :
    Gen.W1 m ρ c (Proc.devRef .tc main_arg2) = (m ((c : Thread nD τ).loc main_arg2)) :=
  h0_arg2 (Gen.W0 m ρ c)

theorem W1_v9 (c : Dev nD) :
    Gen.W1 m ρ c (Proc.devRef .tc main_v9) = invCnt (m ((c : Thread nD τ).loc main_arg12)) :=
  h0_v9 (Gen.W0 m ρ c)

theorem W1_v19 (c : Dev nD) :
    Gen.W1 m ρ c (Proc.devRef .tc main_v19) = invCnt (m ((c : Thread nD τ).loc main_arg13)) :=
  h0_v19 (Gen.W0 m ρ c)

theorem W1_v29 (c : Dev nD) :
    Gen.W1 m ρ c (Proc.devRef .tc main_v29) = invCnt (m ((c : Thread nD τ).loc main_arg14)) :=
  h0_v29 (Gen.W0 m ρ c)

theorem W1_v39 (c : Dev nD) :
    Gen.W1 m ρ c (Proc.devRef .tc main_v39) = invCnt (m ((c : Thread nD τ).loc main_arg15)) :=
  h0_v39 (Gen.W0 m ρ c)

theorem V1_v56 (c : Dev nD) :
    Gen.V1 m ρ c main_v56 = mean11 (m ((c : Thread nD τ).loc main_arg0)) (m ((c : Thread nD τ).loc main_arg12)) :=
  h0_v56 (Gen.W0 m ρ c)

theorem V1_v73 (c : Dev nD) :
    Gen.V1 m ρ c main_v73 = mean11 (m ((c : Thread nD τ).loc main_arg1)) (m ((c : Thread nD τ).loc main_arg14)) :=
  h0_v73 (Gen.W0 m ρ c)

theorem V1_arg0 (c : Dev nD) :
    Gen.V1 m ρ c main_arg0 = (m ((c : Thread nD τ).loc main_arg0)) :=
  h0_arg0 (Gen.W0 m ρ c)

theorem V1_v131 (c : Dev nD) :
    Gen.V1 m ρ c main_v131 = (shapeCast S11x64 (extractStridedSlice S1x11x64 ![0, 0, 0] (m ((c : Thread nD τ).loc main_arg2)) slices_S4x11x64_S1x11x64_0_0_0) shapeCasts_S1x11x64_S11x64) :=
  h0_v131 (Gen.W0 m ρ c)

theorem V1_v133 (c : Dev nD) :
    Gen.V1 m ρ c main_v133 = (shapeCast S11x64 (extractStridedSlice S1x11x64 ![2, 0, 0] (m ((c : Thread nD τ).loc main_arg2)) slices_S4x11x64_S1x11x64_2_0_0) shapeCasts_S1x11x64_S11x64) :=
  h0_v133 (Gen.W0 m ρ c)

theorem V1_v112 (c : Dev nD) :
    Gen.V1 m ρ c main_v112 = addf (F := Ideal) (φ := .f32) (shapeCast S11x64 (extractStridedSlice S1x11x64 ![0, 0, 0] (m ((c : Thread nD τ).loc main_arg4)) slices_S4x11x64_S1x11x64_0_0_0) shapeCasts_S1x11x64_S11x64) (shapeCast S11x64 (extractStridedSlice S1x11x64 ![2, 0, 0] (m ((c : Thread nD τ).loc main_arg4)) slices_S4x11x64_S1x11x64_2_0_0) shapeCasts_S1x11x64_S11x64) :=
  h0_v112 (Gen.W0 m ρ c)

theorem V1_v123 (c : Dev nD) :
    Gen.V1 m ρ c main_v123 = shapeCast S1x64 (addf (F := Ideal) (φ := .f32) (shapeCast S64 (extractStridedSlice S1x64 ![0, 0] (m ((c : Thread nD τ).loc main_arg3)) slices_S4x64_S1x64_0_0) shapeCasts_S1x64_S64) (shapeCast S64 (extractStridedSlice S1x64 ![2, 0] (m ((c : Thread nD τ).loc main_arg3)) slices_S4x64_S1x64_2_0) shapeCasts_S1x64_S64)) shapeCasts_S64_S1x64 :=
  h0_v123 (Gen.W0 m ρ c)

theorem V3_v90 (c : Dev nD) :
    Gen.V3 m ρ c main_v90 = mean11 (m ((c : Thread nD τ).loc main_arg0)) (m ((c : Thread nD τ).loc main_arg13)) :=
  (hostOps1_thru _ (by decide)).trans ((Gen.W2_of_ne m ρ c main_v90 (by decide)).trans (h0_v90 (Gen.W0 m ρ c)))

theorem V3_v107 (c : Dev nD) :
    Gen.V3 m ρ c main_v107 = mean11 (m ((c : Thread nD τ).loc main_arg1)) (m ((c : Thread nD τ).loc main_arg15)) :=
  (hostOps1_thru _ (by decide)).trans ((Gen.W2_of_ne m ρ c main_v107 (by decide)).trans (h0_v107 (Gen.W0 m ρ c)))

theorem V3_arg1 (c : Dev nD) :
    Gen.V3 m ρ c main_arg1 = (m ((c : Thread nD τ).loc main_arg1)) :=
  (hostOps1_thru _ (by decide)).trans ((Gen.W2_of_ne m ρ c main_arg1 (by decide)).trans (h0_arg1 (Gen.W0 m ρ c)))

theorem V3_v136 (c : Dev nD) :
    Gen.V3 m ρ c main_v136 = (shapeCast S11x64 (extractStridedSlice S1x11x64 ![1, 0, 0] (m ((c : Thread nD τ).loc main_arg2)) slices_S4x11x64_S1x11x64_1_0_0) shapeCasts_S1x11x64_S11x64) :=
  (hostOps1_v136 _).trans (by rw [Gen.W2_of_ne m ρ c main_arg2 (by decide), W1_arg2 m ρ c])

theorem V3_v138 (c : Dev nD) :
    Gen.V3 m ρ c main_v138 = (shapeCast S11x64 (extractStridedSlice S1x11x64 ![3, 0, 0] (m ((c : Thread nD τ).loc main_arg2)) slices_S4x11x64_S1x11x64_3_0_0) shapeCasts_S1x11x64_S11x64) :=
  (hostOps1_v138 _).trans (by rw [Gen.W2_of_ne m ρ c main_arg2 (by decide), W1_arg2 m ρ c])

theorem V3_v117 (c : Dev nD) :
    Gen.V3 m ρ c main_v117 = addf (F := Ideal) (φ := .f32) (shapeCast S11x64 (extractStridedSlice S1x11x64 ![1, 0, 0] (m ((c : Thread nD τ).loc main_arg4)) slices_S4x11x64_S1x11x64_1_0_0) shapeCasts_S1x11x64_S11x64) (shapeCast S11x64 (extractStridedSlice S1x11x64 ![3, 0, 0] (m ((c : Thread nD τ).loc main_arg4)) slices_S4x11x64_S1x11x64_3_0_0) shapeCasts_S1x11x64_S11x64) :=
  (hostOps1_thru _ (by decide)).trans ((Gen.W2_of_ne m ρ c main_v117 (by decide)).trans (h0_v117 (Gen.W0 m ρ c)))

theorem V3_v129 (c : Dev nD) :
    Gen.V3 m ρ c main_v129 = shapeCast S1x64 (addf (F := Ideal) (φ := .f32) (shapeCast S64 (extractStridedSlice S1x64 ![1, 0] (m ((c : Thread nD τ).loc main_arg3)) slices_S4x64_S1x64_1_0) shapeCasts_S1x64_S64) (shapeCast S64 (extractStridedSlice S1x64 ![3, 0] (m ((c : Thread nD τ).loc main_arg3)) slices_S4x64_S1x64_3_0) shapeCasts_S1x64_S64)) shapeCasts_S64_S1x64 :=
  (hostOps1_thru _ (by decide)).trans ((Gen.W2_of_ne m ρ c main_v129 (by decide)).trans (h0_v129 (Gen.W0 m ρ c)))

end Cert.KernelIdeal.KWalk
-- ==== Proof.KWalkB0.lean ====
import proofs.«122893_j59708635349187_2_alg».proof.Proof.Gen.KernelIdeal.Frame
import Idealize.ShloMosaic.PureOps.Ideal

set_option maxRecDepth 16384

noncomputable section

namespace Cert.KernelIdeal.KWalk2

open Idealize.ShloMosaic Idealize.ShloMosaic.TcCoe
open Idealize.SL.Sem
open Cert.KernelIdeal.Gen

/-- The neighbourhood mean of a layer's rows, as the host program spells it: gather the rows of `h` at the
    edges' sources `e[0]` (a negative source wrapped by the row count), widen to f32, add each gathered row
    into its edge's destination row `e[1]` of a zero array, and scale row `i` by `inv i`. -/
def mean64 (h : (⟨S50000x64, .bf16⟩ : BufTy).Contents (Elt Ideal)) (e : (⟨S2x1600000, .i32⟩ : BufTy).Contents (Elt Ideal))
    (inv : (⟨S50000, .f32⟩ : BufTy).Contents (Elt Ideal)) : (⟨S50000x64, .f32⟩ : BufTy).Contents (Elt Ideal) :=
  mulf
    (Host.scatterAdd (F := Ideal) scatter_S50000x64_S1600000x1_S1600000x64_1_0_0_1
      (broadcastInDim S50000x64 ![] bcast_S_S50000x64 (constant (F := Ideal) S_ .f32 0x00000000#32))
      (broadcastInDim S1600000x1 ![0] bcast_S1600000_S1600000x1_0
        (shapeCast S1600000 (extractStridedSlice S1x1600000 ![1, 0] e slices_S2x1600000_S1x1600000_1_0) shapeCasts_S1x1600000_S1600000))
      (extf .f32
        (Host.gather gather_S50000x64_S1600000x1_S1600000x64_1_0_n_n_0_1_164 h
          (broadcastInDim S1600000x1 ![0] bcast_S1600000_S1600000x1_0
            (select
              (cmpi .slt
                (shapeCast S1600000 (extractStridedSlice S1x1600000 ![0, 0] e slices_S2x1600000_S1x1600000_0_0) shapeCasts_S1x1600000_S1600000)
                (broadcastInDim S1600000 ![] bcast_S_S1600000 (constantI S_ 32 0#32)))
              (addi
                (shapeCast S1600000 (extractStridedSlice S1x1600000 ![0, 0] e slices_S2x1600000_S1x1600000_0_0) shapeCasts_S1x1600000_S1600000)
                (broadcastInDim S1600000 ![] bcast_S_S1600000 (constantI S_ 32 50000#32)))
              (shapeCast S1600000 (extractStridedSlice S1x1600000 ![0, 0] e slices_S2x1600000_S1x1600000_0_0) shapeCasts_S1x1600000_S1600000))))
        bitsLt_bf16_f32))
    (broadcastInDim S50000x64 ![0, 1] bcast_S50000x1_S50000x64_0_1 (broadcastInDim S50000x1 ![0] bcast_S50000_S50000x1_0 inv))

variable (m : (ℓ : Loc nD τ sig) → Buf (Elt Ideal) ℓ) (ρ : Dev nD → PrngReg) (c : Dev nD)

/-- The first layer's output array of the first node type, as region 0 leaves it. -/
abbrev H0 : (⟨S50000x64, .bf16⟩ : BufTy).Contents (Elt Ideal) := (Gen.dat0 (F := Ideal) (Gen.V1 m ρ) c).arrAt 7 cfg0.N
/-- The first layer's output array of the second node type, as region 1 leaves it. -/
abbrev H1 : (⟨S50000x64, .bf16⟩ : BufTy).Contents (Elt Ideal) := (Gen.dat1 (F := Ideal) (Gen.V3 m ρ) c).arrAt 7 cfg1.N

end Cert.KernelIdeal.KWalk2

end
-- ==== Proof.RefSpec.lean ====
/-
  The reference network as a composition of named whole-array functions, in the reference program's own spelling.

  For an edge array `e` (row 0 the source ids, row 1 the destination ids): the mean over the edges arriving at a node
  of the source node's features is the scatter-added sum of the gathered source rows divided by the in-degree (at
  least one). One SAGE term is mean · wl + bl + x · wr; a layer adds the two terms arriving at a node type and
  applies the rectifier; the read-out is a product with one column plus a scalar bias. The two layers and the
  read-out composed give the two results.
-/
import proofs.«122893_j59708635349187_2_alg».proof.Proof.Gen.ReferenceIdeal

noncomputable section

namespace Cert.ReferenceIdeal.RefSpec

open Cert.ReferenceIdeal Cert.ReferenceIdeal.Gen Idealize.ShloMosaic Idealize.ShloMosaic.TcCoe Idealize.SL.Sem

variable {F : FTy → Type} [FloatOps F]

/-- The source ids of an edge array: its row 0, as a flat vector. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
/-- The destination ids of an edge array: its row 1, as a flat vector. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
/-- The column of gather start indices: a negative source id wraps around by 50000. -/
def srcCol (e : (⟨S2x1600000, .i32⟩ : BufTy).Contents (Elt F)) : (⟨S1600000x1, .i32⟩ : BufTy).Contents (Elt F) :=
  broadcastInDim S1600000x1 ![0] bcast_S1600000_S1600000x1_0 (select (cmpi .slt (srcRow e) (broadcastInDim S1600000 ![] bcast_S_S1600000 (constantI S_ 32 0#32))) (addi (srcRow e) (broadcastInDim S1600000 ![] bcast_S_S1600000 (constantI S_ 32 50000#32))) (srcRow e))
/-- The column of scatter indices: the destination ids. -/
def dstCol (e : (⟨S2x1600000, .i32⟩ : BufTy).Contents (Elt F)) : (⟨S1600000x1, .i32⟩ : BufTy).Contents (Elt F) :=
  broadcastInDim S1600000x1 ![0] bcast_S1600000_S1600000x1_0 (dstRow e)
/-- The in-degree of every destination node, at least one. -/
def cnt (e : (⟨S2x1600000, .i32⟩ : BufTy).Contents (Elt F)) : (⟨S50000, .f32⟩ : BufTy).Contents (Elt F) :=
  maximumf (Host.scatterAdd scatter_S50000_S1600000x1_S1600000_n_0_0_1 (broadcastInDim S50000 ![] bcast_S_S50000 (constant S_ .f32 0x00000000#32)) (dstCol e) (broadcastInDim S1600000 ![] bcast_S_S1600000 (constant S_ .f32 0x3F800000#32))) (broadcastInDim S50000 ![] bcast_S_S50000 (constant S_ .f32 0x3F800000#32))
/-- The sum, per destination node, of the source rows of width 11 along the edges. -/
def agg11 (x : (⟨S50000x11, .f32⟩ : BufTy).Contents (Elt F)) (e : (⟨S2x1600000, .i32⟩ : BufTy).Contents (Elt F)) : (⟨S50000x11, .f32⟩ : BufTy).Contents (Elt F) :=
  Host.scatterAdd scatter_S50000x11_S1600000x1_S1600000x11_1_0_0_1 (broadcastInDim S50000x11 ![] bcast_S_S50000x11 (constant S_ .f32 0x00000000#32)) (dstCol e) (Host.gather gather_S50000x11_S1600000x1_S1600000x11_1_0_n_n_0_1_111 x (srcCol e))
/-- The mean of the source rows of width 11 along the edges: the sum divided by the in-degree. -/
def mean11 (x : (⟨S50000x11, .f32⟩ : BufTy).Contents (Elt F)) (e : (⟨S2x1600000, .i32⟩ : BufTy).Contents (Elt F)) : (⟨S50000x11, .f32⟩ : BufTy).Contents (Elt F) :=
  Host.divf (agg11 x e) (broadcastInDim S50000x11 ![0, 1] bcast_S50000x1_S50000x11_0_1 (broadcastInDim S50000x1 ![0] bcast_S50000_S50000x1_0 (cnt e)))
/-- The sum, per destination node, of the source rows of width 64 along the edges. -/
def agg64 (x : (⟨S50000x64, .f32⟩ : BufTy).Contents (Elt F)) (e : (⟨S2x1600000, .i32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32)) (dstCol e) (Host.gather gather_S50000x64_S1600000x1_S1600000x64_1_0_n_n_0_1_164 x (srcCol e))
/-- The mean of the source rows of width 64 along the edges. -/
def mean64 (x : (⟨S50000x64, .f32⟩ : BufTy).Contents (Elt F)) (e : (⟨S2x1600000, .i32⟩ : BufTy).Contents (Elt F)) : (⟨S50000x64, .f32⟩ : BufTy).Contents (Elt F) :=
  Host.divf (agg64 x e) (broadcastInDim S50000x64 ![0, 1] bcast_S50000x1_S50000x64_0_1 (broadcastInDim S50000x1 ![0] bcast_S50000_S50000x1_0 (cnt e)))
/-- A bias vector of length 64 repeated on every row. -/
def biasRows (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)
/-- One SAGE term of input width 11: mean · wl + bl + x · wr. -/
def sage11 (mean x : (⟨S50000x11, .f32⟩ : BufTy).Contents (Elt F)) (wl : (⟨S11x64, .f32⟩ : BufTy).Contents (Elt F)) (bl : (⟨S64, .f32⟩ : BufTy).Contents (Elt F)) (wr : (⟨S11x64, .f32⟩ : BufTy).Contents (Elt F)) : (⟨S50000x64, .f32⟩ : BufTy).Contents (Elt F) :=
  addf (addf (Host.dotGeneral dot_S50000x11_S11x64_S50000x64_1_0_0_1_n_n none mean wl) (biasRows bl)) (Host.dotGeneral dot_S50000x11_S11x64_S50000x64_1_0_0_1_n_n none x wr)
/-- One SAGE term of input width 64. -/
def sage64 (mean x : (⟨S50000x64, .f32⟩ : BufTy).Contents (Elt F)) (wl : (⟨S64x64, .f32⟩ : BufTy).Contents (Elt F)) (bl : (⟨S64, .f32⟩ : BufTy).Contents (Elt F)) (wr : (⟨S64x64, .f32⟩ : BufTy).Contents (Elt F)) : (⟨S50000x64, .f32⟩ : BufTy).Contents (Elt F) :=
  addf (addf (Host.dotGeneral dot_S50000x64_S64x64_S50000x64_1_0_0_1_n_n none mean wl) (biasRows bl)) (Host.dotGeneral dot_S50000x64_S64x64_S50000x64_1_0_0_1_n_n none x wr)
/-- The sum of the two SAGE terms arriving at one node type, through the rectifier. -/
def relu2 (a b : (⟨S50000x64, .f32⟩ : BufTy).Contents (Elt F)) : (⟨S50000x64, .f32⟩ : BufTy).Contents (Elt F) :=
  maximumf (addf a b) (broadcastInDim S50000x64 ![] bcast_S_S50000x64 (constant S_ .f32 0x00000000#32))
/-- The linear read-out to one column. -/
def readout (hid : (⟨S50000x64, .f32⟩ : BufTy).Contents (Elt F)) (w : (⟨S64x1, .f32⟩ : BufTy).Contents (Elt F)) (b : (⟨S1, .f32⟩ : BufTy).Contents (Elt F)) : (⟨S50000x1, .f32⟩ : BufTy).Contents (Elt F) :=
  addf (Host.dotGeneral dot_S50000x64_S64x1_S50000x1_1_0_0_1_n_n none hid w) (broadcastInDim S50000x1 ![0, 1] bcast_S1x1_S50000x1_0_1 (broadcastInDim S1x1 ![1] bcast_S1_S1x1_1 b))
/-- Slice 0 of a stack of four [11, 64] weight tables. -/
def w11_0 (W : (⟨S4x11x64, .f32⟩ : BufTy).Contents (Elt F)) : (⟨S11x64, .f32⟩ : BufTy).Contents (Elt F) :=
  shapeCast _ (extractStridedSlice S1x11x64 ![0, 0, 0] W slices_S4x11x64_S1x11x64_0_0_0) shapeCasts_S1x11x64_S11x64
/-- Slice 1 of a stack of four [11, 64] weight tables. -/
def w11_1 (W : (⟨S4x11x64, .f32⟩ : BufTy).Contents (Elt F)) : (⟨S11x64, .f32⟩ : BufTy).Contents (Elt F) :=
  shapeCast _ (extractStridedSlice S1x11x64 ![1, 0, 0] W slices_S4x11x64_S1x11x64_1_0_0) shapeCasts_S1x11x64_S11x64
/-- Slice 2 of a stack of four [11, 64] weight tables. -/
def w11_2 (W : (⟨S4x11x64, .f32⟩ : BufTy).Contents (Elt F)) : (⟨S11x64, .f32⟩ : BufTy).Contents (Elt F) :=
  shapeCast _ (extractStridedSlice S1x11x64 ![2, 0, 0] W slices_S4x11x64_S1x11x64_2_0_0) shapeCasts_S1x11x64_S11x64
/-- Slice 3 of a stack of four [11, 64] weight tables. -/
def w11_3 (W : (⟨S4x11x64, .f32⟩ : BufTy).Contents (Elt F)) : (⟨S11x64, .f32⟩ : BufTy).Contents (Elt F) :=
  shapeCast _ (extractStridedSlice S1x11x64 ![3, 0, 0] W slices_S4x11x64_S1x11x64_3_0_0) shapeCasts_S1x11x64_S11x64
/-- Slice 0 of a stack of four [64, 64] weight tables. -/
def w64_0 (W : (⟨S4x64x64, .f32⟩ : BufTy).Contents (Elt F)) : (⟨S64x64, .f32⟩ : BufTy).Contents (Elt F) :=
  shapeCast _ (extractStridedSlice S1x64x64 ![0, 0, 0] W slices_S4x64x64_S1x64x64_0_0_0) shapeCasts_S1x64x64_S64x64
/-- Slice 1 of a stack of four [64, 64] weight tables. -/
def w64_1 (W : (⟨S4x64x64, .f32⟩ : BufTy).Contents (Elt F)) : (⟨S64x64, .f32⟩ : BufTy).Contents (Elt F) :=
  shapeCast _ (extractStridedSlice S1x64x64 ![1, 0, 0] W slices_S4x64x64_S1x64x64_1_0_0) shapeCasts_S1x64x64_S64x64
/-- Slice 2 of a stack of four [64, 64] weight tables. -/
def w64_2 (W : (⟨S4x64x64, .f32⟩ : BufTy).Contents (Elt F)) : (⟨S64x64, .f32⟩ : BufTy).Contents (Elt F) :=
  shapeCast _ (extractStridedSlice S1x64x64 ![2, 0, 0] W slices_S4x64x64_S1x64x64_2_0_0) shapeCasts_S1x64x64_S64x64
/-- Slice 3 of a stack of four [64, 64] weight tables. -/
def w64_3 (W : (⟨S4x64x64, .f32⟩ : BufTy).Contents (Elt F)) : (⟨S64x64, .f32⟩ : BufTy).Contents (Elt F) :=
  shapeCast _ (extractStridedSlice S1x64x64 ![3, 0, 0] W slices_S4x64x64_S1x64x64_3_0_0) shapeCasts_S1x64x64_S64x64
/-- Row 0 of a stack of four bias vectors of length 64. -/
def b64_0 (B : (⟨S4x64, .f32⟩ : BufTy).Contents (Elt F)) : (⟨S64, .f32⟩ : BufTy).Contents (Elt F) :=
  shapeCast _ (extractStridedSlice S1x64 ![0, 0] B slices_S4x64_S1x64_0_0) shapeCasts_S1x64_S64
/-- Row 1 of a stack of four bias vectors of length 64. -/
def b64_1 (B : (⟨S4x64, .f32⟩ : BufTy).Contents (Elt F)) : (⟨S64, .f32⟩ : BufTy).Contents (Elt F) :=
  shapeCast _ (extractStridedSlice S1x64 ![1, 0] B slices_S4x64_S1x64_1_0) shapeCasts_S1x64_S64
/-- Row 2 of a stack of four bias vectors of length 64. -/
def b64_2 (B : (⟨S4x64, .f32⟩ : BufTy).Contents (Elt F)) : (⟨S64, .f32⟩ : BufTy).Contents (Elt F) :=
  shapeCast _ (extractStridedSlice S1x64 ![2, 0] B slices_S4x64_S1x64_2_0) shapeCasts_S1x64_S64
/-- Row 3 of a stack of four bias vectors of length 64. -/
def b64_3 (B : (⟨S4x64, .f32⟩ : BufTy).Contents (Elt F)) : (⟨S64, .f32⟩ : BufTy).Contents (Elt F) :=
  shapeCast _ (extractStridedSlice S1x64 ![3, 0] B slices_S4x64_S1x64_3_0) shapeCasts_S1x64_S64

/-- The first layer's activations of the shop nodes. -/
def hs1 (xs xp : (⟨S50000x11, .f32⟩ : BufTy).Contents (Elt F)) (W1l : (⟨S4x11x64, .f32⟩ : BufTy).Contents (Elt F)) (B1l : (⟨S4x64, .f32⟩ : BufTy).Contents (Elt F)) (W1r : (⟨S4x11x64, .f32⟩ : BufTy).Contents (Elt F)) (ess eps : (⟨S2x1600000, .i32⟩ : BufTy).Contents (Elt F)) : (⟨S50000x64, .f32⟩ : BufTy).Contents (Elt F) :=
  relu2 (sage11 (mean11 xs ess) xs (w11_0 W1l) (b64_0 B1l) (w11_0 W1r)) (sage11 (mean11 xp eps) xs (w11_2 W1l) (b64_2 B1l) (w11_2 W1r))
/-- The first layer's activations of the public nodes. -/
def hp1 (xs xp : (⟨S50000x11, .f32⟩ : BufTy).Contents (Elt F)) (W1l : (⟨S4x11x64, .f32⟩ : BufTy).Contents (Elt F)) (B1l : (⟨S4x64, .f32⟩ : BufTy).Contents (Elt F)) (W1r : (⟨S4x11x64, .f32⟩ : BufTy).Contents (Elt F)) (esp epp : (⟨S2x1600000, .i32⟩ : BufTy).Contents (Elt F)) : (⟨S50000x64, .f32⟩ : BufTy).Contents (Elt F) :=
  relu2 (sage11 (mean11 xs esp) xp (w11_1 W1l) (b64_1 B1l) (w11_1 W1r)) (sage11 (mean11 xp epp) xp (w11_3 W1l) (b64_3 B1l) (w11_3 W1r))
/-- The shop nodes' output from the first layer's activations. -/
def outShop (hs hp : (⟨S50000x64, .f32⟩ : BufTy).Contents (Elt F)) (W2l : (⟨S4x64x64, .f32⟩ : BufTy).Contents (Elt F)) (B2l : (⟨S4x64, .f32⟩ : BufTy).Contents (Elt F)) (W2r : (⟨S4x64x64, .f32⟩ : BufTy).Contents (Elt F)) (wlin : (⟨S64x1, .f32⟩ : BufTy).Contents (Elt F)) (blin : (⟨S1, .f32⟩ : BufTy).Contents (Elt F)) (ess eps : (⟨S2x1600000, .i32⟩ : BufTy).Contents (Elt F)) : (⟨S50000x1, .f32⟩ : BufTy).Contents (Elt F) :=
  readout (relu2 (sage64 (mean64 hs ess) hs (w64_0 W2l) (b64_0 B2l) (w64_0 W2r)) (sage64 (mean64 hp eps) hs (w64_2 W2l) (b64_2 B2l) (w64_2 W2r))) wlin blin
/-- The public nodes' output from the first layer's activations. -/
def outPub (hs hp : (⟨S50000x64, .f32⟩ : BufTy).Contents (Elt F)) (W2l : (⟨S4x64x64, .f32⟩ : BufTy).Contents (Elt F)) (B2l : (⟨S4x64, .f32⟩ : BufTy).Contents (Elt F)) (W2r : (⟨S4x64x64, .f32⟩ : BufTy).Contents (Elt F)) (wlin : (⟨S64x1, .f32⟩ : BufTy).Contents (Elt F)) (blin : (⟨S1, .f32⟩ : BufTy).Contents (Elt F)) (esp epp : (⟨S2x1600000, .i32⟩ : BufTy).Contents (Elt F)) : (⟨S50000x1, .f32⟩ : BufTy).Contents (Elt F) :=
  readout (relu2 (sage64 (mean64 hs esp) hp (w64_1 W2l) (b64_1 B2l) (w64_1 W2r)) (sage64 (mean64 hp epp) hp (w64_3 W2l) (b64_3 B2l) (w64_3 W2r))) wlin blin

end Cert.ReferenceIdeal.RefSpec

end
-- ==== Proof.Algebra.lean ====
/-
  The algebra that joins the two arrangements of one SAGE layer, on the extended reals.

  * An extended real `IsR` when it is a real number. Reals are closed under sums, products, maxima and finite sums.
  * For a row of REAL features `x` and two REAL weight tables `a`, `b`, the product with the sum of the tables is the
    sum of the products: Σ_c x_c·(a_c + b_c) = Σ_c x_c·a_c + Σ_c x_c·b_c. (At an infinite `x_c` with `a_c = −b_c` the
    two sides differ — 0 against −∞ — so the hypothesis is needed.) Sums of extended reals commute and
    associate without any hypothesis, so the fused layer
        ((S1 + S2) + Σ x·(a + b)) + (ba + bb)
    is the sum of the two separate layers (S1 + ba + Σ x·a) + (S2 + bb + Σ x·b).
  * Dividing by `c ≥ 1` is multiplying by the quotient 1 / c: both are the product with the inverse of `c`, which
    is not zero.
-/
import proofs.«122893_j59708635349187_2_alg».proof.Proof.Spec

noncomputable section

open scoped BigOperators

namespace Cert.Sage

open Idealize.ShloMosaic Idealize.ShloMosaic.ValueIdx

/-- The extended real is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩

theorem isR_add {x y : EReal} (hx : IsR x) (hy : IsR y) : IsR (x + y) := by
  obtain ⟨r, rfl⟩ := hx
  obtain ⟨s, rfl⟩ := hy
  exact ⟨r + s, (EReal.coe_add r s).symm⟩

theorem isR_mul {x y : EReal} (hx : IsR x) (hy : IsR y) : IsR (x * y) := by
  obtain ⟨r, rfl⟩ := hx
  obtain ⟨s, rfl⟩ := hy
  exact ⟨r * s, (EReal.coe_mul r s).symm⟩

theorem isR_max {x y : EReal} (hx : IsR x) (hy : IsR y) : IsR (max x y) := by
  rcases le_total x y with h | h
  · rw [max_eq_right h]; exact hy
  · rw [max_eq_left h]; exact hx

theorem isR_sum {ι : Type*} (s : Finset ι) (f : ι → EReal) (hf : ∀ i ∈ s, IsR (f i)) : IsR (∑ i ∈ s, f i) :=
  Finset.sum_induction f IsR (fun _ _ => isR_add) isR_zero hf

theorem isR_ite {p : Prop} [Decidable p] {x y : EReal} (hx : IsR x) (hy : IsR y) : IsR (if p then x else y) := by
  split
  · exact hx
  · exact hy

/-- The inverse of an extended real that is at least one is a real (the inverse of +∞ is 0). -/
theorem isR_inv_of_one_le {c : EReal} (hc : 1 ≤ c) : IsR c⁻¹ := by
  induction c using EReal.rec with
  | bot =>
    have hlt : (⊥ : EReal) < 1 := by exact_mod_cast EReal.bot_lt_coe 1
    exact absurd hc (not_le.mpr hlt)
  | coe r => exact ⟨r⁻¹, (EReal.coe_inv r).symm⟩
  | top => exact ⟨0, EReal.inv_top⟩

/-- A real times the sum of two reals is the sum of the products. -/
theorem mul_add_of_isR {x a b : EReal} (hx : IsR x) (ha : IsR a) (hb : IsR b) : x * (a + b) = x * a + x * b := by
  obtain ⟨r, rfl⟩ := hx
  obtain ⟨s, rfl⟩ := ha
  obtain ⟨t, rfl⟩ := hb
  rw [← EReal.coe_add, ← EReal.coe_mul, ← EReal.coe_mul, ← EReal.coe_mul, ← EReal.coe_add, mul_add]

/-- A real row against the sum of two real tables, summed over the contracted coordinate. -/
theorem sum_mul_add_of_isR {k : Nat} (x a b : Fin k → EReal) (hx : ∀ c, IsR (x c)) (ha : ∀ c, IsR (a c))
    (hb : ∀ c, IsR (b c)) :
    ∑ c : Fin k, x c * (a c + b c) = (∑ c : Fin k, x c * a c) + ∑ c : Fin k, x c * b c := by
  rw [← Finset.sum_add_distrib]
  exact Finset.sum_congr rfl fun c _ => mul_add_of_isR (hx c) (ha c) (hb c)

/-- The fused arrangement of one layer's pre-activation is the sum of the two separate SAGE terms. -/
theorem fused_regroup {k : Nat} (S1 S2 ba bb : EReal) (x a b : Fin k → EReal) (hx : ∀ c, IsR (x c))
    (ha : ∀ c, IsR (a c)) (hb : ∀ c, IsR (b c)) :
    (((S1 + S2) + ∑ c : Fin k, x c * (a c + b c)) + (ba + bb))
      = ((S1 + ba) + ∑ c : Fin k, x c * a c) + ((S2 + bb) + ∑ c : Fin k, x c * b c) := by
  rw [sum_mul_add_of_isR x a b hx ha hb]
  abel

/-- The bit pattern of 1.0 in f32 is the real one. -/
theorem ofBits_one_f32 : Ideal.ofBits .f32 0x3F800000#32 = 1 := by
  simp [Ideal.ofBits, Ideal.ieee, -EReal.coe_mul]; norm_num

/-- Multiplying by the quotient 1 / c is dividing by c, for c at least one. -/
theorem mul_div_one_eq_div (a c : EReal) (hc : 1 ≤ c) : a * Ideal.div 1 c = Ideal.div a c := by
  have hc0 : c ≠ 0 := fun h => by rw [h] at hc; exact absurd hc (by norm_num)
  unfold Ideal.div
  rw [if_neg hc0, if_neg hc0, one_mul]

/-- The quotient 1 / c is a real, for c at least one. -/
theorem isR_div_one (c : EReal) (hc : 1 ≤ c) : IsR (Ideal.div 1 c) := by
  have hc0 : c ≠ 0 := fun h => by rw [h] at hc; exact absurd hc (by norm_num)
  unfold Ideal.div
  rw [if_neg hc0, one_mul]
  exact isR_inv_of_one_le hc

variable {n k h o : Nat}

/-- The fused layer of real inputs is real at every entry. -/
theorem isR_fusedAt (m1 m2 x : (⟨2, ![n, k]⟩ : Shape).Idx → EReal) (wl1 wl2 wr : (⟨2, ![k, h]⟩ : Shape).Idx → EReal)
    (b : (⟨2, ![1, h]⟩ : Shape).Idx → EReal)
    (hm1 : ∀ i, IsR (m1 i)) (hm2 : ∀ i, IsR (m2 i)) (hx : ∀ i, IsR (x i)) (hwl1 : ∀ i, IsR (wl1 i))
    (hwl2 : ∀ i, IsR (wl2 i)) (hwr : ∀ i, IsR (wr i)) (hb : ∀ i, IsR (b i)) (p : Fin n) (q : Fin h) :
    IsR (fusedAt m1 m2 x wl1 wl2 wr b p q) := by
  unfold fusedAt
  refine isR_max (isR_add (isR_add (isR_add ?_ ?_) ?_) (hb _)) isR_zero
  · exact isR_sum _ _ fun c _ => isR_mul (hm1 _) (hwl1 _)
  · exact isR_sum _ _ fun c _ => isR_mul (hm2 _) (hwl2 _)
  · exact isR_sum _ _ fun c _ => isR_mul (hx _) (hwr _)

theorem isR_fused (m1 m2 x : (⟨2, ![n, k]⟩ : Shape).Idx → EReal) (wl1 wl2 wr : (⟨2, ![k, h]⟩ : Shape).Idx → EReal)
    (b : (⟨2, ![1, h]⟩ : Shape).Idx → EReal)
    (hm1 : ∀ i, IsR (m1 i)) (hm2 : ∀ i, IsR (m2 i)) (hx : ∀ i, IsR (x i)) (hwl1 : ∀ i, IsR (wl1 i))
    (hwl2 : ∀ i, IsR (wl2 i)) (hwr : ∀ i, IsR (wr i)) (hb : ∀ i, IsR (b i)) (i : (⟨2, ![n, h]⟩ : Shape).Idx) :
    IsR (fused m1 m2 x wl1 wl2 wr b i) :=
  isR_fusedAt m1 m2 x wl1 wl2 wr b hm1 hm2 hx hwl1 hwl2 hwr hb (i 0) (i 1)

end Cert.Sage

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.LibGatherFormat.lean ====
/-
  A host gather does not look at the values of the table it reads.

  `stablehlo.gather` picks, for each result index, ONE index of its operand (computed from the start indices and the
  dimension numbers alone) and returns the operand's element there. So two tables that agree element by element
  gather to results that agree element by element, whatever the tables' element types are called. At the ideal
  instance a bf16 table and an f32 table are both families of extended reals: a gather from one equals the gather
  from the other as soon as the tables are equal as extended reals.
-/
import Idealize.ShloMosaic.PureOps.Ideal

noncomputable section

namespace Cert.GatherFormat

open Idealize.ShloMosaic

/-- A gather read at a result index: the operand at the operand index the dimension numbers name. -/
theorem gather_apply {s si t : Shape} {α : Type} {w : Nat} (d : GatherDims s si t) (x : s.Idx → α) (i : IVec si w)
    (k : t.Idx) : Host.gather d x i k = x (d.operandIdx k i) := rfl

/-- Tables equal element by element gather to results equal element by element. -/
theorem gather_congr {s si t : Shape} {α : Type} {w : Nat} (d : GatherDims s si t) (x x' : s.Idx → α) (i : IVec si w)
    (h : ∀ j, x j = x' j) (k : t.Idx) : Host.gather d x i k = Host.gather d x' i k :=
  h (d.operandIdx k i)

/-- Two records of dimension numbers with the same lists are the same record (the well-formedness field is a proof). -/
theorem gatherDims_ext {s si t : Shape} (d d' : GatherDims s si t)
    (h1 : d.offsetDims = d'.offsetDims) (h2 : d.collapsedSliceDims = d'.collapsedSliceDims)
    (h3 : d.operandBatchingDims = d'.operandBatchingDims) (h4 : d.startIndicesBatchingDims = d'.startIndicesBatchingDims)
    (h5 : d.startIndexMap = d'.startIndexMap) (h6 : d.indexVectorDim = d'.indexVectorDim)
    (h7 : d.sliceSizes = d'.sliceSizes) : d = d' := by
  cases d
  cases d'
  cases h1
  cases h2
  cases h3
  cases h4
  cases h5
  cases h6
  cases h7
  rfl

/-- At the ideal instance a gather from a bf16 table equals the gather from an f32 table holding the same extended
    reals. -/
theorem gather_format {s si t : Shape} (d : GatherDims s si t)
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d x' i k :=
  h (d.operandIdx k i)

/-- The same for two records of dimension numbers that are equal. -/
theorem gather_format' {s si t : Shape} (d d' : GatherDims s si t) (hd : d = d')
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d' x' i k := by
  subst hd
  exact h (d.operandIdx k i)

end Cert.GatherFormat
-- ==== Proof.MeanEq.lean ====
/-
  The two programs' neighbourhood means are one function.

  One program multiplies the scatter-added sum of the gathered source rows by the reciprocal 1 / c of the in-degree
  c = max(count, 1); the other divides the same sum by c. On the extended reals both are the product with the inverse
  of c, because c ≥ 1 is not zero — whatever the sum is, so no finiteness is needed here. The gathered rows may come
  from a table stored in another float format: at the extended reals the formats are one type and a gather only
  picks entries, so tables with the same entries gather the same rows.

  When the table's entries are real numbers the mean's entries are real: a scatter-added sum is the zero start plus
  a finite sum of gathered entries, and the inverse of c ≥ 1 is a real in [0, 1].
-/
import proofs.«122893_j59708635349187_2_alg».proof.Proof.KWalkADefs
import proofs.«122893_j59708635349187_2_alg».proof.Proof.KWalkB0
import proofs.«122893_j59708635349187_2_alg».proof.Proof.RefSpec
import proofs.«122893_j59708635349187_2_alg».proof.Proof.Algebra
import proofs.«122893_j59708635349187_2_alg».proof.Proof.LibScatterRows
import proofs.«122893_j59708635349187_2_alg».proof.Proof.LibGatherFormat
import Idealize.ShloMosaic.Lib.ValueIdx
import Idealize.ShloMosaic.PureOps.Ideal.Laws

noncomputable section

open scoped BigOperators

namespace Cert.Bridge

open Idealize.ShloMosaic Idealize.ShloMosaic.ValueIdx Cert.Sage

/-- Multiplying by the broadcast reciprocal of max(count, 1) is dividing by the broadcast max(count, 1). -/
theorem mean_generic {s s1 s0 : Shape} (A : FVec Ideal s .f32) (CN ONES : FVec Ideal s0 .f32)
    (d2 : Fin s1.rank → Fin s.rank) (h2 : s1.BroadcastsInDim s d2) (d1 : Fin s0.rank → Fin s1.rank)
    (h1 : s0.BroadcastsInDim s1 d1) (hone : ∀ j, ONES j = 1) :
    mulf (F := Ideal) A (broadcastInDim s d2 h2 (broadcastInDim s1 d1 h1 (Host.divf (F := Ideal) ONES (maximumf (F := Ideal) CN ONES))))
      = Host.divf (F := Ideal) A (broadcastInDim s d2 h2 (broadcastInDim s1 d1 h1 (maximumf (F := Ideal) CN ONES))) := by
  funext i
  unfold broadcastInDim
  show A i * Ideal.div (ONES _) (max (CN _) (ONES _)) = Ideal.div (A i) (max (CN _) (ONES _))
  rw [hone]
  exact mul_div_one_eq_div _ _ (le_max_right _ _)

/-- The all-ones vector of length 50000 is one at every entry. -/
theorem ones_apply (j : Cert.KernelIdeal.S50000.Idx) :
    (broadcastInDim Cert.KernelIdeal.S50000 ![] Cert.KernelIdeal.Gen.bcast_S_S50000
      (constant (F := Ideal) Cert.KernelIdeal.S_ .f32 0x3F800000#32) : FVec Ideal Cert.KernelIdeal.S50000 .f32) j = 1 :=
  ofBits_one_f32

/-- The mean of rows of width 11: the two programs' spellings are one array. -/
theorem mean11_eq (x : FVec Ideal Cert.KernelIdeal.S50000x11 .f32) (e : IVec Cert.KernelIdeal.S2x1600000 32) :
    Cert.KernelIdeal.KWalk.mean11 x e = Cert.ReferenceIdeal.RefSpec.mean11 (F := Ideal) x e :=
  (mean_generic _ _ _ _ _ _ _ ones_apply).trans rfl

/-- A gather from the bf16 table widened to f32 is the gather from an f32 table with the same entries. -/
theorem gather64_format (h : FVec Ideal Cert.KernelIdeal.S50000x64 .bf16) (hs : FVec Ideal Cert.ReferenceIdeal.S50000x64 .f32)
    (hh : ∀ j, (h j : EReal) = hs j) (idx : IVec Cert.KernelIdeal.S1600000x1 32) :
    (extf .f32 (Host.gather Cert.KernelIdeal.gather_S50000x64_S1600000x1_S1600000x64_1_0_n_n_0_1_164 h idx)
        Cert.KernelIdeal.Gen.bitsLt_bf16_f32 : FVec Ideal Cert.KernelIdeal.S1600000x64 .f32)
      = Host.gather Cert.ReferenceIdeal.gather_S50000x64_S1600000x1_S1600000x64_1_0_n_n_0_1_164 hs idx :=
  funext fun k => Cert.GatherFormat.gather_format' _ _ rfl h hs idx hh k

/-- The mean of rows of width 64, the table in bf16 on one side and in f32 on the other, with the same entries. -/
theorem mean64_eq (h : FVec Ideal Cert.KernelIdeal.S50000x64 .bf16) (hs : FVec Ideal Cert.ReferenceIdeal.S50000x64 .f32)
    (hh : ∀ j, (h j : EReal) = hs j) (e : IVec Cert.KernelIdeal.S2x1600000 32) :
    Cert.KernelIdeal.KWalk2.mean64 h e (Cert.KernelIdeal.KWalk.invCnt e) = Cert.ReferenceIdeal.RefSpec.mean64 (F := Ideal) hs e := by
  unfold Cert.KernelIdeal.KWalk2.mean64 Cert.KernelIdeal.KWalk.invCnt
  rw [gather64_format h hs hh]
  exact (mean_generic _ _ _ _ _ _ _ ones_apply).trans rfl

end Cert.Bridge

end
-- ==== Proof.MeanReal.lean ====
/-
  Means of real rows are real.

  A scatter-added sum of gathered rows is the zero start plus a finite sum of entries of the table, so it is real
  when the table is; the in-degree max(count, 1) is at least one, so dividing by it keeps a real real.
-/
import proofs.«122893_j59708635349187_2_alg».proof.Proof.RefSpec
import proofs.«122893_j59708635349187_2_alg».proof.Proof.Algebra
import proofs.«122893_j59708635349187_2_alg».proof.Proof.LibScatterRows
import proofs.«122893_j59708635349187_2_alg».proof.Proof.LibGatherFormat
import Idealize.ShloMosaic.Lib.ValueIdx
import Idealize.ShloMosaic.PureOps.Ideal.Laws

noncomputable section

open scoped BigOperators

namespace Cert.Bridge

open Idealize.ShloMosaic Idealize.ShloMosaic.ValueIdx Cert.Sage

/-- Dividing a real by c ≥ 1 gives a real. -/
theorem isR_div_of_one_le {a c : EReal} (ha : IsR a) (hc : 1 ≤ c) : IsR (Ideal.div a c) := by
  have hc0 : c ≠ 0 := fun h => by rw [h] at hc; exact absurd hc (by norm_num)
  unfold Ideal.div
  rw [if_neg hc0]
  exact isR_mul ha (isR_inv_of_one_le hc)

/-- The scatter-added sum of gathered rows of a real table of width 11 is real at every entry. -/
theorem isR_agg11 (x : FVec Ideal Cert.ReferenceIdeal.S50000x11 .f32) (hx : ∀ j, IsR (x j))
    (e : IVec Cert.ReferenceIdeal.S2x1600000 32) (p : Fin 50000) (q : Fin 11) :
    IsR (Cert.ReferenceIdeal.RefSpec.agg11 (F := Ideal) x e (ix2 p q)) := by
  unfold Cert.ReferenceIdeal.RefSpec.agg11
  rw [Cert.Lib.ScatterRows.host_scatterAdd_rows_apply (N := 50000) (D := 11) (E := 1600000) _ rfl rfl rfl rfl]
  refine isR_add ?_ (isR_sum _ _ fun e' _ => isR_ite ?_ isR_zero)
  · show IsR (Ideal.ofBits .f32 0x00000000#32)
    rw [Ideal.ofBits_zero_f32]; exact isR_zero
  · rw [Cert.GatherFormat.gather_apply]; exact hx _

/-- Dividing real entries by a broadcast vector that is at least one everywhere gives real entries. -/
theorem isR_divf_bc {s s1 s0 : Shape} (A : FVec Ideal s .f32) (C : FVec Ideal s0 .f32)
    (d2 : Fin s1.rank → Fin s.rank) (h2 : s1.BroadcastsInDim s d2) (d1 : Fin s0.rank → Fin s1.rank)
    (h1 : s0.BroadcastsInDim s1 d1) (i : s.Idx) (hA : IsR (A i)) (hC : ∀ j, 1 ≤ C j) :
    IsR (Host.divf (F := Ideal) A (broadcastInDim s d2 h2 (broadcastInDim s1 d1 h1 C)) i) := by
  unfold broadcastInDim
  show IsR (Ideal.div (A i) (C _))
  exact isR_div_of_one_le hA (hC _)

/-- A pointwise maximum with an array that is one at j is at least one at j. -/
theorem one_le_maximumf_of_eq_one {s : Shape} (A B : FVec Ideal s .f32) (j : s.Idx) (hB : B j = 1) :
    1 ≤ maximumf A B j := by
  rw [maximumf_apply, hB]
  exact le_max_right _ _

/-- The constant one broadcast to a flat array is one at every entry. -/
theorem bcast_one_apply (j : Cert.ReferenceIdeal.S50000.Idx) :
    (broadcastInDim Cert.ReferenceIdeal.S50000 ![] Cert.ReferenceIdeal.Gen.bcast_S_S50000
      (constant (F := Ideal) Cert.ReferenceIdeal.S_ .f32 0x3F800000#32) j : EReal) = 1 := by
  unfold broadcastInDim
  show Ideal.ofBits .f32 0x3F800000#32 = 1
  exact ofBits_one_f32

/-- The in-degree, at least one by construction, is at least one. -/
theorem one_le_cnt (e : IVec Cert.ReferenceIdeal.S2x1600000 32) (j : Cert.ReferenceIdeal.S50000.Idx) :
    1 ≤ Cert.ReferenceIdeal.RefSpec.cnt (F := Ideal) e j := by
  unfold Cert.ReferenceIdeal.RefSpec.cnt
  exact one_le_maximumf_of_eq_one _ _ j (bcast_one_apply j)

/-- The mean of rows of a real table of width 11 is real at every entry. -/
theorem isR_mean11 (x : FVec Ideal Cert.ReferenceIdeal.S50000x11 .f32) (hx : ∀ j, IsR (x j))
    (e : IVec Cert.ReferenceIdeal.S2x1600000 32) (i : Cert.ReferenceIdeal.S50000x11.Idx) :
    IsR (Cert.ReferenceIdeal.RefSpec.mean11 (F := Ideal) x e i) := by
  obtain ⟨p, q, rfl⟩ : ∃ (p : Fin 50000) (q : Fin 11), i = ix2 p q := ⟨i 0, i 1, eq_ix2 i⟩
  unfold Cert.ReferenceIdeal.RefSpec.mean11
  exact isR_divf_bc _ _ _ _ _ _ _ (isR_agg11 x hx e p q) (one_le_cnt e)

end Cert.Bridge

end
-- ==== Proof.RefRead.lean ====
/-
  The reference's named functions read at one entry, at the extended reals.

  A product with a weight table is the finite sum over the contracted coordinate; a bias vector repeated on every row
  reads its own entry at the column; the rectifier is the maximum with zero; the read-out is a product with one
  column plus the scalar bias.
-/
import proofs.«122893_j59708635349187_2_alg».proof.Proof.RefSpec
import proofs.«122893_j59708635349187_2_alg».proof.Proof.LibTileMatmul
import proofs.«122893_j59708635349187_2_alg».proof.Proof.Algebra
import Idealize.ShloMosaic.PureOps.Ideal.Laws
import Idealize.ShloMosaic.Lib.ValueIdx
import Idealize.ShloMosaic.Lib.Pipeline.Value

noncomputable section

open scoped BigOperators

namespace Cert.ReferenceIdeal.RefRead

open Cert.ReferenceIdeal Cert.ReferenceIdeal.Gen Cert.ReferenceIdeal.RefSpec
open Idealize.ShloMosaic Idealize.ShloMosaic.ValueIdx Idealize.ShloMosaic.TileMatmul

/-- A [50000, 11] × [11, 64] product at (p, q). -/
theorem dot11_apply (A : FVec Ideal S50000x11 .f32) (B : FVec Ideal S11x64 .f32) (p : Fin 50000) (q : Fin 64) :
    Host.dotGeneral (F := Ideal) (φ₁ := .f32) (φ₂ := .f32) dot_S50000x11_S11x64_S50000x64_1_0_0_1_n_n none A B (ix2 p q)
      = ∑ c : Fin 11, A (ix2 p c) * B (ix2 c q) :=
  dotGeneral_apply (m := 50000) (k := 11) (n := 64) _ none A B p q

/-- A [50000, 64] × [64, 64] product at (p, q). -/
theorem dot64_apply (A : FVec Ideal S50000x64 .f32) (B : FVec Ideal S64x64 .f32) (p : Fin 50000) (q : Fin 64) :
    Host.dotGeneral (F := Ideal) (φ₁ := .f32) (φ₂ := .f32) dot_S50000x64_S64x64_S50000x64_1_0_0_1_n_n none A B (ix2 p q)
      = ∑ c : Fin 64, A (ix2 p c) * B (ix2 c q) :=
  dotGeneral_apply (m := 50000) (k := 64) (n := 64) _ none A B p q

/-- A [50000, 64] × [64, 1] product at (p, q). -/
theorem dot1_apply (A : FVec Ideal S50000x64 .f32) (B : FVec Ideal S64x1 .f32) (p : Fin 50000) (q : Fin 1) :
    Host.dotGeneral (F := Ideal) (φ₁ := .f32) (φ₂ := .f32) dot_S50000x64_S64x1_S50000x1_1_0_0_1_n_n none A B (ix2 p q)
      = ∑ c : Fin 64, A (ix2 p c) * B (ix2 c q) :=
  dotGeneral_apply (m := 50000) (k := 64) (n := 1) _ none A B p q

/-- A bias vector repeated on every row reads its entry at the column. -/
theorem biasRows_apply (b : FVec Ideal S64 .f32) (p : Fin 50000) (q : Fin 64) :
    biasRows (F := Ideal) b (ix2 p q) = b (ix1 q) := by
  unfold biasRows broadcastInDim
  refine congrArg b (funext fun a => Fin.ext ?_)
  match a with
  | ⟨0, _⟩ => rfl

/-- One SAGE term of input width 11 at (p, q). -/
theorem sage11_apply (mean x : FVec Ideal S50000x11 .f32) (wl : FVec Ideal S11x64 .f32) (bl : FVec Ideal S64 .f32)
    (wr : FVec Ideal S11x64 .f32) (p : Fin 50000) (q : Fin 64) :
    sage11 (F := Ideal) mean x wl bl wr (ix2 p q)
      = ((∑ c : Fin 11, mean (ix2 p c) * wl (ix2 c q)) + bl (ix1 q)) + ∑ c : Fin 11, x (ix2 p c) * wr (ix2 c q) := by
  unfold sage11
  show (Host.dotGeneral (F := Ideal) (φ₁ := .f32) (φ₂ := .f32) dot_S50000x11_S11x64_S50000x64_1_0_0_1_n_n none mean wl (ix2 p q)
      + biasRows (F := Ideal) bl (ix2 p q))
      + Host.dotGeneral (F := Ideal) (φ₁ := .f32) (φ₂ := .f32) dot_S50000x11_S11x64_S50000x64_1_0_0_1_n_n none x wr (ix2 p q) = _
  rw [dot11_apply, dot11_apply, biasRows_apply]

/-- One SAGE term of input width 64 at (p, q). -/
theorem sage64_apply (mean x : FVec Ideal S50000x64 .f32) (wl : FVec Ideal S64x64 .f32) (bl : FVec Ideal S64 .f32)
    (wr : FVec Ideal S64x64 .f32) (p : Fin 50000) (q : Fin 64) :
    sage64 (F := Ideal) mean x wl bl wr (ix2 p q)
      = ((∑ c : Fin 64, mean (ix2 p c) * wl (ix2 c q)) + bl (ix1 q)) + ∑ c : Fin 64, x (ix2 p c) * wr (ix2 c q) := by
  unfold sage64
  show (Host.dotGeneral (F := Ideal) (φ₁ := .f32) (φ₂ := .f32) dot_S50000x64_S64x64_S50000x64_1_0_0_1_n_n none mean wl (ix2 p q)
      + biasRows (F := Ideal) bl (ix2 p q))
      + Host.dotGeneral (F := Ideal) (φ₁ := .f32) (φ₂ := .f32) dot_S50000x64_S64x64_S50000x64_1_0_0_1_n_n none x wr (ix2 p q) = _
  rw [dot64_apply, dot64_apply, biasRows_apply]

/-- The sum of two terms through the rectifier, at an entry. -/
theorem relu2_apply (a b : FVec Ideal S50000x64 .f32) (i : S50000x64.Idx) :
    relu2 (F := Ideal) a b i = max (a i + b i) 0 := by
  unfold relu2
  show max (a i + b i) (Ideal.ofBits .f32 0x00000000#32) = _
  rw [Ideal.ofBits_zero_f32]

/-- The read-out at (p, q): the product with the column plus the scalar bias. -/
theorem readout_apply (hid : FVec Ideal S50000x64 .f32) (w : FVec Ideal S64x1 .f32) (b : FVec Ideal S1 .f32)
    (p : Fin 50000) (q : Fin 1) :
    readout (F := Ideal) hid w b (ix2 p q) = (∑ c : Fin 64, hid (ix2 p c) * w (ix2 c q)) + b (ix1 0) := by
  unfold readout
  show Host.dotGeneral (F := Ideal) (φ₁ := .f32) (φ₂ := .f32) dot_S50000x64_S64x1_S50000x1_1_0_0_1_n_n none hid w (ix2 p q)
      + broadcastInDim S50000x1 ![0, 1] bcast_S1x1_S50000x1_0_1 (broadcastInDim S1x1 ![1] bcast_S1_S1x1_1 b) (ix2 p q) = _
  rw [dot1_apply]
  refine congrArg (_ + ·) ?_
  unfold broadcastInDim
  refine congrArg b (funext fun a => Fin.ext ?_)
  match a with
  | ⟨0, _⟩ => rfl

end Cert.ReferenceIdeal.RefRead

end
-- ==== Proof.Layer.lean ====
/-
  One layer in the two arrangements, and the read-out.

  The fused arrangement multiplies the destination features by the SUM of the two right weight tables and adds the
  SUM of the two biases once; the other arrangement forms the two SAGE terms separately and adds them. With real
  destination features and real right weights the row-by-table products distribute over the sum of the tables, and
  the remaining difference is the order and grouping of a sum of extended reals, which does not matter.
-/
import proofs.«122893_j59708635349187_2_alg».proof.Proof.RefRead
import proofs.«122893_j59708635349187_2_alg».proof.Proof.Spec
import proofs.«122893_j59708635349187_2_alg».proof.Proof.Algebra

noncomputable section

open scoped BigOperators

namespace Cert.Bridge

open Idealize.ShloMosaic Idealize.ShloMosaic.ValueIdx Cert.Sage
open Cert.ReferenceIdeal.RefSpec Cert.ReferenceIdeal.RefRead

/-- The fused layer of input width 11 is the rectified sum of the two SAGE terms, when the destination features and
    the two right weight tables are real. -/
theorem layer11 (m1 m2 x : FVec Ideal Cert.ReferenceIdeal.S50000x11 .f32) (wl1 wl2 wra wrb : FVec Ideal Cert.ReferenceIdeal.S11x64 .f32)
    (ba bb : FVec Ideal Cert.ReferenceIdeal.S64 .f32) (b : (⟨2, ![1, 64]⟩ : Shape).Idx → EReal)
    (hb : ∀ q : Fin 64, b (ix2 0 q) = ba (ix1 q) + bb (ix1 q))
    (hx : ∀ j, IsR (x j)) (hwa : ∀ j, IsR (wra j)) (hwb : ∀ j, IsR (wrb j)) :
    (Cert.Sage.fused (n := 50000) (k := 11) (h := 64) m1 m2 x wl1 wl2 (addf (F := Ideal) (φ := .f32) wra wrb) b
        : Cert.ReferenceIdeal.S50000x64.Idx → EReal)
      = relu2 (F := Ideal) (sage11 (F := Ideal) m1 x wl1 ba wra) (sage11 (F := Ideal) m2 x wl2 bb wrb) := by
  funext i
  obtain ⟨p, q, rfl⟩ : ∃ (p : Fin 50000) (q : Fin 64), i = ix2 p q := ⟨i 0, i 1, eq_ix2 i⟩
  rw [Cert.Sage.fused_apply, relu2_apply, sage11_apply, sage11_apply]
  unfold Cert.Sage.fusedAt
  rw [hb q]
  refine congrArg (max · 0) ?_
  exact fused_regroup _ _ _ _ (fun c => x (ix2 p c)) (fun c => wra (ix2 c q)) (fun c => wrb (ix2 c q))
    (fun c => hx _) (fun c => hwa _) (fun c => hwb _)

/-- The fused layer of input width 64 is the rectified sum of the two SAGE terms, when the destination features and
    the two right weight tables are real. -/
theorem layer64 (m1 m2 x : FVec Ideal Cert.ReferenceIdeal.S50000x64 .f32) (wl1 wl2 wra wrb : FVec Ideal Cert.ReferenceIdeal.S64x64 .f32)
    (ba bb : FVec Ideal Cert.ReferenceIdeal.S64 .f32) (b : (⟨2, ![1, 64]⟩ : Shape).Idx → EReal)
    (hb : ∀ q : Fin 64, b (ix2 0 q) = ba (ix1 q) + bb (ix1 q))
    (hx : ∀ j, IsR (x j)) (hwa : ∀ j, IsR (wra j)) (hwb : ∀ j, IsR (wrb j)) :
    (Cert.Sage.fused (n := 50000) (k := 64) (h := 64) m1 m2 x wl1 wl2 (addf (F := Ideal) (φ := .f32) wra wrb) b
        : Cert.ReferenceIdeal.S50000x64.Idx → EReal)
      = relu2 (F := Ideal) (sage64 (F := Ideal) m1 x wl1 ba wra) (sage64 (F := Ideal) m2 x wl2 bb wrb) := by
  funext i
  obtain ⟨p, q, rfl⟩ : ∃ (p : Fin 50000) (q : Fin 64), i = ix2 p q := ⟨i 0, i 1, eq_ix2 i⟩
  rw [Cert.Sage.fused_apply, relu2_apply, sage64_apply, sage64_apply]
  unfold Cert.Sage.fusedAt
  rw [hb q]
  refine congrArg (max · 0) ?_
  exact fused_regroup _ _ _ _ (fun c => x (ix2 p c)) (fun c => wra (ix2 c q)) (fun c => wrb (ix2 c q))
    (fun c => hx _) (fun c => hwa _) (fun c => hwb _)

/-- The rectified sum of two SAGE terms of width 11 with real means, features, weights and biases is real. -/
theorem isR_layer11 (m1 m2 x : FVec Ideal Cert.ReferenceIdeal.S50000x11 .f32) (wl1 wl2 wra wrb : FVec Ideal Cert.ReferenceIdeal.S11x64 .f32) (ba bb : FVec Ideal Cert.ReferenceIdeal.S64 .f32)
    (hm1 : ∀ j, IsR (m1 j)) (hm2 : ∀ j, IsR (m2 j)) (hx : ∀ j, IsR (x j)) (hwl1 : ∀ j, IsR (wl1 j))
    (hwl2 : ∀ j, IsR (wl2 j)) (hwa : ∀ j, IsR (wra j)) (hwb : ∀ j, IsR (wrb j)) (hba : ∀ j, IsR (ba j))
    (hbb : ∀ j, IsR (bb j)) (i : Cert.ReferenceIdeal.S50000x64.Idx) :
    IsR (relu2 (F := Ideal) (sage11 (F := Ideal) m1 x wl1 ba wra) (sage11 (F := Ideal) m2 x wl2 bb wrb) i) := by
  obtain ⟨p, q, rfl⟩ : ∃ (p : Fin 50000) (q : Fin 64), i = ix2 p q := ⟨i 0, i 1, eq_ix2 i⟩
  rw [relu2_apply, sage11_apply, sage11_apply]
  refine isR_max (isR_add (isR_add (isR_add ?_ (hba _)) ?_) (isR_add (isR_add ?_ (hbb _)) ?_)) isR_zero
  · exact isR_sum _ _ fun c _ => isR_mul (hm1 _) (hwl1 _)
  · exact isR_sum _ _ fun c _ => isR_mul (hx _) (hwa _)
  · exact isR_sum _ _ fun c _ => isR_mul (hm2 _) (hwl2 _)
  · exact isR_sum _ _ fun c _ => isR_mul (hx _) (hwb _)

/-- The projection of equal hidden arrays is the read-out, when the [1, 1] bias holds the scalar bias. -/
theorem proj_eq_readout (hid : (⟨2, ![50000, 64]⟩ : Shape).Idx → EReal) (hid' : FVec Ideal Cert.ReferenceIdeal.S50000x64 .f32)
    (hh : hid = hid') (wlin : FVec Ideal Cert.ReferenceIdeal.S64x1 .f32) (bls : FVec Ideal Cert.ReferenceIdeal.S1 .f32)
    (blin : (⟨2, ![1, 1]⟩ : Shape).Idx → EReal) (hb : ∀ q : Fin 1, blin (ix2 0 q) = bls (ix1 0)) :
    (Cert.Sage.proj (n := 50000) (h := 64) (o := 1) hid wlin blin : Cert.ReferenceIdeal.S50000x1.Idx → EReal)
      = readout (F := Ideal) hid' wlin bls := by
  subst hh
  funext i
  obtain ⟨p, q, rfl⟩ : ∃ (p : Fin 50000) (q : Fin 1), i = ix2 p q := ⟨i 0, i 1, eq_ix2 i⟩
  rw [Cert.Sage.proj_apply, readout_apply]
  unfold Cert.Sage.projAt
  rw [hb q]

end Cert.Bridge

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.FinalH.lean ====
/-
  The first layer's two activation arrays, as the kernel program leaves them, are the reference's.

  Region 0 leaves in its output array the fused layer of the two means arriving at the shop nodes, of the shop
  features, of slices 0 and 2 of the left weights, of the sum of slices 0 and 2 of the right weights and of the
  sum of rows 0 and 2 of the biases; region 1 the same for the public nodes with slices 1 and 3. With real
  features and real right weights each is the reference's rectified sum of two SAGE terms, and each is real.
-/
import proofs.«122893_j59708635349187_2_alg».proof.Proof.Region0
import proofs.«122893_j59708635349187_2_alg».proof.Proof.Region1
import proofs.«122893_j59708635349187_2_alg».proof.Proof.KWalkA
import proofs.«122893_j59708635349187_2_alg».proof.Proof.KWalkB0
import proofs.«122893_j59708635349187_2_alg».proof.Proof.MeanEq
import proofs.«122893_j59708635349187_2_alg».proof.Proof.MeanReal
import proofs.«122893_j59708635349187_2_alg».proof.Proof.Layer
import proofs.«122893_j59708635349187_2_alg».proof.Proof.LibRowBias

noncomputable section

namespace Cert.Final

open Cert.KernelIdeal Idealize.ShloMosaic Idealize.ShloMosaic.TcCoe Idealize.ShloMosaic.ValueIdx Idealize.SL.Sem
open Cert.Sage Cert.Bridge Cert.ReferenceIdeal.RefSpec

variable (m : (ℓ : Loc nD τ sig) → Buf (Elt Ideal) ℓ) (ρ : Dev nD → PrngReg) (c : Dev nD)

/-- Every slice of a real stack of [11, 64] tables is real. -/
theorem isR_w11 (W : FVec Ideal Cert.ReferenceIdeal.S4x11x64 .f32) (hW : ∀ j, IsR (W j)) :
    (∀ j, IsR (w11_0 (F := Ideal) W j)) ∧ (∀ j, IsR (w11_1 (F := Ideal) W j)) ∧ (∀ j, IsR (w11_2 (F := Ideal) W j))
      ∧ (∀ j, IsR (w11_3 (F := Ideal) W j)) :=
  ⟨fun _ => hW _, fun _ => hW _, fun _ => hW _, fun _ => hW _⟩

/-- Every row of a real stack of bias vectors is real. -/
theorem isR_b64 (B : FVec Ideal Cert.ReferenceIdeal.S4x64 .f32) (hB : ∀ j, IsR (B j)) :
    (∀ j, IsR (b64_0 (F := Ideal) B j)) ∧ (∀ j, IsR (b64_1 (F := Ideal) B j)) ∧ (∀ j, IsR (b64_2 (F := Ideal) B j))
      ∧ (∀ j, IsR (b64_3 (F := Ideal) B j)) :=
  ⟨fun _ => hB _, fun _ => hB _, fun _ => hB _, fun _ => hB _⟩

/-- Every slice of a real stack of [64, 64] tables is real. -/
theorem isR_w64 (W : FVec Ideal Cert.ReferenceIdeal.S4x64x64 .f32) (hW : ∀ j, IsR (W j)) :
    (∀ j, IsR (w64_0 (F := Ideal) W j)) ∧ (∀ j, IsR (w64_1 (F := Ideal) W j)) ∧ (∀ j, IsR (w64_2 (F := Ideal) W j))
      ∧ (∀ j, IsR (w64_3 (F := Ideal) W j)) :=
  ⟨fun _ => hW _, fun _ => hW _, fun _ => hW _, fun _ => hW _⟩

/-- Region 0's output array is the reference's first-layer activations of the shop nodes. -/
theorem H0_eq (h0 : ∀ j, IsR ((m ((c : Thread nD τ).loc main_arg0)) j)) (h4 : ∀ j, IsR ((m ((c : Thread nD τ).loc main_arg4)) j)) :
    (Cert.KernelIdeal.KWalk2.H0 m ρ c : Cert.ReferenceIdeal.S50000x64.Idx → EReal)
      = hs1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg14)) := by
  unfold Cert.KernelIdeal.KWalk2.H0
  rw [Cert.KernelIdeal.Region0.value (Gen.V1 m ρ) c]
  rw [Cert.KernelIdeal.KWalk.V1_v56, Cert.KernelIdeal.KWalk.V1_v73, Cert.KernelIdeal.KWalk.V1_arg0,
    Cert.KernelIdeal.KWalk.V1_v131, Cert.KernelIdeal.KWalk.V1_v133, Cert.KernelIdeal.KWalk.V1_v112,
    Cert.KernelIdeal.KWalk.V1_v123]
  rw [mean11_eq, mean11_eq]
  exact layer11 (mean11 (F := Ideal) (m ((c : Thread nD τ).loc main_arg0)) (m ((c : Thread nD τ).loc main_arg12))) (mean11 (F := Ideal) (m ((c : Thread nD τ).loc main_arg1)) (m ((c : Thread nD τ).loc main_arg14))) (m ((c : Thread nD τ).loc main_arg0))
    (w11_0 (F := Ideal) (m ((c : Thread nD τ).loc main_arg2))) (w11_2 (F := Ideal) (m ((c : Thread nD τ).loc main_arg2))) (w11_0 (F := Ideal) (m ((c : Thread nD τ).loc main_arg4))) (w11_2 (F := Ideal) (m ((c : Thread nD τ).loc main_arg4)))
    (b64_0 (F := Ideal) (m ((c : Thread nD τ).loc main_arg3))) (b64_2 (F := Ideal) (m ((c : Thread nD τ).loc main_arg3))) _
    (fun q => Cert.LibRowBias.row_of_vec_apply _ _ q) h0 (isR_w11 _ h4).1 (isR_w11 _ h4).2.2.1

/-- Region 1's output array is the reference's first-layer activations of the public nodes. -/
theorem H1_eq (h1 : ∀ j, IsR ((m ((c : Thread nD τ).loc main_arg1)) j)) (h4 : ∀ j, IsR ((m ((c : Thread nD τ).loc main_arg4)) j)) :
    (Cert.KernelIdeal.KWalk2.H1 m ρ c : Cert.ReferenceIdeal.S50000x64.Idx → EReal)
      = hp1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg15)) := by
  unfold Cert.KernelIdeal.KWalk2.H1
  rw [Cert.KernelIdeal.Region1.value (Gen.V3 m ρ) c]
  rw [Cert.KernelIdeal.KWalk.V3_v90, Cert.KernelIdeal.KWalk.V3_v107, Cert.KernelIdeal.KWalk.V3_arg1,
    Cert.KernelIdeal.KWalk.V3_v136, Cert.KernelIdeal.KWalk.V3_v138, Cert.KernelIdeal.KWalk.V3_v117,
    Cert.KernelIdeal.KWalk.V3_v129]
  rw [mean11_eq, mean11_eq]
  exact layer11 (mean11 (F := Ideal) (m ((c : Thread nD τ).loc main_arg0)) (m ((c : Thread nD τ).loc main_arg13))) (mean11 (F := Ideal) (m ((c : Thread nD τ).loc main_arg1)) (m ((c : Thread nD τ).loc main_arg15))) (m ((c : Thread nD τ).loc main_arg1))
    (w11_1 (F := Ideal) (m ((c : Thread nD τ).loc main_arg2))) (w11_3 (F := Ideal) (m ((c : Thread nD τ).loc main_arg2))) (w11_1 (F := Ideal) (m ((c : Thread nD τ).loc main_arg4))) (w11_3 (F := Ideal) (m ((c : Thread nD τ).loc main_arg4)))
    (b64_1 (F := Ideal) (m ((c : Thread nD τ).loc main_arg3))) (b64_3 (F := Ideal) (m ((c : Thread nD τ).loc main_arg3))) _
    (fun q => Cert.LibRowBias.row_of_vec_apply _ _ q) h1 (isR_w11 _ h4).2.1 (isR_w11 _ h4).2.2.2

/-- The reference's first-layer activations of the shop nodes are real when the inputs are. -/
theorem isR_hs1 (xs xp : FVec Ideal Cert.ReferenceIdeal.S50000x11 .f32) (W1l : FVec Ideal Cert.ReferenceIdeal.S4x11x64 .f32)
    (B1l : FVec Ideal Cert.ReferenceIdeal.S4x64 .f32) (W1r : FVec Ideal Cert.ReferenceIdeal.S4x11x64 .f32)
    (ess eps : IVec Cert.ReferenceIdeal.S2x1600000 32)
    (h0 : ∀ j, IsR (xs j)) (h1 : ∀ j, IsR (xp j)) (h2 : ∀ j, IsR (W1l j)) (h3 : ∀ j, IsR (B1l j)) (h4 : ∀ j, IsR (W1r j))
    (i : Cert.ReferenceIdeal.S50000x64.Idx) : IsR (hs1 (F := Ideal) xs xp W1l B1l W1r ess eps i) := by
  unfold hs1
  exact isR_layer11 _ _ _ _ _ _ _ _ _ (isR_mean11 xs h0 ess) (isR_mean11 xp h1 eps) h0 (isR_w11 _ h2).1 (isR_w11 _ h2).2.2.1
    (isR_w11 _ h4).1 (isR_w11 _ h4).2.2.1 (isR_b64 _ h3).1 (isR_b64 _ h3).2.2.1 i

/-- The reference's first-layer activations of the public nodes are real when the inputs are. -/
theorem isR_hp1 (xs xp : FVec Ideal Cert.ReferenceIdeal.S50000x11 .f32) (W1l : FVec Ideal Cert.ReferenceIdeal.S4x11x64 .f32)
    (B1l : FVec Ideal Cert.ReferenceIdeal.S4x64 .f32) (W1r : FVec Ideal Cert.ReferenceIdeal.S4x11x64 .f32)
    (esp epp : IVec Cert.ReferenceIdeal.S2x1600000 32)
    (h0 : ∀ j, IsR (xs j)) (h1 : ∀ j, IsR (xp j)) (h2 : ∀ j, IsR (W1l j)) (h3 : ∀ j, IsR (B1l j)) (h4 : ∀ j, IsR (W1r j))
    (i : Cert.ReferenceIdeal.S50000x64.Idx) : IsR (hp1 (F := Ideal) xs xp W1l B1l W1r esp epp i) := by
  unfold hp1
  exact isR_layer11 _ _ _ _ _ _ _ _ _ (isR_mean11 xs h0 esp) (isR_mean11 xp h1 epp) h1 (isR_w11 _ h2).2.1 (isR_w11 _ h2).2.2.2
    (isR_w11 _ h4).2.1 (isR_w11 _ h4).2.2.2 (isR_b64 _ h3).2.1 (isR_b64 _ h3).2.2.2 i

end Cert.Final

end
-- ==== Proof.Region2Payload.lean ====
/-
  The read-out layer's tile computation, entry by entry.

  One grid point of the kernel holds a tile of 5000 rows of each of the three [50000, 64] operands, the three
  [64, 64] weights, the [1, 64] bias row, the [64, 1] read-out weight and the [1, 1] read-out bias, and computes

      out[p, q] = Σ_c max( Σ_e m1[p,e]·wl1[e,c] + Σ_e m2[p,e]·wl2[e,c] + Σ_e x[p,e]·wr[e,c] + b[0,c] , 0 ) · wlin[c,q] + blin[0,q].

  Over the extended reals no rounding is left: a truncation to bf16 is the identity, a shape cast to the same shape
  is the identity, the zero accumulator contributes nothing, each product into it is the finite sum over the
  contracted coordinate, and the two bias rows are broadcast down the tile's rows.  So the tile's result is the
  layer function of the specification, read over the tile's own extents.
-/
import proofs.«122893_j59708635349187_2_alg».proof.Proof.Gen.KernelIdeal.Skeleton
import proofs.«122893_j59708635349187_2_alg».proof.Proof.Spec
import proofs.«122893_j59708635349187_2_alg».proof.Proof.LibTileMatmul
import Idealize.ShloMosaic.Lib.Pipeline.Value
import Idealize.ShloMosaic.Lib.ValueLayout

noncomputable section

open scoped BigOperators

namespace Cert.KernelIdeal.Region2

open Cert.KernelIdeal Cert.KernelIdeal.Gen Idealize.ShloMosaic Idealize.ShloMosaic.ValueIdx

/-- The tile's result at row p, column q is the fused layer followed by the read-out, of the tile's operands. -/
theorem pay_apply (x0 x1 : FVec Ideal S5000x64 .f32) (x2 : FVec Ideal S5000x64 .bf16) (w0 w1 w2 : FVec Ideal S64x64 .f32)
    (b : FVec Ideal S1x64 .f32) (wl : FVec Ideal S64x1 .f32) (bl : FVec Ideal S1x1 .f32) (p : Fin 5000) (q : Fin 1) :
    k2_pay1 (F := Ideal) x0 x1 x2 w0 w1 w2 b wl bl (ix2 p q)
      = Cert.Sage.projAt (Cert.Sage.fused x0 x1 x2 w0 w1 w2 b) wl bl p q := by
  unfold k2_pay1
  simp only [shapeCast_self]
  -- the read-out: the product with the read-out weight plus the read-out bias row
  refine congrArg₂ (· + ·) ?_ (broadcastTo_1b_ab_apply bl _ p q)
  refine (TileMatmul.matmul_zero_apply _ none _ _ p q).trans ?_
  refine Finset.sum_congr rfl fun c _ => ?_
  refine congrArg (· * wl (ix2 c q)) ?_
  -- the hidden layer at (p, c): the three products added from the left, the bias row, the maximum with zero
  show max ((((matmul _ none _ _ _ (ix2 p c)) + (matmul _ none _ _ _ (ix2 p c))) + (matmul _ none _ _ _ (ix2 p c)))
      + broadcastTo S5000x64 b broadcasts_S1x64_S5000x64 (ix2 p c)) (Ideal.ofBits .f32 0x00000000#32) = _
  rw [Ideal.ofBits_zero_f32, broadcastTo_1b_ab_apply b _ p c]
  refine congrArg (max · 0) ?_
  refine congrArg (· + b (ix2 0 c)) ?_
  refine congrArg₂ (· + ·) (congrArg₂ (· + ·) ?_ ?_) ?_
  · exact TileMatmul.matmul_zero_apply _ none _ _ p c
  · exact TileMatmul.matmul_zero_apply _ none _ _ p c
  · exact TileMatmul.matmul_zero_apply _ none _ _ p c

end Cert.KernelIdeal.Region2

end
-- ==== Proof.Region2.lean ====
/-
  Region 2's output array after the whole grid, as one function of the region's input arrays.

  The region runs a grid of ten points over row tiles of 5000 rows.  At point t each of the three [50000, 64] operands
  is staged as its rows 5000·t … 5000·t + 4999 (block index (t, 0)), each weight and bias as its whole array (block
  index (0, 0)), and the body stores ONE whole [5000, 1] tile, which is written back as rows 5000·t … 5000·t + 4999 of
  the [50000, 1] output.

  The tile's value at row p is the last layer followed by its read-out, evaluated on row p of each staged tile.  That
  function reads, for output row r, only row r of each row operand; so row p of the tile at point t is row 5000·t + p
  of the layer function of the WHOLE arrays, i.e. what point t writes back is block t of that one whole-array
  function.  Every output row r lies in the block of point r / 5000, and every point writes back, so after the grid
  the output array is that function.

  The steps: the printed index maps decided over the ten points; each window's block read off a variable array
  (a block's coordinate on an axis is block index × block size + the coordinate inside the block); the per-point
  equation over VARIABLE tiles and arrays; then its instance at the region's blocks, the cover, and the whole-array
  equation.  The buffer contents V at the region's entry stay a variable throughout.
-/
import proofs.«122893_j59708635349187_2_alg».proof.Proof.Gen.KernelIdeal.Frame
import proofs.«122893_j59708635349187_2_alg».proof.Proof.Spec
import proofs.«122893_j59708635349187_2_alg».proof.Proof.Region2Payload
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, however spelt. -/
theorem hz : (![0, 0] : Fin 2 → Nat) = fun _ => 0 := funext fun a => by fin_cases a <;> rfl

/-- The printed index maps, decided over the ten grid points: a row window's block index at point t is (t, 0), -/
theorem index_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_9.index t (0 : Fin 2) = t.val ∧ win2_9.index t (1 : Fin 2) = 0) :=
  (by decide +kernel : ∀ t : Fin grid2.N, _)

/-- and a weight's or bias's, whose block is its whole array, is (0, 0). -/
theorem index_whole : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- The grid has ten points. -/
theorem point_lt (t : Fin cfg2.N) : t.val < 10 := by
  exact Nat.lt_of_lt_of_eq t.isLt N_2

/-! ## Each window's block at a point, read off an array: rows 5000·t … 5000·t + 4999, or the whole array -/

/-- Row p of window 0's block at point t is row 5000·t + p of its array. -/
theorem tile0_apply (A : S50000x64.Idx → EReal) (t : Fin cfg2.N) (p : Fin 5000) (e : Fin 64) (r : Fin 50000)
    (hr : r.val = t.val * 5000 + p.val) :
    ((cfg2.win 0).blk t).view.read (Elt Ideal) A (ix2 p e) = A (ix2 r e) := by
  rw [View.read_apply]
  show A _ = A _
  refine congrArg A ?_
  funext a
  apply Fin.ext
  have h := index_rows
  match a with
  | ⟨0, _⟩ => show win2_0.index t (0 : Fin 2) * 5000 + 1 * p.val = r.val; rw [(h t).1.1, hr]; omega
  | ⟨1, _⟩ => show win2_0.index t (1 : Fin 2) * 64 + 1 * e.val = e.val; rw [(h t).1.2]; omega

/-- Row p of window 1's block at point t is row 5000·t + p of its array. -/
theorem tile1_apply (A : S50000x64.Idx → EReal) (t : Fin cfg2.N) (p : Fin 5000) (e : Fin 64) (r : Fin 50000)
    (hr : r.val = t.val * 5000 + p.val) :
    ((cfg2.win 1).blk t).view.read (Elt Ideal) A (ix2 p e) = A (ix2 r e) := by
  rw [View.read_apply]
  show A _ = A _
  refine congrArg A ?_
  funext a
  apply Fin.ext
  have h := index_rows
  match a with
  | ⟨0, _⟩ => show win2_1.index t (0 : Fin 2) * 5000 + 1 * p.val = r.val; rw [(h t).2.1.1, hr]; omega
  | ⟨1, _⟩ => show win2_1.index t (1 : Fin 2) * 64 + 1 * e.val = e.val; rw [(h t).2.1.2]; omega

/-- Row p of window 2's block at point t is row 5000·t + p of its array. -/
theorem tile2_apply (A : S50000x64.Idx → EReal) (t : Fin cfg2.N) (p : Fin 5000) (e : Fin 64) (r : Fin 50000)
    (hr : r.val = t.val * 5000 + p.val) :
    ((cfg2.win 2).blk t).view.read (Elt Ideal) A (ix2 p e) = A (ix2 r e) := by
  rw [View.read_apply]
  show A _ = A _
  refine congrArg A ?_
  funext a
  apply Fin.ext
  have h := index_rows
  match a with
  | ⟨0, _⟩ => show win2_2.index t (0 : Fin 2) * 5000 + 1 * p.val = r.val; rw [(h t).2.2.1.1, hr]; omega
  | ⟨1, _⟩ => show win2_2.index t (1 : Fin 2) * 64 + 1 * e.val = e.val; rw [(h t).2.2.1.2]; omega

/-- Row p of the output window's block at point t is row 5000·t + p of its array. -/
theorem out_apply (A : S50000x1.Idx → EReal) (t : Fin cfg2.N) (p : Fin 5000) (q : Fin 1) (r : Fin 50000)
    (hr : r.val = t.val * 5000 + p.val) :
    ((cfg2.win 9).blk t).view.read (Elt Ideal) A (ix2 p q) = A (ix2 r q) := by
  rw [View.read_apply]
  show A _ = A _
  refine congrArg A ?_
  funext a
  apply Fin.ext
  have h := index_rows
  match a with
  | ⟨0, _⟩ => show win2_9.index t (0 : Fin 2) * 5000 + 1 * p.val = r.val; rw [(h t).2.2.2.1, hr]; omega
  | ⟨1, _⟩ => show win2_9.index t (1 : Fin 2) * 1 + 1 * q.val = q.val; rw [(h t).2.2.2.2]; omega

/-- Window 3's block at any point is its whole array. -/
theorem whole3_eq (A : S64x64.Idx → EReal) (t : Fin cfg2.N) :
    ((cfg2.win 3).blk t).view.read (Elt Ideal) A = A := by
  funext j
  rw [View.read_apply]
  show A _ = A j
  refine congrArg A ?_
  funext a
  apply Fin.ext
  have h := index_whole
  match a with
  | ⟨0, _⟩ => show win2_3.index t (0 : Fin 2) * 64 + 1 * (j 0).val = (j 0).val; rw [(h t).1.1]; omega
  | ⟨1, _⟩ => show win2_3.index t (1 : Fin 2) * 64 + 1 * (j 1).val = (j 1).val; rw [(h t).1.2]; omega

/-- Window 4's block at any point is its whole array. -/
theorem whole4_eq (A : S64x64.Idx → EReal) (t : Fin cfg2.N) :
    ((cfg2.win 4).blk t).view.read (Elt Ideal) A = A := by
  funext j
  rw [View.read_apply]
  show A _ = A j
  refine congrArg A ?_
  funext a
  apply Fin.ext
  have h := index_whole
  match a with
  | ⟨0, _⟩ => show win2_4.index t (0 : Fin 2) * 64 + 1 * (j 0).val = (j 0).val; rw [(h t).2.1.1]; omega
  | ⟨1, _⟩ => show win2_4.index t (1 : Fin 2) * 64 + 1 * (j 1).val = (j 1).val; rw [(h t).2.1.2]; omega

/-- Window 5's block at any point is its whole array. -/
theorem whole5_eq (A : S64x64.Idx → EReal) (t : Fin cfg2.N) :
    ((cfg2.win 5).blk t).view.read (Elt Ideal) A = A := by
  funext j
  rw [View.read_apply]
  show A _ = A j
  refine congrArg A ?_
  funext a
  apply Fin.ext
  have h := index_whole
  match a with
  | ⟨0, _⟩ => show win2_5.index t (0 : Fin 2) * 64 + 1 * (j 0).val = (j 0).val; rw [(h t).2.2.1.1]; omega
  | ⟨1, _⟩ => show win2_5.index t (1 : Fin 2) * 64 + 1 * (j 1).val = (j 1).val; rw [(h t).2.2.1.2]; omega

/-- Window 6's block at any point is its whole array. -/
theorem whole6_eq (A : S1x64.Idx → EReal) (t : Fin cfg2.N) :
    ((cfg2.win 6).blk t).view.read (Elt Ideal) A = A := by
  funext j
  rw [View.read_apply]
  show A _ = A j
  refine congrArg A ?_
  funext a
  apply Fin.ext
  have h := index_whole
  match a with
  | ⟨0, _⟩ => show win2_6.index t (0 : Fin 2) * 1 + 1 * (j 0).val = (j 0).val; rw [(h t).2.2.2.1.1]; omega
  | ⟨1, _⟩ => show win2_6.index t (1 : Fin 2) * 64 + 1 * (j 1).val = (j 1).val; rw [(h t).2.2.2.1.2]; omega

/-- Window 7's block at any point is its whole array. -/
theorem whole7_eq (A : S64x1.Idx → EReal) (t : Fin cfg2.N) :
    ((cfg2.win 7).blk t).view.read (Elt Ideal) A = A := by
  funext j
  rw [View.read_apply]
  show A _ = A j
  refine congrArg A ?_
  funext a
  apply Fin.ext
  have h := index_whole
  match a with
  | ⟨0, _⟩ => show win2_7.index t (0 : Fin 2) * 64 + 1 * (j 0).val = (j 0).val; rw [(h t).2.2.2.2.1.1]; omega
  | ⟨1, _⟩ => show win2_7.index t (1 : Fin 2) * 1 + 1 * (j 1).val = (j 1).val; rw [(h t).2.2.2.2.1.2]; omega

/-- Window 8's block at any point is its whole array. -/
theorem whole8_eq (A : S1x1.Idx → EReal) (t : Fin cfg2.N) :
    ((cfg2.win 8).blk t).view.read (Elt Ideal) A = A := by
  funext j
  rw [View.read_apply]
  show A _ = A j
  refine congrArg A ?_
  funext a
  apply Fin.ext
  have h := index_whole
  match a with
  | ⟨0, _⟩ => show win2_8.index t (0 : Fin 2) * 1 + 1 * (j 0).val = (j 0).val; rw [(h t).2.2.2.2.2.1]; omega
  | ⟨1, _⟩ => show win2_8.index t (1 : Fin 2) * 1 + 1 * (j 1).val = (j 1).val; rw [(h t).2.2.2.2.2.2]; omega

/-! ## One grid point -/

/-- WHAT ONE POINT WRITES BACK, over variable tiles: if the three row tiles are rows 5000·t … of three arrays, the
    tile computation's result is block t of the layer function of those arrays — row p of the tile is row 5000·t + p
    of the array on both sides, and the layer function reads only that row of each operand. -/
theorem point_eq (A0 A1 A2 : S50000x64.Idx → EReal) (W0 W1 W2 : S64x64.Idx → EReal) (B : S1x64.Idx → EReal)
    (WL : S64x1.Idx → EReal) (BL : S1x1.Idx → EReal) (t : Fin cfg2.N)
    (x0 x1 : FVec Ideal S5000x64 .f32) (x2 : FVec Ideal S5000x64 .bf16)
    (h0 : ∀ (p : Fin 5000) (e : Fin 64) (r : Fin 50000), r.val = t.val * 5000 + p.val → x0 (ix2 p e) = A0 (ix2 r e))
    (h1 : ∀ (p : Fin 5000) (e : Fin 64) (r : Fin 50000), r.val = t.val * 5000 + p.val → x1 (ix2 p e) = A1 (ix2 r e))
    (h2 : ∀ (p : Fin 5000) (e : Fin 64) (r : Fin 50000), r.val = t.val * 5000 + p.val → x2 (ix2 p e) = A2 (ix2 r e)) :
    (cfg2.win 9).cut (grid2.coords t) (k2_pay1 (F := Ideal) x0 x1 x2 W0 W1 W2 B WL BL)
      = ((cfg2.win 9).blk t).view.read (Elt Ideal) (Cert.Sage.fusedProj A0 A1 A2 W0 W1 W2 B WL BL) := by
  have key : ∀ (p : Fin 5000) (q : Fin 1), k2_pay1 (F := Ideal) x0 x1 x2 W0 W1 W2 B WL BL (ix2 p q)
      = ((cfg2.win 9).blk t).view.read (Elt Ideal) (Cert.Sage.fusedProj A0 A1 A2 W0 W1 W2 B WL BL) (ix2 p q) := by
    intro p q
    have hlt : t.val * 5000 + p.val < 50000 := by have := point_lt t; have := p.isLt; omega
    rw [pay_apply, out_apply _ t p q ⟨t.val * 5000 + p.val, hlt⟩ rfl]
    have e0 : ∀ e, x0 (ix2 p e) = A0 (ix2 ⟨t.val * 5000 + p.val, hlt⟩ e) := fun e => h0 p e _ rfl
    have e1 : ∀ e, x1 (ix2 p e) = A1 (ix2 ⟨t.val * 5000 + p.val, hlt⟩ e) := fun e => h1 p e _ rfl
    have e2 : ∀ e, x2 (ix2 p e) = A2 (ix2 ⟨t.val * 5000 + p.val, hlt⟩ e) := fun e => h2 p e _ rfl
    show Cert.Sage.projAt _ WL BL p q = Cert.Sage.projAt _ WL BL ⟨t.val * 5000 + p.val, hlt⟩ q
    unfold Cert.Sage.projAt
    refine congrArg (· + BL (ix2 0 q)) (Finset.sum_congr rfl fun c _ => congrArg (· * WL (ix2 c q)) ?_)
    rw [Cert.Sage.fused_apply, Cert.Sage.fused_apply]
    unfold Cert.Sage.fusedAt
    simp only [e0, e1, e2]
  funext j
  rw [eq_ix2 (n0 := 5000) (n1 := 1) j]
  exact key (j 0) (j 1)

/-! ## The region -/

/-- WHAT POINT t WRITES BACK is block t of the layer function of the region's input arrays. -/
theorem flushed_eq (V : (c : Dev nD) → (b : Ref sig .tc) → Buf (Elt Ideal) ((c : Thread nD τ).loc b)) (c : Dev nD)
    (t : Fin cfg2.N) :
    (Gen.dat2 (F := Ideal) V c).flushed 9 t = ((cfg2.win 9).blk t).view.read (Elt Ideal)
      (Cert.Sage.fusedProj (V c main_v157) (V c main_v175) (V c main_v134) (V c main_v237) (V c main_v239) (V c main_v216) (V c main_v227) (V c main_arg8) (V c main_v234)) := by
  show (cfg2.win 9).cut (grid2.coords t) ((Gen.dat2 V c).after 9 t) = _
  rw [Gen.after2_9]
  unfold Gen.out2_9
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  rw [show Gen.iblk2 V c 3 t = V c main_v237 from whole3_eq (V c main_v237) t,
    show Gen.iblk2 V c 4 t = V c main_v239 from whole4_eq (V c main_v239) t,
    show Gen.iblk2 V c 5 t = V c main_v216 from whole5_eq (V c main_v216) t,
    show Gen.iblk2 V c 6 t = V c main_v227 from whole6_eq (V c main_v227) t,
    show Gen.iblk2 V c 7 t = V c main_arg8 from whole7_eq (V c main_arg8) t,
    show Gen.iblk2 V c 8 t = V c main_v234 from whole8_eq (V c main_v234) t]
  exact point_eq (V c main_v157) (V c main_v175) (V c main_v134) (V c main_v237) (V c main_v239) (V c main_v216) (V c main_v227) (V c main_arg8) (V c main_v234) t
    (Gen.iblk2 V c 0 t) (Gen.iblk2 V c 1 t) (Gen.iblk2 V c 2 t)
    (fun p e r hr => tile0_apply (V c main_v157) t p e r hr)
    (fun p e r hr => tile1_apply (V c main_v175) t p e r hr)
    (fun p e r hr => tile2_apply (V c main_v134) t p e r hr)

/-- An index of the output array is in point t's block iff each coordinate is in the block's range on its axis. -/
theorem mem_blk (t : Fin cfg2.N) (i : S50000x1.Idx) :
    i ∈ ((cfg2.win 9).blk t).view.set ↔ ∀ a : Fin 2, win2_9.index t a * S5000x1.size a ≤ (i a).val
      ∧ (i a).val < win2_9.index t a * S5000x1.size a + S5000x1.size a := by
  show i ∈ ((View.whole main_v240).slice (win2_9.rect t)).set ↔ _
  rw [View.set_slice_whole, Rect.mem_set_unit]
  exact Iff.rfl

/-- THE COVER: row r of the output array is in the block of point r / 5000, which writes back. -/
theorem cover (i : S50000x1.Idx) :
    ∃ t : Fin cfg2.N, (cfg2.win 9).flush t = true ∧ i ∈ ((cfg2.win 9).blk t).view.set := by
  have hi0 : (i 0).val < 50000 := (i 0).isLt
  have hi1 : (i 1).val < 1 := (i 1).isLt
  have hN : cfg2.N = 10 := N_2
  have ht : (i 0).val / 5000 < cfg2.N := by rw [hN]; omega
  refine ⟨⟨(i 0).val / 5000, ht⟩, flush2_9 _, ?_⟩
  rw [mem_blk]
  have h := index_rows ⟨(i 0).val / 5000, ht⟩
  have e0 : win2_9.index ⟨(i 0).val / 5000, ht⟩ (0 : Fin 2) = (i 0).val / 5000 := h.2.2.2.1
  have e1 : win2_9.index ⟨(i 0).val / 5000, ht⟩ (1 : Fin 2) = 0 := h.2.2.2.2
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    rw [e0]; omega
  | ⟨1, _⟩ =>
    show win2_9.index ⟨(i 0).val / 5000, ht⟩ (1 : Fin 2) * 1 ≤ (i 1).val
      ∧ (i 1).val < win2_9.index ⟨(i 0).val / 5000, ht⟩ (1 : Fin 2) * 1 + 1
    rw [e1]; omega

/-- THE REGION'S VALUE: after the whole grid the output array is the last layer followed by its read-out, of the
    region's input arrays as it finds them. -/
theorem value (V : (c : Dev nD) → (b : Ref sig .tc) → Buf (Elt Ideal) ((c : Thread nD τ).loc b)) (c : Dev nD) :
    (Gen.dat2 (F := Ideal) V c).arrAt 9 cfg2.N = Cert.Sage.fusedProj (V c main_v157) (V c main_v175) (V c main_v134) (V c main_v237) (V c main_v239) (V c main_v216) (V c main_v227) (V c main_arg8) (V c main_v234) :=
  (Gen.dat2 (F := Ideal) V c).arrAt_eq_of_cover 9 _ (fun t _ => flushed_eq V c t) cover

end Cert.KernelIdeal.Region2

end
-- ==== Proof.Region3Payload.lean ====
/-
  The read-out layer's tile computation, entry by entry.

  One grid point of the kernel holds a tile of 5000 rows of each of the three [50000, 64] operands, the three
  [64, 64] weights, the [1, 64] bias row, the [64, 1] read-out weight and the [1, 1] read-out bias, and computes

      out[p, q] = Σ_c max( Σ_e m1[p,e]·wl1[e,c] + Σ_e m2[p,e]·wl2[e,c] + Σ_e x[p,e]·wr[e,c] + b[0,c] , 0 ) · wlin[c,q] + blin[0,q].

  Over the extended reals no rounding is left: a truncation to bf16 is the identity, a shape cast to the same shape
  is the identity, the zero accumulator contributes nothing, each product into it is the finite sum over the
  contracted coordinate, and the two bias rows are broadcast down the tile's rows.  So the tile's result is the
  layer function of the specification, read over the tile's own extents.
-/
import proofs.«122893_j59708635349187_2_alg».proof.Proof.Gen.KernelIdeal.Skeleton
import proofs.«122893_j59708635349187_2_alg».proof.Proof.Spec
import proofs.«122893_j59708635349187_2_alg».proof.Proof.LibTileMatmul
import Idealize.ShloMosaic.Lib.Pipeline.Value
import Idealize.ShloMosaic.Lib.ValueLayout

noncomputable section

open scoped BigOperators

namespace Cert.KernelIdeal.Region3

open Cert.KernelIdeal Cert.KernelIdeal.Gen Idealize.ShloMosaic Idealize.ShloMosaic.ValueIdx

/-- The tile's result at row p, column q is the fused layer followed by the read-out, of the tile's operands. -/
theorem pay_apply (x0 x1 : FVec Ideal S5000x64 .f32) (x2 : FVec Ideal S5000x64 .bf16) (w0 w1 w2 : FVec Ideal S64x64 .f32)
    (b : FVec Ideal S1x64 .f32) (wl : FVec Ideal S64x1 .f32) (bl : FVec Ideal S1x1 .f32) (p : Fin 5000) (q : Fin 1) :
    k3_pay1 (F := Ideal) x0 x1 x2 w0 w1 w2 b wl bl (ix2 p q)
      = Cert.Sage.projAt (Cert.Sage.fused x0 x1 x2 w0 w1 w2 b) wl bl p q := by
  unfold k3_pay1
  simp only [shapeCast_self]
  -- the read-out: the product with the read-out weight plus the read-out bias row
  refine congrArg₂ (· + ·) ?_ (broadcastTo_1b_ab_apply bl _ p q)
  refine (TileMatmul.matmul_zero_apply _ none _ _ p q).trans ?_
  refine Finset.sum_congr rfl fun c _ => ?_
  refine congrArg (· * wl (ix2 c q)) ?_
  -- the hidden layer at (p, c): the three products added from the left, the bias row, the maximum with zero
  show max ((((matmul _ none _ _ _ (ix2 p c)) + (matmul _ none _ _ _ (ix2 p c))) + (matmul _ none _ _ _ (ix2 p c)))
      + broadcastTo S5000x64 b broadcasts_S1x64_S5000x64 (ix2 p c)) (Ideal.ofBits .f32 0x00000000#32) = _
  rw [Ideal.ofBits_zero_f32, broadcastTo_1b_ab_apply b _ p c]
  refine congrArg (max · 0) ?_
  refine congrArg (· + b (ix2 0 c)) ?_
  refine congrArg₂ (· + ·) (congrArg₂ (· + ·) ?_ ?_) ?_
  · exact TileMatmul.matmul_zero_apply _ none _ _ p c
  · exact TileMatmul.matmul_zero_apply _ none _ _ p c
  · exact TileMatmul.matmul_zero_apply _ none _ _ p c

end Cert.KernelIdeal.Region3

end
-- ==== Proof.Region3.lean ====
/-
  Region 3's output array after the whole grid, as one function of the region's input arrays.

  The region runs a grid of ten points over row tiles of 5000 rows.  At point t each of the three [50000, 64] operands
  is staged as its rows 5000·t … 5000·t + 4999 (block index (t, 0)), each weight and bias as its whole array (block
  index (0, 0)), and the body stores ONE whole [5000, 1] tile, which is written back as rows 5000·t … 5000·t + 4999 of
  the [50000, 1] output.

  The tile's value at row p is the last layer followed by its read-out, evaluated on row p of each staged tile.  That
  function reads, for output row r, only row r of each row operand; so row p of the tile at point t is row 5000·t + p
  of the layer function of the WHOLE arrays, i.e. what point t writes back is block t of that one whole-array
  function.  Every output row r lies in the block of point r / 5000, and every point writes back, so after the grid
  the output array is that function.

  The steps: the printed index maps decided over the ten points; each window's block read off a variable array
  (a block's coordinate on an axis is block index × block size + the coordinate inside the block); the per-point
  equation over VARIABLE tiles and arrays; then its instance at the region's blocks, the cover, and the whole-array
  equation.  The buffer contents V at the region's entry stay a variable throughout.
-/
import proofs.«122893_j59708635349187_2_alg».proof.Proof.Gen.KernelIdeal.Frame
import proofs.«122893_j59708635349187_2_alg».proof.Proof.Spec
import proofs.«122893_j59708635349187_2_alg».proof.Proof.Region3Payload
import Idealize.ShloMosaic.Lib.Pipeline.Value

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, however spelt. -/
theorem hz : (![0, 0] : Fin 2 → Nat) = fun _ => 0 := funext fun a => by fin_cases a <;> rfl

/-- The printed index maps, decided over the ten grid points: a row window's block index at point t is (t, 0), -/
theorem index_rows : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_9.index t (0 : Fin 2) = t.val ∧ win3_9.index t (1 : Fin 2) = 0) :=
  (by decide +kernel : ∀ t : Fin grid3.N, _)

/-- and a weight's or bias's, whose block is its whole array, is (0, 0). -/
theorem index_whole : ∀ t : Fin cfg3.N,
    (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

/-- The grid has ten points. -/
theorem point_lt (t : Fin cfg3.N) : t.val < 10 := by
  exact Nat.lt_of_lt_of_eq t.isLt N_3

/-! ## Each window's block at a point, read off an array: rows 5000·t … 5000·t + 4999, or the whole array -/

/-- Row p of window 0's block at point t is row 5000·t + p of its array. -/
theorem tile0_apply (A : S50000x64.Idx → EReal) (t : Fin cfg3.N) (p : Fin 5000) (e : Fin 64) (r : Fin 50000)
    (hr : r.val = t.val * 5000 + p.val) :
    ((cfg3.win 0).blk t).view.read (Elt Ideal) A (ix2 p e) = A (ix2 r e) := by
  rw [View.read_apply]
  show A _ = A _
  refine congrArg A ?_
  funext a
  apply Fin.ext
  have h := index_rows
  match a with
  | ⟨0, _⟩ => show win3_0.index t (0 : Fin 2) * 5000 + 1 * p.val = r.val; rw [(h t).1.1, hr]; omega
  | ⟨1, _⟩ => show win3_0.index t (1 : Fin 2) * 64 + 1 * e.val = e.val; rw [(h t).1.2]; omega

/-- Row p of window 1's block at point t is row 5000·t + p of its array. -/
theorem tile1_apply (A : S50000x64.Idx → EReal) (t : Fin cfg3.N) (p : Fin 5000) (e : Fin 64) (r : Fin 50000)
    (hr : r.val = t.val * 5000 + p.val) :
    ((cfg3.win 1).blk t).view.read (Elt Ideal) A (ix2 p e) = A (ix2 r e) := by
  rw [View.read_apply]
  show A _ = A _
  refine congrArg A ?_
  funext a
  apply Fin.ext
  have h := index_rows
  match a with
  | ⟨0, _⟩ => show win3_1.index t (0 : Fin 2) * 5000 + 1 * p.val = r.val; rw [(h t).2.1.1, hr]; omega
  | ⟨1, _⟩ => show win3_1.index t (1 : Fin 2) * 64 + 1 * e.val = e.val; rw [(h t).2.1.2]; omega

/-- Row p of window 2's block at point t is row 5000·t + p of its array. -/
theorem tile2_apply (A : S50000x64.Idx → EReal) (t : Fin cfg3.N) (p : Fin 5000) (e : Fin 64) (r : Fin 50000)
    (hr : r.val = t.val * 5000 + p.val) :
    ((cfg3.win 2).blk t).view.read (Elt Ideal) A (ix2 p e) = A (ix2 r e) := by
  rw [View.read_apply]
  show A _ = A _
  refine congrArg A ?_
  funext a
  apply Fin.ext
  have h := index_rows
  match a with
  | ⟨0, _⟩ => show win3_2.index t (0 : Fin 2) * 5000 + 1 * p.val = r.val; rw [(h t).2.2.1.1, hr]; omega
  | ⟨1, _⟩ => show win3_2.index t (1 : Fin 2) * 64 + 1 * e.val = e.val; rw [(h t).2.2.1.2]; omega

/-- Row p of the output window's block at point t is row 5000·t + p of its array. -/
theorem out_apply (A : S50000x1.Idx → EReal) (t : Fin cfg3.N) (p : Fin 5000) (q : Fin 1) (r : Fin 50000)
    (hr : r.val = t.val * 5000 + p.val) :
    ((cfg3.win 9).blk t).view.read (Elt Ideal) A (ix2 p q) = A (ix2 r q) := by
  rw [View.read_apply]
  show A _ = A _
  refine congrArg A ?_
  funext a
  apply Fin.ext
  have h := index_rows
  match a with
  | ⟨0, _⟩ => show win3_9.index t (0 : Fin 2) * 5000 + 1 * p.val = r.val; rw [(h t).2.2.2.1, hr]; omega
  | ⟨1, _⟩ => show win3_9.index t (1 : Fin 2) * 1 + 1 * q.val = q.val; rw [(h t).2.2.2.2]; omega

/-- Window 3's block at any point is its whole array. -/
theorem whole3_eq (A : S64x64.Idx → EReal) (t : Fin cfg3.N) :
    ((cfg3.win 3).blk t).view.read (Elt Ideal) A = A := by
  funext j
  rw [View.read_apply]
  show A _ = A j
  refine congrArg A ?_
  funext a
  apply Fin.ext
  have h := index_whole
  match a with
  | ⟨0, _⟩ => show win3_3.index t (0 : Fin 2) * 64 + 1 * (j 0).val = (j 0).val; rw [(h t).1.1]; omega
  | ⟨1, _⟩ => show win3_3.index t (1 : Fin 2) * 64 + 1 * (j 1).val = (j 1).val; rw [(h t).1.2]; omega

/-- Window 4's block at any point is its whole array. -/
theorem whole4_eq (A : S64x64.Idx → EReal) (t : Fin cfg3.N) :
    ((cfg3.win 4).blk t).view.read (Elt Ideal) A = A := by
  funext j
  rw [View.read_apply]
  show A _ = A j
  refine congrArg A ?_
  funext a
  apply Fin.ext
  have h := index_whole
  match a with
  | ⟨0, _⟩ => show win3_4.index t (0 : Fin 2) * 64 + 1 * (j 0).val = (j 0).val; rw [(h t).2.1.1]; omega
  | ⟨1, _⟩ => show win3_4.index t (1 : Fin 2) * 64 + 1 * (j 1).val = (j 1).val; rw [(h t).2.1.2]; omega

/-- Window 5's block at any point is its whole array. -/
theorem whole5_eq (A : S64x64.Idx → EReal) (t : Fin cfg3.N) :
    ((cfg3.win 5).blk t).view.read (Elt Ideal) A = A := by
  funext j
  rw [View.read_apply]
  show A _ = A j
  refine congrArg A ?_
  funext a
  apply Fin.ext
  have h := index_whole
  match a with
  | ⟨0, _⟩ => show win3_5.index t (0 : Fin 2) * 64 + 1 * (j 0).val = (j 0).val; rw [(h t).2.2.1.1]; omega
  | ⟨1, _⟩ => show win3_5.index t (1 : Fin 2) * 64 + 1 * (j 1).val = (j 1).val; rw [(h t).2.2.1.2]; omega

/-- Window 6's block at any point is its whole array. -/
theorem whole6_eq (A : S1x64.Idx → EReal) (t : Fin cfg3.N) :
    ((cfg3.win 6).blk t).view.read (Elt Ideal) A = A := by
  funext j
  rw [View.read_apply]
  show A _ = A j
  refine congrArg A ?_
  funext a
  apply Fin.ext
  have h := index_whole
  match a with
  | ⟨0, _⟩ => show win3_6.index t (0 : Fin 2) * 1 + 1 * (j 0).val = (j 0).val; rw [(h t).2.2.2.1.1]; omega
  | ⟨1, _⟩ => show win3_6.index t (1 : Fin 2) * 64 + 1 * (j 1).val = (j 1).val; rw [(h t).2.2.2.1.2]; omega

/-- Window 7's block at any point is its whole array. -/
theorem whole7_eq (A : S64x1.Idx → EReal) (t : Fin cfg3.N) :
    ((cfg3.win 7).blk t).view.read (Elt Ideal) A = A := by
  funext j
  rw [View.read_apply]
  show A _ = A j
  refine congrArg A ?_
  funext a
  apply Fin.ext
  have h := index_whole
  match a with
  | ⟨0, _⟩ => show win3_7.index t (0 : Fin 2) * 64 + 1 * (j 0).val = (j 0).val; rw [(h t).2.2.2.2.1.1]; omega
  | ⟨1, _⟩ => show win3_7.index t (1 : Fin 2) * 1 + 1 * (j 1).val = (j 1).val; rw [(h t).2.2.2.2.1.2]; omega

/-- Window 8's block at any point is its whole array. -/
theorem whole8_eq (A : S1x1.Idx → EReal) (t : Fin cfg3.N) :
    ((cfg3.win 8).blk t).view.read (Elt Ideal) A = A := by
  funext j
  rw [View.read_apply]
  show A _ = A j
  refine congrArg A ?_
  funext a
  apply Fin.ext
  have h := index_whole
  match a with
  | ⟨0, _⟩ => show win3_8.index t (0 : Fin 2) * 1 + 1 * (j 0).val = (j 0).val; rw [(h t).2.2.2.2.2.1]; omega
  | ⟨1, _⟩ => show win3_8.index t (1 : Fin 2) * 1 + 1 * (j 1).val = (j 1).val; rw [(h t).2.2.2.2.2.2]; omega

/-! ## One grid point -/

/-- WHAT ONE POINT WRITES BACK, over variable tiles: if the three row tiles are rows 5000·t … of three arrays, the
    tile computation's result is block t of the layer function of those arrays — row p of the tile is row 5000·t + p
    of the array on both sides, and the layer function reads only that row of each operand. -/
theorem point_eq (A0 A1 A2 : S50000x64.Idx → EReal) (W0 W1 W2 : S64x64.Idx → EReal) (B : S1x64.Idx → EReal)
    (WL : S64x1.Idx → EReal) (BL : S1x1.Idx → EReal) (t : Fin cfg3.N)
    (x0 x1 : FVec Ideal S5000x64 .f32) (x2 : FVec Ideal S5000x64 .bf16)
    (h0 : ∀ (p : Fin 5000) (e : Fin 64) (r : Fin 50000), r.val = t.val * 5000 + p.val → x0 (ix2 p e) = A0 (ix2 r e))
    (h1 : ∀ (p : Fin 5000) (e : Fin 64) (r : Fin 50000), r.val = t.val * 5000 + p.val → x1 (ix2 p e) = A1 (ix2 r e))
    (h2 : ∀ (p : Fin 5000) (e : Fin 64) (r : Fin 50000), r.val = t.val * 5000 + p.val → x2 (ix2 p e) = A2 (ix2 r e)) :
    (cfg3.win 9).cut (grid3.coords t) (k3_pay1 (F := Ideal) x0 x1 x2 W0 W1 W2 B WL BL)
      = ((cfg3.win 9).blk t).view.read (Elt Ideal) (Cert.Sage.fusedProj A0 A1 A2 W0 W1 W2 B WL BL) := by
  have key : ∀ (p : Fin 5000) (q : Fin 1), k3_pay1 (F := Ideal) x0 x1 x2 W0 W1 W2 B WL BL (ix2 p q)
      = ((cfg3.win 9).blk t).view.read (Elt Ideal) (Cert.Sage.fusedProj A0 A1 A2 W0 W1 W2 B WL BL) (ix2 p q) := by
    intro p q
    have hlt : t.val * 5000 + p.val < 50000 := by have := point_lt t; have := p.isLt; omega
    rw [pay_apply, out_apply _ t p q ⟨t.val * 5000 + p.val, hlt⟩ rfl]
    have e0 : ∀ e, x0 (ix2 p e) = A0 (ix2 ⟨t.val * 5000 + p.val, hlt⟩ e) := fun e => h0 p e _ rfl
    have e1 : ∀ e, x1 (ix2 p e) = A1 (ix2 ⟨t.val * 5000 + p.val, hlt⟩ e) := fun e => h1 p e _ rfl
    have e2 : ∀ e, x2 (ix2 p e) = A2 (ix2 ⟨t.val * 5000 + p.val, hlt⟩ e) := fun e => h2 p e _ rfl
    show Cert.Sage.projAt _ WL BL p q = Cert.Sage.projAt _ WL BL ⟨t.val * 5000 + p.val, hlt⟩ q
    unfold Cert.Sage.projAt
    refine congrArg (· + BL (ix2 0 q)) (Finset.sum_congr rfl fun c _ => congrArg (· * WL (ix2 c q)) ?_)
    rw [Cert.Sage.fused_apply, Cert.Sage.fused_apply]
    unfold Cert.Sage.fusedAt
    simp only [e0, e1, e2]
  funext j
  rw [eq_ix2 (n0 := 5000) (n1 := 1) j]
  exact key (j 0) (j 1)

/-! ## The region -/

/-- WHAT POINT t WRITES BACK is block t of the layer function of the region's input arrays. -/
theorem flushed_eq (V : (c : Dev nD) → (b : Ref sig .tc) → Buf (Elt Ideal) ((c : Thread nD τ).loc b)) (c : Dev nD)
    (t : Fin cfg3.N) :
    (Gen.dat3 (F := Ideal) V c).flushed 9 t = ((cfg3.win 9).blk t).view.read (Elt Ideal)
      (Cert.Sage.fusedProj (V c main_v193) (V c main_v211) (V c main_v139) (V c main_v242) (V c main_v244) (V c main_v221) (V c main_v233) (V c main_arg10) (V c main_v235)) := by
  show (cfg3.win 9).cut (grid3.coords t) ((Gen.dat3 V c).after 9 t) = _
  rw [Gen.after3_9]
  unfold Gen.out3_9
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  rw [show Gen.iblk3 V c 3 t = V c main_v242 from whole3_eq (V c main_v242) t,
    show Gen.iblk3 V c 4 t = V c main_v244 from whole4_eq (V c main_v244) t,
    show Gen.iblk3 V c 5 t = V c main_v221 from whole5_eq (V c main_v221) t,
    show Gen.iblk3 V c 6 t = V c main_v233 from whole6_eq (V c main_v233) t,
    show Gen.iblk3 V c 7 t = V c main_arg10 from whole7_eq (V c main_arg10) t,
    show Gen.iblk3 V c 8 t = V c main_v235 from whole8_eq (V c main_v235) t]
  exact point_eq (V c main_v193) (V c main_v211) (V c main_v139) (V c main_v242) (V c main_v244) (V c main_v221) (V c main_v233) (V c main_arg10) (V c main_v235) t
    (Gen.iblk3 V c 0 t) (Gen.iblk3 V c 1 t) (Gen.iblk3 V c 2 t)
    (fun p e r hr => tile0_apply (V c main_v193) t p e r hr)
    (fun p e r hr => tile1_apply (V c main_v211) t p e r hr)
    (fun p e r hr => tile2_apply (V c main_v139) t p e r hr)

/-- An index of the output array is in point t's block iff each coordinate is in the block's range on its axis. -/
theorem mem_blk (t : Fin cfg3.N) (i : S50000x1.Idx) :
    i ∈ ((cfg3.win 9).blk t).view.set ↔ ∀ a : Fin 2, win3_9.index t a * S5000x1.size a ≤ (i a).val
      ∧ (i a).val < win3_9.index t a * S5000x1.size a + S5000x1.size a := by
  show i ∈ ((View.whole main_v245).slice (win3_9.rect t)).set ↔ _
  rw [View.set_slice_whole, Rect.mem_set_unit]
  exact Iff.rfl

/-- THE COVER: row r of the output array is in the block of point r / 5000, which writes back. -/
theorem cover (i : S50000x1.Idx) :
    ∃ t : Fin cfg3.N, (cfg3.win 9).flush t = true ∧ i ∈ ((cfg3.win 9).blk t).view.set := by
  have hi0 : (i 0).val < 50000 := (i 0).isLt
  have hi1 : (i 1).val < 1 := (i 1).isLt
  have hN : cfg3.N = 10 := N_3
  have ht : (i 0).val / 5000 < cfg3.N := by rw [hN]; omega
  refine ⟨⟨(i 0).val / 5000, ht⟩, flush3_9 _, ?_⟩
  rw [mem_blk]
  have h := index_rows ⟨(i 0).val / 5000, ht⟩
  have e0 : win3_9.index ⟨(i 0).val / 5000, ht⟩ (0 : Fin 2) = (i 0).val / 5000 := h.2.2.2.1
  have e1 : win3_9.index ⟨(i 0).val / 5000, ht⟩ (1 : Fin 2) = 0 := h.2.2.2.2
  intro a
  match a with
  | ⟨0, _⟩ =>
    show win3_9.index ⟨(i 0).val / 5000, ht⟩ (0 : Fin 2) * 5000 ≤ (i 0).val
      ∧ (i 0).val < win3_9.index ⟨(i 0).val / 5000, ht⟩ (0 : Fin 2) * 5000 + 5000
    rw [e0]; omega
  | ⟨1, _⟩ =>
    show win3_9.index ⟨(i 0).val / 5000, ht⟩ (1 : Fin 2) * 1 ≤ (i 1).val
      ∧ (i 1).val < win3_9.index ⟨(i 0).val / 5000, ht⟩ (1 : Fin 2) * 1 + 1
    rw [e1]; omega

/-- THE REGION'S VALUE: after the whole grid the output array is the last layer followed by its read-out, of the
    region's input arrays as it finds them. -/
theorem value (V : (c : Dev nD) → (b : Ref sig .tc) → Buf (Elt Ideal) ((c : Thread nD τ).loc b)) (c : Dev nD) :
    (Gen.dat3 (F := Ideal) V c).arrAt 9 cfg3.N = Cert.Sage.fusedProj (V c main_v193) (V c main_v211) (V c main_v139) (V c main_v242) (V c main_v244) (V c main_v221) (V c main_v233) (V c main_arg10) (V c main_v235) :=
  (Gen.dat3 (F := Ideal) V c).arrAt_eq_of_cover 9 _ (fun t _ => flushed_eq V c t) cover

end Cert.KernelIdeal.Region3

end
-- ==== Proof.KWalkB1.lean ====
import proofs.«122893_j59708635349187_2_alg».proof.Proof.Gen.KernelIdeal.Frame

set_option maxRecDepth 16384

noncomputable section

namespace Cert.KernelIdeal.KWalk2

open Idealize.ShloMosaic Idealize.ShloMosaic.TcCoe
open Idealize.SL.Sem
open Cert.KernelIdeal.Gen

variable {F : FTy → Type} [FloatOps F]

/-! The third stretch of host operations (`Gen.hostOps2`), cut into seven consecutive pieces: each piece's
    entries are the stretch's own, in order, so the stretch is their concatenation by `rfl`. A buffer is then
    read through one short piece at a time. -/

set_option maxHeartbeats 4000000 in
/-- Operations 1–21 of the third host stretch: the neighbourhood mean `main_v157` (edge list `main_arg12`, rows of `main_v134`, scale `main_v9`). -/
def p2a : List (HloOp τ sig (Elt F)) :=
  [ StableHlo.unary main_arg12 main_v140 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v140 main_v141 rfl shapeCasts_S1x1600000_S1600000,
    StableHlo.unary main_arg12 main_v142 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v142 main_v143 rfl shapeCasts_S1x1600000_S1600000,
    StableHlo.nullary main_c_26 (constantI S_ 32 0#32),
    StableHlo.unary main_c_26 main_v144 (broadcastInDim S1600000 ![] bcast_S_S1600000 : (⟨S_, .i32⟩ : BufTy).Contents (Elt F) → (⟨S1600000, .i32⟩ : BufTy).Contents (Elt F)),
    StableHlo.binary main_v141 main_v144 main_v145 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 50000#32),
    StableHlo.unary main_c_27 main_v146 (broadcastInDim S1600000 ![] bcast_S_S1600000 : (⟨S_, .i32⟩ : BufTy).Contents (Elt F) → (⟨S1600000, .i32⟩ : BufTy).Contents (Elt F)),
    StableHlo.binary main_v141 main_v146 main_v147 (addi : (⟨S1600000, .i32⟩ : BufTy).Contents (Elt F) → (⟨S1600000, .i32⟩ : BufTy).Contents (Elt F) → (⟨S1600000, .i32⟩ : BufTy).Contents (Elt F)),
    StableHlo.ternary main_v145 main_v147 main_v141 main_v148 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v148 main_v149 (broadcastInDim S1600000x1 ![0] bcast_S1600000_S1600000x1_0 : (⟨S1600000, .i32⟩ : BufTy).Contents (Elt F) → (⟨S1600000x1, .i32⟩ : BufTy).Contents (Elt F)),
    StableHlo.binary main_v134 main_v149 main_v150 ((fun x i => Host.gather gather_S50000x64_S1600000x1_S1600000x64_1_0_n_n_0_1_164 x i) : (⟨S50000x64, .bf16⟩ : BufTy).Contents (Elt F) → (⟨S1600000x1, .i32⟩ : BufTy).Contents (Elt F) → (⟨S1600000x64, .bf16⟩ : BufTy).Contents (Elt F)),
    StableHlo.unary main_v150 main_v151 ((extf .f32 · bitsLt_bf16_f32) : (⟨S1600000x64, .bf16⟩ : BufTy).Contents (Elt F) → (⟨S1600000x64, .f32⟩ : BufTy).Contents (Elt F)),
    StableHlo.nullary main_cst_28 (constant S_ .f32 0x00000000#32),
    StableHlo.unary main_cst_28 main_v152 (broadcastInDim S50000x64 ![] bcast_S_S50000x64 : (⟨S_, .f32⟩ : BufTy).Contents (Elt F) → (⟨S50000x64, .f32⟩ : BufTy).Contents (Elt F)),
    StableHlo.unary main_v143 main_v153 (broadcastInDim S1600000x1 ![0] bcast_S1600000_S1600000x1_0 : (⟨S1600000, .i32⟩ : BufTy).Contents (Elt F) → (⟨S1600000x1, .i32⟩ : BufTy).Contents (Elt F)),
    StableHlo.ternary main_v152 main_v153 main_v151 main_v154 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.unary main_v9 main_v155 (broadcastInDim S50000x1 ![0] bcast_S50000_S50000x1_0 : (⟨S50000, .f32⟩ : BufTy).Contents (Elt F) → (⟨S50000x1, .f32⟩ : BufTy).Contents (Elt F)),
    StableHlo.unary main_v155 main_v156 (broadcastInDim S50000x64 ![0, 1] bcast_S50000x1_S50000x64_0_1 : (⟨S50000x1, .f32⟩ : BufTy).Contents (Elt F) → (⟨S50000x64, .f32⟩ : BufTy).Contents (Elt F)),
    StableHlo.binary main_v154 main_v156 main_v157 (mulf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Operations 22–42: the neighbourhood mean `main_v175` (edge list `main_arg14`, rows of `main_v139`, scale `main_v29`). -/
def p2b : List (HloOp τ sig (Elt F)) :=
  [ StableHlo.unary main_arg14 main_v158 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v158 main_v159 rfl shapeCasts_S1x1600000_S1600000,
    StableHlo.unary main_arg14 main_v160 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v160 main_v161 rfl shapeCasts_S1x1600000_S1600000,
    StableHlo.nullary main_c_29 (constantI S_ 32 0#32),
    StableHlo.unary main_c_29 main_v162 (broadcastInDim S1600000 ![] bcast_S_S1600000 : (⟨S_, .i32⟩ : BufTy).Contents (Elt F) → (⟨S1600000, .i32⟩ : BufTy).Contents (Elt F)),
    StableHlo.binary main_v159 main_v162 main_v163 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 50000#32),
    StableHlo.unary main_c_30 main_v164 (broadcastInDim S1600000 ![] bcast_S_S1600000 : (⟨S_, .i32⟩ : BufTy).Contents (Elt F) → (⟨S1600000, .i32⟩ : BufTy).Contents (Elt F)),
    StableHlo.binary main_v159 main_v164 main_v165 (addi : (⟨S1600000, .i32⟩ : BufTy).Contents (Elt F) → (⟨S1600000, .i32⟩ : BufTy).Contents (Elt F) → (⟨S1600000, .i32⟩ : BufTy).Contents (Elt F)),
    StableHlo.ternary main_v163 main_v165 main_v159 main_v166 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v166 main_v167 (broadcastInDim S1600000x1 ![0] bcast_S1600000_S1600000x1_0 : (⟨S1600000, .i32⟩ : BufTy).Contents (Elt F) → (⟨S1600000x1, .i32⟩ : BufTy).Contents (Elt F)),
    StableHlo.binary main_v139 main_v167 main_v168 ((fun x i => Host.gather gather_S50000x64_S1600000x1_S1600000x64_1_0_n_n_0_1_164 x i) : (⟨S50000x64, .bf16⟩ : BufTy).Contents (Elt F) → (⟨S1600000x1, .i32⟩ : BufTy).Contents (Elt F) → (⟨S1600000x64, .bf16⟩ : BufTy).Contents (Elt F)),
    StableHlo.unary main_v168 main_v169 ((extf .f32 · bitsLt_bf16_f32) : (⟨S1600000x64, .bf16⟩ : BufTy).Contents (Elt F) → (⟨S1600000x64, .f32⟩ : BufTy).Contents (Elt F)),
    StableHlo.nullary main_cst_31 (constant S_ .f32 0x00000000#32),
    StableHlo.unary main_cst_31 main_v170 (broadcastInDim S50000x64 ![] bcast_S_S50000x64 : (⟨S_, .f32⟩ : BufTy).Contents (Elt F) → (⟨S50000x64, .f32⟩ : BufTy).Contents (Elt F)),
    StableHlo.unary main_v161 main_v171 (broadcastInDim S1600000x1 ![0] bcast_S1600000_S1600000x1_0 : (⟨S1600000, .i32⟩ : BufTy).Contents (Elt F) → (⟨S1600000x1, .i32⟩ : BufTy).Contents (Elt F)),
    StableHlo.ternary main_v170 main_v171 main_v169 main_v172 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.unary main_v29 main_v173 (broadcastInDim S50000x1 ![0] bcast_S50000_S50000x1_0 : (⟨S50000, .f32⟩ : BufTy).Contents (Elt F) → (⟨S50000x1, .f32⟩ : BufTy).Contents (Elt F)),
    StableHlo.unary main_v173 main_v174 (broadcastInDim S50000x64 ![0, 1] bcast_S50000x1_S50000x64_0_1 : (⟨S50000x1, .f32⟩ : BufTy).Contents (Elt F) → (⟨S50000x64, .f32⟩ : BufTy).Contents (Elt F)),
    StableHlo.binary main_v172 main_v174 main_v175 (mulf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Operations 43–63: the neighbourhood mean `main_v193` (edge list `main_arg13`, rows of `main_v134`, scale `main_v19`). -/
def p2c : List (HloOp τ sig (Elt F)) :=
  [ StableHlo.unary main_arg13 main_v176 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v176 main_v177 rfl shapeCasts_S1x1600000_S1600000,
    StableHlo.unary main_arg13 main_v178 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v178 main_v179 rfl shapeCasts_S1x1600000_S1600000,
    StableHlo.nullary main_c_32 (constantI S_ 32 0#32),
    StableHlo.unary main_c_32 main_v180 (broadcastInDim S1600000 ![] bcast_S_S1600000 : (⟨S_, .i32⟩ : BufTy).Contents (Elt F) → (⟨S1600000, .i32⟩ : BufTy).Contents (Elt F)),
    StableHlo.binary main_v177 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 50000#32),
    StableHlo.unary main_c_33 main_v182 (broadcastInDim S1600000 ![] bcast_S_S1600000 : (⟨S_, .i32⟩ : BufTy).Contents (Elt F) → (⟨S1600000, .i32⟩ : BufTy).Contents (Elt F)),
    StableHlo.binary main_v177 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_v177 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.binary main_v134 main_v185 main_v186 ((fun x i => Host.gather gather_S50000x64_S1600000x1_S1600000x64_1_0_n_n_0_1_164 x i) : (⟨S50000x64, .bf16⟩ : BufTy).Contents (Elt F) → (⟨S1600000x1, .i32⟩ : BufTy).Contents (Elt F) → (⟨S1600000x64, .bf16⟩ : BufTy).Contents (Elt F)),
    StableHlo.unary main_v186 main_v187 ((extf .f32 · bitsLt_bf16_f32) : (⟨S1600000x64, .bf16⟩ : BufTy).Contents (Elt F) → (⟨S1600000x64, .f32⟩ : BufTy).Contents (Elt F)),
    StableHlo.nullary main_cst_34 (constant S_ .f32 0x00000000#32),
    StableHlo.unary main_cst_34 main_v188 (broadcastInDim S50000x64 ![] bcast_S_S50000x64 : (⟨S_, .f32⟩ : BufTy).Contents (Elt F) → (⟨S50000x64, .f32⟩ : BufTy).Contents (Elt F)),
    StableHlo.unary main_v179 main_v189 (broadcastInDim S1600000x1 ![0] bcast_S1600000_S1600000x1_0 : (⟨S1600000, .i32⟩ : BufTy).Contents (Elt F) → (⟨S1600000x1, .i32⟩ : BufTy).Contents (Elt F)),
    StableHlo.ternary main_v188 main_v189 main_v187 main_v190 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.unary main_v19 main_v191 (broadcastInDim S50000x1 ![0] bcast_S50000_S50000x1_0 : (⟨S50000, .f32⟩ : BufTy).Contents (Elt F) → (⟨S50000x1, .f32⟩ : BufTy).Contents (Elt F)),
    StableHlo.unary main_v191 main_v192 (broadcastInDim S50000x64 ![0, 1] bcast_S50000x1_S50000x64_0_1 : (⟨S50000x1, .f32⟩ : BufTy).Contents (Elt F) → (⟨S50000x64, .f32⟩ : BufTy).Contents (Elt F)),
    StableHlo.binary main_v190 main_v192 main_v193 (mulf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Operations 64–84: the neighbourhood mean `main_v211` (edge list `main_arg15`, rows of `main_v139`, scale `main_v39`). -/
def p2d : List (HloOp τ sig (Elt F)) :=
  [ StableHlo.unary main_arg15 main_v194 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v194 main_v195 rfl shapeCasts_S1x1600000_S1600000,
    StableHlo.unary main_arg15 main_v196 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v196 main_v197 rfl shapeCasts_S1x1600000_S1600000,
    StableHlo.nullary main_c_35 (constantI S_ 32 0#32),
    StableHlo.unary main_c_35 main_v198 (broadcastInDim S1600000 ![] bcast_S_S1600000 : (⟨S_, .i32⟩ : BufTy).Contents (Elt F) → (⟨S1600000, .i32⟩ : BufTy).Contents (Elt F)),
    StableHlo.binary main_v195 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 50000#32),
    StableHlo.unary main_c_36 main_v200 (broadcastInDim S1600000 ![] bcast_S_S1600000 : (⟨S_, .i32⟩ : BufTy).Contents (Elt F) → (⟨S1600000, .i32⟩ : BufTy).Contents (Elt F)),
    StableHlo.binary main_v195 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v195 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v139 main_v203 main_v204 ((fun x i => Host.gather gather_S50000x64_S1600000x1_S1600000x64_1_0_n_n_0_1_164 x i) : (⟨S50000x64, .bf16⟩ : BufTy).Contents (Elt F) → (⟨S1600000x1, .i32⟩ : BufTy).Contents (Elt F) → (⟨S1600000x64, .bf16⟩ : BufTy).Contents (Elt F)),
    StableHlo.unary main_v204 main_v205 ((extf .f32 · bitsLt_bf16_f32) : (⟨S1600000x64, .bf16⟩ : BufTy).Contents (Elt F) → (⟨S1600000x64, .f32⟩ : BufTy).Contents (Elt F)),
    StableHlo.nullary main_cst_37 (constant S_ .f32 0x00000000#32),
    StableHlo.unary main_cst_37 main_v206 (broadcastInDim S50000x64 ![] bcast_S_S50000x64 : (⟨S_, .f32⟩ : BufTy).Contents (Elt F) → (⟨S50000x64, .f32⟩ : BufTy).Contents (Elt F)),
    StableHlo.unary main_v197 main_v207 (broadcastInDim S1600000x1 ![0] bcast_S1600000_S1600000x1_0 : (⟨S1600000, .i32⟩ : BufTy).Contents (Elt F) → (⟨S1600000x1, .i32⟩ : BufTy).Contents (Elt F)),
    StableHlo.ternary main_v206 main_v207 main_v205 main_v208 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.unary main_v39 main_v209 (broadcastInDim S50000x1 ![0] bcast_S50000_S50000x1_0 : (⟨S50000, .f32⟩ : BufTy).Contents (Elt F) → (⟨S50000x1, .f32⟩ : BufTy).Contents (Elt F)),
    StableHlo.unary main_v209 main_v210 (broadcastInDim S50000x64 ![0, 1] bcast_S50000x1_S50000x64_0_1 : (⟨S50000x1, .f32⟩ : BufTy).Contents (Elt F) → (⟨S50000x64, .f32⟩ : BufTy).Contents (Elt F)),
    StableHlo.binary main_v208 main_v210 main_v211 (mulf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Operations 85–94: the two sums of slices of `main_arg7` (`main_v216`, `main_v221`). -/
def p2e : List (HloOp τ sig (Elt F)) :=
  [ StableHlo.unary main_arg7 main_v212 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v212 main_v213 rfl shapeCasts_S1x64x64_S64x64,
    StableHlo.unary main_arg7 main_v214 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v214 main_v215 rfl shapeCasts_S1x64x64_S64x64,
    StableHlo.binary main_v213 main_v215 main_v216 (addf : (⟨S64x64, .f32⟩ : BufTy).Contents (Elt F) → (⟨S64x64, .f32⟩ : BufTy).Contents (Elt F) → (⟨S64x64, .f32⟩ : BufTy).Contents (Elt F)),
    StableHlo.unary main_arg7 main_v217 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v217 main_v218 rfl shapeCasts_S1x64x64_S64x64,
    StableHlo.unary main_arg7 main_v219 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v219 main_v220 rfl shapeCasts_S1x64x64_S64x64,
    StableHlo.binary main_v218 main_v220 main_v221 (addf : (⟨S64x64, .f32⟩ : BufTy).Contents (Elt F) → (⟨S64x64, .f32⟩ : BufTy).Contents (Elt F) → (⟨S64x64, .f32⟩ : BufTy).Contents (Elt F)) ]

set_option maxHeartbeats 4000000 in
/-- Operations 95–106: the two sums of slices of `main_arg6`, as rows (`main_v227`, `main_v233`). -/
def p2f : List (HloOp τ sig (Elt F)) :=
  [ StableHlo.unary main_arg6 main_v222 ((extractStridedSlice S1x64 ![0, 0] · slices_S4x64_S1x64_0_0) : (⟨S4x64, .f32⟩ : BufTy).Contents (Elt F) → (⟨S1x64, .f32⟩ : BufTy).Contents (Elt F)),
    StableHlo.reshape main_v222 main_v223 rfl shapeCasts_S1x64_S64,
    StableHlo.unary main_arg6 main_v224 ((extractStridedSlice S1x64 ![2, 0] · slices_S4x64_S1x64_2_0) : (⟨S4x64, .f32⟩ : BufTy).Contents (Elt F) → (⟨S1x64, .f32⟩ : BufTy).Contents (Elt F)),
    StableHlo.reshape main_v224 main_v225 rfl shapeCasts_S1x64_S64,
    StableHlo.binary main_v223 main_v225 main_v226 (addf : (⟨S64, .f32⟩ : BufTy).Contents (Elt F) → (⟨S64, .f32⟩ : BufTy).Contents (Elt F) → (⟨S64, .f32⟩ : BufTy).Contents (Elt F)),
    StableHlo.reshape main_v226 main_v227 rfl shapeCasts_S64_S1x64,
    StableHlo.unary main_arg6 main_v228 ((extractStridedSlice S1x64 ![1, 0] · slices_S4x64_S1x64_1_0) : (⟨S4x64, .f32⟩ : BufTy).Contents (Elt F) → (⟨S1x64, .f32⟩ : BufTy).Contents (Elt F)),
    StableHlo.reshape main_v228 main_v229 rfl shapeCasts_S1x64_S64,
    StableHlo.unary main_arg6 main_v230 ((extractStridedSlice S1x64 ![3, 0] · slices_S4x64_S1x64_3_0) : (⟨S4x64, .f32⟩ : BufTy).Contents (Elt F) → (⟨S1x64, .f32⟩ : BufTy).Contents (Elt F)),
    StableHlo.reshape main_v230 main_v231 rfl shapeCasts_S1x64_S64,
    StableHlo.binary main_v229 main_v231 main_v232 (addf : (⟨S64, .f32⟩ : BufTy).Contents (Elt F) → (⟨S64, .f32⟩ : BufTy).Contents (Elt F) → (⟨S64, .f32⟩ : BufTy).Contents (Elt F)),
    StableHlo.reshape main_v232 main_v233 rfl shapeCasts_S64_S1x64 ]

set_option maxHeartbeats 4000000 in
/-- Operations 107–112: `main_arg9`, `main_arg11` as 1×1 arrays (`main_v234`, `main_v235`) and slices 0, 2 of `main_arg5` (`main_v237`, `main_v239`). -/
def p2g : List (HloOp τ sig (Elt F)) :=
  [ StableHlo.reshape main_arg9 main_v234 rfl shapeCasts_S1_S1x1,
    StableHlo.reshape main_arg11 main_v235 rfl shapeCasts_S1_S1x1,
    StableHlo.unary main_arg5 main_v236 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v236 main_v237 rfl shapeCasts_S1x64x64_S64x64,
    StableHlo.unary main_arg5 main_v238 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v238 main_v239 rfl shapeCasts_S1x64x64_S64x64 ]

set_option maxHeartbeats 4000000 in
/-- The stretch is its pieces in order. -/
theorem hostOps2_split :
    (hostOps2 : List (HloOp τ sig (Elt F))) = p2a ++ (p2b ++ (p2c ++ (p2d ++ (p2e ++ (p2f ++ p2g))))) := rfl

end Cert.KernelIdeal.KWalk2

end
-- ==== Proof.KWalkB2.lean ====
import proofs.«122893_j59708635349187_2_alg».proof.Proof.Gen.KernelIdeal.Frame
import proofs.«122893_j59708635349187_2_alg».proof.Proof.KWalkB0
import proofs.«122893_j59708635349187_2_alg».proof.Proof.KWalkB1

set_option maxRecDepth 16384

noncomputable section

namespace Cert.KernelIdeal.KWalk2

open Idealize.ShloMosaic Idealize.ShloMosaic.TcCoe
open Idealize.SL.Sem
open Cert.KernelIdeal.Gen

/-! # Reading the third and fourth host stretches over an arbitrary valuation

Each piece of the stretch writes a known list of buffers; a buffer outside the list is unchanged by the piece
(`StableHlo.after_of_writes_sub`), and the piece's own results are read off by computing the fold. All of it is
stated over a VARIABLE valuation `W`; the run's boundaries are substituted afterwards. -/

section Writes
variable {F : FTy → Type} [FloatOps F]

/-- The buffers piece `p2a` writes. -/
noncomputable def w2a : List (Ref sig .tc) := [main_v140, main_v141, main_v142, main_v143, main_c_26, main_v144, main_v145, main_c_27, main_v146, main_v147, main_v148, main_v149, main_v150, main_v151, main_cst_28, main_v152, main_v153, main_v154, main_v155, main_v156, main_v157]
theorem p2a_writes : (p2a (F := F)).Forall fun op => op.writes ⊆ (w2a.map (Proc.devRef (τ := τ) .tc)).toFinset := by
  simp only [p2a, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2a` does not write keeps its contents. -/
theorem keepA (W : Valuation τ sig (Elt F)) (r : Ref sig .tc) (hr : r ∉ w2a) :
    StableHlo.after p2a W (Proc.devRef .tc r) = W (Proc.devRef .tc r) :=
  StableHlo.after_of_writes_sub p2a W p2a_writes hr

/-- The buffers piece `p2b` writes. -/
noncomputable def w2b : List (Ref sig .tc) := [main_v158, main_v159, main_v160, main_v161, main_c_29, main_v162, main_v163, main_c_30, main_v164, main_v165, main_v166, main_v167, main_v168, main_v169, main_cst_31, main_v170, main_v171, main_v172, main_v173, main_v174, main_v175]
theorem p2b_writes : (p2b (F := F)).Forall fun op => op.writes ⊆ (w2b.map (Proc.devRef (τ := τ) .tc)).toFinset := by
  simp only [p2b, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2b` does not write keeps its contents. -/
theorem keepB (W : Valuation τ sig (Elt F)) (r : Ref sig .tc) (hr : r ∉ w2b) :
    StableHlo.after p2b W (Proc.devRef .tc r) = W (Proc.devRef .tc r) :=
  StableHlo.after_of_writes_sub p2b W p2b_writes hr

/-- The buffers piece `p2c` writes. -/
noncomputable def w2c : List (Ref sig .tc) := [main_v176, main_v177, main_v178, main_v179, main_c_32, main_v180, main_v181, main_c_33, main_v182, main_v183, main_v184, main_v185, main_v186, main_v187, main_cst_34, main_v188, main_v189, main_v190, main_v191, main_v192, main_v193]
theorem p2c_writes : (p2c (F := F)).Forall fun op => op.writes ⊆ (w2c.map (Proc.devRef (τ := τ) .tc)).toFinset := by
  simp only [p2c, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2c` does not write keeps its contents. -/
theorem keepC (W : Valuation τ sig (Elt F)) (r : Ref sig .tc) (hr : r ∉ w2c) :
    StableHlo.after p2c W (Proc.devRef .tc r) = W (Proc.devRef .tc r) :=
  StableHlo.after_of_writes_sub p2c W p2c_writes hr

/-- The buffers piece `p2d` writes. -/
noncomputable def w2d : List (Ref sig .tc) := [main_v194, main_v195, main_v196, main_v197, main_c_35, main_v198, main_v199, main_c_36, main_v200, main_v201, main_v202, main_v203, main_v204, main_v205, main_cst_37, main_v206, main_v207, main_v208, main_v209, main_v210, main_v211]
theorem p2d_writes : (p2d (F := F)).Forall fun op => op.writes ⊆ (w2d.map (Proc.devRef (τ := τ) .tc)).toFinset := by
  simp only [p2d, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2d` does not write keeps its contents. -/
theorem keepD (W : Valuation τ sig (Elt F)) (r : Ref sig .tc) (hr : r ∉ w2d) :
    StableHlo.after p2d W (Proc.devRef .tc r) = W (Proc.devRef .tc r) :=
  StableHlo.after_of_writes_sub p2d W p2d_writes hr

/-- The buffers piece `p2e` writes. -/
noncomputable def w2e : List (Ref sig .tc) := [main_v212, main_v213, main_v214, main_v215, main_v216, main_v217, main_v218, main_v219, main_v220, main_v221]
theorem p2e_writes : (p2e (F := F)).Forall fun op => op.writes ⊆ (w2e.map (Proc.devRef (τ := τ) .tc)).toFinset := by
  simp only [p2e, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2e` does not write keeps its contents. -/
theorem keepE (W : Valuation τ sig (Elt F)) (r : Ref sig .tc) (hr : r ∉ w2e) :
    StableHlo.after p2e W (Proc.devRef .tc r) = W (Proc.devRef .tc r) :=
  StableHlo.after_of_writes_sub p2e W p2e_writes hr

/-- The buffers piece `p2f` writes. -/
noncomputable def w2f : List (Ref sig .tc) := [main_v222, main_v223, main_v224, main_v225, main_v226, main_v227, main_v228, main_v229, main_v230, main_v231, main_v232, main_v233]
theorem p2f_writes : (p2f (F := F)).Forall fun op => op.writes ⊆ (w2f.map (Proc.devRef (τ := τ) .tc)).toFinset := by
  simp only [p2f, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2f` does not write keeps its contents. -/
theorem keepF (W : Valuation τ sig (Elt F)) (r : Ref sig .tc) (hr : r ∉ w2f) :
    StableHlo.after p2f W (Proc.devRef .tc r) = W (Proc.devRef .tc r) :=
  StableHlo.after_of_writes_sub p2f W p2f_writes hr

/-- The buffers piece `p2g` writes. -/
noncomputable def w2g : List (Ref sig .tc) := [main_v234, main_v235, main_v236, main_v237, main_v238, main_v239]
theorem p2g_writes : (p2g (F := F)).Forall fun op => op.writes ⊆ (w2g.map (Proc.devRef (τ := τ) .tc)).toFinset := by
  simp only [p2g, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
/-- A buffer piece `p2g` does not write keeps its contents. -/
theorem keepG (W : Valuation τ sig (Elt F)) (r : Ref sig .tc) (hr : r ∉ w2g) :
    StableHlo.after p2g W (Proc.devRef .tc r) = W (Proc.devRef .tc r) :=
  StableHlo.after_of_writes_sub p2g W p2g_writes hr

/-- The buffers the second host stretch writes. -/
noncomputable def w1 : List (Ref sig .tc) := [main_v135, main_v136, main_v137, main_v138]
theorem hostOps1_writes : (hostOps1 (F := F)).Forall fun op => op.writes ⊆ (w1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem keep1 (W : Valuation τ sig (Elt F)) (r : Ref sig .tc) (hr : r ∉ w1) :
    StableHlo.after hostOps1 W (Proc.devRef .tc r) = W (Proc.devRef .tc r) :=
  StableHlo.after_of_writes_sub hostOps1 W hostOps1_writes hr

/-- The buffers the fourth host stretch writes. -/
noncomputable def w3 : List (Ref sig .tc) := [main_v241, main_v242, main_v243, main_v244]
theorem hostOps3_writes : (hostOps3 (F := F)).Forall fun op => op.writes ⊆ (w3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem keep3 (W : Valuation τ sig (Elt F)) (r : Ref sig .tc) (hr : r ∉ w3) :
    StableHlo.after hostOps3 W (Proc.devRef .tc r) = W (Proc.devRef .tc r) :=
  StableHlo.after_of_writes_sub hostOps3 W hostOps3_writes hr

/-- The third stretch's fold, piece by piece. -/
theorem after2_eq (W : Valuation τ sig (Elt F)) :
    StableHlo.after hostOps2 W
      = StableHlo.after p2g (StableHlo.after p2f (StableHlo.after p2e (StableHlo.after p2d
          (StableHlo.after p2c (StableHlo.after p2b (StableHlo.after p2a W)))))) := by
  rw [hostOps2_split]
  simp only [StableHlo.after_append]

/-- Every buffer the third stretch writes. -/
noncomputable def w2 : List (Ref sig .tc) := w2a ++ (w2b ++ (w2c ++ (w2d ++ (w2e ++ (w2f ++ w2g)))))
/-- A buffer the third stretch does not write keeps its contents. -/
theorem keep2 (W : Valuation τ sig (Elt F)) (r : Ref sig .tc) (hr : r ∉ w2) :
    StableHlo.after hostOps2 W (Proc.devRef .tc r) = W (Proc.devRef .tc r) := by
  simp only [w2, List.mem_append, not_or] at hr
  obtain ⟨ha, hb, hc, hd, he, hf, hg⟩ := hr
  rw [after2_eq, keepG _ r hg, keepF _ r hf, keepE _ r he, keepD _ r hd, keepC _ r hc, keepB _ r hb, keepA _ r ha]

end Writes

end Cert.KernelIdeal.KWalk2

end
-- ==== Proof.KWalkB3.lean ====
import proofs.«122893_j59708635349187_2_alg».proof.Proof.Gen.KernelIdeal.Frame
import proofs.«122893_j59708635349187_2_alg».proof.Proof.KWalkB0
import proofs.«122893_j59708635349187_2_alg».proof.Proof.KWalkB1
import proofs.«122893_j59708635349187_2_alg».proof.Proof.KWalkB2

set_option maxRecDepth 16384

noncomputable section

namespace Cert.KernelIdeal.KWalk2

open Idealize.ShloMosaic Idealize.ShloMosaic.TcCoe
open Idealize.SL.Sem
open Cert.KernelIdeal.Gen

/-! # The third host stretch's results over an arbitrary valuation `W`

Each piece's results are read off by computing its fold; through the whole stretch, later pieces do not write
the result and earlier ones do not write what it is computed from. -/

variable (W : Valuation τ sig (Elt Ideal))

theorem read_157 : StableHlo.after p2a W (Proc.devRef .tc main_v157)
    = mean64 (W (Proc.devRef .tc main_v134)) (W (Proc.devRef .tc main_arg12)) (W (Proc.devRef .tc main_v9)) := by
  unfold p2a
  after_results_simp
  rfl

theorem read_175 : StableHlo.after p2b W (Proc.devRef .tc main_v175)
    = mean64 (W (Proc.devRef .tc main_v139)) (W (Proc.devRef .tc main_arg14)) (W (Proc.devRef .tc main_v29)) := by
  unfold p2b
  after_results_simp
  rfl

theorem read_193 : StableHlo.after p2c W (Proc.devRef .tc main_v193)
    = mean64 (W (Proc.devRef .tc main_v134)) (W (Proc.devRef .tc main_arg13)) (W (Proc.devRef .tc main_v19)) := by
  unfold p2c
  after_results_simp
  rfl

theorem read_211 : StableHlo.after p2d W (Proc.devRef .tc main_v211)
    = mean64 (W (Proc.devRef .tc main_v139)) (W (Proc.devRef .tc main_arg15)) (W (Proc.devRef .tc main_v39)) := by
  unfold p2d
  after_results_simp
  rfl

theorem R157 : StableHlo.after hostOps2 W (Proc.devRef .tc main_v157)
    = mean64 (W (Proc.devRef .tc main_v134)) (W (Proc.devRef .tc main_arg12)) (W (Proc.devRef .tc main_v9)) := by
  rw [after2_eq, keepG _ main_v157 (by decide), keepF _ main_v157 (by decide), keepE _ main_v157 (by decide), keepD _ main_v157 (by decide), keepC _ main_v157 (by decide), keepB _ main_v157 (by decide)]
  rw [read_157]

theorem R175 : StableHlo.after hostOps2 W (Proc.devRef .tc main_v175)
    = mean64 (W (Proc.devRef .tc main_v139)) (W (Proc.devRef .tc main_arg14)) (W (Proc.devRef .tc main_v29)) := by
  rw [after2_eq, keepG _ main_v175 (by decide), keepF _ main_v175 (by decide), keepE _ main_v175 (by decide), keepD _ main_v175 (by decide), keepC _ main_v175 (by decide)]
  rw [read_175]
  rw [keepA _ main_v139 (by decide), keepA _ main_arg14 (by decide), keepA _ main_v29 (by decide)]

theorem R193 : StableHlo.after hostOps2 W (Proc.devRef .tc main_v193)
    = mean64 (W (Proc.devRef .tc main_v134)) (W (Proc.devRef .tc main_arg13)) (W (Proc.devRef .tc main_v19)) := by
  rw [after2_eq, keepG _ main_v193 (by decide), keepF _ main_v193 (by decide), keepE _ main_v193 (by decide), keepD _ main_v193 (by decide)]
  rw [read_193]
  rw [keepB _ main_v134 (by decide), keepB _ main_arg13 (by decide), keepB _ main_v19 (by decide), keepA _ main_v134 (by decide), keepA _ main_arg13 (by decide), keepA _ main_v19 (by decide)]

theorem R211 : StableHlo.after hostOps2 W (Proc.devRef .tc main_v211)
    = mean64 (W (Proc.devRef .tc main_v139)) (W (Proc.devRef .tc main_arg15)) (W (Proc.devRef .tc main_v39)) := by
  rw [after2_eq, keepG _ main_v211 (by decide), keepF _ main_v211 (by decide), keepE _ main_v211 (by decide)]
  rw [read_211]
  rw [keepC _ main_v139 (by decide), keepC _ main_arg15 (by decide), keepC _ main_v39 (by decide), keepB _ main_v139 (by decide), keepB _ main_arg15 (by decide), keepB _ main_v39 (by decide), keepA _ main_v139 (by decide), keepA _ main_arg15 (by decide), keepA _ main_v39 (by decide)]

end Cert.KernelIdeal.KWalk2

end
-- ==== Proof.KWalkB4.lean ====
import proofs.«122893_j59708635349187_2_alg».proof.Proof.Gen.KernelIdeal.Frame
import proofs.«122893_j59708635349187_2_alg».proof.Proof.KWalkB0
import proofs.«122893_j59708635349187_2_alg».proof.Proof.KWalkB1
import proofs.«122893_j59708635349187_2_alg».proof.Proof.KWalkB2

set_option maxRecDepth 16384

noncomputable section

namespace Cert.KernelIdeal.KWalk2

open Idealize.ShloMosaic Idealize.ShloMosaic.TcCoe
open Idealize.SL.Sem
open Cert.KernelIdeal.Gen

/-! # The third host stretch's results over an arbitrary valuation `W`

Each piece's results are read off by computing its fold; through the whole stretch, later pieces do not write
the result and earlier ones do not write what it is computed from. -/

variable (W : Valuation τ sig (Elt Ideal))

theorem read_216 : StableHlo.after p2e W (Proc.devRef .tc main_v216)
    = addf (F := Ideal) (φ := .f32) (shapeCast S64x64 (extractStridedSlice S1x64x64 ![0, 0, 0] (W (Proc.devRef .tc main_arg7)) slices_S4x64x64_S1x64x64_0_0_0) shapeCasts_S1x64x64_S64x64) (shapeCast S64x64 (extractStridedSlice S1x64x64 ![2, 0, 0] (W (Proc.devRef .tc main_arg7)) slices_S4x64x64_S1x64x64_2_0_0) shapeCasts_S1x64x64_S64x64) := by
  unfold p2e
  after_results_simp
  rfl

theorem read_221 : StableHlo.after p2e W (Proc.devRef .tc main_v221)
    = addf (F := Ideal) (φ := .f32) (shapeCast S64x64 (extractStridedSlice S1x64x64 ![1, 0, 0] (W (Proc.devRef .tc main_arg7)) slices_S4x64x64_S1x64x64_1_0_0) shapeCasts_S1x64x64_S64x64) (shapeCast S64x64 (extractStridedSlice S1x64x64 ![3, 0, 0] (W (Proc.devRef .tc main_arg7)) slices_S4x64x64_S1x64x64_3_0_0) shapeCasts_S1x64x64_S64x64) := by
  unfold p2e
  after_results_simp
  rfl

theorem read_227 : StableHlo.after p2f W (Proc.devRef .tc main_v227)
    = shapeCast S1x64 (addf (F := Ideal) (φ := .f32) (shapeCast S64 (extractStridedSlice S1x64 ![0, 0] (W (Proc.devRef .tc main_arg6)) slices_S4x64_S1x64_0_0) shapeCasts_S1x64_S64) (shapeCast S64 (extractStridedSlice S1x64 ![2, 0] (W (Proc.devRef .tc main_arg6)) slices_S4x64_S1x64_2_0) shapeCasts_S1x64_S64)) shapeCasts_S64_S1x64 := by
  unfold p2f
  after_results_simp
  rfl

theorem read_233 : StableHlo.after p2f W (Proc.devRef .tc main_v233)
    = shapeCast S1x64 (addf (F := Ideal) (φ := .f32) (shapeCast S64 (extractStridedSlice S1x64 ![1, 0] (W (Proc.devRef .tc main_arg6)) slices_S4x64_S1x64_1_0) shapeCasts_S1x64_S64) (shapeCast S64 (extractStridedSlice S1x64 ![3, 0] (W (Proc.devRef .tc main_arg6)) slices_S4x64_S1x64_3_0) shapeCasts_S1x64_S64)) shapeCasts_S64_S1x64 := by
  unfold p2f
  after_results_simp
  rfl

theorem read_234 : StableHlo.after p2g W (Proc.devRef .tc main_v234)
    = shapeCast S1x1 (W (Proc.devRef .tc main_arg9)) shapeCasts_S1_S1x1 := by
  unfold p2g
  after_results_simp
  rfl

theorem read_235 : StableHlo.after p2g W (Proc.devRef .tc main_v235)
    = shapeCast S1x1 (W (Proc.devRef .tc main_arg11)) shapeCasts_S1_S1x1 := by
  unfold p2g
  after_results_simp
  rfl

theorem read_237 : StableHlo.after p2g W (Proc.devRef .tc main_v237)
    = shapeCast S64x64 (extractStridedSlice S1x64x64 ![0, 0, 0] (W (Proc.devRef .tc main_arg5)) slices_S4x64x64_S1x64x64_0_0_0) shapeCasts_S1x64x64_S64x64 := by
  unfold p2g
  after_results_simp
  rfl

theorem read_239 : StableHlo.after p2g W (Proc.devRef .tc main_v239)
    = shapeCast S64x64 (extractStridedSlice S1x64x64 ![2, 0, 0] (W (Proc.devRef .tc main_arg5)) slices_S4x64x64_S1x64x64_2_0_0) shapeCasts_S1x64x64_S64x64 := by
  unfold p2g
  after_results_simp
  rfl

theorem read_242 : StableHlo.after hostOps3 W (Proc.devRef .tc main_v242)
    = shapeCast S64x64 (extractStridedSlice S1x64x64 ![1, 0, 0] (W (Proc.devRef .tc main_arg5)) slices_S4x64x64_S1x64x64_1_0_0) shapeCasts_S1x64x64_S64x64 := by
  after_results_simp
  rfl

theorem read_244 : StableHlo.after hostOps3 W (Proc.devRef .tc main_v244)
    = shapeCast S64x64 (extractStridedSlice S1x64x64 ![3, 0, 0] (W (Proc.devRef .tc main_arg5)) slices_S4x64x64_S1x64x64_3_0_0) shapeCasts_S1x64x64_S64x64 := by
  after_results_simp
  rfl

theorem R216 : StableHlo.after hostOps2 W (Proc.devRef .tc main_v216)
    = addf (F := Ideal) (φ := .f32) (shapeCast S64x64 (extractStridedSlice S1x64x64 ![0, 0, 0] (W (Proc.devRef .tc main_arg7)) slices_S4x64x64_S1x64x64_0_0_0) shapeCasts_S1x64x64_S64x64) (shapeCast S64x64 (extractStridedSlice S1x64x64 ![2, 0, 0] (W (Proc.devRef .tc main_arg7)) slices_S4x64x64_S1x64x64_2_0_0) shapeCasts_S1x64x64_S64x64) := by
  rw [after2_eq, keepG _ main_v216 (by decide), keepF _ main_v216 (by decide)]
  rw [read_216]
  rw [keepD _ main_arg7 (by decide), keepC _ main_arg7 (by decide), keepB _ main_arg7 (by decide), keepA _ main_arg7 (by decide)]

theorem R221 : StableHlo.after hostOps2 W (Proc.devRef .tc main_v221)
    = addf (F := Ideal) (φ := .f32) (shapeCast S64x64 (extractStridedSlice S1x64x64 ![1, 0, 0] (W (Proc.devRef .tc main_arg7)) slices_S4x64x64_S1x64x64_1_0_0) shapeCasts_S1x64x64_S64x64) (shapeCast S64x64 (extractStridedSlice S1x64x64 ![3, 0, 0] (W (Proc.devRef .tc main_arg7)) slices_S4x64x64_S1x64x64_3_0_0) shapeCasts_S1x64x64_S64x64) := by
  rw [after2_eq, keepG _ main_v221 (by decide), keepF _ main_v221 (by decide)]
  rw [read_221]
  rw [keepD _ main_arg7 (by decide), keepC _ main_arg7 (by decide), keepB _ main_arg7 (by decide), keepA _ main_arg7 (by decide)]

theorem R227 : StableHlo.after hostOps2 W (Proc.devRef .tc main_v227)
    = shapeCast S1x64 (addf (F := Ideal) (φ := .f32) (shapeCast S64 (extractStridedSlice S1x64 ![0, 0] (W (Proc.devRef .tc main_arg6)) slices_S4x64_S1x64_0_0) shapeCasts_S1x64_S64) (shapeCast S64 (extractStridedSlice S1x64 ![2, 0] (W (Proc.devRef .tc main_arg6)) slices_S4x64_S1x64_2_0) shapeCasts_S1x64_S64)) shapeCasts_S64_S1x64 := by
  rw [after2_eq, keepG _ main_v227 (by decide)]
  rw [read_227]
  rw [keepE _ main_arg6 (by decide), keepD _ main_arg6 (by decide), keepC _ main_arg6 (by decide), keepB _ main_arg6 (by decide), keepA _ main_arg6 (by decide)]

theorem R233 : StableHlo.after hostOps2 W (Proc.devRef .tc main_v233)
    = shapeCast S1x64 (addf (F := Ideal) (φ := .f32) (shapeCast S64 (extractStridedSlice S1x64 ![1, 0] (W (Proc.devRef .tc main_arg6)) slices_S4x64_S1x64_1_0) shapeCasts_S1x64_S64) (shapeCast S64 (extractStridedSlice S1x64 ![3, 0] (W (Proc.devRef .tc main_arg6)) slices_S4x64_S1x64_3_0) shapeCasts_S1x64_S64)) shapeCasts_S64_S1x64 := by
  rw [after2_eq, keepG _ main_v233 (by decide)]
  rw [read_233]
  rw [keepE _ main_arg6 (by decide), keepD _ main_arg6 (by decide), keepC _ main_arg6 (by decide), keepB _ main_arg6 (by decide), keepA _ main_arg6 (by decide)]

theorem R234 : StableHlo.after hostOps2 W (Proc.devRef .tc main_v234)
    = shapeCast S1x1 (W (Proc.devRef .tc main_arg9)) shapeCasts_S1_S1x1 := by
  rw [after2_eq]
  rw [read_234]
  rw [keepF _ main_arg9 (by decide), keepE _ main_arg9 (by decide), keepD _ main_arg9 (by decide), keepC _ main_arg9 (by decide), keepB _ main_arg9 (by decide), keepA _ main_arg9 (by decide)]

theorem R235 : StableHlo.after hostOps2 W (Proc.devRef .tc main_v235)
    = shapeCast S1x1 (W (Proc.devRef .tc main_arg11)) shapeCasts_S1_S1x1 := by
  rw [after2_eq]
  rw [read_235]
  rw [keepF _ main_arg11 (by decide), keepE _ main_arg11 (by decide), keepD _ main_arg11 (by decide), keepC _ main_arg11 (by decide), keepB _ main_arg11 (by decide), keepA _ main_arg11 (by decide)]

theorem R237 : StableHlo.after hostOps2 W (Proc.devRef .tc main_v237)
    = shapeCast S64x64 (extractStridedSlice S1x64x64 ![0, 0, 0] (W (Proc.devRef .tc main_arg5)) slices_S4x64x64_S1x64x64_0_0_0) shapeCasts_S1x64x64_S64x64 := by
  rw [after2_eq]
  rw [read_237]
  rw [keepF _ main_arg5 (by decide), keepE _ main_arg5 (by decide), keepD _ main_arg5 (by decide), keepC _ main_arg5 (by decide), keepB _ main_arg5 (by decide), keepA _ main_arg5 (by decide)]

theorem R239 : StableHlo.after hostOps2 W (Proc.devRef .tc main_v239)
    = shapeCast S64x64 (extractStridedSlice S1x64x64 ![2, 0, 0] (W (Proc.devRef .tc main_arg5)) slices_S4x64x64_S1x64x64_2_0_0) shapeCasts_S1x64x64_S64x64 := by
  rw [after2_eq]
  rw [read_239]
  rw [keepF _ main_arg5 (by decide), keepE _ main_arg5 (by decide), keepD _ main_arg5 (by decide), keepC _ main_arg5 (by decide), keepB _ main_arg5 (by decide), keepA _ main_arg5 (by decide)]

end Cert.KernelIdeal.KWalk2

end
-- ==== Proof.KWalkB.lean ====
import proofs.«122893_j59708635349187_2_alg».proof.Proof.Gen.KernelIdeal.Frame
import proofs.«122893_j59708635349187_2_alg».proof.Proof.KWalkB0
import proofs.«122893_j59708635349187_2_alg».proof.Proof.KWalkB2
import proofs.«122893_j59708635349187_2_alg».proof.Proof.KWalkB3
import proofs.«122893_j59708635349187_2_alg».proof.Proof.KWalkB4

set_option maxRecDepth 16384

noncomputable section

namespace Cert.KernelIdeal.KWalk2

open Idealize.ShloMosaic Idealize.ShloMosaic.TcCoe
open Idealize.SL.Sem
open Cert.KernelIdeal.Gen

variable (m : (ℓ : Loc nD τ sig) → Buf (Elt Ideal) ℓ) (ρ : Dev nD → PrngReg) (c : Dev nD)

/-! # The contents of the arrays regions 2 and 3 read, and of the two results

The run's boundaries are `Gen.W4` (region 1's exit), `Gen.W5` (after the third host stretch: region 2's entry),
`Gen.W6` (region 2's exit), `Gen.W7` (after the fourth stretch: region 3's entry) and `Gen.W8` (the end). A buffer
is walked from the boundary where it is read back to where it was written: through a region by the frame
(`Gen.WK_of_ne`, `Gen.WK_arr`), through a host stretch by the list of buffers the stretch writes, and through the
stretch that computes it by that stretch's fold, read over an arbitrary valuation and instantiated here. -/

/-! ## Walks that do not depend on the buffer -/

/-- From region 1's exit back to region 0's exit: region 1 and the second stretch write neither. -/
theorem W4_back (r : Ref sig .tc) (h4 : ∀ w, Pipeline.arrRef spec1 w ≠ r) (h1 : r ∉ w1) :
    W4 m ρ c (Proc.devRef .tc r) = W2 m ρ c (Proc.devRef .tc r) :=
  (W4_of_ne m ρ c r h4).trans (keep1 (W2 m ρ c) r h1)

/-- From region 2's entry on to the end: region 2, the fourth stretch and region 3 leave the buffer alone. -/
theorem W5_fwd (r : Ref sig .tc) (h6 : ∀ w, Pipeline.arrRef spec2 w ≠ r) (h3 : r ∉ w3) (h8 : ∀ w, Pipeline.arrRef spec3 w ≠ r) :
    W5 m ρ c (Proc.devRef .tc r) = W8 m ρ c (Proc.devRef .tc r) :=
  (W6_of_ne m ρ c r h6).symm.trans ((keep3 (W6 m ρ c) r h3).symm.trans (W8_of_ne m ρ c r h8).symm)

/-- From region 1's exit on to the end. -/
theorem W4_fwd (r : Ref sig .tc) (h2 : r ∉ w2) (h6 : ∀ w, Pipeline.arrRef spec2 w ≠ r) (h3 : r ∉ w3)
    (h8 : ∀ w, Pipeline.arrRef spec3 w ≠ r) :
    W4 m ρ c (Proc.devRef .tc r) = W8 m ρ c (Proc.devRef .tc r) :=
  (keep2 (W4 m ρ c) r h2).symm.trans (W5_fwd m ρ c r h6 h3 h8)

/-- From region 3's entry back to region 2's entry. -/
theorem W7_back (r : Ref sig .tc) (h3 : r ∉ w3) (h6 : ∀ w, Pipeline.arrRef spec2 w ≠ r) :
    W7 m ρ c (Proc.devRef .tc r) = W5 m ρ c (Proc.devRef .tc r) :=
  (keep3 (W6 m ρ c) r h3).trans (W6_of_ne m ρ c r h6)

/-! ## What the third stretch reads, at region 1's exit -/

theorem W4_v134 : W4 m ρ c (Proc.devRef .tc main_v134) = H0 m ρ c :=
  (W4_back m ρ c main_v134 (by decide) (by decide)).trans (W2_arr m ρ c 7)
theorem W4_v139 : W4 m ρ c (Proc.devRef .tc main_v139) = H1 m ρ c := W4_arr m ρ c 7
theorem W4_v9 : W4 m ρ c (Proc.devRef .tc main_v9) = W1 m ρ c (Proc.devRef .tc main_v9) :=
  (W4_back m ρ c main_v9 (by decide) (by decide)).trans (W2_of_ne m ρ c main_v9 (by decide))
theorem W4_v19 : W4 m ρ c (Proc.devRef .tc main_v19) = W1 m ρ c (Proc.devRef .tc main_v19) :=
  (W4_back m ρ c main_v19 (by decide) (by decide)).trans (W2_of_ne m ρ c main_v19 (by decide))
theorem W4_v29 : W4 m ρ c (Proc.devRef .tc main_v29) = W1 m ρ c (Proc.devRef .tc main_v29) :=
  (W4_back m ρ c main_v29 (by decide) (by decide)).trans (W2_of_ne m ρ c main_v29 (by decide))
theorem W4_v39 : W4 m ρ c (Proc.devRef .tc main_v39) = W1 m ρ c (Proc.devRef .tc main_v39) :=
  (W4_back m ρ c main_v39 (by decide) (by decide)).trans (W2_of_ne m ρ c main_v39 (by decide))
theorem W4_arg5 : W4 m ρ c (Proc.devRef .tc main_arg5) = m ((c : Thread nD τ).loc main_arg5) :=
  (W4_fwd m ρ c main_arg5 (by decide) (by decide) (by decide) (by decide)).trans (W8_main_arg5 m ρ c)
theorem W4_arg6 : W4 m ρ c (Proc.devRef .tc main_arg6) = m ((c : Thread nD τ).loc main_arg6) :=
  (W4_fwd m ρ c main_arg6 (by decide) (by decide) (by decide) (by decide)).trans (W8_main_arg6 m ρ c)
theorem W4_arg7 : W4 m ρ c (Proc.devRef .tc main_arg7) = m ((c : Thread nD τ).loc main_arg7) :=
  (W4_fwd m ρ c main_arg7 (by decide) (by decide) (by decide) (by decide)).trans (W8_main_arg7 m ρ c)
theorem W4_arg9 : W4 m ρ c (Proc.devRef .tc main_arg9) = m ((c : Thread nD τ).loc main_arg9) :=
  (W4_fwd m ρ c main_arg9 (by decide) (by decide) (by decide) (by decide)).trans (W8_main_arg9 m ρ c)
theorem W4_arg11 : W4 m ρ c (Proc.devRef .tc main_arg11) = m ((c : Thread nD τ).loc main_arg11) :=
  (W4_fwd m ρ c main_arg11 (by decide) (by decide) (by decide) (by decide)).trans (W8_main_arg11 m ρ c)
theorem W4_arg12 : W4 m ρ c (Proc.devRef .tc main_arg12) = m ((c : Thread nD τ).loc main_arg12) :=
  (W4_fwd m ρ c main_arg12 (by decide) (by decide) (by decide) (by decide)).trans (W8_main_arg12 m ρ c)
theorem W4_arg13 : W4 m ρ c (Proc.devRef .tc main_arg13) = m ((c : Thread nD τ).loc main_arg13) :=
  (W4_fwd m ρ c main_arg13 (by decide) (by decide) (by decide) (by decide)).trans (W8_main_arg13 m ρ c)
theorem W4_arg14 : W4 m ρ c (Proc.devRef .tc main_arg14) = m ((c : Thread nD τ).loc main_arg14) :=
  (W4_fwd m ρ c main_arg14 (by decide) (by decide) (by decide) (by decide)).trans (W8_main_arg14 m ρ c)
theorem W4_arg15 : W4 m ρ c (Proc.devRef .tc main_arg15) = m ((c : Thread nD τ).loc main_arg15) :=
  (W4_fwd m ρ c main_arg15 (by decide) (by decide) (by decide) (by decide)).trans (W8_main_arg15 m ρ c)
theorem W6_arg5 : W6 m ρ c (Proc.devRef .tc main_arg5) = m ((c : Thread nD τ).loc main_arg5) :=
  ((keep3 (W6 m ρ c) main_arg5 (by decide)).symm.trans (W8_of_ne m ρ c main_arg5 (by decide)).symm).trans (W8_main_arg5 m ρ c)

/-! ## Region 2's arrays at its entry -/
theorem V5_v157 :
    Gen.V5 m ρ c main_v157 = mean64 (H0 m ρ c) (m ((c : Thread nD τ).loc main_arg12)) (Gen.W1 m ρ c (Proc.devRef .tc main_v9)) := by
  show StableHlo.after hostOps2 (W4 m ρ c) (Proc.devRef .tc main_v157) = _
  rw [R157, W4_v134, W4_arg12, W4_v9]

theorem V5_v175 :
    Gen.V5 m ρ c main_v175 = mean64 (H1 m ρ c) (m ((c : Thread nD τ).loc main_arg14)) (Gen.W1 m ρ c (Proc.devRef .tc main_v29)) := by
  show StableHlo.after hostOps2 (W4 m ρ c) (Proc.devRef .tc main_v175) = _
  rw [R175, W4_v139, W4_arg14, W4_v29]

theorem V5_v134 :
    Gen.V5 m ρ c main_v134 = H0 m ρ c := (keep2 (W4 m ρ c) main_v134 (by decide)).trans (W4_v134 m ρ c)

theorem V5_v237 :
    Gen.V5 m ρ c main_v237 = shapeCast S64x64 (extractStridedSlice S1x64x64 ![0, 0, 0] (m ((c : Thread nD τ).loc main_arg5)) slices_S4x64x64_S1x64x64_0_0_0) shapeCasts_S1x64x64_S64x64 := by
  show StableHlo.after hostOps2 (W4 m ρ c) (Proc.devRef .tc main_v237) = _
  rw [R237, W4_arg5]

theorem V5_v239 :
    Gen.V5 m ρ c main_v239 = shapeCast S64x64 (extractStridedSlice S1x64x64 ![2, 0, 0] (m ((c : Thread nD τ).loc main_arg5)) slices_S4x64x64_S1x64x64_2_0_0) shapeCasts_S1x64x64_S64x64 := by
  show StableHlo.after hostOps2 (W4 m ρ c) (Proc.devRef .tc main_v239) = _
  rw [R239, W4_arg5]

theorem V5_v216 :
    Gen.V5 m ρ c main_v216 = addf (F := Ideal) (φ := .f32)
      (shapeCast S64x64 (extractStridedSlice S1x64x64 ![0, 0, 0] (m ((c : Thread nD τ).loc main_arg7)) slices_S4x64x64_S1x64x64_0_0_0) shapeCasts_S1x64x64_S64x64)
      (shapeCast S64x64 (extractStridedSlice S1x64x64 ![2, 0, 0] (m ((c : Thread nD τ).loc main_arg7)) slices_S4x64x64_S1x64x64_2_0_0) shapeCasts_S1x64x64_S64x64) := by
  show StableHlo.after hostOps2 (W4 m ρ c) (Proc.devRef .tc main_v216) = _
  rw [R216, W4_arg7]

theorem V5_v227 :
    Gen.V5 m ρ c main_v227 = shapeCast S1x64 (addf (F := Ideal) (φ := .f32)
      (shapeCast S64 (extractStridedSlice S1x64 ![0, 0] (m ((c : Thread nD τ).loc main_arg6)) slices_S4x64_S1x64_0_0) shapeCasts_S1x64_S64)
      (shapeCast S64 (extractStridedSlice S1x64 ![2, 0] (m ((c : Thread nD τ).loc main_arg6)) slices_S4x64_S1x64_2_0) shapeCasts_S1x64_S64)) shapeCasts_S64_S1x64 := by
  show StableHlo.after hostOps2 (W4 m ρ c) (Proc.devRef .tc main_v227) = _
  rw [R227, W4_arg6]

theorem V5_arg8 :
    Gen.V5 m ρ c main_arg8 = m ((c : Thread nD τ).loc main_arg8) := ((W6_arr m ρ c 7).trans (((dat2 (V5 m ρ) c).arrAt_in 7 rfl _).trans (A_eq2 (V5 m ρ) c 7))).symm.trans
    ((keep3 (W6 m ρ c) main_arg8 (by decide)).symm.trans ((W8_of_ne m ρ c main_arg8 (by decide)).symm.trans (W8_main_arg8 m ρ c)))

theorem V5_v234 :
    Gen.V5 m ρ c main_v234 = shapeCast S1x1 (m ((c : Thread nD τ).loc main_arg9)) shapeCasts_S1_S1x1 := by
  show StableHlo.after hostOps2 (W4 m ρ c) (Proc.devRef .tc main_v234) = _
  rw [R234, W4_arg9]

theorem V7_v193 :
    Gen.V7 m ρ c main_v193 = mean64 (H0 m ρ c) (m ((c : Thread nD τ).loc main_arg13)) (Gen.W1 m ρ c (Proc.devRef .tc main_v19)) := by
  refine (W7_back m ρ c main_v193 (by decide) (by decide)).trans ?_
  show StableHlo.after hostOps2 (W4 m ρ c) (Proc.devRef .tc main_v193) = _
  rw [R193, W4_v134, W4_arg13, W4_v19]

theorem V7_v211 :
    Gen.V7 m ρ c main_v211 = mean64 (H1 m ρ c) (m ((c : Thread nD τ).loc main_arg15)) (Gen.W1 m ρ c (Proc.devRef .tc main_v39)) := by
  refine (W7_back m ρ c main_v211 (by decide) (by decide)).trans ?_
  show StableHlo.after hostOps2 (W4 m ρ c) (Proc.devRef .tc main_v211) = _
  rw [R211, W4_v139, W4_arg15, W4_v39]

theorem V7_v139 :
    Gen.V7 m ρ c main_v139 = H1 m ρ c := (W7_back m ρ c main_v139 (by decide) (by decide)).trans ((keep2 (W4 m ρ c) main_v139 (by decide)).trans (W4_v139 m ρ c))

theorem V7_v242 :
    Gen.V7 m ρ c main_v242 = shapeCast S64x64 (extractStridedSlice S1x64x64 ![1, 0, 0] (m ((c : Thread nD τ).loc main_arg5)) slices_S4x64x64_S1x64x64_1_0_0) shapeCasts_S1x64x64_S64x64 := by
  show StableHlo.after hostOps3 (W6 m ρ c) (Proc.devRef .tc main_v242) = _
  rw [read_242, W6_arg5]

theorem V7_v244 :
    Gen.V7 m ρ c main_v244 = shapeCast S64x64 (extractStridedSlice S1x64x64 ![3, 0, 0] (m ((c : Thread nD τ).loc main_arg5)) slices_S4x64x64_S1x64x64_3_0_0) shapeCasts_S1x64x64_S64x64 := by
  show StableHlo.after hostOps3 (W6 m ρ c) (Proc.devRef .tc main_v244) = _
  rw [read_244, W6_arg5]

theorem V7_v221 :
    Gen.V7 m ρ c main_v221 = addf (F := Ideal) (φ := .f32)
      (shapeCast S64x64 (extractStridedSlice S1x64x64 ![1, 0, 0] (m ((c : Thread nD τ).loc main_arg7)) slices_S4x64x64_S1x64x64_1_0_0) shapeCasts_S1x64x64_S64x64)
      (shapeCast S64x64 (extractStridedSlice S1x64x64 ![3, 0, 0] (m ((c : Thread nD τ).loc main_arg7)) slices_S4x64x64_S1x64x64_3_0_0) shapeCasts_S1x64x64_S64x64) := by
  refine (W7_back m ρ c main_v221 (by decide) (by decide)).trans ?_
  show StableHlo.after hostOps2 (W4 m ρ c) (Proc.devRef .tc main_v221) = _
  rw [R221, W4_arg7]

theorem V7_v233 :
    Gen.V7 m ρ c main_v233 = shapeCast S1x64 (addf (F := Ideal) (φ := .f32)
      (shapeCast S64 (extractStridedSlice S1x64 ![1, 0] (m ((c : Thread nD τ).loc main_arg6)) slices_S4x64_S1x64_1_0) shapeCasts_S1x64_S64)
      (shapeCast S64 (extractStridedSlice S1x64 ![3, 0] (m ((c : Thread nD τ).loc main_arg6)) slices_S4x64_S1x64_3_0) shapeCasts_S1x64_S64)) shapeCasts_S64_S1x64 := by
  refine (W7_back m ρ c main_v233 (by decide) (by decide)).trans ?_
  show StableHlo.after hostOps2 (W4 m ρ c) (Proc.devRef .tc main_v233) = _
  rw [R233, W4_arg6]

theorem V7_arg10 :
    Gen.V7 m ρ c main_arg10 = m ((c : Thread nD τ).loc main_arg10) := ((W8_arr m ρ c 7).trans (((dat3 (V7 m ρ) c).arrAt_in 7 rfl _).trans (A_eq3 (V7 m ρ) c 7))).symm.trans (W8_main_arg10 m ρ c)

theorem V7_v235 :
    Gen.V7 m ρ c main_v235 = shapeCast S1x1 (m ((c : Thread nD τ).loc main_arg11)) shapeCasts_S1_S1x1 := by
  refine (W7_back m ρ c main_v235 (by decide) (by decide)).trans ?_
  show StableHlo.after hostOps2 (W4 m ρ c) (Proc.devRef .tc main_v235) = _
  rw [R235, W4_arg11]

theorem W8_v245 :
    Gen.W8 m ρ c (Proc.devRef .tc main_v245) = (Gen.dat3 (F := Ideal) (Gen.V7 m ρ) c).arrAt 9 cfg3.N := W8_arr m ρ c 9

theorem W8_v240 :
    Gen.W8 m ρ c (Proc.devRef .tc main_v240) = (Gen.dat2 (F := Ideal) (Gen.V5 m ρ) c).arrAt 9 cfg2.N := (W8_of_ne m ρ c main_v240 (by decide)).trans ((keep3 (W6 m ρ c) main_v240 (by decide)).trans (W6_arr m ρ c 9))

end Cert.KernelIdeal.KWalk2

end
-- ==== Proof.FinalOut.lean ====
/-
  The kernel program's two result buffers hold the reference's two outputs.

  Region 2 leaves the fused second layer of the shop nodes followed by its read-out, fed with the two means of the
  first layer's activations, those activations themselves, slices 0 and 2 of the second layer's weights and biases;
  region 3 the same for the public nodes with slices 1 and 3. The first layer's activations are the reference's and
  real, so the means agree, the fused layer is the reference's rectified sum of two SAGE terms, and the projection
  is the reference's read-out.
-/
import proofs.«122893_j59708635349187_2_alg».proof.Proof.FinalH
import proofs.«122893_j59708635349187_2_alg».proof.Proof.Region2
import proofs.«122893_j59708635349187_2_alg».proof.Proof.Region3
import proofs.«122893_j59708635349187_2_alg».proof.Proof.KWalkB

noncomputable section

namespace Cert.Final

open Cert.KernelIdeal Idealize.ShloMosaic Idealize.ShloMosaic.TcCoe Idealize.ShloMosaic.ValueIdx Idealize.SL.Sem
open Cert.Sage Cert.Bridge Cert.ReferenceIdeal.RefSpec

variable (m : (ℓ : Loc nD τ sig) → Buf (Elt Ideal) ℓ) (ρ : Dev nD → PrngReg) (c : Dev nD)

/-- The shop nodes' result buffer at the end of the kernel program is the reference's shop output. -/
theorem out_shop (h0 : ∀ j, IsR ((m ((c : Thread nD τ).loc main_arg0)) j)) (h1 : ∀ j, IsR ((m ((c : Thread nD τ).loc main_arg1)) j)) (h2 : ∀ j, IsR ((m ((c : Thread nD τ).loc main_arg2)) j))
    (h3 : ∀ j, IsR ((m ((c : Thread nD τ).loc main_arg3)) j)) (h4 : ∀ j, IsR ((m ((c : Thread nD τ).loc main_arg4)) j)) (h7 : ∀ j, IsR ((m ((c : Thread nD τ).loc main_arg7)) j)) :
    Gen.W8 m ρ c (Proc.devRef .tc main_v240)
      = outShop (F := Ideal) (hs1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg14))) (hp1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg15))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg14)) := by
  have hH0 := H0_eq m ρ c h0 h4
  have hH1 := H1_eq m ρ c h1 h4
  rw [Cert.KernelIdeal.KWalk2.W8_v240, Cert.KernelIdeal.Region2.value (Gen.V5 m ρ) c]
  rw [Cert.KernelIdeal.KWalk2.V5_v157, Cert.KernelIdeal.KWalk2.V5_v175, Cert.KernelIdeal.KWalk2.V5_v134, Cert.KernelIdeal.KWalk2.V5_v237, Cert.KernelIdeal.KWalk2.V5_v239, Cert.KernelIdeal.KWalk2.V5_v216, Cert.KernelIdeal.KWalk2.V5_v227, Cert.KernelIdeal.KWalk2.V5_arg8, Cert.KernelIdeal.KWalk2.V5_v234]
  rw [Cert.KernelIdeal.KWalk.W1_v9, Cert.KernelIdeal.KWalk.W1_v29]
  rw [mean64_eq (Cert.KernelIdeal.KWalk2.H0 m ρ c) (hs1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg14))) (fun j => congrFun hH0 j) (m ((c : Thread nD τ).loc main_arg12)),
    mean64_eq (Cert.KernelIdeal.KWalk2.H1 m ρ c) (hp1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg15))) (fun j => congrFun hH1 j) (m ((c : Thread nD τ).loc main_arg14))]
  unfold Cert.Sage.fusedProj
  rw [hH0]
  refine proj_eq_readout _ _ (layer64 _ _ _ (w64_0 (F := Ideal) (m ((c : Thread nD τ).loc main_arg5))) (w64_2 (F := Ideal) (m ((c : Thread nD τ).loc main_arg5)))
    (w64_0 (F := Ideal) (m ((c : Thread nD τ).loc main_arg7))) (w64_2 (F := Ideal) (m ((c : Thread nD τ).loc main_arg7))) (b64_0 (F := Ideal) (m ((c : Thread nD τ).loc main_arg6))) (b64_2 (F := Ideal) (m ((c : Thread nD τ).loc main_arg6))) _
    (fun q => Cert.LibRowBias.row_of_vec_apply _ _ q) (isR_hs1 _ _ _ _ _ _ _ h0 h1 h2 h3 h4) (isR_w64 _ h7).1 (isR_w64 _ h7).2.2.1)
    (m ((c : Thread nD τ).loc main_arg8)) (m ((c : Thread nD τ).loc main_arg9)) _ (fun q => ?_)
  rw [Fin.fin_one_eq_zero q]
  exact Cert.LibRowBias.row_of_vec_apply _ _ 0

/-- The public nodes' result buffer at the end of the kernel program is the reference's public output. -/
theorem out_pub (h0 : ∀ j, IsR ((m ((c : Thread nD τ).loc main_arg0)) j)) (h1 : ∀ j, IsR ((m ((c : Thread nD τ).loc main_arg1)) j)) (h2 : ∀ j, IsR ((m ((c : Thread nD τ).loc main_arg2)) j))
    (h3 : ∀ j, IsR ((m ((c : Thread nD τ).loc main_arg3)) j)) (h4 : ∀ j, IsR ((m ((c : Thread nD τ).loc main_arg4)) j)) (h7 : ∀ j, IsR ((m ((c : Thread nD τ).loc main_arg7)) j)) :
    Gen.W8 m ρ c (Proc.devRef .tc main_v245)
      = outPub (F := Ideal) (hs1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg14))) (hp1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg15))) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg13)) (m ((c : Thread nD τ).loc main_arg15)) := by
  have hH0 := H0_eq m ρ c h0 h4
  have hH1 := H1_eq m ρ c h1 h4
  rw [Cert.KernelIdeal.KWalk2.W8_v245, Cert.KernelIdeal.Region3.value (Gen.V7 m ρ) c]
  rw [Cert.KernelIdeal.KWalk2.V7_v193, Cert.KernelIdeal.KWalk2.V7_v211, Cert.KernelIdeal.KWalk2.V7_v139, Cert.KernelIdeal.KWalk2.V7_v242, Cert.KernelIdeal.KWalk2.V7_v244, Cert.KernelIdeal.KWalk2.V7_v221, Cert.KernelIdeal.KWalk2.V7_v233, Cert.KernelIdeal.KWalk2.V7_arg10, Cert.KernelIdeal.KWalk2.V7_v235]
  rw [Cert.KernelIdeal.KWalk.W1_v19, Cert.KernelIdeal.KWalk.W1_v39]
  rw [mean64_eq (Cert.KernelIdeal.KWalk2.H0 m ρ c) (hs1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg14))) (fun j => congrFun hH0 j) (m ((c : Thread nD τ).loc main_arg13)),
    mean64_eq (Cert.KernelIdeal.KWalk2.H1 m ρ c) (hp1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg15))) (fun j => congrFun hH1 j) (m ((c : Thread nD τ).loc main_arg15))]
  unfold Cert.Sage.fusedProj
  rw [hH1]
  refine proj_eq_readout _ _ (layer64 _ _ _ (w64_1 (F := Ideal) (m ((c : Thread nD τ).loc main_arg5))) (w64_3 (F := Ideal) (m ((c : Thread nD τ).loc main_arg5)))
    (w64_1 (F := Ideal) (m ((c : Thread nD τ).loc main_arg7))) (w64_3 (F := Ideal) (m ((c : Thread nD τ).loc main_arg7))) (b64_1 (F := Ideal) (m ((c : Thread nD τ).loc main_arg6))) (b64_3 (F := Ideal) (m ((c : Thread nD τ).loc main_arg6))) _
    (fun q => Cert.LibRowBias.row_of_vec_apply _ _ q) (isR_hp1 _ _ _ _ _ _ _ h0 h1 h2 h3 h4) (isR_w64 _ h7).2.1 (isR_w64 _ h7).2.2.2)
    (m ((c : Thread nD τ).loc main_arg10)) (m ((c : Thread nD τ).loc main_arg11)) _ (fun q => ?_)
  rw [Fin.fin_one_eq_zero q]
  exact Cert.LibRowBias.row_of_vec_apply _ _ 0

end Cert.Final

end
-- ==== Proof.RefRunBase.lean ====
/- The run of the reference's @main, read in consecutive stretches: what the stretches share.
   A straight line of host operations run from contents `V` leaves `after ops V`; run over a concatenation it is the
   second line's run from what the first leaves (`after_app`). A buffer is carried unchanged across a line that does not
   write it (`StableHlo.after_of_writes_sub`, over a list holding every reference the line writes: `sub_of_mem` puts one
   operation's result buffer in that list's buffers). The sixteen argument references, which no operation writes, are `argRefs`. -/
import proofs.«122893_j59708635349187_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation: the second line run from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A one-buffer set of a listed reference lies in the listed references' buffers. -/
theorem sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-- @main's sixteen arguments. -/
def argRefs : List (Ref sig .tc) :=
  [main_arg0, main_arg1, main_arg2, main_arg3, main_arg4, main_arg5, main_arg6, main_arg7, main_arg8, main_arg9, main_arg10, main_arg11, main_arg12, main_arg13, main_arg14, main_arg15]

end Cert.ReferenceIdeal.HandRun

end
-- ==== Proof.RefRunL1a.lean ====
/- The run of the reference's @main, read in consecutive stretches: operations 0 … 82.
   Each stretch `p` is a literal list of consecutive operations of @main. Over an ARBITRARY valuation `W`:
   `p_frame` — a buffer outside `p_w` (the references the stretch writes) holds after the stretch what it held before;
   `p_main_vK` — a buffer the stretch hands on holds `p_f_vK` of what `W` holds at the buffers the stretch reads and does
   not itself write: the operations' functions composed in order, each intermediate buffer replaced by the term written to it. -/
import proofs.«122893_j59708635349187_2_alg».proof.Proof.RefRunBase
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 40 of @main, in order. -/
def pA : List (HloOp τ sig (Elt F)) :=
  [
    unary main_arg2 main_v0 ((extractStridedSlice S1x11x64 ![0, 0, 0] · slices_S4x11x64_S1x11x64_0_0_0) : (⟨S4x11x64, .f32⟩ : BufTy).Contents (Elt F) → (⟨S1x11x64, .f32⟩ : BufTy).Contents (Elt F)),
    reshape main_v0 main_v1 rfl shapeCasts_S1x11x64_S11x64,
    unary main_arg3 main_v2 ((extractStridedSlice S1x64 ![0, 0] · slices_S4x64_S1x64_0_0) : (⟨S4x64, .f32⟩ : BufTy).Contents (Elt F) → (⟨S1x64, .f32⟩ : BufTy).Contents (Elt F)),
    reshape main_v2 main_v3 rfl shapeCasts_S1x64_S64,
    unary main_arg4 main_v4 ((extractStridedSlice S1x11x64 ![0, 0, 0] · slices_S4x11x64_S1x11x64_0_0_0) : (⟨S4x11x64, .f32⟩ : BufTy).Contents (Elt F) → (⟨S1x11x64, .f32⟩ : BufTy).Contents (Elt F)),
    reshape main_v4 main_v5 rfl shapeCasts_S1x11x64_S11x64,
    unary main_arg12 main_v6 ((extractStridedSlice S1x1600000 ![0, 0] · slices_S2x1600000_S1x1600000_0_0) : (⟨S2x1600000, .i32⟩ : BufTy).Contents (Elt F) → (⟨S1x1600000, .i32⟩ : BufTy).Contents (Elt F)),
    reshape main_v6 main_v7 rfl shapeCasts_S1x1600000_S1600000,
    unary main_arg12 main_v8 ((extractStridedSlice S1x1600000 ![1, 0] · slices_S2x1600000_S1x1600000_1_0) : (⟨S2x1600000, .i32⟩ : BufTy).Contents (Elt F) → (⟨S1x1600000, .i32⟩ : BufTy).Contents (Elt F)),
    reshape main_v8 main_v9 rfl shapeCasts_S1x1600000_S1600000,
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v7 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v12 (broadcastInDim S1600000 ![] bcast_S_S1600000 : (⟨S_, .i32⟩ : BufTy).Contents (Elt F) → (⟨S1600000, .i32⟩ : BufTy).Contents (Elt F)),
    binary main_v7 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v7 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_arg0 main_v15 main_v16 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    nullary main_cst (constant S_ .f32 0x00000000#32),
    unary main_cst main_v17 (broadcastInDim S50000x11 ![] bcast_S_S50000x11 : (⟨S_, .f32⟩ : BufTy).Contents (Elt F) → (⟨S50000x11, .f32⟩ : BufTy).Contents (Elt F)),
    unary main_v9 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    nullary main_cst_1 (constant S_ .f32 0x3F800000#32),
    unary main_cst_1 main_v20 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v9 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (maximumf : (⟨S50000, .f32⟩ : BufTy).Contents (Elt F) → (⟨S50000, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x11 ![0, 1] bcast_S50000x1_S50000x11_0_1 : (⟨S50000x1, .f32⟩ : BufTy).Contents (Elt F) → (⟨S50000x11, .f32⟩ : BufTy).Contents (Elt F)),
    binary main_v19 main_v27 main_v28 (Host.divf : (⟨S50000x11, .f32⟩ : BufTy).Contents (Elt F) → (⟨S50000x11, .f32⟩ : BufTy).Contents (Elt F) → (⟨S50000x11, .f32⟩ : BufTy).Contents (Elt F)),
    binary main_v28 main_v1 main_v29 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    unary main_v3 main_v30 (broadcastInDim S1x64 ![1] bcast_S64_S1x64_1 : (⟨S64, .f32⟩ : BufTy).Contents (Elt F) → (⟨S1x64, .f32⟩ : BufTy).Contents (Elt F)),
    unary main_v30 main_v31 (broadcastInDim S50000x64 ![0, 1] bcast_S1x64_S50000x64_0_1 : (⟨S1x64, .f32⟩ : BufTy).Contents (Elt F) → (⟨S50000x64, .f32⟩ : BufTy).Contents (Elt F)),
    binary main_v29 main_v31 main_v32 (addf : (⟨S50000x64, .f32⟩ : BufTy).Contents (Elt F) → (⟨S50000x64, .f32⟩ : BufTy).Contents (Elt F) → (⟨S50000x64, .f32⟩ : BufTy).Contents (Elt F)),
    binary main_arg0 main_v5 main_v33 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    binary main_v32 main_v33 main_v34 (addf : (⟨S50000x64, .f32⟩ : BufTy).Contents (Elt F) → (⟨S50000x64, .f32⟩ : BufTy).Contents (Elt F) → (⟨S50000x64, .f32⟩ : BufTy).Contents (Elt F)) ]

/-- The references the stretch writes. -/
def pA_w : List (Ref sig .tc) :=
  [main_v0, main_v1, main_v2, main_v3, main_v4, main_v5, main_v6, main_v7, main_v8, main_v9, main_c, main_v10, main_v11, main_c_0, main_v12, main_v13, main_v14, main_v15, main_v16, main_cst, main_v17, main_v18, main_v19, main_cst_1, main_v20, main_cst_2, main_v21, main_v22, main_v23, main_cst_3, main_v24, main_v25, main_v26, main_v27, main_v28, main_v29, main_v30, main_v31, main_v32, main_v33, main_v34]

set_option maxRecDepth 8192 in
theorem pA_writes : (pA (F := F)).Forall fun op => op.writes ⊆ ((pA_w).map (Proc.devRef (τ := τ) .tc)).toFinset := by
  unfold pA
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pA_frame (W : Valuation τ sig (Elt F)) {r : Ref sig .tc} (hr : r ∉ pA_w) :
    after pA W (Proc.devRef .tc r) = W (Proc.devRef .tc r) :=
  after_of_writes_sub pA W pA_writes hr

/-- The stretch writes no argument. -/
theorem pA_args : ∀ r ∈ argRefs, r ∉ pA_w := by decide

set_option maxRecDepth 8192 in
/-- What the stretch leaves in `main_v34`, of what it finds in the buffers read for it. -/
def pA_f_v34 (a0 : (⟨S50000x11, .f32⟩ : BufTy).Contents (Elt F)) (a2 : (⟨S4x11x64, .f32⟩ : BufTy).Contents (Elt F)) (a3 : (⟨S4x64, .f32⟩ : BufTy).Contents (Elt F)) (a4 : (⟨S4x11x64, .f32⟩ : BufTy).Contents (Elt F)) (a12 : (⟨S2x1600000, .i32⟩ : BufTy).Contents (Elt F)) :
    (⟨S50000x64, .f32⟩ : BufTy).Contents (Elt F) :=
  addf (addf (Host.dotGeneral dot_S50000x11_S11x64_S50000x64_1_0_0_1_n_n none (Host.divf (Host.scatterAdd scatter_S50000x11_S1600000x1_S1600000x11_1_0_0_1 (broadcastInDim S50000x11 ![] bcast_S_S50000x11 (constant S_ .f32 0x00000000#32)) (broadcastInDim S1600000x1 ![0] bcast_S1600000_S1600000x1_0 (shapeCast _ (extractStridedSlice S1x1600000 ![1, 0] (a12) slices_S2x1600000_S1x1600000_1_0) shapeCasts_S1x1600000_S1600000)) (Host.gather gather_S50000x11_S1600000x1_S1600000x11_1_0_n_n_0_1_111 (a0) (broadcastInDim S1600000x1 ![0] bcast_S1600000_S1600000x1_0 (select (cmpi .slt (shapeCast _ (extractStridedSlice S1x1600000 ![0, 0] (a12) slices_S2x1600000_S1x1600000_0_0) shapeCasts_S1x1600000_S1600000) (broadcastInDim S1600000 ![] bcast_S_S1600000 (constantI S_ 32 0#32))) (addi (shapeCast _ (extractStridedSlice S1x1600000 ![0, 0] (a12) slices_S2x1600000_S1x1600000_0_0) shapeCasts_S1x1600000_S1600000) (broadcastInDim S1600000 ![] bcast_S_S1600000 (constantI S_ 32 50000#32))) (shapeCast _ (extractStridedSlice S1x1600000 ![0, 0] (a12) slices_S2x1600000_S1x1600000_0_0) shapeCasts_S1x1600000_S1600000))))) (broadcastInDim S50000x11 ![0, 1] bcast_S50000x1_S50000x11_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a12) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x11x64 ![0, 0, 0] (a2) slices_S4x11x64_S1x11x64_0_0_0) shapeCasts_S1x11x64_S11x64)) (broadcastInDim S50000x64 ![0, 1] bcast_S1x64_S50000x64_0_1 (broadcastInDim S1x64 ![1] bcast_S64_S1x64_1 (shapeCast _ (extractStridedSlice S1x64 ![0, 0] (a3) slices_S4x64_S1x64_0_0) shapeCasts_S1x64_S64)))) (Host.dotGeneral dot_S50000x11_S11x64_S50000x64_1_0_0_1_n_n none (a0) (shapeCast _ (extractStridedSlice S1x11x64 ![0, 0, 0] (a4) slices_S4x11x64_S1x11x64_0_0_0) shapeCasts_S1x11x64_S11x64))

set_option maxRecDepth 8192 in
set_option maxHeartbeats 400000 in
theorem pA_main_v34 (W : Valuation τ sig (Elt F)) :
    after pA W (Proc.devRef .tc main_v34) = pA_f_v34 (W (Proc.devRef .tc main_arg0)) (W (Proc.devRef .tc main_arg2)) (W (Proc.devRef .tc main_arg3)) (W (Proc.devRef .tc main_arg4)) (W (Proc.devRef .tc main_arg12)) := by
  unfold pA
  after_results_simp <;> rfl

/-- Operations 41 … 81 of @main, in order. -/
def pB : List (HloOp τ sig (Elt F)) :=
  [
    unary main_arg2 main_v35 ((extractStridedSlice S1x11x64 ![2, 0, 0] · slices_S4x11x64_S1x11x64_2_0_0) : (⟨S4x11x64, .f32⟩ : BufTy).Contents (Elt F) → (⟨S1x11x64, .f32⟩ : BufTy).Contents (Elt F)),
    reshape main_v35 main_v36 rfl shapeCasts_S1x11x64_S11x64,
    unary main_arg3 main_v37 ((extractStridedSlice S1x64 ![2, 0] · slices_S4x64_S1x64_2_0) : (⟨S4x64, .f32⟩ : BufTy).Contents (Elt F) → (⟨S1x64, .f32⟩ : BufTy).Contents (Elt F)),
    reshape main_v37 main_v38 rfl shapeCasts_S1x64_S64,
    unary main_arg4 main_v39 ((extractStridedSlice S1x11x64 ![2, 0, 0] · slices_S4x11x64_S1x11x64_2_0_0) : (⟨S4x11x64, .f32⟩ : BufTy).Contents (Elt F) → (⟨S1x11x64, .f32⟩ : BufTy).Contents (Elt F)),
    reshape main_v39 main_v40 rfl shapeCasts_S1x11x64_S11x64,
    unary main_arg14 main_v41 ((extractStridedSlice S1x1600000 ![0, 0] · slices_S2x1600000_S1x1600000_0_0) : (⟨S2x1600000, .i32⟩ : BufTy).Contents (Elt F) → (⟨S1x1600000, .i32⟩ : BufTy).Contents (Elt F)),
    reshape main_v41 main_v42 rfl shapeCasts_S1x1600000_S1600000,
    unary main_arg14 main_v43 ((extractStridedSlice S1x1600000 ![1, 0] · slices_S2x1600000_S1x1600000_1_0) : (⟨S2x1600000, .i32⟩ : BufTy).Contents (Elt F) → (⟨S1x1600000, .i32⟩ : BufTy).Contents (Elt F)),
    reshape main_v43 main_v44 rfl shapeCasts_S1x1600000_S1600000,
    nullary main_c_4 (constantI S_ 32 0#32),
    unary main_c_4 main_v45 (broadcastInDim S1600000 ![] bcast_S_S1600000 : (⟨S_, .i32⟩ : BufTy).Contents (Elt F) → (⟨S1600000, .i32⟩ : BufTy).Contents (Elt F)),
    binary main_v42 main_v45 main_v46 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v47 (broadcastInDim S1600000 ![] bcast_S_S1600000 : (⟨S_, .i32⟩ : BufTy).Contents (Elt F) → (⟨S1600000, .i32⟩ : BufTy).Contents (Elt F)),
    binary main_v42 main_v47 main_v48 (addi : (⟨S1600000, .i32⟩ : BufTy).Contents (Elt F) → (⟨S1600000, .i32⟩ : BufTy).Contents (Elt F) → (⟨S1600000, .i32⟩ : BufTy).Contents (Elt F)),
    ternary main_v46 main_v48 main_v42 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v49 main_v50 (broadcastInDim S1600000x1 ![0] bcast_S1600000_S1600000x1_0 : (⟨S1600000, .i32⟩ : BufTy).Contents (Elt F) → (⟨S1600000x1, .i32⟩ : BufTy).Contents (Elt F)),
    binary main_arg1 main_v50 main_v51 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    nullary main_cst_6 (constant S_ .f32 0x00000000#32),
    unary main_cst_6 main_v52 (broadcastInDim S50000x11 ![] bcast_S_S50000x11 : (⟨S_, .f32⟩ : BufTy).Contents (Elt F) → (⟨S50000x11, .f32⟩ : BufTy).Contents (Elt F)),
    unary main_v44 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    nullary main_cst_7 (constant S_ .f32 0x3F800000#32),
    unary main_cst_7 main_v55 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v56 (broadcastInDim S50000 ![] bcast_S_S50000 : (⟨S_, .f32⟩ : BufTy).Contents (Elt F) → (⟨S50000, .f32⟩ : BufTy).Contents (Elt F)),
    unary main_v44 main_v57 (broadcastInDim S1600000x1 ![0] bcast_S1600000_S1600000x1_0 : (⟨S1600000, .i32⟩ : BufTy).Contents (Elt F) → (⟨S1600000x1, .i32⟩ : BufTy).Contents (Elt F)),
    ternary main_v56 main_v57 main_v55 main_v58 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_9 (constant S_ .f32 0x3F800000#32),
    unary main_cst_9 main_v59 (broadcastInDim S50000 ![] bcast_S_S50000 : (⟨S_, .f32⟩ : BufTy).Contents (Elt F) → (⟨S50000, .f32⟩ : BufTy).Contents (Elt F)),
    binary main_v58 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    unary main_v61 main_v62 (broadcastInDim S50000x11 ![0, 1] bcast_S50000x1_S50000x11_0_1 : (⟨S50000x1, .f32⟩ : BufTy).Contents (Elt F) → (⟨S50000x11, .f32⟩ : BufTy).Contents (Elt F)),
    binary main_v54 main_v62 main_v63 (Host.divf : (⟨S50000x11, .f32⟩ : BufTy).Contents (Elt F) → (⟨S50000x11, .f32⟩ : BufTy).Contents (Elt F) → (⟨S50000x11, .f32⟩ : BufTy).Contents (Elt F)),
    binary main_v63 main_v36 main_v64 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    unary main_v38 main_v65 (broadcastInDim S1x64 ![1] bcast_S64_S1x64_1 : (⟨S64, .f32⟩ : BufTy).Contents (Elt F) → (⟨S1x64, .f32⟩ : BufTy).Contents (Elt F)),
    unary main_v65 main_v66 (broadcastInDim S50000x64 ![0, 1] bcast_S1x64_S50000x64_0_1 : (⟨S1x64, .f32⟩ : BufTy).Contents (Elt F) → (⟨S50000x64, .f32⟩ : BufTy).Contents (Elt F)),
    binary main_v64 main_v66 main_v67 (addf : (⟨S50000x64, .f32⟩ : BufTy).Contents (Elt F) → (⟨S50000x64, .f32⟩ : BufTy).Contents (Elt F) → (⟨S50000x64, .f32⟩ : BufTy).Contents (Elt F)),
    binary main_arg0 main_v40 main_v68 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    binary main_v67 main_v68 main_v69 (addf : (⟨S50000x64, .f32⟩ : BufTy).Contents (Elt F) → (⟨S50000x64, .f32⟩ : BufTy).Contents (Elt F) → (⟨S50000x64, .f32⟩ : BufTy).Contents (Elt F)) ]

/-- The references the stretch writes. -/
def pB_w : List (Ref sig .tc) :=
  [main_v35, main_v36, main_v37, main_v38, main_v39, main_v40, main_v41, main_v42, main_v43, main_v44, main_c_4, main_v45, main_v46, main_c_5, main_v47, main_v48, main_v49, main_v50, main_v51, main_cst_6, main_v52, main_v53, main_v54, main_cst_7, main_v55, main_cst_8, main_v56, main_v57, main_v58, main_cst_9, main_v59, main_v60, main_v61, main_v62, main_v63, main_v64, main_v65, main_v66, main_v67, main_v68, main_v69]

set_option maxRecDepth 8192 in
theorem pB_writes : (pB (F := F)).Forall fun op => op.writes ⊆ ((pB_w).map (Proc.devRef (τ := τ) .tc)).toFinset := by
  unfold pB
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pB_frame (W : Valuation τ sig (Elt F)) {r : Ref sig .tc} (hr : r ∉ pB_w) :
    after pB W (Proc.devRef .tc r) = W (Proc.devRef .tc r) :=
  after_of_writes_sub pB W pB_writes hr

/-- The stretch writes no argument. -/
theorem pB_args : ∀ r ∈ argRefs, r ∉ pB_w := by decide

set_option maxRecDepth 8192 in
/-- What the stretch leaves in `main_v69`, of what it finds in the buffers read for it. -/
def pB_f_v69 (a0 : (⟨S50000x11, .f32⟩ : BufTy).Contents (Elt F)) (a1 : (⟨S50000x11, .f32⟩ : BufTy).Contents (Elt F)) (a2 : (⟨S4x11x64, .f32⟩ : BufTy).Contents (Elt F)) (a3 : (⟨S4x64, .f32⟩ : BufTy).Contents (Elt F)) (a4 : (⟨S4x11x64, .f32⟩ : BufTy).Contents (Elt F)) (a14 : (⟨S2x1600000, .i32⟩ : BufTy).Contents (Elt F)) :
    (⟨S50000x64, .f32⟩ : BufTy).Contents (Elt F) :=
  addf (addf (Host.dotGeneral dot_S50000x11_S11x64_S50000x64_1_0_0_1_n_n none (Host.divf (Host.scatterAdd scatter_S50000x11_S1600000x1_S1600000x11_1_0_0_1 (broadcastInDim S50000x11 ![] bcast_S_S50000x11 (constant S_ .f32 0x00000000#32)) (broadcastInDim S1600000x1 ![0] bcast_S1600000_S1600000x1_0 (shapeCast _ (extractStridedSlice S1x1600000 ![1, 0] (a14) slices_S2x1600000_S1x1600000_1_0) shapeCasts_S1x1600000_S1600000)) (Host.gather gather_S50000x11_S1600000x1_S1600000x11_1_0_n_n_0_1_111 (a1) (broadcastInDim S1600000x1 ![0] bcast_S1600000_S1600000x1_0 (select (cmpi .slt (shapeCast _ (extractStridedSlice S1x1600000 ![0, 0] (a14) slices_S2x1600000_S1x1600000_0_0) shapeCasts_S1x1600000_S1600000) (broadcastInDim S1600000 ![] bcast_S_S1600000 (constantI S_ 32 0#32))) (addi (shapeCast _ (extractStridedSlice S1x1600000 ![0, 0] (a14) slices_S2x1600000_S1x1600000_0_0) shapeCasts_S1x1600000_S1600000) (broadcastInDim S1600000 ![] bcast_S_S1600000 (constantI S_ 32 50000#32))) (shapeCast _ (extractStridedSlice S1x1600000 ![0, 0] (a14) slices_S2x1600000_S1x1600000_0_0) shapeCasts_S1x1600000_S1600000))))) (broadcastInDim S50000x11 ![0, 1] bcast_S50000x1_S50000x11_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a14) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x11x64 ![2, 0, 0] (a2) slices_S4x11x64_S1x11x64_2_0_0) shapeCasts_S1x11x64_S11x64)) (broadcastInDim S50000x64 ![0, 1] bcast_S1x64_S50000x64_0_1 (broadcastInDim S1x64 ![1] bcast_S64_S1x64_1 (shapeCast _ (extractStridedSlice S1x64 ![2, 0] (a3) slices_S4x64_S1x64_2_0) shapeCasts_S1x64_S64)))) (Host.dotGeneral dot_S50000x11_S11x64_S50000x64_1_0_0_1_n_n none (a0) (shapeCast _ (extractStridedSlice S1x11x64 ![2, 0, 0] (a4) slices_S4x11x64_S1x11x64_2_0_0) shapeCasts_S1x11x64_S11x64))

set_option maxRecDepth 8192 in
set_option maxHeartbeats 400000 in
theorem pB_main_v69 (W : Valuation τ sig (Elt F)) :
    after pB W (Proc.devRef .tc main_v69) = pB_f_v69 (W (Proc.devRef .tc main_arg0)) (W (Proc.devRef .tc main_arg1)) (W (Proc.devRef .tc main_arg2)) (W (Proc.devRef .tc main_arg3)) (W (Proc.devRef .tc main_arg4)) (W (Proc.devRef .tc main_arg14)) := by
  unfold pB
  after_results_simp <;> rfl

/-- Operations 82 … 82 of @main, in order. -/
def pAB : List (HloOp τ sig (Elt F)) :=
  [
    binary main_v34 main_v69 main_v70 (addf : (⟨S50000x64, .f32⟩ : BufTy).Contents (Elt F) → (⟨S50000x64, .f32⟩ : BufTy).Contents (Elt F) → (⟨S50000x64, .f32⟩ : BufTy).Contents (Elt F)) ]

/-- The references the stretch writes. -/
def pAB_w : List (Ref sig .tc) :=
  [main_v70]

set_option maxRecDepth 8192 in
theorem pAB_writes : (pAB (F := F)).Forall fun op => op.writes ⊆ ((pAB_w).map (Proc.devRef (τ := τ) .tc)).toFinset := by
  unfold pAB
  exact sub_of_mem (by decide)

/-- A buffer the stretch does not write is carried across it. -/
theorem pAB_frame (W : Valuation τ sig (Elt F)) {r : Ref sig .tc} (hr : r ∉ pAB_w) :
    after pAB W (Proc.devRef .tc r) = W (Proc.devRef .tc r) :=
  after_of_writes_sub pAB W pAB_writes hr

/-- The stretch writes no argument. -/
theorem pAB_args : ∀ r ∈ argRefs, r ∉ pAB_w := by decide

set_option maxRecDepth 8192 in
/-- What the stretch leaves in `main_v70`, of what it finds in the buffers read for it. -/
def pAB_f_v70 (v34 : (⟨S50000x64, .f32⟩ : BufTy).Contents (Elt F)) (v69 : (⟨S50000x64, .f32⟩ : BufTy).Contents (Elt F)) :
    (⟨S50000x64, .f32⟩ : BufTy).Contents (Elt F) :=
  addf (v34) (v69)

set_option maxRecDepth 8192 in
theorem pAB_main_v70 (W : Valuation τ sig (Elt F)) :
    after pAB W (Proc.devRef .tc main_v70) = pAB_f_v70 (W (Proc.devRef .tc main_v34)) (W (Proc.devRef .tc main_v69)) := by
  unfold pAB
  after_results_simp <;> rfl

end Cert.ReferenceIdeal.HandRun

end
-- ==== Proof.RefRunL1b.lean ====
/- The run of the reference's @main, read in consecutive stretches: operations 83 … 171.
   Each stretch `p` is a literal list of consecutive operations of @main. Over an ARBITRARY valuation `W`:
   `p_frame` — a buffer outside `p_w` (the references the stretch writes) holds after the stretch what it held before;
   `p_main_vK` — a buffer the stretch hands on holds `p_f_vK` of what `W` holds at the buffers the stretch reads and does
   not itself write: the operations' functions composed in order, each intermediate buffer replaced by the term written to it. -/
import proofs.«122893_j59708635349187_2_alg».proof.Proof.RefRunBase
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 83 … 123 of @main, in order. -/
def pC : List (HloOp τ sig (Elt F)) :=
  [
    unary main_arg2 main_v71 ((extractStridedSlice S1x11x64 ![1, 0, 0] · slices_S4x11x64_S1x11x64_1_0_0) : (⟨S4x11x64, .f32⟩ : BufTy).Contents (Elt F) → (⟨S1x11x64, .f32⟩ : BufTy).Contents (Elt F)),
    reshape main_v71 main_v72 rfl shapeCasts_S1x11x64_S11x64,
    unary main_arg3 main_v73 ((extractStridedSlice S1x64 ![1, 0] · slices_S4x64_S1x64_1_0) : (⟨S4x64, .f32⟩ : BufTy).Contents (Elt F) → (⟨S1x64, .f32⟩ : BufTy).Contents (Elt F)),
    reshape main_v73 main_v74 rfl shapeCasts_S1x64_S64,
    unary main_arg4 main_v75 ((extractStridedSlice S1x11x64 ![1, 0, 0] · slices_S4x11x64_S1x11x64_1_0_0) : (⟨S4x11x64, .f32⟩ : BufTy).Contents (Elt F) → (⟨S1x11x64, .f32⟩ : BufTy).Contents (Elt F)),
    reshape main_v75 main_v76 rfl shapeCasts_S1x11x64_S11x64,
    unary main_arg13 main_v77 ((extractStridedSlice S1x1600000 ![0, 0] · slices_S2x1600000_S1x1600000_0_0) : (⟨S2x1600000, .i32⟩ : BufTy).Contents (Elt F) → (⟨S1x1600000, .i32⟩ : BufTy).Contents (Elt F)),
    reshape main_v77 main_v78 rfl shapeCasts_S1x1600000_S1600000,
    unary main_arg13 main_v79 ((extractStridedSlice S1x1600000 ![1, 0] · slices_S2x1600000_S1x1600000_1_0) : (⟨S2x1600000, .i32⟩ : BufTy).Contents (Elt F) → (⟨S1x1600000, .i32⟩ : BufTy).Contents (Elt F)),
    reshape main_v79 main_v80 rfl shapeCasts_S1x1600000_S1600000,
    nullary main_c_10 (constantI S_ 32 0#32),
    unary main_c_10 main_v81 (broadcastInDim S1600000 ![] bcast_S_S1600000 : (⟨S_, .i32⟩ : BufTy).Contents (Elt F) → (⟨S1600000, .i32⟩ : BufTy).Contents (Elt F)),
    binary main_v78 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v83 (broadcastInDim S1600000 ![] bcast_S_S1600000 : (⟨S_, .i32⟩ : BufTy).Contents (Elt F) → (⟨S1600000, .i32⟩ : BufTy).Contents (Elt F)),
    binary main_v78 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v78 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_arg0 main_v86 main_v87 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    nullary main_cst_12 (constant S_ .f32 0x00000000#32),
    unary main_cst_12 main_v88 (broadcastInDim S50000x11 ![] bcast_S_S50000x11 : (⟨S_, .f32⟩ : BufTy).Contents (Elt F) → (⟨S50000x11, .f32⟩ : BufTy).Contents (Elt F)),
    unary main_v80 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    nullary main_cst_13 (constant S_ .f32 0x3F800000#32),
    unary main_cst_13 main_v91 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v92 (broadcastInDim S50000 ![] bcast_S_S50000 : (⟨S_, .f32⟩ : BufTy).Contents (Elt F) → (⟨S50000, .f32⟩ : BufTy).Contents (Elt F)),
    unary main_v80 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v91 main_v94 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_15 (constant S_ .f32 0x3F800000#32),
    unary main_cst_15 main_v95 (broadcastInDim S50000 ![] bcast_S_S50000 : (⟨S_, .f32⟩ : BufTy).Contents (Elt F) → (⟨S50000, .f32⟩ : BufTy).Contents (Elt F)),
    binary main_v94 main_v95 main_v96 (maximumf : (⟨S50000, .f32⟩ : BufTy).Contents (Elt F) → (⟨S50000, .f32⟩ : BufTy).Contents (Elt F) → (⟨S50000, .f32⟩ : BufTy).Contents (Elt F)),
    unary main_v96 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x11 ![0, 1] bcast_S50000x1_S50000x11_0_1 : (⟨S50000x1, .f32⟩ : BufTy).Contents (Elt F) → (⟨S50000x11, .f32⟩ : BufTy).Contents (Elt F)),
    binary main_v90 main_v98 main_v99 (Host.divf : (⟨S50000x11, .f32⟩ : BufTy).Contents (Elt F) → (⟨S50000x11, .f32⟩ : BufTy).Contents (Elt F) → (⟨S50000x11, .f32⟩ : BufTy).Contents (Elt F)),
    binary main_v99 main_v72 main_v100 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    unary main_v74 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (addf : (⟨S50000x64, .f32⟩ : BufTy).Contents (Elt F) → (⟨S50000x64, .f32⟩ : BufTy).Contents (Elt F) → (⟨S50000x64, .f32⟩ : BufTy).Contents (Elt F)),
    binary main_arg1 main_v76 main_v104 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    binary main_v103 main_v104 main_v105 (addf : (⟨S50000x64, .f32⟩ : BufTy).Contents (Elt F) → (⟨S50000x64, .f32⟩ : BufTy).Contents (Elt F) → (⟨S50000x64, .f32⟩ : BufTy).Contents (Elt F)) ]

/-- The references the stretch writes. -/
def pC_w : List (Ref sig .tc) :=
  [main_v71, main_v72, main_v73, main_v74, main_v75, main_v76, main_v77, main_v78, main_v79, main_v80, main_c_10, main_v81, main_v82, main_c_11, main_v83, main_v84, main_v85, main_v86, main_v87, main_cst_12, main_v88, main_v89, main_v90, main_cst_13, main_v91, main_cst_14, main_v92, main_v93, main_v94, main_cst_15, main_v95, main_v96, main_v97, main_v98, main_v99, main_v100, main_v101, main_v102, main_v103, main_v104, main_v105]

set_option maxRecDepth 8192 in
theorem pC_writes : (pC (F := F)).Forall fun op => op.writes ⊆ ((pC_w).map (Proc.devRef (τ := τ) .tc)).toFinset := by
  unfold pC
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pC_frame (W : Valuation τ sig (Elt F)) {r : Ref sig .tc} (hr : r ∉ pC_w) :
    after pC W (Proc.devRef .tc r) = W (Proc.devRef .tc r) :=
  after_of_writes_sub pC W pC_writes hr

/-- The stretch writes no argument. -/
theorem pC_args : ∀ r ∈ argRefs, r ∉ pC_w := by decide

set_option maxRecDepth 8192 in
/-- What the stretch leaves in `main_v105`, of what it finds in the buffers read for it. -/
def pC_f_v105 (a0 : (⟨S50000x11, .f32⟩ : BufTy).Contents (Elt F)) (a1 : (⟨S50000x11, .f32⟩ : BufTy).Contents (Elt F)) (a2 : (⟨S4x11x64, .f32⟩ : BufTy).Contents (Elt F)) (a3 : (⟨S4x64, .f32⟩ : BufTy).Contents (Elt F)) (a4 : (⟨S4x11x64, .f32⟩ : BufTy).Contents (Elt F)) (a13 : (⟨S2x1600000, .i32⟩ : BufTy).Contents (Elt F)) :
    (⟨S50000x64, .f32⟩ : BufTy).Contents (Elt F) :=
  addf (addf (Host.dotGeneral dot_S50000x11_S11x64_S50000x64_1_0_0_1_n_n none (Host.divf (Host.scatterAdd scatter_S50000x11_S1600000x1_S1600000x11_1_0_0_1 (broadcastInDim S50000x11 ![] bcast_S_S50000x11 (constant S_ .f32 0x00000000#32)) (broadcastInDim S1600000x1 ![0] bcast_S1600000_S1600000x1_0 (shapeCast _ (extractStridedSlice S1x1600000 ![1, 0] (a13) slices_S2x1600000_S1x1600000_1_0) shapeCasts_S1x1600000_S1600000)) (Host.gather gather_S50000x11_S1600000x1_S1600000x11_1_0_n_n_0_1_111 (a0) (broadcastInDim S1600000x1 ![0] bcast_S1600000_S1600000x1_0 (select (cmpi .slt (shapeCast _ (extractStridedSlice S1x1600000 ![0, 0] (a13) slices_S2x1600000_S1x1600000_0_0) shapeCasts_S1x1600000_S1600000) (broadcastInDim S1600000 ![] bcast_S_S1600000 (constantI S_ 32 0#32))) (addi (shapeCast _ (extractStridedSlice S1x1600000 ![0, 0] (a13) slices_S2x1600000_S1x1600000_0_0) shapeCasts_S1x1600000_S1600000) (broadcastInDim S1600000 ![] bcast_S_S1600000 (constantI S_ 32 50000#32))) (shapeCast _ (extractStridedSlice S1x1600000 ![0, 0] (a13) slices_S2x1600000_S1x1600000_0_0) shapeCasts_S1x1600000_S1600000))))) (broadcastInDim S50000x11 ![0, 1] bcast_S50000x1_S50000x11_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a13) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x11x64 ![1, 0, 0] (a2) slices_S4x11x64_S1x11x64_1_0_0) shapeCasts_S1x11x64_S11x64)) (broadcastInDim S50000x64 ![0, 1] bcast_S1x64_S50000x64_0_1 (broadcastInDim S1x64 ![1] bcast_S64_S1x64_1 (shapeCast _ (extractStridedSlice S1x64 ![1, 0] (a3) slices_S4x64_S1x64_1_0) shapeCasts_S1x64_S64)))) (Host.dotGeneral dot_S50000x11_S11x64_S50000x64_1_0_0_1_n_n none (a1) (shapeCast _ (extractStridedSlice S1x11x64 ![1, 0, 0] (a4) slices_S4x11x64_S1x11x64_1_0_0) shapeCasts_S1x11x64_S11x64))

set_option maxRecDepth 8192 in
set_option maxHeartbeats 400000 in
theorem pC_main_v105 (W : Valuation τ sig (Elt F)) :
    after pC W (Proc.devRef .tc main_v105) = pC_f_v105 (W (Proc.devRef .tc main_arg0)) (W (Proc.devRef .tc main_arg1)) (W (Proc.devRef .tc main_arg2)) (W (Proc.devRef .tc main_arg3)) (W (Proc.devRef .tc main_arg4)) (W (Proc.devRef .tc main_arg13)) := by
  unfold pC
  after_results_simp <;> rfl

/-- Operations 124 … 164 of @main, in order. -/
def pD : List (HloOp τ sig (Elt F)) :=
  [
    unary main_arg2 main_v106 ((extractStridedSlice S1x11x64 ![3, 0, 0] · slices_S4x11x64_S1x11x64_3_0_0) : (⟨S4x11x64, .f32⟩ : BufTy).Contents (Elt F) → (⟨S1x11x64, .f32⟩ : BufTy).Contents (Elt F)),
    reshape main_v106 main_v107 rfl shapeCasts_S1x11x64_S11x64,
    unary main_arg3 main_v108 ((extractStridedSlice S1x64 ![3, 0] · slices_S4x64_S1x64_3_0) : (⟨S4x64, .f32⟩ : BufTy).Contents (Elt F) → (⟨S1x64, .f32⟩ : BufTy).Contents (Elt F)),
    reshape main_v108 main_v109 rfl shapeCasts_S1x64_S64,
    unary main_arg4 main_v110 ((extractStridedSlice S1x11x64 ![3, 0, 0] · slices_S4x11x64_S1x11x64_3_0_0) : (⟨S4x11x64, .f32⟩ : BufTy).Contents (Elt F) → (⟨S1x11x64, .f32⟩ : BufTy).Contents (Elt F)),
    reshape main_v110 main_v111 rfl shapeCasts_S1x11x64_S11x64,
    unary main_arg15 main_v112 ((extractStridedSlice S1x1600000 ![0, 0] · slices_S2x1600000_S1x1600000_0_0) : (⟨S2x1600000, .i32⟩ : BufTy).Contents (Elt F) → (⟨S1x1600000, .i32⟩ : BufTy).Contents (Elt F)),
    reshape main_v112 main_v113 rfl shapeCasts_S1x1600000_S1600000,
    unary main_arg15 main_v114 ((extractStridedSlice S1x1600000 ![1, 0] · slices_S2x1600000_S1x1600000_1_0) : (⟨S2x1600000, .i32⟩ : BufTy).Contents (Elt F) → (⟨S1x1600000, .i32⟩ : BufTy).Contents (Elt F)),
    reshape main_v114 main_v115 rfl shapeCasts_S1x1600000_S1600000,
    nullary main_c_16 (constantI S_ 32 0#32),
    unary main_c_16 main_v116 (broadcastInDim S1600000 ![] bcast_S_S1600000 : (⟨S_, .i32⟩ : BufTy).Contents (Elt F) → (⟨S1600000, .i32⟩ : BufTy).Contents (Elt F)),
    binary main_v113 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 50000#32),
    unary main_c_17 main_v118 (broadcastInDim S1600000 ![] bcast_S_S1600000 : (⟨S_, .i32⟩ : BufTy).Contents (Elt F) → (⟨S1600000, .i32⟩ : BufTy).Contents (Elt F)),
    binary main_v113 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_v113 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_arg1 main_v121 main_v122 ((fun x i => Host.gather gather_S50000x11_S1600000x1_S1600000x11_1_0_n_n_0_1_111 x i) : (⟨S50000x11, .f32⟩ : BufTy).Contents (Elt F) → (⟨S1600000x1, .i32⟩ : BufTy).Contents (Elt F) → (⟨S1600000x11, .f32⟩ : BufTy).Contents (Elt F)),
    nullary main_cst_18 (constant S_ .f32 0x00000000#32),
    unary main_cst_18 main_v123 (broadcastInDim S50000x11 ![] bcast_S_S50000x11 : (⟨S_, .f32⟩ : BufTy).Contents (Elt F) → (⟨S50000x11, .f32⟩ : BufTy).Contents (Elt F)),
    unary main_v115 main_v124 (broadcastInDim S1600000x1 ![0] bcast_S1600000_S1600000x1_0 : (⟨S1600000, .i32⟩ : BufTy).Contents (Elt F) → (⟨S1600000x1, .i32⟩ : BufTy).Contents (Elt F)),
    ternary main_v123 main_v124 main_v122 main_v125 ((fun x i u => Host.scatterAdd scatter_S50000x11_S1600000x1_S1600000x11_1_0_0_1 x i u) : (⟨S50000x11, .f32⟩ : BufTy).Contents (Elt F) → (⟨S1600000x1, .i32⟩ : BufTy).Contents (Elt F) → (⟨S1600000x11, .f32⟩ : BufTy).Contents (Elt F) → (⟨S50000x11, .f32⟩ : BufTy).Contents (Elt F)),
    nullary main_cst_19 (constant S_ .f32 0x3F800000#32),
    unary main_cst_19 main_v126 (broadcastInDim S1600000 ![] bcast_S_S1600000 : (⟨S_, .f32⟩ : BufTy).Contents (Elt F) → (⟨S1600000, .f32⟩ : BufTy).Contents (Elt F)),
    nullary main_cst_20 (constant S_ .f32 0x00000000#32),
    unary main_cst_20 main_v127 (broadcastInDim S50000 ![] bcast_S_S50000 : (⟨S_, .f32⟩ : BufTy).Contents (Elt F) → (⟨S50000, .f32⟩ : BufTy).Contents (Elt F)),
    unary main_v115 main_v128 (broadcastInDim S1600000x1 ![0] bcast_S1600000_S1600000x1_0 : (⟨S1600000, .i32⟩ : BufTy).Contents (Elt F) → (⟨S1600000x1, .i32⟩ : BufTy).Contents (Elt F)),
    ternary main_v127 main_v128 main_v126 main_v129 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_21 (constant S_ .f32 0x3F800000#32),
    unary main_cst_21 main_v130 (broadcastInDim S50000 ![] bcast_S_S50000 : (⟨S_, .f32⟩ : BufTy).Contents (Elt F) → (⟨S50000, .f32⟩ : BufTy).Contents (Elt F)),
    binary main_v129 main_v130 main_v131 (maximumf : (⟨S50000, .f32⟩ : BufTy).Contents (Elt F) → (⟨S50000, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x11 ![0, 1] bcast_S50000x1_S50000x11_0_1 : (⟨S50000x1, .f32⟩ : BufTy).Contents (Elt F) → (⟨S50000x11, .f32⟩ : BufTy).Contents (Elt F)),
    binary main_v125 main_v133 main_v134 (Host.divf : (⟨S50000x11, .f32⟩ : BufTy).Contents (Elt F) → (⟨S50000x11, .f32⟩ : BufTy).Contents (Elt F) → (⟨S50000x11, .f32⟩ : BufTy).Contents (Elt F)),
    binary main_v134 main_v107 main_v135 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    unary main_v109 main_v136 (broadcastInDim S1x64 ![1] bcast_S64_S1x64_1 : (⟨S64, .f32⟩ : BufTy).Contents (Elt F) → (⟨S1x64, .f32⟩ : BufTy).Contents (Elt F)),
    unary main_v136 main_v137 (broadcastInDim S50000x64 ![0, 1] bcast_S1x64_S50000x64_0_1 : (⟨S1x64, .f32⟩ : BufTy).Contents (Elt F) → (⟨S50000x64, .f32⟩ : BufTy).Contents (Elt F)),
    binary main_v135 main_v137 main_v138 (addf : (⟨S50000x64, .f32⟩ : BufTy).Contents (Elt F) → (⟨S50000x64, .f32⟩ : BufTy).Contents (Elt F) → (⟨S50000x64, .f32⟩ : BufTy).Contents (Elt F)),
    binary main_arg1 main_v111 main_v139 ((fun l r => Host.dotGeneral dot_S50000x11_S11x64_S50000x64_1_0_0_1_n_n none l r) : (⟨S50000x11, .f32⟩ : BufTy).Contents (Elt F) → (⟨S11x64, .f32⟩ : BufTy).Contents (Elt F) → (⟨S50000x64, .f32⟩ : BufTy).Contents (Elt F)),
    binary main_v138 main_v139 main_v140 (addf : (⟨S50000x64, .f32⟩ : BufTy).Contents (Elt F) → (⟨S50000x64, .f32⟩ : BufTy).Contents (Elt F) → (⟨S50000x64, .f32⟩ : BufTy).Contents (Elt F)) ]

/-- The references the stretch writes. -/
def pD_w : List (Ref sig .tc) :=
  [main_v106, main_v107, main_v108, main_v109, main_v110, main_v111, main_v112, main_v113, main_v114, main_v115, main_c_16, main_v116, main_v117, main_c_17, main_v118, main_v119, main_v120, main_v121, main_v122, main_cst_18, main_v123, main_v124, main_v125, main_cst_19, main_v126, main_cst_20, main_v127, main_v128, main_v129, main_cst_21, main_v130, main_v131, main_v132, main_v133, main_v134, main_v135, main_v136, main_v137, main_v138, main_v139, main_v140]

set_option maxRecDepth 8192 in
theorem pD_writes : (pD (F := F)).Forall fun op => op.writes ⊆ ((pD_w).map (Proc.devRef (τ := τ) .tc)).toFinset := by
  unfold pD
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pD_frame (W : Valuation τ sig (Elt F)) {r : Ref sig .tc} (hr : r ∉ pD_w) :
    after pD W (Proc.devRef .tc r) = W (Proc.devRef .tc r) :=
  after_of_writes_sub pD W pD_writes hr

/-- The stretch writes no argument. -/
theorem pD_args : ∀ r ∈ argRefs, r ∉ pD_w := by decide

set_option maxRecDepth 8192 in
/-- What the stretch leaves in `main_v140`, of what it finds in the buffers read for it. -/
def pD_f_v140 (a1 : (⟨S50000x11, .f32⟩ : BufTy).Contents (Elt F)) (a2 : (⟨S4x11x64, .f32⟩ : BufTy).Contents (Elt F)) (a3 : (⟨S4x64, .f32⟩ : BufTy).Contents (Elt F)) (a4 : (⟨S4x11x64, .f32⟩ : BufTy).Contents (Elt F)) (a15 : (⟨S2x1600000, .i32⟩ : BufTy).Contents (Elt F)) :
    (⟨S50000x64, .f32⟩ : BufTy).Contents (Elt F) :=
  addf (addf (Host.dotGeneral dot_S50000x11_S11x64_S50000x64_1_0_0_1_n_n none (Host.divf (Host.scatterAdd scatter_S50000x11_S1600000x1_S1600000x11_1_0_0_1 (broadcastInDim S50000x11 ![] bcast_S_S50000x11 (constant S_ .f32 0x00000000#32)) (broadcastInDim S1600000x1 ![0] bcast_S1600000_S1600000x1_0 (shapeCast _ (extractStridedSlice S1x1600000 ![1, 0] (a15) slices_S2x1600000_S1x1600000_1_0) shapeCasts_S1x1600000_S1600000)) (Host.gather gather_S50000x11_S1600000x1_S1600000x11_1_0_n_n_0_1_111 (a1) (broadcastInDim S1600000x1 ![0] bcast_S1600000_S1600000x1_0 (select (cmpi .slt (shapeCast _ (extractStridedSlice S1x1600000 ![0, 0] (a15) slices_S2x1600000_S1x1600000_0_0) shapeCasts_S1x1600000_S1600000) (broadcastInDim S1600000 ![] bcast_S_S1600000 (constantI S_ 32 0#32))) (addi (shapeCast _ (extractStridedSlice S1x1600000 ![0, 0] (a15) slices_S2x1600000_S1x1600000_0_0) shapeCasts_S1x1600000_S1600000) (broadcastInDim S1600000 ![] bcast_S_S1600000 (constantI S_ 32 50000#32))) (shapeCast _ (extractStridedSlice S1x1600000 ![0, 0] (a15) slices_S2x1600000_S1x1600000_0_0) shapeCasts_S1x1600000_S1600000))))) (broadcastInDim S50000x11 ![0, 1] bcast_S50000x1_S50000x11_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a15) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x11x64 ![3, 0, 0] (a2) slices_S4x11x64_S1x11x64_3_0_0) shapeCasts_S1x11x64_S11x64)) (broadcastInDim S50000x64 ![0, 1] bcast_S1x64_S50000x64_0_1 (broadcastInDim S1x64 ![1] bcast_S64_S1x64_1 (shapeCast _ (extractStridedSlice S1x64 ![3, 0] (a3) slices_S4x64_S1x64_3_0) shapeCasts_S1x64_S64)))) (Host.dotGeneral dot_S50000x11_S11x64_S50000x64_1_0_0_1_n_n none (a1) (shapeCast _ (extractStridedSlice S1x11x64 ![3, 0, 0] (a4) slices_S4x11x64_S1x11x64_3_0_0) shapeCasts_S1x11x64_S11x64))

set_option maxRecDepth 8192 in
set_option maxHeartbeats 400000 in
theorem pD_main_v140 (W : Valuation τ sig (Elt F)) :
    after pD W (Proc.devRef .tc main_v140) = pD_f_v140 (W (Proc.devRef .tc main_arg1)) (W (Proc.devRef .tc main_arg2)) (W (Proc.devRef .tc main_arg3)) (W (Proc.devRef .tc main_arg4)) (W (Proc.devRef .tc main_arg15)) := by
  unfold pD
  after_results_simp <;> rfl

/-- Operations 165 … 171 of @main, in order. -/
def pR1 : List (HloOp τ sig (Elt F)) :=
  [
    binary main_v105 main_v140 main_v141 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v70) (TRef.of (T := ⟨S50000x64, .f32⟩) main_call0_v0) (TRef.of (T := ⟨S50000x64, .f32⟩) main_v142) maximumf,
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v141) (TRef.of (T := ⟨S50000x64, .f32⟩) main_call1_v0) (TRef.of (T := ⟨S50000x64, .f32⟩) main_v143) maximumf ]

/-- The references the stretch writes. -/
def pR1_w : List (Ref sig .tc) :=
  [main_v141, main_call0_cst, main_call0_v0, main_v142, main_call1_cst, main_call1_v0, main_v143]

set_option maxRecDepth 8192 in
theorem pR1_writes : (pR1 (F := F)).Forall fun op => op.writes ⊆ ((pR1_w).map (Proc.devRef (τ := τ) .tc)).toFinset := by
  unfold pR1
  exact ⟨sub_of_mem (by decide), sub_of_mem (by decide), sub_of_mem (by decide), sub_of_mem (by decide), sub_of_mem (by decide), sub_of_mem (by decide), sub_of_mem (by decide)⟩

/-- A buffer the stretch does not write is carried across it. -/
theorem pR1_frame (W : Valuation τ sig (Elt F)) {r : Ref sig .tc} (hr : r ∉ pR1_w) :
    after pR1 W (Proc.devRef .tc r) = W (Proc.devRef .tc r) :=
  after_of_writes_sub pR1 W pR1_writes hr

/-- The stretch writes no argument. -/
theorem pR1_args : ∀ r ∈ argRefs, r ∉ pR1_w := by decide

set_option maxRecDepth 8192 in
/-- What the stretch leaves in `main_v142`, of what it finds in the buffers read for it. -/
def pR1_f_v142 (v70 : (⟨S50000x64, .f32⟩ : BufTy).Contents (Elt F)) :
    (⟨S50000x64, .f32⟩ : BufTy).Contents (Elt F) :=
  maximumf (v70) (broadcastInDim S50000x64 ![] bcast_S_S50000x64 (constant S_ .f32 0x00000000#32))

set_option maxRecDepth 8192 in
theorem pR1_main_v142 (W : Valuation τ sig (Elt F)) :
    after pR1 W (Proc.devRef .tc main_v142) = pR1_f_v142 (W (Proc.devRef .tc main_v70)) := by
  unfold pR1
  after_results_simp <;> (try simp only [TRef.toBuf, TRef.ofBuf, cast_eq, id]) <;> rfl

set_option maxRecDepth 8192 in
/-- What the stretch leaves in `main_v143`, of what it finds in the buffers read for it. -/
def pR1_f_v143 (v105 : (⟨S50000x64, .f32⟩ : BufTy).Contents (Elt F)) (v140 : (⟨S50000x64, .f32⟩ : BufTy).Contents (Elt F)) :
    (⟨S50000x64, .f32⟩ : BufTy).Contents (Elt F) :=
  maximumf (addf (v105) (v140)) (broadcastInDim S50000x64 ![] bcast_S_S50000x64 (constant S_ .f32 0x00000000#32))

set_option maxRecDepth 8192 in
theorem pR1_main_v143 (W : Valuation τ sig (Elt F)) :
    after pR1 W (Proc.devRef .tc main_v143) = pR1_f_v143 (W (Proc.devRef .tc main_v105)) (W (Proc.devRef .tc main_v140)) := by
  unfold pR1
  after_results_simp <;> (try simp only [TRef.toBuf, TRef.ofBuf, cast_eq, id]) <;> rfl

end Cert.ReferenceIdeal.HandRun

end
-- ==== Proof.RefRunL2a.lean ====
/- The run of the reference's @main, read in consecutive stretches: operations 172 … 254.
   Each stretch `p` is a literal list of consecutive operations of @main. Over an ARBITRARY valuation `W`:
   `p_frame` — a buffer outside `p_w` (the references the stretch writes) holds after the stretch what it held before;
   `p_main_vK` — a buffer the stretch hands on holds `p_f_vK` of what `W` holds at the buffers the stretch reads and does
   not itself write: the operations' functions composed in order, each intermediate buffer replaced by the term written to it. -/
import proofs.«122893_j59708635349187_2_alg».proof.Proof.RefRunBase
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 172 … 212 of @main, in order. -/
def pE : List (HloOp τ sig (Elt F)) :=
  [
    unary main_arg5 main_v144 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v144 main_v145 rfl shapeCasts_S1x64x64_S64x64,
    unary main_arg6 main_v146 ((extractStridedSlice S1x64 ![0, 0] · slices_S4x64_S1x64_0_0) : (⟨S4x64, .f32⟩ : BufTy).Contents (Elt F) → (⟨S1x64, .f32⟩ : BufTy).Contents (Elt F)),
    reshape main_v146 main_v147 rfl shapeCasts_S1x64_S64,
    unary main_arg7 main_v148 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v148 main_v149 rfl shapeCasts_S1x64x64_S64x64,
    unary main_arg12 main_v150 ((extractStridedSlice S1x1600000 ![0, 0] · slices_S2x1600000_S1x1600000_0_0) : (⟨S2x1600000, .i32⟩ : BufTy).Contents (Elt F) → (⟨S1x1600000, .i32⟩ : BufTy).Contents (Elt F)),
    reshape main_v150 main_v151 rfl shapeCasts_S1x1600000_S1600000,
    unary main_arg12 main_v152 ((extractStridedSlice S1x1600000 ![1, 0] · slices_S2x1600000_S1x1600000_1_0) : (⟨S2x1600000, .i32⟩ : BufTy).Contents (Elt F) → (⟨S1x1600000, .i32⟩ : BufTy).Contents (Elt F)),
    reshape main_v152 main_v153 rfl shapeCasts_S1x1600000_S1600000,
    nullary main_c_22 (constantI S_ 32 0#32),
    unary main_c_22 main_v154 (broadcastInDim S1600000 ![] bcast_S_S1600000 : (⟨S_, .i32⟩ : BufTy).Contents (Elt F) → (⟨S1600000, .i32⟩ : BufTy).Contents (Elt F)),
    binary main_v151 main_v154 main_v155 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 50000#32),
    unary main_c_23 main_v156 (broadcastInDim S1600000 ![] bcast_S_S1600000 : (⟨S_, .i32⟩ : BufTy).Contents (Elt F) → (⟨S1600000, .i32⟩ : BufTy).Contents (Elt F)),
    binary main_v151 main_v156 main_v157 (addi : (⟨S1600000, .i32⟩ : BufTy).Contents (Elt F) → (⟨S1600000, .i32⟩ : BufTy).Contents (Elt F) → (⟨S1600000, .i32⟩ : BufTy).Contents (Elt F)),
    ternary main_v155 main_v157 main_v151 main_v158 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v158 main_v159 (broadcastInDim S1600000x1 ![0] bcast_S1600000_S1600000x1_0 : (⟨S1600000, .i32⟩ : BufTy).Contents (Elt F) → (⟨S1600000x1, .i32⟩ : BufTy).Contents (Elt F)),
    binary main_v142 main_v159 main_v160 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_24 (constant S_ .f32 0x00000000#32),
    unary main_cst_24 main_v161 (broadcastInDim S50000x64 ![] bcast_S_S50000x64 : (⟨S_, .f32⟩ : BufTy).Contents (Elt F) → (⟨S50000x64, .f32⟩ : BufTy).Contents (Elt F)),
    unary main_v153 main_v162 (broadcastInDim S1600000x1 ![0] bcast_S1600000_S1600000x1_0 : (⟨S1600000, .i32⟩ : BufTy).Contents (Elt F) → (⟨S1600000x1, .i32⟩ : BufTy).Contents (Elt F)),
    ternary main_v161 main_v162 main_v160 main_v163 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_cst_25 (constant S_ .f32 0x3F800000#32),
    unary main_cst_25 main_v164 (broadcastInDim S1600000 ![] bcast_S_S1600000 : (⟨S_, .f32⟩ : BufTy).Contents (Elt F) → (⟨S1600000, .f32⟩ : BufTy).Contents (Elt F)),
    nullary main_cst_26 (constant S_ .f32 0x00000000#32),
    unary main_cst_26 main_v165 (broadcastInDim S50000 ![] bcast_S_S50000 : (⟨S_, .f32⟩ : BufTy).Contents (Elt F) → (⟨S50000, .f32⟩ : BufTy).Contents (Elt F)),
    unary main_v153 main_v166 (broadcastInDim S1600000x1 ![0] bcast_S1600000_S1600000x1_0 : (⟨S1600000, .i32⟩ : BufTy).Contents (Elt F) → (⟨S1600000x1, .i32⟩ : BufTy).Contents (Elt F)),
    ternary main_v165 main_v166 main_v164 main_v167 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_27 (constant S_ .f32 0x3F800000#32),
    unary main_cst_27 main_v168 (broadcastInDim S50000 ![] bcast_S_S50000 : (⟨S_, .f32⟩ : BufTy).Contents (Elt F) → (⟨S50000, .f32⟩ : BufTy).Contents (Elt F)),
    binary main_v167 main_v168 main_v169 (maximumf : (⟨S50000, .f32⟩ : BufTy).Contents (Elt F) → (⟨S50000, .f32⟩ : BufTy).Contents (Elt F) → (⟨S50000, .f32⟩ : BufTy).Contents (Elt F)),
    unary main_v169 main_v170 (broadcastInDim S50000x1 ![0] bcast_S50000_S50000x1_0 : (⟨S50000, .f32⟩ : BufTy).Contents (Elt F) → (⟨S50000x1, .f32⟩ : BufTy).Contents (Elt F)),
    unary main_v170 main_v171 (broadcastInDim S50000x64 ![0, 1] bcast_S50000x1_S50000x64_0_1 : (⟨S50000x1, .f32⟩ : BufTy).Contents (Elt F) → (⟨S50000x64, .f32⟩ : BufTy).Contents (Elt F)),
    binary main_v163 main_v171 main_v172 (Host.divf : (⟨S50000x64, .f32⟩ : BufTy).Contents (Elt F) → (⟨S50000x64, .f32⟩ : BufTy).Contents (Elt F) → (⟨S50000x64, .f32⟩ : BufTy).Contents (Elt F)),
    binary main_v172 main_v145 main_v173 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v147 main_v174 (broadcastInDim S1x64 ![1] bcast_S64_S1x64_1 : (⟨S64, .f32⟩ : BufTy).Contents (Elt F) → (⟨S1x64, .f32⟩ : BufTy).Contents (Elt F)),
    unary main_v174 main_v175 (broadcastInDim S50000x64 ![0, 1] bcast_S1x64_S50000x64_0_1 : (⟨S1x64, .f32⟩ : BufTy).Contents (Elt F) → (⟨S50000x64, .f32⟩ : BufTy).Contents (Elt F)),
    binary main_v173 main_v175 main_v176 (addf : (⟨S50000x64, .f32⟩ : BufTy).Contents (Elt F) → (⟨S50000x64, .f32⟩ : BufTy).Contents (Elt F) → (⟨S50000x64, .f32⟩ : BufTy).Contents (Elt F)),
    binary main_v142 main_v149 main_v177 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v176 main_v177 main_v178 (addf : (⟨S50000x64, .f32⟩ : BufTy).Contents (Elt F) → (⟨S50000x64, .f32⟩ : BufTy).Contents (Elt F) → (⟨S50000x64, .f32⟩ : BufTy).Contents (Elt F)) ]

/-- The references the stretch writes. -/
def pE_w : List (Ref sig .tc) :=
  [main_v144, main_v145, main_v146, main_v147, main_v148, main_v149, main_v150, main_v151, main_v152, main_v153, main_c_22, main_v154, main_v155, main_c_23, main_v156, main_v157, main_v158, main_v159, main_v160, main_cst_24, main_v161, main_v162, main_v163, main_cst_25, main_v164, main_cst_26, main_v165, main_v166, main_v167, main_cst_27, main_v168, main_v169, main_v170, main_v171, main_v172, main_v173, main_v174, main_v175, main_v176, main_v177, main_v178]

set_option maxRecDepth 8192 in
theorem pE_writes : (pE (F := F)).Forall fun op => op.writes ⊆ ((pE_w).map (Proc.devRef (τ := τ) .tc)).toFinset := by
  unfold pE
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pE_frame (W : Valuation τ sig (Elt F)) {r : Ref sig .tc} (hr : r ∉ pE_w) :
    after pE W (Proc.devRef .tc r) = W (Proc.devRef .tc r) :=
  after_of_writes_sub pE W pE_writes hr

/-- The stretch writes no argument. -/
theorem pE_args : ∀ r ∈ argRefs, r ∉ pE_w := by decide

set_option maxRecDepth 8192 in
/-- What the stretch leaves in `main_v178`, of what it finds in the buffers read for it. -/
def pE_f_v178 (a5 : (⟨S4x64x64, .f32⟩ : BufTy).Contents (Elt F)) (a6 : (⟨S4x64, .f32⟩ : BufTy).Contents (Elt F)) (a7 : (⟨S4x64x64, .f32⟩ : BufTy).Contents (Elt F)) (a12 : (⟨S2x1600000, .i32⟩ : BufTy).Contents (Elt F)) (v142 : (⟨S50000x64, .f32⟩ : BufTy).Contents (Elt F)) :
    (⟨S50000x64, .f32⟩ : BufTy).Contents (Elt F) :=
  addf (addf (Host.dotGeneral dot_S50000x64_S64x64_S50000x64_1_0_0_1_n_n none (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast _ (extractStridedSlice S1x1600000 ![1, 0] (a12) slices_S2x1600000_S1x1600000_1_0) shapeCasts_S1x1600000_S1600000)) (Host.gather gather_S50000x64_S1600000x1_S1600000x64_1_0_n_n_0_1_164 (v142) (broadcastInDim S1600000x1 ![0] bcast_S1600000_S1600000x1_0 (select (cmpi .slt (shapeCast _ (extractStridedSlice S1x1600000 ![0, 0] (a12) slices_S2x1600000_S1x1600000_0_0) shapeCasts_S1x1600000_S1600000) (broadcastInDim S1600000 ![] bcast_S_S1600000 (constantI S_ 32 0#32))) (addi (shapeCast _ (extractStridedSlice S1x1600000 ![0, 0] (a12) slices_S2x1600000_S1x1600000_0_0) shapeCasts_S1x1600000_S1600000) (broadcastInDim S1600000 ![] bcast_S_S1600000 (constantI S_ 32 50000#32))) (shapeCast _ (extractStridedSlice S1x1600000 ![0, 0] (a12) slices_S2x1600000_S1x1600000_0_0) shapeCasts_S1x1600000_S1600000))))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a12) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x64x64 ![0, 0, 0] (a5) slices_S4x64x64_S1x64x64_0_0_0) shapeCasts_S1x64x64_S64x64)) (broadcastInDim S50000x64 ![0, 1] bcast_S1x64_S50000x64_0_1 (broadcastInDim S1x64 ![1] bcast_S64_S1x64_1 (shapeCast _ (extractStridedSlice S1x64 ![0, 0] (a6) slices_S4x64_S1x64_0_0) shapeCasts_S1x64_S64)))) (Host.dotGeneral dot_S50000x64_S64x64_S50000x64_1_0_0_1_n_n none (v142) (shapeCast _ (extractStridedSlice S1x64x64 ![0, 0, 0] (a7) slices_S4x64x64_S1x64x64_0_0_0) shapeCasts_S1x64x64_S64x64))

set_option maxRecDepth 8192 in
set_option maxHeartbeats 400000 in
theorem pE_main_v178 (W : Valuation τ sig (Elt F)) :
    after pE W (Proc.devRef .tc main_v178) = pE_f_v178 (W (Proc.devRef .tc main_arg5)) (W (Proc.devRef .tc main_arg6)) (W (Proc.devRef .tc main_arg7)) (W (Proc.devRef .tc main_arg12)) (W (Proc.devRef .tc main_v142)) := by
  unfold pE
  after_results_simp <;> rfl

/-- Operations 213 … 253 of @main, in order. -/
def pF : List (HloOp τ sig (Elt F)) :=
  [
    unary main_arg5 main_v179 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v179 main_v180 rfl shapeCasts_S1x64x64_S64x64,
    unary main_arg6 main_v181 ((extractStridedSlice S1x64 ![2, 0] · slices_S4x64_S1x64_2_0) : (⟨S4x64, .f32⟩ : BufTy).Contents (Elt F) → (⟨S1x64, .f32⟩ : BufTy).Contents (Elt F)),
    reshape main_v181 main_v182 rfl shapeCasts_S1x64_S64,
    unary main_arg7 main_v183 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v183 main_v184 rfl shapeCasts_S1x64x64_S64x64,
    unary main_arg14 main_v185 ((extractStridedSlice S1x1600000 ![0, 0] · slices_S2x1600000_S1x1600000_0_0) : (⟨S2x1600000, .i32⟩ : BufTy).Contents (Elt F) → (⟨S1x1600000, .i32⟩ : BufTy).Contents (Elt F)),
    reshape main_v185 main_v186 rfl shapeCasts_S1x1600000_S1600000,
    unary main_arg14 main_v187 ((extractStridedSlice S1x1600000 ![1, 0] · slices_S2x1600000_S1x1600000_1_0) : (⟨S2x1600000, .i32⟩ : BufTy).Contents (Elt F) → (⟨S1x1600000, .i32⟩ : BufTy).Contents (Elt F)),
    reshape main_v187 main_v188 rfl shapeCasts_S1x1600000_S1600000,
    nullary main_c_28 (constantI S_ 32 0#32),
    unary main_c_28 main_v189 (broadcastInDim S1600000 ![] bcast_S_S1600000 : (⟨S_, .i32⟩ : BufTy).Contents (Elt F) → (⟨S1600000, .i32⟩ : BufTy).Contents (Elt F)),
    binary main_v186 main_v189 main_v190 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 50000#32),
    unary main_c_29 main_v191 (broadcastInDim S1600000 ![] bcast_S_S1600000 : (⟨S_, .i32⟩ : BufTy).Contents (Elt F) → (⟨S1600000, .i32⟩ : BufTy).Contents (Elt F)),
    binary main_v186 main_v191 main_v192 (addi : (⟨S1600000, .i32⟩ : BufTy).Contents (Elt F) → (⟨S1600000, .i32⟩ : BufTy).Contents (Elt F) → (⟨S1600000, .i32⟩ : BufTy).Contents (Elt F)),
    ternary main_v190 main_v192 main_v186 main_v193 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v193 main_v194 (broadcastInDim S1600000x1 ![0] bcast_S1600000_S1600000x1_0 : (⟨S1600000, .i32⟩ : BufTy).Contents (Elt F) → (⟨S1600000x1, .i32⟩ : BufTy).Contents (Elt F)),
    binary main_v143 main_v194 main_v195 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_30 (constant S_ .f32 0x00000000#32),
    unary main_cst_30 main_v196 (broadcastInDim S50000x64 ![] bcast_S_S50000x64 : (⟨S_, .f32⟩ : BufTy).Contents (Elt F) → (⟨S50000x64, .f32⟩ : BufTy).Contents (Elt F)),
    unary main_v188 main_v197 (broadcastInDim S1600000x1 ![0] bcast_S1600000_S1600000x1_0 : (⟨S1600000, .i32⟩ : BufTy).Contents (Elt F) → (⟨S1600000x1, .i32⟩ : BufTy).Contents (Elt F)),
    ternary main_v196 main_v197 main_v195 main_v198 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_cst_31 (constant S_ .f32 0x3F800000#32),
    unary main_cst_31 main_v199 (broadcastInDim S1600000 ![] bcast_S_S1600000 : (⟨S_, .f32⟩ : BufTy).Contents (Elt F) → (⟨S1600000, .f32⟩ : BufTy).Contents (Elt F)),
    nullary main_cst_32 (constant S_ .f32 0x00000000#32),
    unary main_cst_32 main_v200 (broadcastInDim S50000 ![] bcast_S_S50000 : (⟨S_, .f32⟩ : BufTy).Contents (Elt F) → (⟨S50000, .f32⟩ : BufTy).Contents (Elt F)),
    unary main_v188 main_v201 (broadcastInDim S1600000x1 ![0] bcast_S1600000_S1600000x1_0 : (⟨S1600000, .i32⟩ : BufTy).Contents (Elt F) → (⟨S1600000x1, .i32⟩ : BufTy).Contents (Elt F)),
    ternary main_v200 main_v201 main_v199 main_v202 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_33 (constant S_ .f32 0x3F800000#32),
    unary main_cst_33 main_v203 (broadcastInDim S50000 ![] bcast_S_S50000 : (⟨S_, .f32⟩ : BufTy).Contents (Elt F) → (⟨S50000, .f32⟩ : BufTy).Contents (Elt F)),
    binary main_v202 main_v203 main_v204 (maximumf : (⟨S50000, .f32⟩ : BufTy).Contents (Elt F) → (⟨S50000, .f32⟩ : BufTy).Contents (Elt F) → (⟨S50000, .f32⟩ : BufTy).Contents (Elt F)),
    unary main_v204 main_v205 (broadcastInDim S50000x1 ![0] bcast_S50000_S50000x1_0 : (⟨S50000, .f32⟩ : BufTy).Contents (Elt F) → (⟨S50000x1, .f32⟩ : BufTy).Contents (Elt F)),
    unary main_v205 main_v206 (broadcastInDim S50000x64 ![0, 1] bcast_S50000x1_S50000x64_0_1 : (⟨S50000x1, .f32⟩ : BufTy).Contents (Elt F) → (⟨S50000x64, .f32⟩ : BufTy).Contents (Elt F)),
    binary main_v198 main_v206 main_v207 (Host.divf : (⟨S50000x64, .f32⟩ : BufTy).Contents (Elt F) → (⟨S50000x64, .f32⟩ : BufTy).Contents (Elt F) → (⟨S50000x64, .f32⟩ : BufTy).Contents (Elt F)),
    binary main_v207 main_v180 main_v208 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v182 main_v209 (broadcastInDim S1x64 ![1] bcast_S64_S1x64_1 : (⟨S64, .f32⟩ : BufTy).Contents (Elt F) → (⟨S1x64, .f32⟩ : BufTy).Contents (Elt F)),
    unary main_v209 main_v210 (broadcastInDim S50000x64 ![0, 1] bcast_S1x64_S50000x64_0_1 : (⟨S1x64, .f32⟩ : BufTy).Contents (Elt F) → (⟨S50000x64, .f32⟩ : BufTy).Contents (Elt F)),
    binary main_v208 main_v210 main_v211 (addf : (⟨S50000x64, .f32⟩ : BufTy).Contents (Elt F) → (⟨S50000x64, .f32⟩ : BufTy).Contents (Elt F) → (⟨S50000x64, .f32⟩ : BufTy).Contents (Elt F)),
    binary main_v142 main_v184 main_v212 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v211 main_v212 main_v213 (addf : (⟨S50000x64, .f32⟩ : BufTy).Contents (Elt F) → (⟨S50000x64, .f32⟩ : BufTy).Contents (Elt F) → (⟨S50000x64, .f32⟩ : BufTy).Contents (Elt F)) ]

/-- The references the stretch writes. -/
def pF_w : List (Ref sig .tc) :=
  [main_v179, main_v180, main_v181, main_v182, main_v183, main_v184, main_v185, main_v186, main_v187, main_v188, main_c_28, main_v189, main_v190, main_c_29, main_v191, main_v192, main_v193, main_v194, main_v195, main_cst_30, main_v196, main_v197, main_v198, main_cst_31, main_v199, main_cst_32, main_v200, main_v201, main_v202, main_cst_33, main_v203, main_v204, main_v205, main_v206, main_v207, main_v208, main_v209, main_v210, main_v211, main_v212, main_v213]

set_option maxRecDepth 8192 in
theorem pF_writes : (pF (F := F)).Forall fun op => op.writes ⊆ ((pF_w).map (Proc.devRef (τ := τ) .tc)).toFinset := by
  unfold pF
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pF_frame (W : Valuation τ sig (Elt F)) {r : Ref sig .tc} (hr : r ∉ pF_w) :
    after pF W (Proc.devRef .tc r) = W (Proc.devRef .tc r) :=
  after_of_writes_sub pF W pF_writes hr

/-- The stretch writes no argument. -/
theorem pF_args : ∀ r ∈ argRefs, r ∉ pF_w := by decide

set_option maxRecDepth 8192 in
/-- What the stretch leaves in `main_v213`, of what it finds in the buffers read for it. -/
def pF_f_v213 (a5 : (⟨S4x64x64, .f32⟩ : BufTy).Contents (Elt F)) (a6 : (⟨S4x64, .f32⟩ : BufTy).Contents (Elt F)) (a7 : (⟨S4x64x64, .f32⟩ : BufTy).Contents (Elt F)) (a14 : (⟨S2x1600000, .i32⟩ : BufTy).Contents (Elt F)) (v142 : (⟨S50000x64, .f32⟩ : BufTy).Contents (Elt F)) (v143 : (⟨S50000x64, .f32⟩ : BufTy).Contents (Elt F)) :
    (⟨S50000x64, .f32⟩ : BufTy).Contents (Elt F) :=
  addf (addf (Host.dotGeneral dot_S50000x64_S64x64_S50000x64_1_0_0_1_n_n none (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast _ (extractStridedSlice S1x1600000 ![1, 0] (a14) slices_S2x1600000_S1x1600000_1_0) shapeCasts_S1x1600000_S1600000)) (Host.gather gather_S50000x64_S1600000x1_S1600000x64_1_0_n_n_0_1_164 (v143) (broadcastInDim S1600000x1 ![0] bcast_S1600000_S1600000x1_0 (select (cmpi .slt (shapeCast _ (extractStridedSlice S1x1600000 ![0, 0] (a14) slices_S2x1600000_S1x1600000_0_0) shapeCasts_S1x1600000_S1600000) (broadcastInDim S1600000 ![] bcast_S_S1600000 (constantI S_ 32 0#32))) (addi (shapeCast _ (extractStridedSlice S1x1600000 ![0, 0] (a14) slices_S2x1600000_S1x1600000_0_0) shapeCasts_S1x1600000_S1600000) (broadcastInDim S1600000 ![] bcast_S_S1600000 (constantI S_ 32 50000#32))) (shapeCast _ (extractStridedSlice S1x1600000 ![0, 0] (a14) slices_S2x1600000_S1x1600000_0_0) shapeCasts_S1x1600000_S1600000))))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a14) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x64x64 ![2, 0, 0] (a5) slices_S4x64x64_S1x64x64_2_0_0) shapeCasts_S1x64x64_S64x64)) (broadcastInDim S50000x64 ![0, 1] bcast_S1x64_S50000x64_0_1 (broadcastInDim S1x64 ![1] bcast_S64_S1x64_1 (shapeCast _ (extractStridedSlice S1x64 ![2, 0] (a6) slices_S4x64_S1x64_2_0) shapeCasts_S1x64_S64)))) (Host.dotGeneral dot_S50000x64_S64x64_S50000x64_1_0_0_1_n_n none (v142) (shapeCast _ (extractStridedSlice S1x64x64 ![2, 0, 0] (a7) slices_S4x64x64_S1x64x64_2_0_0) shapeCasts_S1x64x64_S64x64))

set_option maxRecDepth 8192 in
set_option maxHeartbeats 400000 in
theorem pF_main_v213 (W : Valuation τ sig (Elt F)) :
    after pF W (Proc.devRef .tc main_v213) = pF_f_v213 (W (Proc.devRef .tc main_arg5)) (W (Proc.devRef .tc main_arg6)) (W (Proc.devRef .tc main_arg7)) (W (Proc.devRef .tc main_arg14)) (W (Proc.devRef .tc main_v142)) (W (Proc.devRef .tc main_v143)) := by
  unfold pF
  after_results_simp <;> rfl

/-- Operations 254 … 254 of @main, in order. -/
def pEF : List (HloOp τ sig (Elt F)) :=
  [
    binary main_v178 main_v213 main_v214 (addf : (⟨S50000x64, .f32⟩ : BufTy).Contents (Elt F) → (⟨S50000x64, .f32⟩ : BufTy).Contents (Elt F) → (⟨S50000x64, .f32⟩ : BufTy).Contents (Elt F)) ]

/-- The references the stretch writes. -/
def pEF_w : List (Ref sig .tc) :=
  [main_v214]

set_option maxRecDepth 8192 in
theorem pEF_writes : (pEF (F := F)).Forall fun op => op.writes ⊆ ((pEF_w).map (Proc.devRef (τ := τ) .tc)).toFinset := by
  unfold pEF
  exact sub_of_mem (by decide)

/-- A buffer the stretch does not write is carried across it. -/
theorem pEF_frame (W : Valuation τ sig (Elt F)) {r : Ref sig .tc} (hr : r ∉ pEF_w) :
    after pEF W (Proc.devRef .tc r) = W (Proc.devRef .tc r) :=
  after_of_writes_sub pEF W pEF_writes hr

/-- The stretch writes no argument. -/
theorem pEF_args : ∀ r ∈ argRefs, r ∉ pEF_w := by decide

set_option maxRecDepth 8192 in
/-- What the stretch leaves in `main_v214`, of what it finds in the buffers read for it. -/
def pEF_f_v214 (v178 : (⟨S50000x64, .f32⟩ : BufTy).Contents (Elt F)) (v213 : (⟨S50000x64, .f32⟩ : BufTy).Contents (Elt F)) :
    (⟨S50000x64, .f32⟩ : BufTy).Contents (Elt F) :=
  addf (v178) (v213)

set_option maxRecDepth 8192 in
theorem pEF_main_v214 (W : Valuation τ sig (Elt F)) :
    after pEF W (Proc.devRef .tc main_v214) = pEF_f_v214 (W (Proc.devRef .tc main_v178)) (W (Proc.devRef .tc main_v213)) := by
  unfold pEF
  after_results_simp <;> rfl

end Cert.ReferenceIdeal.HandRun

end
-- ==== Proof.RefRunL2b.lean ====
/- The run of the reference's @main, read in consecutive stretches: operations 255 … 351.
   Each stretch `p` is a literal list of consecutive operations of @main. Over an ARBITRARY valuation `W`:
   `p_frame` — a buffer outside `p_w` (the references the stretch writes) holds after the stretch what it held before;
   `p_main_vK` — a buffer the stretch hands on holds `p_f_vK` of what `W` holds at the buffers the stretch reads and does
   not itself write: the operations' functions composed in order, each intermediate buffer replaced by the term written to it. -/
import proofs.«122893_j59708635349187_2_alg».proof.Proof.RefRunBase
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 255 … 295 of @main, in order. -/
def pG : List (HloOp τ sig (Elt F)) :=
  [
    unary main_arg5 main_v215 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v215 main_v216 rfl shapeCasts_S1x64x64_S64x64,
    unary main_arg6 main_v217 ((extractStridedSlice S1x64 ![1, 0] · slices_S4x64_S1x64_1_0) : (⟨S4x64, .f32⟩ : BufTy).Contents (Elt F) → (⟨S1x64, .f32⟩ : BufTy).Contents (Elt F)),
    reshape main_v217 main_v218 rfl shapeCasts_S1x64_S64,
    unary main_arg7 main_v219 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v219 main_v220 rfl shapeCasts_S1x64x64_S64x64,
    unary main_arg13 main_v221 ((extractStridedSlice S1x1600000 ![0, 0] · slices_S2x1600000_S1x1600000_0_0) : (⟨S2x1600000, .i32⟩ : BufTy).Contents (Elt F) → (⟨S1x1600000, .i32⟩ : BufTy).Contents (Elt F)),
    reshape main_v221 main_v222 rfl shapeCasts_S1x1600000_S1600000,
    unary main_arg13 main_v223 ((extractStridedSlice S1x1600000 ![1, 0] · slices_S2x1600000_S1x1600000_1_0) : (⟨S2x1600000, .i32⟩ : BufTy).Contents (Elt F) → (⟨S1x1600000, .i32⟩ : BufTy).Contents (Elt F)),
    reshape main_v223 main_v224 rfl shapeCasts_S1x1600000_S1600000,
    nullary main_c_34 (constantI S_ 32 0#32),
    unary main_c_34 main_v225 (broadcastInDim S1600000 ![] bcast_S_S1600000 : (⟨S_, .i32⟩ : BufTy).Contents (Elt F) → (⟨S1600000, .i32⟩ : BufTy).Contents (Elt F)),
    binary main_v222 main_v225 main_v226 (cmpi .slt : (⟨S1600000, .i32⟩ : BufTy).Contents (Elt F) → (⟨S1600000, .i32⟩ : BufTy).Contents (Elt F) → (⟨S1600000, .i1⟩ : BufTy).Contents (Elt F)),
    nullary main_c_35 (constantI S_ 32 50000#32),
    unary main_c_35 main_v227 (broadcastInDim S1600000 ![] bcast_S_S1600000 : (⟨S_, .i32⟩ : BufTy).Contents (Elt F) → (⟨S1600000, .i32⟩ : BufTy).Contents (Elt F)),
    binary main_v222 main_v227 main_v228 (addi : (⟨S1600000, .i32⟩ : BufTy).Contents (Elt F) → (⟨S1600000, .i32⟩ : BufTy).Contents (Elt F) → (⟨S1600000, .i32⟩ : BufTy).Contents (Elt F)),
    ternary main_v226 main_v228 main_v222 main_v229 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v229 main_v230 (broadcastInDim S1600000x1 ![0] bcast_S1600000_S1600000x1_0 : (⟨S1600000, .i32⟩ : BufTy).Contents (Elt F) → (⟨S1600000x1, .i32⟩ : BufTy).Contents (Elt F)),
    binary main_v142 main_v230 main_v231 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_36 (constant S_ .f32 0x00000000#32),
    unary main_cst_36 main_v232 (broadcastInDim S50000x64 ![] bcast_S_S50000x64 : (⟨S_, .f32⟩ : BufTy).Contents (Elt F) → (⟨S50000x64, .f32⟩ : BufTy).Contents (Elt F)),
    unary main_v224 main_v233 (broadcastInDim S1600000x1 ![0] bcast_S1600000_S1600000x1_0 : (⟨S1600000, .i32⟩ : BufTy).Contents (Elt F) → (⟨S1600000x1, .i32⟩ : BufTy).Contents (Elt F)),
    ternary main_v232 main_v233 main_v231 main_v234 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_cst_37 (constant S_ .f32 0x3F800000#32),
    unary main_cst_37 main_v235 (broadcastInDim S1600000 ![] bcast_S_S1600000 : (⟨S_, .f32⟩ : BufTy).Contents (Elt F) → (⟨S1600000, .f32⟩ : BufTy).Contents (Elt F)),
    nullary main_cst_38 (constant S_ .f32 0x00000000#32),
    unary main_cst_38 main_v236 (broadcastInDim S50000 ![] bcast_S_S50000 : (⟨S_, .f32⟩ : BufTy).Contents (Elt F) → (⟨S50000, .f32⟩ : BufTy).Contents (Elt F)),
    unary main_v224 main_v237 (broadcastInDim S1600000x1 ![0] bcast_S1600000_S1600000x1_0 : (⟨S1600000, .i32⟩ : BufTy).Contents (Elt F) → (⟨S1600000x1, .i32⟩ : BufTy).Contents (Elt F)),
    ternary main_v236 main_v237 main_v235 main_v238 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_39 (constant S_ .f32 0x3F800000#32),
    unary main_cst_39 main_v239 (broadcastInDim S50000 ![] bcast_S_S50000 : (⟨S_, .f32⟩ : BufTy).Contents (Elt F) → (⟨S50000, .f32⟩ : BufTy).Contents (Elt F)),
    binary main_v238 main_v239 main_v240 (maximumf : (⟨S50000, .f32⟩ : BufTy).Contents (Elt F) → (⟨S50000, .f32⟩ : BufTy).Contents (Elt F) → (⟨S50000, .f32⟩ : BufTy).Contents (Elt F)),
    unary main_v240 main_v241 (broadcastInDim S50000x1 ![0] bcast_S50000_S50000x1_0 : (⟨S50000, .f32⟩ : BufTy).Contents (Elt F) → (⟨S50000x1, .f32⟩ : BufTy).Contents (Elt F)),
    unary main_v241 main_v242 (broadcastInDim S50000x64 ![0, 1] bcast_S50000x1_S50000x64_0_1 : (⟨S50000x1, .f32⟩ : BufTy).Contents (Elt F) → (⟨S50000x64, .f32⟩ : BufTy).Contents (Elt F)),
    binary main_v234 main_v242 main_v243 (Host.divf : (⟨S50000x64, .f32⟩ : BufTy).Contents (Elt F) → (⟨S50000x64, .f32⟩ : BufTy).Contents (Elt F) → (⟨S50000x64, .f32⟩ : BufTy).Contents (Elt F)),
    binary main_v243 main_v216 main_v244 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v218 main_v245 (broadcastInDim S1x64 ![1] bcast_S64_S1x64_1 : (⟨S64, .f32⟩ : BufTy).Contents (Elt F) → (⟨S1x64, .f32⟩ : BufTy).Contents (Elt F)),
    unary main_v245 main_v246 (broadcastInDim S50000x64 ![0, 1] bcast_S1x64_S50000x64_0_1 : (⟨S1x64, .f32⟩ : BufTy).Contents (Elt F) → (⟨S50000x64, .f32⟩ : BufTy).Contents (Elt F)),
    binary main_v244 main_v246 main_v247 (addf : (⟨S50000x64, .f32⟩ : BufTy).Contents (Elt F) → (⟨S50000x64, .f32⟩ : BufTy).Contents (Elt F) → (⟨S50000x64, .f32⟩ : BufTy).Contents (Elt F)),
    binary main_v143 main_v220 main_v248 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v247 main_v248 main_v249 (addf : (⟨S50000x64, .f32⟩ : BufTy).Contents (Elt F) → (⟨S50000x64, .f32⟩ : BufTy).Contents (Elt F) → (⟨S50000x64, .f32⟩ : BufTy).Contents (Elt F)) ]

/-- The references the stretch writes. -/
def pG_w : List (Ref sig .tc) :=
  [main_v215, main_v216, main_v217, main_v218, main_v219, main_v220, main_v221, main_v222, main_v223, main_v224, main_c_34, main_v225, main_v226, main_c_35, main_v227, main_v228, main_v229, main_v230, main_v231, main_cst_36, main_v232, main_v233, main_v234, main_cst_37, main_v235, main_cst_38, main_v236, main_v237, main_v238, main_cst_39, main_v239, main_v240, main_v241, main_v242, main_v243, main_v244, main_v245, main_v246, main_v247, main_v248, main_v249]

set_option maxRecDepth 8192 in
theorem pG_writes : (pG (F := F)).Forall fun op => op.writes ⊆ ((pG_w).map (Proc.devRef (τ := τ) .tc)).toFinset := by
  unfold pG
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pG_frame (W : Valuation τ sig (Elt F)) {r : Ref sig .tc} (hr : r ∉ pG_w) :
    after pG W (Proc.devRef .tc r) = W (Proc.devRef .tc r) :=
  after_of_writes_sub pG W pG_writes hr

/-- The stretch writes no argument. -/
theorem pG_args : ∀ r ∈ argRefs, r ∉ pG_w := by decide

set_option maxRecDepth 8192 in
/-- What the stretch leaves in `main_v249`, of what it finds in the buffers read for it. -/
def pG_f_v249 (a5 : (⟨S4x64x64, .f32⟩ : BufTy).Contents (Elt F)) (a6 : (⟨S4x64, .f32⟩ : BufTy).Contents (Elt F)) (a7 : (⟨S4x64x64, .f32⟩ : BufTy).Contents (Elt F)) (a13 : (⟨S2x1600000, .i32⟩ : BufTy).Contents (Elt F)) (v142 : (⟨S50000x64, .f32⟩ : BufTy).Contents (Elt F)) (v143 : (⟨S50000x64, .f32⟩ : BufTy).Contents (Elt F)) :
    (⟨S50000x64, .f32⟩ : BufTy).Contents (Elt F) :=
  addf (addf (Host.dotGeneral dot_S50000x64_S64x64_S50000x64_1_0_0_1_n_n none (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast _ (extractStridedSlice S1x1600000 ![1, 0] (a13) slices_S2x1600000_S1x1600000_1_0) shapeCasts_S1x1600000_S1600000)) (Host.gather gather_S50000x64_S1600000x1_S1600000x64_1_0_n_n_0_1_164 (v142) (broadcastInDim S1600000x1 ![0] bcast_S1600000_S1600000x1_0 (select (cmpi .slt (shapeCast _ (extractStridedSlice S1x1600000 ![0, 0] (a13) slices_S2x1600000_S1x1600000_0_0) shapeCasts_S1x1600000_S1600000) (broadcastInDim S1600000 ![] bcast_S_S1600000 (constantI S_ 32 0#32))) (addi (shapeCast _ (extractStridedSlice S1x1600000 ![0, 0] (a13) slices_S2x1600000_S1x1600000_0_0) shapeCasts_S1x1600000_S1600000) (broadcastInDim S1600000 ![] bcast_S_S1600000 (constantI S_ 32 50000#32))) (shapeCast _ (extractStridedSlice S1x1600000 ![0, 0] (a13) slices_S2x1600000_S1x1600000_0_0) shapeCasts_S1x1600000_S1600000))))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a13) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x64x64 ![1, 0, 0] (a5) slices_S4x64x64_S1x64x64_1_0_0) shapeCasts_S1x64x64_S64x64)) (broadcastInDim S50000x64 ![0, 1] bcast_S1x64_S50000x64_0_1 (broadcastInDim S1x64 ![1] bcast_S64_S1x64_1 (shapeCast _ (extractStridedSlice S1x64 ![1, 0] (a6) slices_S4x64_S1x64_1_0) shapeCasts_S1x64_S64)))) (Host.dotGeneral dot_S50000x64_S64x64_S50000x64_1_0_0_1_n_n none (v143) (shapeCast _ (extractStridedSlice S1x64x64 ![1, 0, 0] (a7) slices_S4x64x64_S1x64x64_1_0_0) shapeCasts_S1x64x64_S64x64))

set_option maxRecDepth 8192 in
set_option maxHeartbeats 400000 in
theorem pG_main_v249 (W : Valuation τ sig (Elt F)) :
    after pG W (Proc.devRef .tc main_v249) = pG_f_v249 (W (Proc.devRef .tc main_arg5)) (W (Proc.devRef .tc main_arg6)) (W (Proc.devRef .tc main_arg7)) (W (Proc.devRef .tc main_arg13)) (W (Proc.devRef .tc main_v142)) (W (Proc.devRef .tc main_v143)) := by
  unfold pG
  after_results_simp <;> rfl

/-- Operations 296 … 336 of @main, in order. -/
def pH : List (HloOp τ sig (Elt F)) :=
  [
    unary main_arg5 main_v250 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v250 main_v251 rfl shapeCasts_S1x64x64_S64x64,
    unary main_arg6 main_v252 ((extractStridedSlice S1x64 ![3, 0] · slices_S4x64_S1x64_3_0) : (⟨S4x64, .f32⟩ : BufTy).Contents (Elt F) → (⟨S1x64, .f32⟩ : BufTy).Contents (Elt F)),
    reshape main_v252 main_v253 rfl shapeCasts_S1x64_S64,
    unary main_arg7 main_v254 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v254 main_v255 rfl shapeCasts_S1x64x64_S64x64,
    unary main_arg15 main_v256 ((extractStridedSlice S1x1600000 ![0, 0] · slices_S2x1600000_S1x1600000_0_0) : (⟨S2x1600000, .i32⟩ : BufTy).Contents (Elt F) → (⟨S1x1600000, .i32⟩ : BufTy).Contents (Elt F)),
    reshape main_v256 main_v257 rfl shapeCasts_S1x1600000_S1600000,
    unary main_arg15 main_v258 ((extractStridedSlice S1x1600000 ![1, 0] · slices_S2x1600000_S1x1600000_1_0) : (⟨S2x1600000, .i32⟩ : BufTy).Contents (Elt F) → (⟨S1x1600000, .i32⟩ : BufTy).Contents (Elt F)),
    reshape main_v258 main_v259 rfl shapeCasts_S1x1600000_S1600000,
    nullary main_c_40 (constantI S_ 32 0#32),
    unary main_c_40 main_v260 (broadcastInDim S1600000 ![] bcast_S_S1600000 : (⟨S_, .i32⟩ : BufTy).Contents (Elt F) → (⟨S1600000, .i32⟩ : BufTy).Contents (Elt F)),
    binary main_v257 main_v260 main_v261 (cmpi .slt : (⟨S1600000, .i32⟩ : BufTy).Contents (Elt F) → (⟨S1600000, .i32⟩ : BufTy).Contents (Elt F) → (⟨S1600000, .i1⟩ : BufTy).Contents (Elt F)),
    nullary main_c_41 (constantI S_ 32 50000#32),
    unary main_c_41 main_v262 (broadcastInDim S1600000 ![] bcast_S_S1600000 : (⟨S_, .i32⟩ : BufTy).Contents (Elt F) → (⟨S1600000, .i32⟩ : BufTy).Contents (Elt F)),
    binary main_v257 main_v262 main_v263 (addi : (⟨S1600000, .i32⟩ : BufTy).Contents (Elt F) → (⟨S1600000, .i32⟩ : BufTy).Contents (Elt F) → (⟨S1600000, .i32⟩ : BufTy).Contents (Elt F)),
    ternary main_v261 main_v263 main_v257 main_v264 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v264 main_v265 (broadcastInDim S1600000x1 ![0] bcast_S1600000_S1600000x1_0 : (⟨S1600000, .i32⟩ : BufTy).Contents (Elt F) → (⟨S1600000x1, .i32⟩ : BufTy).Contents (Elt F)),
    binary main_v143 main_v265 main_v266 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_42 (constant S_ .f32 0x00000000#32),
    unary main_cst_42 main_v267 (broadcastInDim S50000x64 ![] bcast_S_S50000x64 : (⟨S_, .f32⟩ : BufTy).Contents (Elt F) → (⟨S50000x64, .f32⟩ : BufTy).Contents (Elt F)),
    unary main_v259 main_v268 (broadcastInDim S1600000x1 ![0] bcast_S1600000_S1600000x1_0 : (⟨S1600000, .i32⟩ : BufTy).Contents (Elt F) → (⟨S1600000x1, .i32⟩ : BufTy).Contents (Elt F)),
    ternary main_v267 main_v268 main_v266 main_v269 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_cst_43 (constant S_ .f32 0x3F800000#32),
    unary main_cst_43 main_v270 (broadcastInDim S1600000 ![] bcast_S_S1600000 : (⟨S_, .f32⟩ : BufTy).Contents (Elt F) → (⟨S1600000, .f32⟩ : BufTy).Contents (Elt F)),
    nullary main_cst_44 (constant S_ .f32 0x00000000#32),
    unary main_cst_44 main_v271 (broadcastInDim S50000 ![] bcast_S_S50000 : (⟨S_, .f32⟩ : BufTy).Contents (Elt F) → (⟨S50000, .f32⟩ : BufTy).Contents (Elt F)),
    unary main_v259 main_v272 (broadcastInDim S1600000x1 ![0] bcast_S1600000_S1600000x1_0 : (⟨S1600000, .i32⟩ : BufTy).Contents (Elt F) → (⟨S1600000x1, .i32⟩ : BufTy).Contents (Elt F)),
    ternary main_v271 main_v272 main_v270 main_v273 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_45 (constant S_ .f32 0x3F800000#32),
    unary main_cst_45 main_v274 (broadcastInDim S50000 ![] bcast_S_S50000 : (⟨S_, .f32⟩ : BufTy).Contents (Elt F) → (⟨S50000, .f32⟩ : BufTy).Contents (Elt F)),
    binary main_v273 main_v274 main_v275 (maximumf : (⟨S50000, .f32⟩ : BufTy).Contents (Elt F) → (⟨S50000, .f32⟩ : BufTy).Contents (Elt F) → (⟨S50000, .f32⟩ : BufTy).Contents (Elt F)),
    unary main_v275 main_v276 (broadcastInDim S50000x1 ![0] bcast_S50000_S50000x1_0 : (⟨S50000, .f32⟩ : BufTy).Contents (Elt F) → (⟨S50000x1, .f32⟩ : BufTy).Contents (Elt F)),
    unary main_v276 main_v277 (broadcastInDim S50000x64 ![0, 1] bcast_S50000x1_S50000x64_0_1 : (⟨S50000x1, .f32⟩ : BufTy).Contents (Elt F) → (⟨S50000x64, .f32⟩ : BufTy).Contents (Elt F)),
    binary main_v269 main_v277 main_v278 (Host.divf : (⟨S50000x64, .f32⟩ : BufTy).Contents (Elt F) → (⟨S50000x64, .f32⟩ : BufTy).Contents (Elt F) → (⟨S50000x64, .f32⟩ : BufTy).Contents (Elt F)),
    binary main_v278 main_v251 main_v279 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v253 main_v280 (broadcastInDim S1x64 ![1] bcast_S64_S1x64_1 : (⟨S64, .f32⟩ : BufTy).Contents (Elt F) → (⟨S1x64, .f32⟩ : BufTy).Contents (Elt F)),
    unary main_v280 main_v281 (broadcastInDim S50000x64 ![0, 1] bcast_S1x64_S50000x64_0_1 : (⟨S1x64, .f32⟩ : BufTy).Contents (Elt F) → (⟨S50000x64, .f32⟩ : BufTy).Contents (Elt F)),
    binary main_v279 main_v281 main_v282 (addf : (⟨S50000x64, .f32⟩ : BufTy).Contents (Elt F) → (⟨S50000x64, .f32⟩ : BufTy).Contents (Elt F) → (⟨S50000x64, .f32⟩ : BufTy).Contents (Elt F)),
    binary main_v143 main_v255 main_v283 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v282 main_v283 main_v284 (addf : (⟨S50000x64, .f32⟩ : BufTy).Contents (Elt F) → (⟨S50000x64, .f32⟩ : BufTy).Contents (Elt F) → (⟨S50000x64, .f32⟩ : BufTy).Contents (Elt F)) ]

/-- The references the stretch writes. -/
def pH_w : List (Ref sig .tc) :=
  [main_v250, main_v251, main_v252, main_v253, main_v254, main_v255, main_v256, main_v257, main_v258, main_v259, main_c_40, main_v260, main_v261, main_c_41, main_v262, main_v263, main_v264, main_v265, main_v266, main_cst_42, main_v267, main_v268, main_v269, main_cst_43, main_v270, main_cst_44, main_v271, main_v272, main_v273, main_cst_45, main_v274, main_v275, main_v276, main_v277, main_v278, main_v279, main_v280, main_v281, main_v282, main_v283, main_v284]

set_option maxRecDepth 8192 in
theorem pH_writes : (pH (F := F)).Forall fun op => op.writes ⊆ ((pH_w).map (Proc.devRef (τ := τ) .tc)).toFinset := by
  unfold pH
  exact ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pH_frame (W : Valuation τ sig (Elt F)) {r : Ref sig .tc} (hr : r ∉ pH_w) :
    after pH W (Proc.devRef .tc r) = W (Proc.devRef .tc r) :=
  after_of_writes_sub pH W pH_writes hr

/-- The stretch writes no argument. -/
theorem pH_args : ∀ r ∈ argRefs, r ∉ pH_w := by decide

set_option maxRecDepth 8192 in
/-- What the stretch leaves in `main_v284`, of what it finds in the buffers read for it. -/
def pH_f_v284 (a5 : (⟨S4x64x64, .f32⟩ : BufTy).Contents (Elt F)) (a6 : (⟨S4x64, .f32⟩ : BufTy).Contents (Elt F)) (a7 : (⟨S4x64x64, .f32⟩ : BufTy).Contents (Elt F)) (a15 : (⟨S2x1600000, .i32⟩ : BufTy).Contents (Elt F)) (v143 : (⟨S50000x64, .f32⟩ : BufTy).Contents (Elt F)) :
    (⟨S50000x64, .f32⟩ : BufTy).Contents (Elt F) :=
  addf (addf (Host.dotGeneral dot_S50000x64_S64x64_S50000x64_1_0_0_1_n_n none (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (shapeCast _ (extractStridedSlice S1x1600000 ![1, 0] (a15) slices_S2x1600000_S1x1600000_1_0) shapeCasts_S1x1600000_S1600000)) (Host.gather gather_S50000x64_S1600000x1_S1600000x64_1_0_n_n_0_1_164 (v143) (broadcastInDim S1600000x1 ![0] bcast_S1600000_S1600000x1_0 (select (cmpi .slt (shapeCast _ (extractStridedSlice S1x1600000 ![0, 0] (a15) slices_S2x1600000_S1x1600000_0_0) shapeCasts_S1x1600000_S1600000) (broadcastInDim S1600000 ![] bcast_S_S1600000 (constantI S_ 32 0#32))) (addi (shapeCast _ (extractStridedSlice S1x1600000 ![0, 0] (a15) slices_S2x1600000_S1x1600000_0_0) shapeCasts_S1x1600000_S1600000) (broadcastInDim S1600000 ![] bcast_S_S1600000 (constantI S_ 32 50000#32))) (shapeCast _ (extractStridedSlice S1x1600000 ![0, 0] (a15) slices_S2x1600000_S1x1600000_0_0) shapeCasts_S1x1600000_S1600000))))) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![1, 0] (a15) slices_S2x1600000_S1x1600000_1_0) shapeCasts_S1x1600000_S1600000)) (broadcastInDim S1600000 ![] bcast_S_S1600000 (constant S_ .f32 0x3F800000#32))) (broadcastInDim S50000 ![] bcast_S_S50000 (constant S_ .f32 0x3F800000#32)))))) (shapeCast _ (extractStridedSlice S1x64x64 ![3, 0, 0] (a5) slices_S4x64x64_S1x64x64_3_0_0) shapeCasts_S1x64x64_S64x64)) (broadcastInDim S50000x64 ![0, 1] bcast_S1x64_S50000x64_0_1 (broadcastInDim S1x64 ![1] bcast_S64_S1x64_1 (shapeCast _ (extractStridedSlice S1x64 ![3, 0] (a6) slices_S4x64_S1x64_3_0) shapeCasts_S1x64_S64)))) (Host.dotGeneral dot_S50000x64_S64x64_S50000x64_1_0_0_1_n_n none (v143) (shapeCast _ (extractStridedSlice S1x64x64 ![3, 0, 0] (a7) slices_S4x64x64_S1x64x64_3_0_0) shapeCasts_S1x64x64_S64x64))

set_option maxRecDepth 8192 in
set_option maxHeartbeats 400000 in
theorem pH_main_v284 (W : Valuation τ sig (Elt F)) :
    after pH W (Proc.devRef .tc main_v284) = pH_f_v284 (W (Proc.devRef .tc main_arg5)) (W (Proc.devRef .tc main_arg6)) (W (Proc.devRef .tc main_arg7)) (W (Proc.devRef .tc main_arg15)) (W (Proc.devRef .tc main_v143)) := by
  unfold pH
  after_results_simp <;> rfl

/-- Operations 337 … 343 of @main, in order. -/
def pR2 : List (HloOp τ sig (Elt F)) :=
  [
    binary main_v249 main_v284 main_v285 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v214) (TRef.of (T := ⟨S50000x64, .f32⟩) main_call2_v0) (TRef.of (T := ⟨S50000x64, .f32⟩) main_v286) maximumf,
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v285) (TRef.of (T := ⟨S50000x64, .f32⟩) main_call3_v0) (TRef.of (T := ⟨S50000x64, .f32⟩) main_v287) maximumf ]

/-- The references the stretch writes. -/
def pR2_w : List (Ref sig .tc) :=
  [main_v285, main_call2_cst, main_call2_v0, main_v286, main_call3_cst, main_call3_v0, main_v287]

set_option maxRecDepth 8192 in
theorem pR2_writes : (pR2 (F := F)).Forall fun op => op.writes ⊆ ((pR2_w).map (Proc.devRef (τ := τ) .tc)).toFinset := by
  unfold pR2
  exact ⟨sub_of_mem (by decide), sub_of_mem (by decide), sub_of_mem (by decide), sub_of_mem (by decide), sub_of_mem (by decide), sub_of_mem (by decide), sub_of_mem (by decide)⟩

/-- A buffer the stretch does not write is carried across it. -/
theorem pR2_frame (W : Valuation τ sig (Elt F)) {r : Ref sig .tc} (hr : r ∉ pR2_w) :
    after pR2 W (Proc.devRef .tc r) = W (Proc.devRef .tc r) :=
  after_of_writes_sub pR2 W pR2_writes hr

/-- The stretch writes no argument. -/
theorem pR2_args : ∀ r ∈ argRefs, r ∉ pR2_w := by decide

set_option maxRecDepth 8192 in
/-- What the stretch leaves in `main_v286`, of what it finds in the buffers read for it. -/
def pR2_f_v286 (v214 : (⟨S50000x64, .f32⟩ : BufTy).Contents (Elt F)) :
    (⟨S50000x64, .f32⟩ : BufTy).Contents (Elt F) :=
  maximumf (v214) (broadcastInDim S50000x64 ![] bcast_S_S50000x64 (constant S_ .f32 0x00000000#32))

set_option maxRecDepth 8192 in
theorem pR2_main_v286 (W : Valuation τ sig (Elt F)) :
    after pR2 W (Proc.devRef .tc main_v286) = pR2_f_v286 (W (Proc.devRef .tc main_v214)) := by
  unfold pR2
  after_results_simp <;> (try simp only [TRef.toBuf, TRef.ofBuf, cast_eq, id]) <;> rfl

set_option maxRecDepth 8192 in
/-- What the stretch leaves in `main_v287`, of what it finds in the buffers read for it. -/
def pR2_f_v287 (v249 : (⟨S50000x64, .f32⟩ : BufTy).Contents (Elt F)) (v284 : (⟨S50000x64, .f32⟩ : BufTy).Contents (Elt F)) :
    (⟨S50000x64, .f32⟩ : BufTy).Contents (Elt F) :=
  maximumf (addf (v249) (v284)) (broadcastInDim S50000x64 ![] bcast_S_S50000x64 (constant S_ .f32 0x00000000#32))

set_option maxRecDepth 8192 in
theorem pR2_main_v287 (W : Valuation τ sig (Elt F)) :
    after pR2 W (Proc.devRef .tc main_v287) = pR2_f_v287 (W (Proc.devRef .tc main_v249)) (W (Proc.devRef .tc main_v284)) := by
  unfold pR2
  after_results_simp <;> (try simp only [TRef.toBuf, TRef.ofBuf, cast_eq, id]) <;> rfl

/-- Operations 344 … 351 of @main, in order. -/
def pZ : List (HloOp τ sig (Elt F)) :=
  [
    binary main_v286 main_arg8 main_v288 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg9 main_v289 (broadcastInDim S1x1 ![1] bcast_S1_S1x1_1 : (⟨S1, .f32⟩ : BufTy).Contents (Elt F) → (⟨S1x1, .f32⟩ : BufTy).Contents (Elt F)),
    unary main_v289 main_v290 (broadcastInDim S50000x1 ![0, 1] bcast_S1x1_S50000x1_0_1 : (⟨S1x1, .f32⟩ : BufTy).Contents (Elt F) → (⟨S50000x1, .f32⟩ : BufTy).Contents (Elt F)),
    binary main_v288 main_v290 main_v291 (addf : (⟨S50000x1, .f32⟩ : BufTy).Contents (Elt F) → (⟨S50000x1, .f32⟩ : BufTy).Contents (Elt F) → (⟨S50000x1, .f32⟩ : BufTy).Contents (Elt F)),
    binary main_v287 main_arg10 main_v292 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg11 main_v293 (broadcastInDim S1x1 ![1] bcast_S1_S1x1_1 : (⟨S1, .f32⟩ : BufTy).Contents (Elt F) → (⟨S1x1, .f32⟩ : BufTy).Contents (Elt F)),
    unary main_v293 main_v294 (broadcastInDim S50000x1 ![0, 1] bcast_S1x1_S50000x1_0_1 : (⟨S1x1, .f32⟩ : BufTy).Contents (Elt F) → (⟨S50000x1, .f32⟩ : BufTy).Contents (Elt F)),
    binary main_v292 main_v294 main_v295 (addf : (⟨S50000x1, .f32⟩ : BufTy).Contents (Elt F) → (⟨S50000x1, .f32⟩ : BufTy).Contents (Elt F) → (⟨S50000x1, .f32⟩ : BufTy).Contents (Elt F)) ]

/-- The references the stretch writes. -/
def pZ_w : List (Ref sig .tc) :=
  [main_v288, main_v289, main_v290, main_v291, main_v292, main_v293, main_v294, main_v295]

set_option maxRecDepth 8192 in
theorem pZ_writes : (pZ (F := F)).Forall fun op => op.writes ⊆ ((pZ_w).map (Proc.devRef (τ := τ) .tc)).toFinset := by
  unfold pZ
  exact ⟨sub_of_mem (by decide), sub_of_mem (by decide), sub_of_mem (by decide), sub_of_mem (by decide), sub_of_mem (by decide), sub_of_mem (by decide), sub_of_mem (by decide), sub_of_mem (by decide)⟩

/-- A buffer the stretch does not write is carried across it. -/
theorem pZ_frame (W : Valuation τ sig (Elt F)) {r : Ref sig .tc} (hr : r ∉ pZ_w) :
    after pZ W (Proc.devRef .tc r) = W (Proc.devRef .tc r) :=
  after_of_writes_sub pZ W pZ_writes hr

/-- The stretch writes no argument. -/
theorem pZ_args : ∀ r ∈ argRefs, r ∉ pZ_w := by decide

set_option maxRecDepth 8192 in
/-- What the stretch leaves in `main_v291`, of what it finds in the buffers read for it. -/
def pZ_f_v291 (a8 : (⟨S64x1, .f32⟩ : BufTy).Contents (Elt F)) (a9 : (⟨S1, .f32⟩ : BufTy).Contents (Elt F)) (v286 : (⟨S50000x64, .f32⟩ : BufTy).Contents (Elt F)) :
    (⟨S50000x1, .f32⟩ : BufTy).Contents (Elt F) :=
  addf (Host.dotGeneral dot_S50000x64_S64x1_S50000x1_1_0_0_1_n_n none (v286) (a8)) (broadcastInDim S50000x1 ![0, 1] bcast_S1x1_S50000x1_0_1 (broadcastInDim S1x1 ![1] bcast_S1_S1x1_1 (a9)))

set_option maxRecDepth 8192 in
theorem pZ_main_v291 (W : Valuation τ sig (Elt F)) :
    after pZ W (Proc.devRef .tc main_v291) = pZ_f_v291 (W (Proc.devRef .tc main_arg8)) (W (Proc.devRef .tc main_arg9)) (W (Proc.devRef .tc main_v286)) := by
  unfold pZ
  after_results_simp <;> rfl

set_option maxRecDepth 8192 in
/-- What the stretch leaves in `main_v295`, of what it finds in the buffers read for it. -/
def pZ_f_v295 (a10 : (⟨S64x1, .f32⟩ : BufTy).Contents (Elt F)) (a11 : (⟨S1, .f32⟩ : BufTy).Contents (Elt F)) (v287 : (⟨S50000x64, .f32⟩ : BufTy).Contents (Elt F)) :
    (⟨S50000x1, .f32⟩ : BufTy).Contents (Elt F) :=
  addf (Host.dotGeneral dot_S50000x64_S64x1_S50000x1_1_0_0_1_n_n none (v287) (a10)) (broadcastInDim S50000x1 ![0, 1] bcast_S1x1_S50000x1_0_1 (broadcastInDim S1x1 ![1] bcast_S1_S1x1_1 (a11)))

set_option maxRecDepth 8192 in
theorem pZ_main_v295 (W : Valuation τ sig (Elt F)) :
    after pZ W (Proc.devRef .tc main_v295) = pZ_f_v295 (W (Proc.devRef .tc main_arg10)) (W (Proc.devRef .tc main_arg11)) (W (Proc.devRef .tc main_v287)) := by
  unfold pZ
  after_results_simp <;> rfl

end Cert.ReferenceIdeal.HandRun

end
-- ==== Proof.RefRunChain.lean ====
/- The run of the reference's @main, read in consecutive stretches: the stretches chained.
   `pAll` is the stretches' concatenation; `Vk m c` what device `c` holds after the first k of them, run from the launch
   contents `m`; `t_vK m c` the term of the buffer a stretch hands on: the stretch's function at the terms of the buffers it
   reads (an argument's being its launch contents). At every stage each argument still holds its launch contents (no stretch
   writes it: `Vk_args`) and each buffer that a later stretch reads holds its term (`Vk_main_vK`: by the stretch's own reading
   where the stretch writes it, carried across the stretch where it does not). -/
import proofs.«122893_j59708635349187_2_alg».proof.Proof.RefRunL1a
import proofs.«122893_j59708635349187_2_alg».proof.Proof.RefRunL1b
import proofs.«122893_j59708635349187_2_alg».proof.Proof.RefRunL2a
import proofs.«122893_j59708635349187_2_alg».proof.Proof.RefRunL2b
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations as the stretches, in order. -/
def pAll : List (HloOp τ sig (Elt F)) :=
  pA ++ (pB ++ (pAB ++ (pC ++ (pD ++ (pR1 ++ (pE ++ (pF ++ (pEF ++ (pG ++ (pH ++ (pR2 ++ (pZ))))))))))))

/-! ## The stretches' functions composed: each handed-on buffer's term of the launch contents `m` on device `c` -/

/-- `main_v34`'s term. -/
def t_v34 (m : (ℓ : Loc nD τ sig) → Buf (Elt F) ℓ) (c : Dev nD) : (⟨S50000x64, .f32⟩ : BufTy).Contents (Elt F) :=
  pA_f_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg12))

/-- `main_v69`'s term. -/
def t_v69 (m : (ℓ : Loc nD τ sig) → Buf (Elt F) ℓ) (c : Dev nD) : (⟨S50000x64, .f32⟩ : BufTy).Contents (Elt F) :=
  pB_f_v69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14))

/-- `main_v70`'s term. -/
def t_v70 (m : (ℓ : Loc nD τ sig) → Buf (Elt F) ℓ) (c : Dev nD) : (⟨S50000x64, .f32⟩ : BufTy).Contents (Elt F) :=
  pAB_f_v70 (t_v34 m c) (t_v69 m c)

/-- `main_v105`'s term. -/
def t_v105 (m : (ℓ : Loc nD τ sig) → Buf (Elt F) ℓ) (c : Dev nD) : (⟨S50000x64, .f32⟩ : BufTy).Contents (Elt F) :=
  pC_f_v105 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13))

/-- `main_v140`'s term. -/
def t_v140 (m : (ℓ : Loc nD τ sig) → Buf (Elt F) ℓ) (c : Dev nD) : (⟨S50000x64, .f32⟩ : BufTy).Contents (Elt F) :=
  pD_f_v140 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15))

/-- `main_v142`'s term. -/
def t_v142 (m : (ℓ : Loc nD τ sig) → Buf (Elt F) ℓ) (c : Dev nD) : (⟨S50000x64, .f32⟩ : BufTy).Contents (Elt F) :=
  pR1_f_v142 (t_v70 m c)

/-- `main_v143`'s term. -/
def t_v143 (m : (ℓ : Loc nD τ sig) → Buf (Elt F) ℓ) (c : Dev nD) : (⟨S50000x64, .f32⟩ : BufTy).Contents (Elt F) :=
  pR1_f_v143 (t_v105 m c) (t_v140 m c)

/-- `main_v178`'s term. -/
def t_v178 (m : (ℓ : Loc nD τ sig) → Buf (Elt F) ℓ) (c : Dev nD) : (⟨S50000x64, .f32⟩ : BufTy).Contents (Elt F) :=
  pE_f_v178 (m ((c.tc : Thread nD τ).loc main_arg5)) (m ((c.tc : Thread nD τ).loc main_arg6)) (m ((c.tc : Thread nD τ).loc main_arg7)) (m ((c.tc : Thread nD τ).loc main_arg12)) (t_v142 m c)

/-- `main_v213`'s term. -/
def t_v213 (m : (ℓ : Loc nD τ sig) → Buf (Elt F) ℓ) (c : Dev nD) : (⟨S50000x64, .f32⟩ : BufTy).Contents (Elt F) :=
  pF_f_v213 (m ((c.tc : Thread nD τ).loc main_arg5)) (m ((c.tc : Thread nD τ).loc main_arg6)) (m ((c.tc : Thread nD τ).loc main_arg7)) (m ((c.tc : Thread nD τ).loc main_arg14)) (t_v142 m c) (t_v143 m c)

/-- `main_v214`'s term. -/
def t_v214 (m : (ℓ : Loc nD τ sig) → Buf (Elt F) ℓ) (c : Dev nD) : (⟨S50000x64, .f32⟩ : BufTy).Contents (Elt F) :=
  pEF_f_v214 (t_v178 m c) (t_v213 m c)

/-- `main_v249`'s term. -/
def t_v249 (m : (ℓ : Loc nD τ sig) → Buf (Elt F) ℓ) (c : Dev nD) : (⟨S50000x64, .f32⟩ : BufTy).Contents (Elt F) :=
  pG_f_v249 (m ((c.tc : Thread nD τ).loc main_arg5)) (m ((c.tc : Thread nD τ).loc main_arg6)) (m ((c.tc : Thread nD τ).loc main_arg7)) (m ((c.tc : Thread nD τ).loc main_arg13)) (t_v142 m c) (t_v143 m c)

/-- `main_v284`'s term. -/
def t_v284 (m : (ℓ : Loc nD τ sig) → Buf (Elt F) ℓ) (c : Dev nD) : (⟨S50000x64, .f32⟩ : BufTy).Contents (Elt F) :=
  pH_f_v284 (m ((c.tc : Thread nD τ).loc main_arg5)) (m ((c.tc : Thread nD τ).loc main_arg6)) (m ((c.tc : Thread nD τ).loc main_arg7)) (m ((c.tc : Thread nD τ).loc main_arg15)) (t_v143 m c)

/-- `main_v286`'s term. -/
def t_v286 (m : (ℓ : Loc nD τ sig) → Buf (Elt F) ℓ) (c : Dev nD) : (⟨S50000x64, .f32⟩ : BufTy).Contents (Elt F) :=
  pR2_f_v286 (t_v214 m c)

/-- `main_v287`'s term. -/
def t_v287 (m : (ℓ : Loc nD τ sig) → Buf (Elt F) ℓ) (c : Dev nD) : (⟨S50000x64, .f32⟩ : BufTy).Contents (Elt F) :=
  pR2_f_v287 (t_v249 m c) (t_v284 m c)

/-- `main_v291`'s term. -/
def t_v291 (m : (ℓ : Loc nD τ sig) → Buf (Elt F) ℓ) (c : Dev nD) : (⟨S50000x1, .f32⟩ : BufTy).Contents (Elt F) :=
  pZ_f_v291 (m ((c.tc : Thread nD τ).loc main_arg8)) (m ((c.tc : Thread nD τ).loc main_arg9)) (t_v286 m c)

/-- `main_v295`'s term. -/
def t_v295 (m : (ℓ : Loc nD τ sig) → Buf (Elt F) ℓ) (c : Dev nD) : (⟨S50000x1, .f32⟩ : BufTy).Contents (Elt F) :=
  pZ_f_v295 (m ((c.tc : Thread nD τ).loc main_arg10)) (m ((c.tc : Thread nD τ).loc main_arg11)) (t_v287 m c)

/-! ## The contents after each stretch, from the launch contents -/

/-- The device's contents after the first 1 stretch. -/
def V1 (m : (ℓ : Loc nD τ sig) → Buf (Elt F) ℓ) (c : Dev nD) : Valuation τ sig (Elt F) := after pA (launchContents m c)

/-- The device's contents after the first 2 stretches. -/
def V2 (m : (ℓ : Loc nD τ sig) → Buf (Elt F) ℓ) (c : Dev nD) : Valuation τ sig (Elt F) := after pB (V1 m c)

/-- The device's contents after the first 3 stretches. -/
def V3 (m : (ℓ : Loc nD τ sig) → Buf (Elt F) ℓ) (c : Dev nD) : Valuation τ sig (Elt F) := after pAB (V2 m c)

/-- The device's contents after the first 4 stretches. -/
def V4 (m : (ℓ : Loc nD τ sig) → Buf (Elt F) ℓ) (c : Dev nD) : Valuation τ sig (Elt F) := after pC (V3 m c)

/-- The device's contents after the first 5 stretches. -/
def V5 (m : (ℓ : Loc nD τ sig) → Buf (Elt F) ℓ) (c : Dev nD) : Valuation τ sig (Elt F) := after pD (V4 m c)

/-- The device's contents after the first 6 stretches. -/
def V6 (m : (ℓ : Loc nD τ sig) → Buf (Elt F) ℓ) (c : Dev nD) : Valuation τ sig (Elt F) := after pR1 (V5 m c)

/-- The device's contents after the first 7 stretches. -/
def V7 (m : (ℓ : Loc nD τ sig) → Buf (Elt F) ℓ) (c : Dev nD) : Valuation τ sig (Elt F) := after pE (V6 m c)

/-- The device's contents after the first 8 stretches. -/
def V8 (m : (ℓ : Loc nD τ sig) → Buf (Elt F) ℓ) (c : Dev nD) : Valuation τ sig (Elt F) := after pF (V7 m c)

/-- The device's contents after the first 9 stretches. -/
def V9 (m : (ℓ : Loc nD τ sig) → Buf (Elt F) ℓ) (c : Dev nD) : Valuation τ sig (Elt F) := after pEF (V8 m c)

/-- The device's contents after the first 10 stretches. -/
def V10 (m : (ℓ : Loc nD τ sig) → Buf (Elt F) ℓ) (c : Dev nD) : Valuation τ sig (Elt F) := after pG (V9 m c)

/-- The device's contents after the first 11 stretches. -/
def V11 (m : (ℓ : Loc nD τ sig) → Buf (Elt F) ℓ) (c : Dev nD) : Valuation τ sig (Elt F) := after pH (V10 m c)

/-- The device's contents after the first 12 stretches. -/
def V12 (m : (ℓ : Loc nD τ sig) → Buf (Elt F) ℓ) (c : Dev nD) : Valuation τ sig (Elt F) := after pR2 (V11 m c)

/-- The device's contents after the first 13 stretches. -/
def V13 (m : (ℓ : Loc nD τ sig) → Buf (Elt F) ℓ) (c : Dev nD) : Valuation τ sig (Elt F) := after pZ (V12 m c)

theorem after_pAll (m : (ℓ : Loc nD τ sig) → Buf (Elt F) ℓ) (c : Dev nD) : after pAll (launchContents m c) = V13 m c := by
  unfold pAll V13 V12 V11 V10 V9 V8 V7 V6 V5 V4 V3 V2 V1
  simp only [after_app]

/-! ## What each stage holds: the arguments untouched, each live buffer at its term -/

theorem V1_args (m : (ℓ : Loc nD τ sig) → Buf (Elt F) ℓ) (c : Dev nD) : ∀ r ∈ argRefs, V1 m c (Proc.devRef .tc r) = m ((c.tc : Thread nD τ).loc r) :=
  fun r hr => pA_frame _ (pA_args r hr)

theorem V1_main_v34 (m : (ℓ : Loc nD τ sig) → Buf (Elt F) ℓ) (c : Dev nD) : V1 m c (Proc.devRef .tc main_v34) = t_v34 m c := by
  unfold V1 t_v34
  rw [pA_main_v34]

theorem V2_args (m : (ℓ : Loc nD τ sig) → Buf (Elt F) ℓ) (c : Dev nD) : ∀ r ∈ argRefs, V2 m c (Proc.devRef .tc r) = m ((c.tc : Thread nD τ).loc r) :=
  fun r hr => (pB_frame _ (pB_args r hr)).trans (V1_args m c r hr)

theorem V2_main_v69 (m : (ℓ : Loc nD τ sig) → Buf (Elt F) ℓ) (c : Dev nD) : V2 m c (Proc.devRef .tc main_v69) = t_v69 m c := by
  unfold V2 t_v69
  rw [pB_main_v69, V1_args m c main_arg0 (by decide), V1_args m c main_arg1 (by decide), V1_args m c main_arg2 (by decide), V1_args m c main_arg3 (by decide), V1_args m c main_arg4 (by decide), V1_args m c main_arg14 (by decide)]

theorem V2_main_v34 (m : (ℓ : Loc nD τ sig) → Buf (Elt F) ℓ) (c : Dev nD) : V2 m c (Proc.devRef .tc main_v34) = t_v34 m c :=
  (pB_frame _ (by decide)).trans (V1_main_v34 m c)

theorem V3_args (m : (ℓ : Loc nD τ sig) → Buf (Elt F) ℓ) (c : Dev nD) : ∀ r ∈ argRefs, V3 m c (Proc.devRef .tc r) = m ((c.tc : Thread nD τ).loc r) :=
  fun r hr => (pAB_frame _ (pAB_args r hr)).trans (V2_args m c r hr)

theorem V3_main_v70 (m : (ℓ : Loc nD τ sig) → Buf (Elt F) ℓ) (c : Dev nD) : V3 m c (Proc.devRef .tc main_v70) = t_v70 m c := by
  unfold V3 t_v70
  rw [pAB_main_v70, V2_main_v34 m c, V2_main_v69 m c]

theorem V4_args (m : (ℓ : Loc nD τ sig) → Buf (Elt F) ℓ) (c : Dev nD) : ∀ r ∈ argRefs, V4 m c (Proc.devRef .tc r) = m ((c.tc : Thread nD τ).loc r) :=
  fun r hr => (pC_frame _ (pC_args r hr)).trans (V3_args m c r hr)

theorem V4_main_v105 (m : (ℓ : Loc nD τ sig) → Buf (Elt F) ℓ) (c : Dev nD) : V4 m c (Proc.devRef .tc main_v105) = t_v105 m c := by
  unfold V4 t_v105
  rw [pC_main_v105, V3_args m c main_arg0 (by decide), V3_args m c main_arg1 (by decide), V3_args m c main_arg2 (by decide), V3_args m c main_arg3 (by decide), V3_args m c main_arg4 (by decide), V3_args m c main_arg13 (by decide)]

theorem V4_main_v70 (m : (ℓ : Loc nD τ sig) → Buf (Elt F) ℓ) (c : Dev nD) : V4 m c (Proc.devRef .tc main_v70) = t_v70 m c :=
  (pC_frame _ (by decide)).trans (V3_main_v70 m c)

theorem V5_args (m : (ℓ : Loc nD τ sig) → Buf (Elt F) ℓ) (c : Dev nD) : ∀ r ∈ argRefs, V5 m c (Proc.devRef .tc r) = m ((c.tc : Thread nD τ).loc r) :=
  fun r hr => (pD_frame _ (pD_args r hr)).trans (V4_args m c r hr)

theorem V5_main_v140 (m : (ℓ : Loc nD τ sig) → Buf (Elt F) ℓ) (c : Dev nD) : V5 m c (Proc.devRef .tc main_v140) = t_v140 m c := by
  unfold V5 t_v140
  rw [pD_main_v140, V4_args m c main_arg1 (by decide), V4_args m c main_arg2 (by decide), V4_args m c main_arg3 (by decide), V4_args m c main_arg4 (by decide), V4_args m c main_arg15 (by decide)]

theorem V5_main_v70 (m : (ℓ : Loc nD τ sig) → Buf (Elt F) ℓ) (c : Dev nD) : V5 m c (Proc.devRef .tc main_v70) = t_v70 m c :=
  (pD_frame _ (by decide)).trans (V4_main_v70 m c)

theorem V5_main_v105 (m : (ℓ : Loc nD τ sig) → Buf (Elt F) ℓ) (c : Dev nD) : V5 m c (Proc.devRef .tc main_v105) = t_v105 m c :=
  (pD_frame _ (by decide)).trans (V4_main_v105 m c)

theorem V6_args (m : (ℓ : Loc nD τ sig) → Buf (Elt F) ℓ) (c : Dev nD) : ∀ r ∈ argRefs, V6 m c (Proc.devRef .tc r) = m ((c.tc : Thread nD τ).loc r) :=
  fun r hr => (pR1_frame _ (pR1_args r hr)).trans (V5_args m c r hr)

theorem V6_main_v142 (m : (ℓ : Loc nD τ sig) → Buf (Elt F) ℓ) (c : Dev nD) : V6 m c (Proc.devRef .tc main_v142) = t_v142 m c := by
  unfold V6 t_v142
  rw [pR1_main_v142, V5_main_v70 m c]

theorem V6_main_v143 (m : (ℓ : Loc nD τ sig) → Buf (Elt F) ℓ) (c : Dev nD) : V6 m c (Proc.devRef .tc main_v143) = t_v143 m c := by
  unfold V6 t_v143
  rw [pR1_main_v143, V5_main_v105 m c, V5_main_v140 m c]

theorem V7_args (m : (ℓ : Loc nD τ sig) → Buf (Elt F) ℓ) (c : Dev nD) : ∀ r ∈ argRefs, V7 m c (Proc.devRef .tc r) = m ((c.tc : Thread nD τ).loc r) :=
  fun r hr => (pE_frame _ (pE_args r hr)).trans (V6_args m c r hr)

theorem V7_main_v178 (m : (ℓ : Loc nD τ sig) → Buf (Elt F) ℓ) (c : Dev nD) : V7 m c (Proc.devRef .tc main_v178) = t_v178 m c := by
  unfold V7 t_v178
  rw [pE_main_v178, V6_args m c main_arg5 (by decide), V6_args m c main_arg6 (by decide), V6_args m c main_arg7 (by decide), V6_args m c main_arg12 (by decide), V6_main_v142 m c]

theorem V7_main_v142 (m : (ℓ : Loc nD τ sig) → Buf (Elt F) ℓ) (c : Dev nD) : V7 m c (Proc.devRef .tc main_v142) = t_v142 m c :=
  (pE_frame _ (by decide)).trans (V6_main_v142 m c)

theorem V7_main_v143 (m : (ℓ : Loc nD τ sig) → Buf (Elt F) ℓ) (c : Dev nD) : V7 m c (Proc.devRef .tc main_v143) = t_v143 m c :=
  (pE_frame _ (by decide)).trans (V6_main_v143 m c)

theorem V8_args (m : (ℓ : Loc nD τ sig) → Buf (Elt F) ℓ) (c : Dev nD) : ∀ r ∈ argRefs, V8 m c (Proc.devRef .tc r) = m ((c.tc : Thread nD τ).loc r) :=
  fun r hr => (pF_frame _ (pF_args r hr)).trans (V7_args m c r hr)

theorem V8_main_v213 (m : (ℓ : Loc nD τ sig) → Buf (Elt F) ℓ) (c : Dev nD) : V8 m c (Proc.devRef .tc main_v213) = t_v213 m c := by
  unfold V8 t_v213
  rw [pF_main_v213, V7_args m c main_arg5 (by decide), V7_args m c main_arg6 (by decide), V7_args m c main_arg7 (by decide), V7_args m c main_arg14 (by decide), V7_main_v142 m c, V7_main_v143 m c]

theorem V8_main_v142 (m : (ℓ : Loc nD τ sig) → Buf (Elt F) ℓ) (c : Dev nD) : V8 m c (Proc.devRef .tc main_v142) = t_v142 m c :=
  (pF_frame _ (by decide)).trans (V7_main_v142 m c)

theorem V8_main_v143 (m : (ℓ : Loc nD τ sig) → Buf (Elt F) ℓ) (c : Dev nD) : V8 m c (Proc.devRef .tc main_v143) = t_v143 m c :=
  (pF_frame _ (by decide)).trans (V7_main_v143 m c)

theorem V8_main_v178 (m : (ℓ : Loc nD τ sig) → Buf (Elt F) ℓ) (c : Dev nD) : V8 m c (Proc.devRef .tc main_v178) = t_v178 m c :=
  (pF_frame _ (by decide)).trans (V7_main_v178 m c)

theorem V9_args (m : (ℓ : Loc nD τ sig) → Buf (Elt F) ℓ) (c : Dev nD) : ∀ r ∈ argRefs, V9 m c (Proc.devRef .tc r) = m ((c.tc : Thread nD τ).loc r) :=
  fun r hr => (pEF_frame _ (pEF_args r hr)).trans (V8_args m c r hr)

theorem V9_main_v214 (m : (ℓ : Loc nD τ sig) → Buf (Elt F) ℓ) (c : Dev nD) : V9 m c (Proc.devRef .tc main_v214) = t_v214 m c := by
  unfold V9 t_v214
  rw [pEF_main_v214, V8_main_v178 m c, V8_main_v213 m c]

theorem V9_main_v142 (m : (ℓ : Loc nD τ sig) → Buf (Elt F) ℓ) (c : Dev nD) : V9 m c (Proc.devRef .tc main_v142) = t_v142 m c :=
  (pEF_frame _ (by decide)).trans (V8_main_v142 m c)

theorem V9_main_v143 (m : (ℓ : Loc nD τ sig) → Buf (Elt F) ℓ) (c : Dev nD) : V9 m c (Proc.devRef .tc main_v143) = t_v143 m c :=
  (pEF_frame _ (by decide)).trans (V8_main_v143 m c)

theorem V10_args (m : (ℓ : Loc nD τ sig) → Buf (Elt F) ℓ) (c : Dev nD) : ∀ r ∈ argRefs, V10 m c (Proc.devRef .tc r) = m ((c.tc : Thread nD τ).loc r) :=
  fun r hr => (pG_frame _ (pG_args r hr)).trans (V9_args m c r hr)

theorem V10_main_v249 (m : (ℓ : Loc nD τ sig) → Buf (Elt F) ℓ) (c : Dev nD) : V10 m c (Proc.devRef .tc main_v249) = t_v249 m c := by
  unfold V10 t_v249
  rw [pG_main_v249, V9_args m c main_arg5 (by decide), V9_args m c main_arg6 (by decide), V9_args m c main_arg7 (by decide), V9_args m c main_arg13 (by decide), V9_main_v142 m c, V9_main_v143 m c]

theorem V10_main_v143 (m : (ℓ : Loc nD τ sig) → Buf (Elt F) ℓ) (c : Dev nD) : V10 m c (Proc.devRef .tc main_v143) = t_v143 m c :=
  (pG_frame _ (by decide)).trans (V9_main_v143 m c)

theorem V10_main_v214 (m : (ℓ : Loc nD τ sig) → Buf (Elt F) ℓ) (c : Dev nD) : V10 m c (Proc.devRef .tc main_v214) = t_v214 m c :=
  (pG_frame _ (by decide)).trans (V9_main_v214 m c)

theorem V11_args (m : (ℓ : Loc nD τ sig) → Buf (Elt F) ℓ) (c : Dev nD) : ∀ r ∈ argRefs, V11 m c (Proc.devRef .tc r) = m ((c.tc : Thread nD τ).loc r) :=
  fun r hr => (pH_frame _ (pH_args r hr)).trans (V10_args m c r hr)

theorem V11_main_v284 (m : (ℓ : Loc nD τ sig) → Buf (Elt F) ℓ) (c : Dev nD) : V11 m c (Proc.devRef .tc main_v284) = t_v284 m c := by
  unfold V11 t_v284
  rw [pH_main_v284, V10_args m c main_arg5 (by decide), V10_args m c main_arg6 (by decide), V10_args m c main_arg7 (by decide), V10_args m c main_arg15 (by decide), V10_main_v143 m c]

theorem V11_main_v214 (m : (ℓ : Loc nD τ sig) → Buf (Elt F) ℓ) (c : Dev nD) : V11 m c (Proc.devRef .tc main_v214) = t_v214 m c :=
  (pH_frame _ (by decide)).trans (V10_main_v214 m c)

theorem V11_main_v249 (m : (ℓ : Loc nD τ sig) → Buf (Elt F) ℓ) (c : Dev nD) : V11 m c (Proc.devRef .tc main_v249) = t_v249 m c :=
  (pH_frame _ (by decide)).trans (V10_main_v249 m c)

theorem V12_args (m : (ℓ : Loc nD τ sig) → Buf (Elt F) ℓ) (c : Dev nD) : ∀ r ∈ argRefs, V12 m c (Proc.devRef .tc r) = m ((c.tc : Thread nD τ).loc r) :=
  fun r hr => (pR2_frame _ (pR2_args r hr)).trans (V11_args m c r hr)

theorem V12_main_v286 (m : (ℓ : Loc nD τ sig) → Buf (Elt F) ℓ) (c : Dev nD) : V12 m c (Proc.devRef .tc main_v286) = t_v286 m c := by
  unfold V12 t_v286
  rw [pR2_main_v286, V11_main_v214 m c]

theorem V12_main_v287 (m : (ℓ : Loc nD τ sig) → Buf (Elt F) ℓ) (c : Dev nD) : V12 m c (Proc.devRef .tc main_v287) = t_v287 m c := by
  unfold V12 t_v287
  rw [pR2_main_v287, V11_main_v249 m c, V11_main_v284 m c]

theorem V13_args (m : (ℓ : Loc nD τ sig) → Buf (Elt F) ℓ) (c : Dev nD) : ∀ r ∈ argRefs, V13 m c (Proc.devRef .tc r) = m ((c.tc : Thread nD τ).loc r) :=
  fun r hr => (pZ_frame _ (pZ_args r hr)).trans (V12_args m c r hr)

theorem V13_main_v291 (m : (ℓ : Loc nD τ sig) → Buf (Elt F) ℓ) (c : Dev nD) : V13 m c (Proc.devRef .tc main_v291) = t_v291 m c := by
  unfold V13 t_v291
  rw [pZ_main_v291, V12_args m c main_arg8 (by decide), V12_args m c main_arg9 (by decide), V12_main_v286 m c]

theorem V13_main_v295 (m : (ℓ : Loc nD τ sig) → Buf (Elt F) ℓ) (c : Dev nD) : V13 m c (Proc.devRef .tc main_v295) = t_v295 m c := by
  unfold V13 t_v295
  rw [pZ_main_v295, V12_args m c main_arg10 (by decide), V12_args m c main_arg11 (by decide), V12_main_v287 m c]

end Cert.ReferenceIdeal.HandRun

end
-- ==== Proof.RefRes.lean ====
/-
  The reference's two result terms are its two outputs as the named composition: the mean aggregation, the SAGE term,
  the rectified layer and the read-out, composed twice — the same operations in the same order.
-/
import proofs.«122893_j59708635349187_2_alg».proof.Proof.RefRun
import proofs.«122893_j59708635349187_2_alg».proof.Proof.RefSpec

noncomputable section

namespace Cert.ReferenceIdeal.RefRes

open Cert.ReferenceIdeal Cert.ReferenceIdeal.Gen Idealize.ShloMosaic Idealize.ShloMosaic.TcCoe Idealize.SL.Sem
open Cert.ReferenceIdeal.RefSpec

variable {F : FTy → Type} [FloatOps F]

set_option maxRecDepth 8192 in
/-- The shop nodes' result term. -/
theorem res0_eq (m : (ℓ : Loc nD τ sig) → Buf (Elt F) ℓ) (c : Dev nD) :
    Cert.ReferenceIdeal.HandRun.res_main_v291 m c = outShop (hs1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg12)) (m ((c.tc : Thread nD τ).loc main_arg14))) (hp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) (m ((c.tc : Thread nD τ).loc main_arg15))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg14)) := rfl

set_option maxRecDepth 8192 in
/-- The public nodes' result term. -/
theorem res1_eq (m : (ℓ : Loc nD τ sig) → Buf (Elt F) ℓ) (c : Dev nD) :
    Cert.ReferenceIdeal.HandRun.res_main_v295 m c = outPub (hs1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg12)) (m ((c.tc : Thread nD τ).loc main_arg14))) (hp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) (m ((c.tc : Thread nD τ).loc main_arg15))) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg13)) (m ((c.tc : Thread nD τ).loc main_arg15)) := rfl

end Cert.ReferenceIdeal.RefRes

end
-- ==== Proof.PreReal.lean ====
/-
  The precondition read back: every float input is a real number.

  The precondition is the conjunction, over the twelve float arguments, of "every entry x satisfies |x| < +∞",
  each stated as an all-reduction by `and` of the entrywise comparison of |x| against the f32 pattern of +∞.
  On the extended reals |x| = max x (−x) is ⊤ at both infinities and a real number at a real one, so
  |x| < ⊤ holds exactly when x is a real number.
-/
import proofs.«122893_j59708635349187_2_alg».proof.Pre_finite_inputs
import proofs.«122893_j59708635349187_2_alg».proof.Proof.Algebra
import Idealize.ShloMosaic.Lib.ReduceAll

noncomputable section

namespace Cert.PreReal

open Idealize.ShloMosaic Cert.Pre_finite_inputs Cert.Sage

/-- The result shape of the all-reductions has one index. -/
instance : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) is below +∞ is a real number: at ⊥ and at ⊤ the maximum is
    ⊤, which is not below ⊤. -/
theorem isR_of_abs_lt (x : EReal) (h : Ideal.cmp .olt (max x (-x)) (Ideal.ofBits .f32 0x7F800000#32) = 1#1) : IsR x := by
  rw [ofBits_inf] at h
  induction x using EReal.rec with
  | bot => simp [Ideal.cmp] at h
  | coe r => exact ⟨r, rfl⟩
  | top => simp [Ideal.cmp] at h

/-- One conjunct of the precondition, at any shape: if the all-reduction by `and` of |x| < +∞ is 1, then the
    comparison is 1 at every index, so every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) : ∀ i, IsR (x i) := by
  intro i
  exact isR_of_abs_lt (x i) (Host.reduce_andi_all _ _ hr hu j e i)

/-- The precondition, read at its one index, is a left-nested `and` of twelve all-reductions, one per float
    argument; an `and` of two one-bit words is 1 exactly when both are, so each all-reduction is 1. -/
theorem real_inputs [Cert.Pre_finite_inputs.Facts] (x0 x1 : FVec Ideal Cert.Pre_finite_inputs.S50000x11 .f32)
    (x2 : FVec Ideal Cert.Pre_finite_inputs.S4x11x64 .f32) (x3 : FVec Ideal Cert.Pre_finite_inputs.S4x64 .f32)
    (x4 : FVec Ideal Cert.Pre_finite_inputs.S4x11x64 .f32) (x5 : FVec Ideal Cert.Pre_finite_inputs.S4x64x64 .f32)
    (x6 : FVec Ideal Cert.Pre_finite_inputs.S4x64 .f32) (x7 : FVec Ideal Cert.Pre_finite_inputs.S4x64x64 .f32)
    (x8 : FVec Ideal Cert.Pre_finite_inputs.S64x1 .f32) (x9 : FVec Ideal Cert.Pre_finite_inputs.S1 .f32)
    (x10 : FVec Ideal Cert.Pre_finite_inputs.S64x1 .f32) (x11 : FVec Ideal Cert.Pre_finite_inputs.S1 .f32)
    (x12 x13 x14 x15 : IVec Cert.Pre_finite_inputs.S2x1600000 32)
    (h : Cert.Pre_finite_inputs.fn (F := Ideal) x0 x1 x2 x3 x4 x5 x6 x7 x8 x9 x10 x11 x12 x13 x14 x15 = fun _ => 1#1) :
    (∀ i, Cert.Sage.IsR (x0 i)) ∧ (∀ i, Cert.Sage.IsR (x1 i)) ∧ (∀ i, Cert.Sage.IsR (x2 i)) ∧ (∀ i, Cert.Sage.IsR (x3 i)) ∧
    (∀ i, Cert.Sage.IsR (x4 i)) ∧ (∀ i, Cert.Sage.IsR (x5 i)) ∧ (∀ i, Cert.Sage.IsR (x6 i)) ∧ (∀ i, Cert.Sage.IsR (x7 i)) ∧
    (∀ i, Cert.Sage.IsR (x8 i)) ∧ (∀ i, Cert.Sage.IsR (x9 i)) ∧ (∀ i, Cert.Sage.IsR (x10 i)) ∧ (∀ i, Cert.Sage.IsR (x11 i)) := by
  have h0 := congrFun h ValueIdx.ix0
  dsimp only [fn, fn_part1, fn_part2, fn_part3, andi] at h0
  simp only [IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6, real_of_all x7 _ _ _ _ e7,
    real_of_all x8 _ _ _ _ e8, real_of_all x9 _ _ _ _ e9, real_of_all x10 _ _ _ _ e10, real_of_all x11 _ _ _ _ e11⟩

end Cert.PreReal

end
-- ==== Proof.lean ====
/-
  The certificate of the two-layer heterogeneous SAGE network: the Pallas kernel program against its jnp reference.

  Both programs compute, for each of the two node types, two SAGE layers and a linear read-out. The kernel program
  computes the in-degree reciprocals once, multiplies the scatter-added sums by them, folds the two right weight
  tables and the two biases arriving at a node type into one, and runs the dense part of each layer in a row-tiled
  kernel; the reference divides by the in-degree and forms the two SAGE terms separately. At the extended reals the
  two agree: dividing by c ≥ 1 is multiplying by 1 / c; a tile's matrix product is the rows of the whole product;
  and a row of REAL features times the sum of two REAL tables is the sum of the two products — which is where the
  finiteness of the inputs is used, for the inputs in the first layer and for the first layer's activations (real
  because the inputs are) in the second.

  The three frames are the generated frame certificates of the two kernel programs and the reference's run; the
  idealization rewrote nothing; the value claim reads the kernel program's two result buffers off its run through
  the four regions' values and the host stretches between them, and the reference's off its run.
-/
import proofs.«122893_j59708635349187_2_alg».proof.Defs
import proofs.«122893_j59708635349187_2_alg».proof.Proof.Gen.Kernel
import proofs.«122893_j59708635349187_2_alg».proof.Proof.Gen.Kernel.Frame
import proofs.«122893_j59708635349187_2_alg».proof.Proof.Gen.KernelIdeal
import proofs.«122893_j59708635349187_2_alg».proof.Proof.Gen.KernelIdeal.Frame
import proofs.«122893_j59708635349187_2_alg».proof.Proof.Gen.ReferenceIdeal
import proofs.«122893_j59708635349187_2_alg».proof.Proof.Gen.Pre_finite_inputs
import proofs.«122893_j59708635349187_2_alg».proof.Proof.KRun
import proofs.«122893_j59708635349187_2_alg».proof.Proof.FinalOut
import proofs.«122893_j59708635349187_2_alg».proof.Proof.RefRun
import proofs.«122893_j59708635349187_2_alg».proof.Proof.RefRes
import proofs.«122893_j59708635349187_2_alg».proof.Proof.PreReal
import Idealize.ShloMosaic.Adequacy
import Idealize.ShloMosaic.Init

noncomputable section

namespace Cert.Proof

open Idealize.ShloMosaic Idealize.ShloMosaic.TcCoe Idealize.SL.Sem
open Cert.ReferenceIdeal.RefSpec

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- Both programs end with the reference's two outputs of the kernel program's arguments in their result buffers. -/
theorem algebraic : Cert.algebraic_KernelIdeal_ReferenceIdeal := by
  intro m ρ m' ρ' hpre hagree
  have hreal := fun c => Cert.PreReal.real_inputs _ _ _ _ _ _ _ _ _ _ _ _ _ _ _ _ (hpre c)
  refine ⟨fun c => outShop (F := Ideal) (hs1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg12)) (m ((c.tc : Thread Cert.KernelIdeal.nD Cert.KernelIdeal.τ).loc Cert.KernelIdeal.main_arg14))) (hp1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg13)) (m ((c.tc : Thread Cert.KernelIdeal.nD Cert.KernelIdeal.τ).loc Cert.KernelIdeal.main_arg15))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg14)),
    fun c => outPub (F := Ideal) (hs1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg12)) (m ((c.tc : Thread Cert.KernelIdeal.nD Cert.KernelIdeal.τ).loc Cert.KernelIdeal.main_arg14))) (hp1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg13)) (m ((c.tc : Thread Cert.KernelIdeal.nD Cert.KernelIdeal.τ).loc Cert.KernelIdeal.main_arg15))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.KRun.run_named (F := Ideal) m ρ)
    obtain ⟨h240, h245, hargs⟩ := h c
    obtain ⟨r0, r1, r2, r3, r4, -, -, r7, -, -, -, -⟩ := hreal c
    exact ⟨h240.trans (Cert.Final.out_shop m ρ c r0 r1 r2 r3 r4 r7), h245.trans (Cert.Final.out_pub m ρ c r0 r1 r2 r3 r4 r7), hargs⟩
  · refine (θ_run Cert.ReferenceIdeal.defs _ _).mono (fun r h c => ?_) (Cert.ReferenceIdeal.HandRun.run (F := Ideal) m' ρ')
    obtain ⟨h291, h295, hargs⟩ := h c
    obtain ⟨e0, e1, e2, e3, e4, e5, e6, e7, e8, e9, e10, e11, e12, e13, e14, e15⟩ := hagree c
    refine ⟨h291.trans ?_, h295.trans ?_, hargs⟩
    · rw [Cert.ReferenceIdeal.RefRes.res0_eq, e0, e1, e2, e3, e4, e5, e6, e7, e8, e9, e12, e13, e14, e15]
    · rw [Cert.ReferenceIdeal.RefRes.res1_eq, e0, e1, e2, e3, e4, e5, e6, e7, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
